-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S131072x512 : Shape := ⟨2, ![131072, 512]⟩
abbrev S512x512 : Shape := ⟨2, ![512, 512]⟩
abbrev S512 : Shape := ⟨1, ![512]⟩
abbrev S8x256x8192 : Shape := ⟨3, ![8, 256, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S131072x512 : S_.BroadcastsInDim S131072x512 (![] : Fin 0 → Fin S131072x512.rank)
  reducesTo_S131072x512_S_d0_1 : S131072x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S8x256x8192 : S_.BroadcastsInDim S8x256x8192 (![] : Fin 0 → Fin S8x256x8192.rank)
  reducesTo_S8x256x8192_S_d0_1_2 : S8x256x8192.ReducesTo [0, 1, 2] S_

variable [Facts]

def fn_part4 {F : FTy → Type} [FloatOps F] (main_arg14 : FVec F S512 .f32) (main_arg15 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  main_v78

def fn_part3 {F : FTy → Type} [FloatOps F] (main_arg11 : FVec F S8x256x8192 .f32) (main_arg12 : FVec F S512 .f32) (main_arg13 : FVec F S512 .f32) (main_arg14 : FVec F S512 .f32) (main_arg15 : FVec F S512 .f32) (main_v48 : IVec S_ 1) (main_v49 : FVec F S8x256x8192 .f32) (main_v50 : FVec F S8x256x8192 .f32) : IVec S_ 1 :=
  let main_v51 : IVec S8x256x8192 1 := cmpf .olt main_v49 main_v50
  let main_c_19 : IVec S_ 1 := constantI S_ 1 1#1
  let main_v52 : IVec S_ 1 := (fun x v => Host.reduce IntOp.andi x v reducesTo_S8x256x8192_S_d0_1_2 h_S_) main_v51 main_c_19
  let main_v53 : IVec S_ 1 := andi main_v48 main_v52
  let main_v54 : FVec F S8x256x8192 .f32 := Host.absf main_arg11
  let main_cst_20 : FVec F S_ .f32 := constant S_ .f32 0x7F800000#32
  let main_v55 : FVec F S8x256x8192 .f32 := broadcastInDim S8x256x8192 ![] bcast_S_S8x256x8192 main_cst_20
  let main_v56 : IVec S8x256x8192 1 := cmpf .olt main_v54 main_v55
  let main_c_21 : IVec S_ 1 := constantI S_ 1 1#1
  let main_v57 : IVec S_ 1 := (fun x v => Host.reduce IntOp.andi x v reducesTo_S8x256x8192_S_d0_1_2 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_v63 main_v67

def fn_part2 {F : FTy → Type} [FloatOps F] (main_arg7 : FVec F S512 .f32) (main_arg8 : FVec F S512x512 .f32) (main_arg9 : FVec F S512 .f32) (main_arg10 : FVec F S8x256x8192 .f32) (main_arg11 : FVec F S8x256x8192 .f32) (main_arg12 : FVec F S512 .f32) (main_arg13 : FVec F S512 .f32) (main_arg14 : FVec F S512 .f32) (main_arg15 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S8x256x8192 .f32 := Host.absf main_arg10
  let main_cst_18 : FVec F S_ .f32 := constant S_ .f32 0x7F800000#32
  let main_v50 : FVec F S8x256x8192 .f32 := broadcastInDim S8x256x8192 ![] bcast_S_S8x256x8192 main_cst_18
  fn_part3 (F := F) main_arg11 main_arg12 main_arg13 main_arg14 main_arg15 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S8x256x8192 .f32) (main_arg11 : FVec F S8x256x8192 .f32) (main_arg12 : FVec F S512 .f32) (main_arg13 : FVec F S512 .f32) (main_arg14 : FVec F S512 .f32) (main_arg15 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S8192x512 .f32) (main_arg1 : FVec F S131072x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S8x256x8192 .f32) (main_arg11 : FVec F S8x256x8192 .f32) (main_arg12 : FVec F S512 .f32) (main_arg13 : FVec F S512 .f32) (main_arg14 : FVec F S512 .f32) (main_arg15 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8192x512 : Shape := ⟨2, ![8192, 512]⟩
abbrev S131072x512 : Shape := ⟨2, ![131072, 512]⟩
abbrev S512x512 : Shape := ⟨2, ![512, 512]⟩
abbrev S512 : Shape := ⟨1, ![512]⟩
abbrev S8x256x8192 : Shape := ⟨3, ![8, 256, 8192]⟩
abbrev S1536x512 : Shape := ⟨2, ![1536, 512]⟩
abbrev S1536 : Shape := ⟨1, ![1536]⟩
abbrev S512x1536 : Shape := ⟨2, ![512, 1536]⟩
abbrev S1x1536 : Shape := ⟨2, ![1, 1536]⟩
abbrev S8192x1536 : Shape := ⟨2, ![8192, 1536]⟩
abbrev S8x256x64 : Shape := ⟨3, ![8, 256, 64]⟩
abbrev S4x256x512 : Shape := ⟨3, ![4, 256, 512]⟩
abbrev S512x256 : Shape := ⟨2, ![512, 256]⟩
abbrev S4x256x64 : Shape := ⟨3, ![4, 256, 64]⟩
abbrev S1x256x512 : Shape := ⟨3, ![1, 256, 512]⟩
abbrev S256x512 : Shape := ⟨2, ![256, 512]⟩
abbrev S512x64 : Shape := ⟨2, ![512, 64]⟩
abbrev S1x256x64 : Shape := ⟨3, ![1, 256, 64]⟩
abbrev S256x64 : Shape := ⟨2, ![256, 64]⟩
abbrev S1x512 : Shape := ⟨2, ![1, 512]⟩
abbrev S1024x512 : Shape := ⟨2, ![1024, 512]⟩
abbrev S1024x64 : Shape := ⟨2, ![1024, 64]⟩
abbrev S1024x256 : Shape := ⟨2, ![1024, 256]⟩
abbrev S1024 : Shape := ⟨1, ![1024]⟩
abbrev S1024x1 : Shape := ⟨2, ![1024, 1]⟩
abbrev S2048x512 : Shape := ⟨2, ![2048, 512]⟩
abbrev S2048 : Shape := ⟨1, ![2048]⟩
abbrev S2048x1 : Shape := ⟨2, ![2048, 1]⟩

abbrev nBuf : Space → Nat
  | .hbm => 31
  | .vmem => 36
  | .smem => 0
  | _ => 0

abbrev bufTy : (tb : Table) → Fin (tcTables nBuf tb) → BufTy
  | .hbm, ⟨0, _⟩ => ⟨S8192x512, .f32⟩
  | .hbm, ⟨1, _⟩ => ⟨S131072x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S8x256x8192, .f32⟩
  | .hbm, ⟨11, _⟩ => ⟨S8x256x8192, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S1536x512, .f32⟩
  | .hbm, ⟨17, _⟩ => ⟨S1536, .f32⟩
  | .hbm, ⟨18, _⟩ => ⟨S512x1536, .f32⟩
  | .hbm, ⟨19, _⟩ => ⟨S1x1536, .f32⟩
  | .hbm, ⟨20, _⟩ => ⟨S8192x1536, .bf16⟩
  | .hbm, ⟨21, _⟩ => ⟨S8x256x64, .f32⟩
  | .hbm, ⟨22, _⟩ => ⟨S8x256x64, .f32⟩
  | .hbm, ⟨23, _⟩ => ⟨S1x512, .f32⟩
  | .hbm, ⟨24, _⟩ => ⟨S1x512, .f32⟩
  | .hbm, ⟨25, _⟩ => ⟨S8192x512, .f32⟩
  | .hbm, ⟨26, _⟩ => ⟨S512x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S131072x512, .f32⟩
  | .local _ .vmem, ⟨0, _⟩ => ⟨S512x512, .f32⟩
  | .local _ .vmem, ⟨1, _⟩ => ⟨S512x512, .f32⟩
  | .local _ .vmem, ⟨2, _⟩ => ⟨S512x1536, .f32⟩
  | .local _ .vmem, ⟨3, _⟩ => ⟨S1x1536, .f32⟩
  | .local _ .vmem, ⟨4, _⟩ => ⟨S512x1536, .bf16⟩
  | .local _ .vmem, ⟨5, _⟩ => ⟨S512x1536, .bf16⟩
  | .local _ .vmem, ⟨6, _⟩ => ⟨S4x256x512, .f32⟩
  | .local _ .vmem, ⟨7, _⟩ => ⟨S4x256x512, .f32⟩
  | .local _ .vmem, ⟨8, _⟩ => ⟨S4x256x512, .f32⟩
  | .local _ .vmem, ⟨9, _⟩ => ⟨S4x256x512, .f32⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S4x256x64, .f32⟩
  | .local _ .vmem, ⟨15, _⟩ => ⟨S4x256x64, .f32⟩
  | .local _ .vmem, ⟨16, _⟩ => ⟨S4x256x64, .f32⟩
  | .local _ .vmem, ⟨17, _⟩ => ⟨S4x256x64, .f32⟩
  | .local _ .vmem, ⟨18, _⟩ => ⟨S1024x512, .bf16⟩
  | .local _ .vmem, ⟨19, _⟩ => ⟨S1024x512, .bf16⟩
  | .local _ .vmem, ⟨20, _⟩ => ⟨S8x256x64, .f32⟩
  | .local _ .vmem, ⟨21, _⟩ => ⟨S8x256x64, .f32⟩
  | .local _ .vmem, ⟨22, _⟩ => ⟨S1024x512, .f32⟩
  | .local _ .vmem, ⟨23, _⟩ => ⟨S1024x512, .f32⟩
  | .local _ .vmem, ⟨24, _⟩ => ⟨S1x512, .f32⟩
  | .local _ .vmem, ⟨25, _⟩ => ⟨S1x512, .f32⟩
  | .local _ .vmem, ⟨26, _⟩ => ⟨S1024x512, .f32⟩
  | .local _ .vmem, ⟨27, _⟩ => ⟨S1024x512, .f32⟩
  | .local _ .vmem, ⟨28, _⟩ => ⟨S2048x512, .f32⟩
  | .local _ .vmem, ⟨29, _⟩ => ⟨S2048x512, .f32⟩
  | .local _ .vmem, ⟨30, _⟩ => ⟨S512x512, .f32⟩
  | .local _ .vmem, ⟨31, _⟩ => ⟨S1x512, .f32⟩
  | .local _ .vmem, ⟨32, _⟩ => ⟨S1x512, .f32⟩
  | .local _ .vmem, ⟨33, _⟩ => ⟨S1x512, .f32⟩
  | .local _ .vmem, ⟨34, _⟩ => ⟨S2048x512, .f32⟩
  | .local _ .vmem, ⟨35, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc1_transform_3 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S4x256x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x256x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S8x256x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  concatenates_S512x512_S512x512_S512x512_S1536x512_d0 : Shape.Concatenates [S512x512, S512x512, S512x512] S1536x512 0
  concatenates_S512_S512_S512_S1536_d0 : Shape.Concatenates [S512, S512, S512] S1536 0
  transposes_S1536x512_S512x1536_1_0 : S1536x512.Transposes [1, 0] S512x1536
  shapeCasts_S1536_S1x1536 : S1536.ShapeCasts S1x1536
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S512x1536 : S1x1536.Broadcasts S512x1536
  packedbf16_S512x1536_S512x1536_0_0 : (Rect.unit (s := S512x1536) ![0, 0] S512x1536.size inb_S512x1536_S512x1536_0_0).PackedRows (EltTy.packing .bf16)
  inb_S4x256x64_S4x256x64_0_0_0 : ∀ a, (![0, 0, 0] : Fin 3 → Nat) a + S4x256x64.size a ≤ S4x256x64.size a
  h_S4x256x64 : 0 < S4x256x64.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4x256x512_S1x256x512_0_0_0 : ∀ a, (![0, 0, 0] : Fin 3 → Nat) a + S1x256x512.size a ≤ S4x256x512.size a
  h_S1x256x512 : 0 < S1x256x512.numel
  shapeCasts_S1x256x512_S256x512 : S1x256x512.ShapeCasts S256x512
  slices_S512x256_o0_0_S512x64 : S512x256.Slices ![0, 0] S512x64
  inb_S4x256x64_S1x256x64_0_0_0 : ∀ a, (![0, 0, 0] : Fin 3 → Nat) a + S1x256x64.size a ≤ S4x256x64.size a
  h_S1x256x64 : 0 < S1x256x64.numel
  shapeCasts_S1x256x64_S256x64 : S1x256x64.ShapeCasts S256x64
  shapeCasts_S256x64_S1x256x64 : S256x64.ShapeCasts S1x256x64
  inb_S4x256x512_S1x256x512_1_0_0 : ∀ a, (![1, 0, 0] : Fin 3 → Nat) a + S1x256x512.size a ≤ S4x256x512.size a
  slices_S512x256_o0_64_S512x64 : S512x256.Slices ![0, 64] S512x64
  inb_S4x256x64_S1x256x64_1_0_0 : ∀ a, (![1, 0, 0] : Fin 3 → Nat) a + S1x256x64.size a ≤ S4x256x64.size a
  inb_S4x256x512_S1x256x512_2_0_0 : ∀ a, (![2, 0, 0] : Fin 3 → Nat) a + S1x256x512.size a ≤ S4x256x512.size a
  slices_S512x256_o0_128_S512x64 : S512x256.Slices ![0, 128] S512x64
  inb_S4x256x64_S1x256x64_2_0_0 : ∀ a, (![2, 0, 0] : Fin 3 → Nat) a + S1x256x64.size a ≤ S4x256x64.size a
  inb_S4x256x512_S1x256x512_3_0_0 : ∀ a, (![3, 0, 0] : Fin 3 → Nat) a + S1x256x512.size a ≤ S4x256x512.size a
  slices_S512x256_o0_192_S512x64 : S512x256.Slices ![0, 192] S512x64
  inb_S4x256x64_S1x256x64_3_0_0 : ∀ a, (![3, 0, 0] : Fin 3 → Nat) a + S1x256x64.size a ≤ S4x256x64.size a
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S8x256x64_S8x256x64_0_0_0 : ∀ a, (![0, 0, 0] : Fin 3 → Nat) a + S8x256x64.size a ≤ S8x256x64.size a
  h_S8x256x64 : 0 < S8x256x64.numel
  shapeCasts_S8x256x64_S8x256x64 : S8x256x64.ShapeCasts S8x256x64
  slices_S1024x512_o0_0_S1024x64 : S1024x512.Slices ![0, 0] S1024x64
  slices_S8x256x64_o0_0_0_S1x256x64 : S8x256x64.Slices ![0, 0, 0] S1x256x64
  reduces_S1024x256_S1024 : S1024x256.Reduces [1] S1024
  shapeCasts_S1024_S1024x1 : S1024.ShapeCasts S1024x1
  broadcasts_S1024x1_S1024x256 : S1024x1.Broadcasts S1024x256
  slices_S1024x512_o0_64_S1024x64 : S1024x512.Slices ![0, 64] S1024x64
  slices_S8x256x64_o1_0_0_S1x256x64 : S8x256x64.Slices ![1, 0, 0] S1x256x64
  slices_S1024x512_o0_128_S1024x64 : S1024x512.Slices ![0, 128] S1024x64
  slices_S8x256x64_o2_0_0_S1x256x64 : S8x256x64.Slices ![2, 0, 0] S1x256x64
  slices_S1024x512_o0_192_S1024x64 : S1024x512.Slices ![0, 192] S1024x64
  slices_S8x256x64_o3_0_0_S1x256x64 : S8x256x64.Slices ![3, 0, 0] S1x256x64
  slices_S1024x512_o0_256_S1024x64 : S1024x512.Slices ![0, 256] S1024x64
  slices_S8x256x64_o4_0_0_S1x256x64 : S8x256x64.Slices ![4, 0, 0] S1x256x64
  slices_S1024x512_o0_320_S1024x64 : S1024x512.Slices ![0, 320] S1024x64
  slices_S8x256x64_o5_0_0_S1x256x64 : S8x256x64.Slices ![5, 0, 0] S1x256x64
  slices_S1024x512_o0_384_S1024x64 : S1024x512.Slices ![0, 384] S1024x64
  slices_S8x256x64_o6_0_0_S1x256x64 : S8x256x64.Slices ![6, 0, 0] S1x256x64
  slices_S1024x512_o0_448_S1024x64 : S1024x512.Slices ![0, 448] S1024x64
  slices_S8x256x64_o7_0_0_S1x256x64 : S8x256x64.Slices ![7, 0, 0] S1x256x64
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  reduces_S1024x512_S1024 : S1024x512.Reduces [1] S1024
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  transposes_S512x512_S512x512_1_0 : S512x512.Transposes [1, 0] S512x512
  inb_S2048x512_S2048x512_0_0 : ∀ a, (![0, 0] : Fin 2 → Nat) a + S2048x512.size a ≤ S2048x512.size a
  h_S2048x512 : 0 < S2048x512.numel
  shapeCasts_S512x512_S512x512 : S512x512.ShapeCasts S512x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  dot_S512x512_S512x1536_S512x1536_1_0_0_1_n_n_wf : DotDims.WF S512x512 S512x1536 S512x1536 [1] [0] [0] [1] [] []
  dot_S256x512_S512x64_S256x64_1_0_0_1_n_n_wf : DotDims.WF S256x512 S512x64 S256x64 [1] [0] [0] [1] [] []
  dot_S1024x64_S256x64_S1024x256_1_1_0_0_n_n_wf : DotDims.WF S1024x64 S256x64 S1024x256 [1] [1] [0] [0] [] []
  dot_S1024x256_S256x64_S1024x64_1_0_0_1_n_n_wf : DotDims.WF S1024x256 S256x64 S1024x64 [1] [0] [0] [1] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S8192x1536.size a
  hwx0_3 : ∀ i : grid0.Coords, EltTy.bits .bf16 = 32 ∨ (Rect.block (s := S8192x1536) S512x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x256x512.size a ≤ S8x256x8192.size a
  hwx1_0 : ∀ i : grid1.Coords, EltTy.bits .f32 = 32 ∨ (Rect.block (s := S8x256x8192) S4x256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x256x512.size a ≤ S8x256x8192.size a
  hwx1_1 : ∀ i : grid1.Coords, EltTy.bits .f32 = 32 ∨ (Rect.block (s := S8x256x8192) S4x256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S8192x1536.size a
  hwx1_2 : ∀ i : grid1.Coords, EltTy.bits .bf16 = 32 ∨ (Rect.block (s := S8192x1536) S512x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S8192x1536.size a
  hwx1_3 : ∀ i : grid1.Coords, EltTy.bits .bf16 = 32 ∨ (Rect.block (s := S8192x1536) S512x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4x256x64.size a ≤ S8x256x64.size a
  hwx1_4 : ∀ i : grid1.Coords, EltTy.bits .f32 = 32 ∨ (Rect.block (s := S8x256x64) S4x256x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4x256x64.size a ≤ S8x256x64.size a
  hwx1_5 : ∀ i : grid1.Coords, EltTy.bits .f32 = 32 ∨ (Rect.block (s := S8x256x64) S4x256x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x1536.size a
  hwx2_0 : ∀ i : grid2.Coords, EltTy.bits .bf16 = 32 ∨ (Rect.block (s := S8192x1536) S1024x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x256x64.size a ≤ S8x256x64.size a
  hwx2_1 : ∀ i : grid2.Coords, EltTy.bits .f32 = 32 ∨ (Rect.block (s := S8x256x64) S8x256x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x256x64.size a ≤ S8x256x64.size a
  hwx2_2 : ∀ i : grid2.Coords, EltTy.bits .f32 = 32 ∨ (Rect.block (s := S8x256x64) S8x256x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S8192x512.size a
  hwx2_3 : ∀ i : grid2.Coords, EltTy.bits .f32 = 32 ∨ (Rect.block (s := S8192x512) S1024x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x512.size a ≤ S1x512.size a
  hwx2_5 : ∀ i : grid2.Coords, EltTy.bits .f32 = 32 ∨ (Rect.block (s := S1x512) S1x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S8192x512.size a
  hwx2_6 : ∀ i : grid2.Coords, EltTy.bits .f32 = 32 ∨ (Rect.block (s := S8192x512) S1024x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S131072x512.size a
  hwx3_0 : ∀ i : grid3.Coords, EltTy.bits .f32 = 32 ∨ (Rect.block (s := S131072x512) S2048x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .f32 = 32 ∨ (Rect.block (s := S512x512) S512x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x512.size a
  hwx3_3 : ∀ i : grid3.Coords, EltTy.bits .f32 = 32 ∨ (Rect.block (s := S1x512) S1x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x512.size a ≤ S131072x512.size a
  hwx3_5 : ∀ i : grid3.Coords, EltTy.bits .f32 = 32 ∨ (Rect.block (s := S131072x512) S2048x512.size (cc3_transform_5 i) (hinb3_5 i)).WholeWords (EltTy.packing .f32)

variable [Facts₀]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S256x512_S512x64_S256x64_1_0_0_1_n_n : DotDims S256x512 S512x64 S256x64 where
  lhsContracting := [1]
  rhsContracting := [0]
  lhsNonContracting := [0]
  rhsNonContracting := [1]
  lhsBatch := []
  rhsBatch := []
  wf := dot_S256x512_S512x64_S256x64_1_0_0_1_n_n_wf
def dot_S1024x64_S256x64_S1024x256_1_1_0_0_n_n : DotDims S1024x64 S256x64 S1024x256 where
  lhsContracting := [1]
  rhsContracting := [1]
  lhsNonContracting := [0]
  rhsNonContracting := [0]
  lhsBatch := []
  rhsBatch := []
  wf := dot_S1024x64_S256x64_S1024x256_1_1_0_0_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg10) S4x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S4x256x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_0) S4x256x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S4x256x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_0) S8x256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5_1) S8x256x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S1024x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S1x512.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S1024x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_arg1) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S1x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S2048x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S8192x512 : Shape := ⟨2, ![8192, 512]⟩
abbrev S131072x512 : Shape := ⟨2, ![131072, 512]⟩
abbrev S512x512 : Shape := ⟨2, ![512, 512]⟩
abbrev S512 : Shape := ⟨1, ![512]⟩
abbrev S8x256x8192 : Shape := ⟨3, ![8, 256, 8192]⟩
abbrev S1x512 : Shape := ⟨2, ![1, 512]⟩
abbrev S8192x8x64 : Shape := ⟨3, ![8192, 8, 64]⟩
abbrev S8x8192x64 : Shape := ⟨3, ![8, 8192, 64]⟩
abbrev S8x256x64 : Shape := ⟨3, ![8, 256, 64]⟩
abbrev S8x8192x256 : Shape := ⟨3, ![8, 8192, 256]⟩
abbrev S_ : Shape := ⟨0, ![]⟩
abbrev S8x8192 : Shape := ⟨2, ![8, 8192]⟩
abbrev S8x8192x1 : Shape := ⟨3, ![8, 8192, 1]⟩
abbrev S8192 : Shape := ⟨1, ![8192]⟩
abbrev S8192x1 : Shape := ⟨2, ![8192, 1]⟩
abbrev S131072 : Shape := ⟨1, ![131072]⟩
abbrev S131072x1 : Shape := ⟨2, ![131072, 1]⟩

abbrev nBuf : Space → Nat
  | .hbm => 125
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S131072x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S8x256x8192, .f32⟩
  | .hbm, ⟨11, _⟩ => ⟨S8x256x8192, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512x512, .f32⟩
  | .hbm, ⟨17, _⟩ => ⟨S8192x512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x8x64, .f32⟩
  | .hbm, ⟨22, _⟩ => ⟨S8x8192x64, .f32⟩
  | .hbm, ⟨23, _⟩ => ⟨S512x512, .f32⟩
  | .hbm, ⟨24, _⟩ => ⟨S8192x512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S8192x8x64, .f32⟩
  | .hbm, ⟨29, _⟩ => ⟨S8x8192x64, .f32⟩
  | .hbm, ⟨30, _⟩ => ⟨S512x512, .f32⟩
  | .hbm, ⟨31, _⟩ => ⟨S8192x512, .f32⟩
  | .hbm, ⟨32, _⟩ => ⟨S1x512, .f32⟩
  | .hbm, ⟨33, _⟩ => ⟨S8192x512, .f32⟩
  | .hbm, ⟨34, _⟩ => ⟨S8192x512, .f32⟩
  | .hbm, ⟨35, _⟩ => ⟨S8192x8x64, .f32⟩
  | .hbm, ⟨36, _⟩ => ⟨S8x8192x64, .f32⟩
  | .hbm, ⟨37, _⟩ => ⟨S8x256x64, .f32⟩
  | .hbm, ⟨38, _⟩ => ⟨S8x256x64, .f32⟩
  | .hbm, ⟨39, _⟩ => ⟨S8x8192x256, .f32⟩
  | .hbm, ⟨40, _⟩ => ⟨S_, .f32⟩
  | .hbm, ⟨41, _⟩ => ⟨S8x8192x256, .f32⟩
  | .hbm, ⟨42, _⟩ => ⟨S8x8192x256, .f32⟩
  | .hbm, ⟨43, _⟩ => ⟨S_, .f32⟩
  | .hbm, ⟨44, _⟩ => ⟨S8x8192, .f32⟩
  | .hbm, ⟨45, _⟩ => ⟨S_, .f32⟩
  | .hbm, ⟨46, _⟩ => ⟨S8x8192, .f32⟩
  | .hbm, ⟨47, _⟩ => ⟨S8x8192, .f32⟩
  | .hbm, ⟨48, _⟩ => ⟨S8x8192x1, .f32⟩
  | .hbm, ⟨49, _⟩ => ⟨S8x8192x256, .f32⟩
  | .hbm, ⟨50, _⟩ => ⟨S8x8192x256, .f32⟩
  | .hbm, ⟨51, _⟩ => ⟨S8x8192x256, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S8x8192x256, .f32⟩
  | .hbm, ⟨56, _⟩ => ⟨S8x8192x256, .f32⟩
  | .hbm, ⟨57, _⟩ => ⟨S8x8192x64, .f32⟩
  | .hbm, ⟨58, _⟩ => ⟨S8192x8x64, .f32⟩
  | .hbm, ⟨59, _⟩ => ⟨S8192x512, .f32⟩
  | .hbm, ⟨60, _⟩ => ⟨S512x512, .f32⟩
  | .hbm, ⟨61, _⟩ => ⟨S131072x512, .f32⟩
  | .hbm, ⟨62, _⟩ => ⟨S1x512, .f32⟩
  | .hbm, ⟨63, _⟩ => ⟨S131072x512, .f32⟩
  | .hbm, ⟨64, _⟩ => ⟨S131072x512, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S8192x512, .f32⟩
  | .hbm, ⟨81, _⟩ => ⟨S8192x512, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S8192x1, .f32⟩
  | .hbm, ⟨86, _⟩ => ⟨S8192x512, .f32⟩
  | .hbm, ⟨87, _⟩ => ⟨S8192x512, .f32⟩
  | .hbm, ⟨88, _⟩ => ⟨S1x512, .f32⟩
  | .hbm, ⟨89, _⟩ => ⟨S8192x512, .f32⟩
  | .hbm, ⟨90, _⟩ => ⟨S8192x512, .f32⟩
  | .hbm, ⟨91, _⟩ => ⟨S1x512, .f32⟩
  | .hbm, ⟨92, _⟩ => ⟨S8192x512, .f32⟩
  | .hbm, ⟨93, _⟩ => ⟨S8192x512, .f32⟩
  | .hbm, ⟨94, _⟩ => ⟨S8192x512, .f32⟩
  | .hbm, ⟨95, _⟩ => ⟨S_, .f32⟩
  | .hbm, ⟨96, _⟩ => ⟨S131072, .f32⟩
  | .hbm, ⟨97, _⟩ => ⟨S131072x1, .f32⟩
  | .hbm, ⟨98, _⟩ => ⟨S_, .f32⟩
  | .hbm, ⟨99, _⟩ => ⟨S131072x1, .f32⟩
  | .hbm, ⟨100, _⟩ => ⟨S131072x1, .f32⟩
  | .hbm, ⟨101, _⟩ => ⟨S131072x512, .f32⟩
  | .hbm, ⟨102, _⟩ => ⟨S131072x512, .f32⟩
  | .hbm, ⟨103, _⟩ => ⟨S131072x512, .f32⟩
  | .hbm, ⟨104, _⟩ => ⟨S_, .f32⟩
  | .hbm, ⟨105, _⟩ => ⟨S131072, .f32⟩
  | .hbm, ⟨106, _⟩ => ⟨S131072x1, .f32⟩
  | .hbm, ⟨107, _⟩ => ⟨S_, .f32⟩
  | .hbm, ⟨108, _⟩ => ⟨S131072x1, .f32⟩
  | .hbm, ⟨109, _⟩ => ⟨S131072x1, .f32⟩
  | .hbm, ⟨110, _⟩ => ⟨S131072x512, .f32⟩
  | .hbm, ⟨111, _⟩ => ⟨S131072x512, .f32⟩
  | .hbm, ⟨112, _⟩ => ⟨S_, .f32⟩
  | .hbm, ⟨113, _⟩ => ⟨S131072x1, .f32⟩
  | .hbm, ⟨114, _⟩ => ⟨S131072x1, .f32⟩
  | .hbm, ⟨115, _⟩ => ⟨S131072x1, .f32⟩
  | .hbm, ⟨116, _⟩ => ⟨S131072x512, .f32⟩
  | .hbm, ⟨117, _⟩ => ⟨S131072x512, .f32⟩
  | .hbm, ⟨118, _⟩ => ⟨S1x512, .f32⟩
  | .hbm, ⟨119, _⟩ => ⟨S131072x512, .f32⟩
  | .hbm, ⟨120, _⟩ => ⟨S131072x512, .f32⟩
  | .hbm, ⟨121, _⟩ => ⟨S1x512, .f32⟩
  | .hbm, ⟨122, _⟩ => ⟨S131072x512, .f32⟩
  | .hbm, ⟨123, _⟩ => ⟨S131072x512, .f32⟩
  | .hbm, ⟨124, _⟩ => ⟨S131072x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_cst_0 : Ref sig .tc := ⟨.hbm, 43, rfl⟩
abbrev main_v26 : Ref sig .tc := ⟨.hbm, 44, rfl⟩
abbrev main_cst_1 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_3 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_5 : Ref sig .tc := ⟨.hbm, 74, rfl⟩
abbrev main_v52 : Ref sig .tc := ⟨.hbm, 75, rfl⟩
abbrev main_v53 : Ref sig .tc := ⟨.hbm, 76, rfl⟩
abbrev main_cst_6 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_7 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_8 : Ref sig .tc := ⟨.hbm, 95, rfl⟩
abbrev main_v70 : Ref sig .tc := ⟨.hbm, 96, rfl⟩
abbrev main_v71 : Ref sig .tc := ⟨.hbm, 97, rfl⟩
abbrev main_cst_9 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_10 : Ref sig .tc := ⟨.hbm, 104, rfl⟩
abbrev main_v77 : Ref sig .tc := ⟨.hbm, 105, rfl⟩
abbrev main_v78 : Ref sig .tc := ⟨.hbm, 106, rfl⟩
abbrev main_cst_11 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_12 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  shapeCasts_S8192x512_S8192x8x64 : S8192x512.ShapeCasts S8192x8x64
  transposes_S8192x8x64_S8x8192x64_1_0_2 : S8192x8x64.Transposes [1, 0, 2] S8x8192x64
  bcast_S_S8x8192x256 : S_.BroadcastsInDim S8x8192x256 (![] : Fin 0 → Fin S8x8192x256.rank)
  reducesTo_S8x8192x256_S8x8192_d2 : S8x8192x256.ReducesTo [2] S8x8192
  h_S_ : 0 < S_.numel
  bcast_S_S8x8192 : S_.BroadcastsInDim S8x8192 (![] : Fin 0 → Fin S8x8192.rank)
  bcast_S8x8192_S8x8192x1_0_1 : S8x8192.BroadcastsInDim S8x8192x1 (![0, 1] : Fin 2 → Fin S8x8192x1.rank)
  bcast_S8x8192x1_S8x8192x256_0_1_2 : S8x8192x1.BroadcastsInDim S8x8192x256 (![0, 1, 2] : Fin 3 → Fin S8x8192x256.rank)
  transposes_S8x8192x64_S8192x8x64_1_0_2 : S8x8192x64.Transposes [1, 0, 2] S8192x8x64
  shapeCasts_S8192x8x64_S8192x512 : S8192x8x64.ShapeCasts S8192x512
  bcast_S1x512_S131072x512_0_1 : S1x512.BroadcastsInDim S131072x512 (![0, 1] : Fin 2 → Fin S131072x512.rank)
  reducesTo_S8192x512_S8192_d1 : S8192x512.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S131072x512_S131072_d1 : S131072x512.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x512_0_1 : S131072x1.BroadcastsInDim S131072x512 (![0, 1] : Fin 2 → Fin S131072x512.rank)
  dot_S8192x512_S512x512_S8192x512_1_0_0_1_n_n_wf : DotDims.WF S8192x512 S512x512 S8192x512 [1] [0] [0] [1] [] []
  dot_S8x256x8192_S8x8192x64_S8x256x64_2_1_1_2_0_0_wf : DotDims.WF S8x256x8192 S8x8192x64 S8x256x64 [2] [1] [1] [2] [0] [0]
  dot_S8x8192x64_S8x256x64_S8x8192x256_2_2_1_1_0_0_wf : DotDims.WF S8x8192x64 S8x256x64 S8x8192x256 [2] [2] [1] [1] [0] [0]
  dot_S8x8192x256_S8x256x64_S8x8192x64_2_1_1_2_0_0_wf : DotDims.WF S8x8192x256 S8x256x64 S8x8192x64 [2] [1] [1] [2] [0] [0]
  dot_S131072x512_S512x512_S131072x512_1_0_0_1_n_n_wf : DotDims.WF S131072x512 S512x512 S131072x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8x256x8192_S8x8192x64_S8x256x64_2_1_1_2_0_0 : DotDims S8x256x8192 S8x8192x64 S8x256x64 where
  lhsContracting := [2]
  rhsContracting := [1]
  lhsNonContracting := [1]
  rhsNonContracting := [2]
  lhsBatch := [0]
  rhsBatch := [0]
  wf := dot_S8x256x8192_S8x8192x64_S8x256x64_2_1_1_2_0_0_wf
def dot_S8x8192x64_S8x256x64_S8x8192x256_2_2_1_1_0_0 : DotDims S8x8192x64 S8x256x64 S8x8192x256 where
  lhsContracting := [2]
  rhsContracting := [2]
  lhsNonContracting := [1]
  rhsNonContracting := [1]
  lhsBatch := [0]
  rhsBatch := [0]
  wf := dot_S8x8192x64_S8x256x64_S8x8192x256_2_2_1_1_0_0_wf
def dot_S8x8192x256_S8x256x64_S8x8192x64_2_1_1_2_0_0 : DotDims S8x8192x256 S8x256x64 S8x8192x64 where
  lhsContracting := [2]
  rhsContracting := [1]
  lhsNonContracting := [1]
  rhsNonContracting := [2]
  lhsBatch := [0]
  rhsBatch := [0]
  wf := dot_S8x8192x256_S8x256x64_S8x8192x64_2_1_1_2_0_0_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.RefFrame.lean ====
/-
  The reference program is a straight line of host operations: it terminates from every memory, faults nowhere
  and writes no argument array.  Its run, read back operation by operation, states each result buffer as the
  operations' composed term of the arguments and each argument as launched; dropping the results leaves the frame.
-/
import proofs.«154112_j74371653697779_2_alg».proof.Defs
import proofs.«154112_j74371653697779_2_alg».proof.Proof.Gen.ReferenceIdeal
import proofs.«154112_j74371653697779_2_alg».proof.Proof.Gen.Pre_finite_inputs
import proofs.«154112_j74371653697779_2_alg».proof.Proof.Gen.ReferenceIdeal.Run
import proofs.«154112_j74371653697779_2_alg».proof.Proof.Gen.ReferenceIdeal.Read

noncomputable section

open Idealize.ShloMosaic Idealize.ShloMosaic.TcCoe Idealize.SL.Sem

namespace Cert.Proof.RefSide

/-- The reference's frame: its generated run with the two result equations dropped. -/
theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefSide

end
-- ==== Proof.KB.Proj.lean ====
/-
  The first region: one row tile of the fused projection.  At grid point t the body reads the 512 rows
  [512 t, 512 t + 512) of the node features, the whole transposed weight (512 x 1536: the query, key and value
  weights side by side) and the bias row, and stores into the output block
      out[r, j] = sum over k of x[r, k] * w[k, j]  +  b[0, j],
  narrowed to bf16.  The three inputs are left as found; the output block is the single whole-block store.
-/
import proofs.«154112_j74371653697779_2_alg».proof.Proof.Gen.Kernel.Launch
import proofs.«154112_j74371653697779_2_alg».proof.Proof.Gen.Kernel.Skeleton
import proofs.«154112_j74371653697779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of the features is in its staging buffer at every point. -/
theorem before_x {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight, fetched once, is in its staging buffer at every point: its block index never moves. -/
theorem before_w {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- So is the bias row. -/
theorem before_b {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The body's accesses: each a whole block. -/
abbrev rX : Rect S512x512 := Rect.unit (s := S512x512) ![0, 0] S512x512.size inb_S512x512_S512x512_0_0
abbrev rW : Rect S512x1536 := Rect.unit (s := S512x1536) ![0, 0] S512x1536.size inb_S512x1536_S512x1536_0_0
abbrev rB : Rect S1x1536 := Rect.unit (s := S1x1536) ![0, 0] S1x1536.size inb_S1x1536_S1x1536_0_0

/-- What the body leaves in the output block, from the three input blocks: its one store. -/
def tile (x : Vec F S512x512 .f32) (w : Vec F S512x1536 .f32) (b : Vec F S1x1536 .f32) : Vec F S512x1536 .bf16 :=
  View.canon [⟨rW, k0_pay1 (View.ld x rX) (View.ld w rW) (View.ld b rB)⟩]

/-- The one store covers the block. -/
theorem tile_cover (p : Vec F S512x1536 .bf16) (y : S512x1536.Idx) :
    ∃ pc ∈ ([⟨rW, p⟩] : List (View.Piece (Elt F) S512x1536 .bf16)), y ∈ pc.1.set :=
  View.cover_of_tiled [⟨rW, p⟩] S512x1536.size (by rfl) y

set_option maxHeartbeats 1000000 in
/-- The body on whole staging buffers: the inputs are left as read, the output ends at `tile` of them. -/
theorem sound_kernel (c : Dev nD) (E : Set ℕ) (i : grid0.Coords) (arg1 : Memref sig .tc .vmem S512x512 .f32) (harg1 : arg1.IsWhole)
    (arg2 : Memref sig .tc .vmem S512x1536 .f32) (harg2 : arg2.IsWhole) (arg3 : Memref sig .tc .vmem S1x1536 .f32) (harg3 : arg3.IsWhole)
    (arg4 : Memref sig .tc .vmem S512x1536 .bf16) (harg4 : arg4.IsWhole)
    (x0 : Vec F S512x512 .f32) (x1 : Vec F S512x1536 .f32) (x2 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tile x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

/-- The region's proof data on core c: the arrays as found; after the body at point t each input's buffer at its
    block and the output's at `tile` of the three; nothing kept between points; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_b (c : Dev nD) (t : Fin cfg0.N) : (dat V c).after 2 t = blk V c 2 t := by dsimp only [dat]
theorem after_out (c : Dev nD) (t : Fin cfg0.N) :
    (dat V c).after 3 t = tile (blk V c 0 t) (blk V c 1 t) (blk V c 2 t) := by dsimp only [dat]

theorem found_x (c : Dev nD) (t : Fin cfg0.N) (d) : (dat V c).before 0 t d = blk V c 0 t :=
  before_x V (dat V c) (A_eq V c 0) (after_x V c) t d
theorem found_w (c : Dev nD) (t : Fin cfg0.N) (d) : (dat V c).before 1 t d = blk V c 1 t :=
  before_w V (dat V c) (A_eq V c 1) (after_w V c) t d
theorem found_b (c : Dev nD) (t : Fin cfg0.N) (d) : (dat V c).before 2 t d = blk V c 2 t :=
  before_b V (dat V c) (A_eq V c 2) (after_b V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `sound_kernel` applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_x, found_w, found_b]
  rw [show (dat V c).Φ t.succ = (dat V c).Φ t.castSucc from rfl,
    show (dat V c).owesAt () t.succ = (dat V c).owesAt () t.castSucc from rfl,
    after_x, after_w, after_b, after_out]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.KB.LowRank.lean ====
/-
  The second region: the two low-rank projections, four heads at a time.  The grid is (head group, node tile); at a
  point the body reads the node tile's 512 columns of the two projection matrices for the group's four heads and the
  tile's 512 rows of the group's key columns and value columns of the fused projection — two windows on ONE array —
  and, per head, adds  E_h[:, tile] k_h[tile, :]  into the head's slab of the first accumulator and
  F_h[:, tile] v_h[tile, :]  into the second.  At the first tile of a group both accumulators are zeroed first; they
  are written back after the group's last tile.  So there are two control cases, and at every point but a group's
  first each accumulator starts from what the point before left.
-/
import proofs.«154112_j74371653697779_2_alg».proof.Proof.Gen.Kernel.Launch
import proofs.«154112_j74371653697779_2_alg».proof.Proof.Gen.Kernel.Skeleton
import proofs.«154112_j74371653697779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.LowRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- The body's one branch: taken exactly when the node-tile coordinate is zero. -/
abbrev first (i : grid1.Coords) : Prop := (Scalar.cmpi .ne (Scalar.extui (Scalar.cmpi .eq (BitVec.ofNat 32 (i 1).val) 0#32)) 0#32) = 1#1
/-- Over the grid: at the points divisible by 16. -/
theorem first_iff : ∀ t : Fin cfg1.N, first (grid1.coords t) ↔ t.val % 16 = 0 :=
  (by decide +kernel : ∀ t : Fin grid1.N, first (grid1.coords t) ↔ t.val % 16 = 0)

/-- One staging buffer of each accumulator, through which its contents are stated. -/
abbrev VK : View sig .tc .vmem S4x256x64 .f32 := (Memref.whole cc1_stg4_0 : Memref sig .tc .vmem S4x256x64 .f32).view
abbrev VV : View sig .tc .vmem S4x256x64 .f32 := (Memref.whole cc1_stg5_0 : Memref sig .tc .vmem S4x256x64 .f32).view
/-- Each window's current staging buffer at point t, as the pipeline passes it, and its wholeness. -/
abbrev ms0 (t : Fin cfg1.N) : Memref sig .tc .vmem S4x256x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4x256x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x256 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x256 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S4x256x64 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S4x256x64 .f32 := win1_5.stage (cfg1.slots t 5)
abbrev hs5 (t : Fin cfg1.N) : (ms5 t).IsWhole := hstage1_5 ((cfg1.slots t 5).cast nbuf1_5)

set_option maxHeartbeats 4000000 in
/-- The body at a group's FIRST tile, on whole staging buffers: the inputs are left as read; each accumulator ends
    with the listed stores written (the zeroing, then the four slabs), whatever it held. -/
noncomputable def runFirst (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : first i)
    (x0 x1 : Vec F S4x256x512 .f32) (x2 x3 : Vec F S512x256 .bf16) :
    Σ' (LK : List (View.Piece (Elt F) S4x256x64 .f32)), { LV : List (View.Piece (Elt F) S4x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LK)
                ∗ (∃ f, arg7.view.loc (c : Thread nD τ) ↦[arg7.view.set]{fullShare} arg7.view.writes (Elt F) f LV)) -∗ K ⟨⟩))
          ⊢ wp frame (wpE (defs₀ (F := F)) Variants.none c none) E (cc1__lowrank_kernel i arg2 harg2 arg3 harg3 arg4 harg4 arg5 harg5 arg6 harg6 arg7 harg7) K } := by
  refine ⟨?_, ?_, fun E K => ?run⟩
  case run =>
    simp only [cc1__lowrank_kernel_eq_skeleton]; unfold cc1__lowrank_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0
    obtain rfl := harg3.eq_unread hf1
    obtain rfl := harg4.eq_unread hf2
    obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

set_option maxHeartbeats 4000000 in
/-- The body at any LATER tile of a group: each accumulator, held at given contents, ends with the four slab stores
    written over them. -/
noncomputable def runLater (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : ¬first i)
    (x0 x1 : Vec F S4x256x512 .f32) (x2 x3 : Vec F S512x256 .bf16) (ak av : Vec F S4x256x64 .f32) :
    Σ' (LK : List (View.Piece (Elt F) S4x256x64 .f32)), { LV : List (View.Piece (Elt F) S4x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare ak ∗ owns (c : Thread nD τ) arg7 fullShare av
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LK)
                ∗ (∃ f, arg7.view.loc (c : Thread nD τ) ↦[arg7.view.set]{fullShare} arg7.view.writes (Elt F) f LV)) -∗ K ⟨⟩))
          ⊢ wp frame (wpE (defs₀ (F := F)) Variants.none c none) E (cc1__lowrank_kernel i arg2 harg2 arg3 harg3 arg4 harg4 arg5 harg5 arg6 harg6 arg7 harg7) K } := by
  refine ⟨?_, ?_, fun E K => ?run⟩
  case run =>
    simp only [cc1__lowrank_kernel_eq_skeleton]; unfold cc1__lowrank_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

/-! ## What each case leaves in the accumulators -/

theorem coverFirstK (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : first i) (x0 x1 : Vec F S4x256x512 .f32) (x2 x3 : Vec F S512x256 .bf16) (y : S4x256x64.Idx) :
    ∃ pc ∈ (runFirst c i arg2 harg2 arg3 harg3 arg4 harg4 arg5 harg5 arg6 harg6 arg7 harg7 hc x0 x1 x2 x3).1, y ∈ pc.1.set :=
  View.cover_of_tiledL (runFirst c i arg2 harg2 arg3 harg3 arg4 harg4 arg5 harg5 arg6 harg6 arg7 harg7 hc x0 x1 x2 x3).1 S4x256x64.size (by sl_kernel_rfl) y
theorem coverFirstV (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : first i) (x0 x1 : Vec F S4x256x512 .f32) (x2 x3 : Vec F S512x256 .bf16) (y : S4x256x64.Idx) :
    ∃ pc ∈ (runFirst c i arg2 harg2 arg3 harg3 arg4 harg4 arg5 harg5 arg6 harg6 arg7 harg7 hc x0 x1 x2 x3).2.1, y ∈ pc.1.set :=
  View.cover_of_tiledL (runFirst c i arg2 harg2 arg3 harg3 arg4 harg4 arg5 harg5 arg6 harg6 arg7 harg7 hc x0 x1 x2 x3).2.1 S4x256x64.size (by sl_kernel_rfl) y
theorem coverLaterK (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : ¬first i) (x0 x1 : Vec F S4x256x512 .f32) (x2 x3 : Vec F S512x256 .bf16) (ak av : Vec F S4x256x64 .f32) (y : S4x256x64.Idx) :
    ∃ pc ∈ (runLater c i arg2 harg2 arg3 harg3 arg4 harg4 arg5 harg5 arg6 harg6 arg7 harg7 hc x0 x1 x2 x3 ak av).1, y ∈ pc.1.set :=
  View.cover_of_tiledL (runLater c i arg2 harg2 arg3 harg3 arg4 harg4 arg5 harg5 arg6 harg6 arg7 harg7 hc x0 x1 x2 x3 ak av).1 S1x256x64.size (by sl_kernel_rfl) y
theorem coverLaterV (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : ¬first i) (x0 x1 : Vec F S4x256x512 .f32) (x2 x3 : Vec F S512x256 .bf16) (ak av : Vec F S4x256x64 .f32) (y : S4x256x64.Idx) :
    ∃ pc ∈ (runLater c i arg2 harg2 arg3 harg3 arg4 harg4 arg5 harg5 arg6 harg6 arg7 harg7 hc x0 x1 x2 x3 ak av).2.1, y ∈ pc.1.set :=
  View.cover_of_tiledL (runLater c i arg2 harg2 arg3 harg3 arg4 harg4 arg5 harg5 arg6 harg6 arg7 harg7 hc x0 x1 x2 x3 ak av).2.1 S1x256x64.size (by sl_kernel_rfl) y

/-- The first accumulator after a group's first tile: the case's stores read back. -/
def firstK (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : first i) (x0 x1 : Vec F S4x256x512 .f32) (x2 x3 : Vec F S512x256 .bf16) : Vec F S4x256x64 .f32 :=
  VK.read (Elt F) (VK.writes (Elt F) VK.junk (runFirst c i arg2 harg2 arg3 harg3 arg4 harg4 arg5 harg5 arg6 harg6 arg7 harg7 hc x0 x1 x2 x3).1)
/-- The second accumulator after a group's first tile. -/
def firstV (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : first i) (x0 x1 : Vec F S4x256x512 .f32) (x2 x3 : Vec F S512x256 .bf16) : Vec F S4x256x64 .f32 :=
  VV.read (Elt F) (VV.writes (Elt F) VV.junk (runFirst c i arg2 harg2 arg3 harg3 arg4 harg4 arg5 harg5 arg6 harg6 arg7 harg7 hc x0 x1 x2 x3).2.1)
/-- The first accumulator after a later tile, from what both held before. -/
def laterK (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : ¬first i) (x0 x1 : Vec F S4x256x512 .f32) (x2 x3 : Vec F S512x256 .bf16) (ak av : Vec F S4x256x64 .f32) : Vec F S4x256x64 .f32 :=
  VK.read (Elt F) (VK.writes (Elt F) VK.junk (runLater c i arg2 harg2 arg3 harg3 arg4 harg4 arg5 harg5 arg6 harg6 arg7 harg7 hc x0 x1 x2 x3 ak av).1)
/-- The second accumulator after a later tile. -/
def laterV (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : ¬first i) (x0 x1 : Vec F S4x256x512 .f32) (x2 x3 : Vec F S512x256 .bf16) (ak av : Vec F S4x256x64 .f32) : Vec F S4x256x64 .f32 :=
  VV.read (Elt F) (VV.writes (Elt F) VV.junk (runLater c i arg2 harg2 arg3 harg3 arg4 harg4 arg5 harg5 arg6 harg6 arg7 harg7 hc x0 x1 x2 x3 ak av).2.1)

/-! ## The accumulation, point by point -/

/-- What the two accumulators' staging buffers hold after the body at position n: a group's first tile starts afresh,
    a later tile continues from what position n - 1 left (the buffers are not written back in between). -/
def acc (c : Dev nD) : (n : ℕ) → n < cfg1.N → Vec F S4x256x64 .f32 × Vec F S4x256x64 .f32
  | 0, hn => (firstK c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((first_iff ⟨0, hn⟩).mpr (Nat.zero_mod _)) (blk V c 0 ⟨0, hn⟩) (blk V c 1 ⟨0, hn⟩) (blk V c 2 ⟨0, hn⟩) (blk V c 3 ⟨0, hn⟩),
              firstV c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((first_iff ⟨0, hn⟩).mpr (Nat.zero_mod _)) (blk V c 0 ⟨0, hn⟩) (blk V c 1 ⟨0, hn⟩) (blk V c 2 ⟨0, hn⟩) (blk V c 3 ⟨0, hn⟩))
  | n + 1, hn =>
    if h0 : (n + 1) % 16 = 0 then
      (firstK c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((first_iff ⟨n + 1, hn⟩).mpr h0) (blk V c 0 ⟨n + 1, hn⟩) (blk V c 1 ⟨n + 1, hn⟩) (blk V c 2 ⟨n + 1, hn⟩) (blk V c 3 ⟨n + 1, hn⟩),
       firstV c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((first_iff ⟨n + 1, hn⟩).mpr h0) (blk V c 0 ⟨n + 1, hn⟩) (blk V c 1 ⟨n + 1, hn⟩) (blk V c 2 ⟨n + 1, hn⟩) (blk V c 3 ⟨n + 1, hn⟩))
    else
      (laterK c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => h0 ((first_iff ⟨n + 1, hn⟩).mp h)) (blk V c 0 ⟨n + 1, hn⟩) (blk V c 1 ⟨n + 1, hn⟩) (blk V c 2 ⟨n + 1, hn⟩) (blk V c 3 ⟨n + 1, hn⟩)
          (acc c n (Nat.lt_of_succ_lt hn)).1 (acc c n (Nat.lt_of_succ_lt hn)).2,
       laterV c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => h0 ((first_iff ⟨n + 1, hn⟩).mp h)) (blk V c 0 ⟨n + 1, hn⟩) (blk V c 1 ⟨n + 1, hn⟩) (blk V c 2 ⟨n + 1, hn⟩) (blk V c 3 ⟨n + 1, hn⟩)
          (acc c n (Nat.lt_of_succ_lt hn)).1 (acc c n (Nat.lt_of_succ_lt hn)).2)

theorem acc_first (c : Dev nD) (t : Fin cfg1.N) (h0 : t.val % 16 = 0) :
    acc V c t.val t.isLt = (firstK c (grid1.coords t) (ms0 t) (hs0 t) (ms1 t) (hs1 t) (ms2 t) (hs2 t) (ms3 t) (hs3 t) (ms4 t) (hs4 t) (ms5 t) (hs5 t) ((first_iff t).mpr h0) (blk V c 0 t) (blk V c 1 t) (blk V c 2 t) (blk V c 3 t),
                            firstV c (grid1.coords t) (ms0 t) (hs0 t) (ms1 t) (hs1 t) (ms2 t) (hs2 t) (ms3 t) (hs3 t) (ms4 t) (hs4 t) (ms5 t) (hs5 t) ((first_iff t).mpr h0) (blk V c 0 t) (blk V c 1 t) (blk V c 2 t) (blk V c 3 t)) := by
  obtain ⟨n, hn⟩ := t
  cases n with
  | zero => exact rfl
  | succ n => exact (dif_pos h0).trans rfl

theorem acc_later (c : Dev nD) (t : Fin cfg1.N) (h0 : ¬t.val % 16 = 0) :
    acc V c t.val t.isLt = (laterK c (grid1.coords t) (ms0 t) (hs0 t) (ms1 t) (hs1 t) (ms2 t) (hs2 t) (ms3 t) (hs3 t) (ms4 t) (hs4 t) (ms5 t) (hs5 t) (fun h => h0 ((first_iff t).mp h)) (blk V c 0 t) (blk V c 1 t) (blk V c 2 t) (blk V c 3 t)
                              (acc V c (t.val - 1) (Nat.lt_of_le_of_lt (Nat.sub_le _ _) t.isLt)).1 (acc V c (t.val - 1) (Nat.lt_of_le_of_lt (Nat.sub_le _ _) t.isLt)).2,
                            laterV c (grid1.coords t) (ms0 t) (hs0 t) (ms1 t) (hs1 t) (ms2 t) (hs2 t) (ms3 t) (hs3 t) (ms4 t) (hs4 t) (ms5 t) (hs5 t) (fun h => h0 ((first_iff t).mp h)) (blk V c 0 t) (blk V c 1 t) (blk V c 2 t) (blk V c 3 t)
                              (acc V c (t.val - 1) (Nat.lt_of_le_of_lt (Nat.sub_le _ _) t.isLt)).1 (acc V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's proof data -/

/-- The arrays as found; after the body each input's buffer at its block and the accumulators' at `acc`; nothing else
    kept; nothing owed.  The fused projection's buffer is read through two windows at once: each holds one half of it. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (acc V c t.val t.isLt).1
    | ⟨5, _⟩ => (acc V c t.val t.isLt).2
  Φ _ := Pipeline.ΦA spec1 c
  q w := match w with
    | ⟨2, _⟩ => fullShare.left
    | ⟨3, _⟩ => fullShare.right
    | _ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_k (c : Dev nD) (t : Fin cfg1.N) : (dat V c).after 4 t = (acc V c t.val t.isLt).1 := by dsimp only [dat]
theorem after_v (c : Dev nD) (t : Fin cfg1.N) : (dat V c).after 5 t = (acc V c t.val t.isLt).2 := by dsimp only [dat]

theorem found_0 (c : Dev nD) (t : Fin cfg1.N) (d) : (dat V c).before 0 t d = blk V c 0 t :=
  before_0 V (dat V c) (A_eq V c 0) (after_0 V c) t d
theorem found_1 (c : Dev nD) (t : Fin cfg1.N) (d) : (dat V c).before 1 t d = blk V c 1 t :=
  before_1 V (dat V c) (A_eq V c 1) (after_1 V c) t d
theorem found_2 (c : Dev nD) (t : Fin cfg1.N) (d) : (dat V c).before 2 t d = blk V c 2 t :=
  before_2 V (dat V c) (A_eq V c 2) (after_2 V c) t d
theorem found_3 (c : Dev nD) (t : Fin cfg1.N) (d) : (dat V c).before 3 t d = blk V c 3 t :=
  before_3 V (dat V c) (A_eq V c 3) (after_3 V c) t d

/-- At a later tile the first accumulator's buffer holds what the point before left: not the first point, and not
    written back in between. -/
theorem found_k_later (c : Dev nD) (t : Fin cfg1.N) (h0 : ¬t.val % 16 = 0) (d) :
    (dat V c).before 4 t d = (acc V c (t.val - 1) (Nat.lt_of_le_of_lt (Nat.sub_le _ _) t.isLt)).1 := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat]
theorem found_v_later (c : Dev nD) (t : Fin cfg1.N) (h0 : ¬t.val % 16 = 0) (d) :
    (dat V c).before 5 t d = (acc V c (t.val - 1) (Nat.lt_of_le_of_lt (Nat.sub_le _ _) t.isLt)).2 := by
  have hN : t.val < 32 := lt_of_lt_of_eq t.isLt (show cfg1.N = 32 from N_1)
  rw [Dat.before_out_kept _ 5 rfl t (by omega) (Bool.eq_false_iff.mpr fun h => by have := (flush1_5 _).mp h; dsimp only at this; omega)
    (fun _ => rfl) (fun _ _ => rfl)]
  dsimp only [dat]

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 1600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found_0, found_1, found_2, found_3]
  rw [show (dat V c).Φ t.succ = (dat V c).Φ t.castSucc from rfl,
    show (dat V c).owesAt () t.succ = (dat V c).owesAt () t.castSucc from rfl,
    after_0, after_1, after_2, after_3, after_k, after_v]
  have hN : t.val < 32 := lt_of_lt_of_eq t.isLt (show cfg1.N = 32 from N_1)
  by_cases h0 : t.val % 16 = 0
  · rw [acc_first V c t h0]
    dsimp only
    unfold firstK firstV
    iintro ⟨HΦ, Ho, ⟨%d0, H0⟩, ⟨%d1, H1⟩, ⟨%d2, H2⟩, ⟨%d3, H3⟩, ⟨%d4, H4⟩, ⟨%d5, H5⟩⟩
    iapply ((runFirst c (grid1.coords t) _ _ _ _ _ _ _ _ _ _ _ _ ((first_iff t).mpr h0) (blk V c 0 t) (blk V c 1 t) (blk V c 2 t) (blk V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverFirstK c _ _ _ _ _ _ _ _ _ _ _ _ _ _ _ _ _ _)
    unfold owns; iexists _; isplitr
    swap; · iexact H5
    ipureintro; exact View.read_writes_of_cover _ _ _ _ _ (coverFirstV c _ _ _ _ _ _ _ _ _ _ _ _ _ _ _ _ _ _)
  · rw [acc_later V c t h0]
    dsimp only
    simp only [found_k_later V c t h0, found_v_later V c t h0]
    unfold laterK laterV
    iintro ⟨HΦ, Ho, ⟨%d0, H0⟩, ⟨%d1, H1⟩, ⟨%d2, H2⟩, ⟨%d3, H3⟩, ⟨%d4, H4⟩, ⟨%d5, H5⟩⟩
    iapply ((runLater c (grid1.coords t) _ _ _ _ _ _ _ _ _ _ _ _ (fun h => h0 ((first_iff t).mp h)) (blk V c 0 t) (blk V c 1 t) (blk V c 2 t) (blk V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverLaterK c _ _ _ _ _ _ _ _ _ _ _ _ _ _ _ _ _ _ _ _)
    unfold owns; iexists _; isplitr
    swap; · iexact H5
    ipureintro; exact View.read_writes_of_cover _ _ _ _ _ (coverLaterV c _ _ _ _ _ _ _ _ _ _ _ _ _ _ _ _ _ _ _ _)

theorem body_obligation (c : Dev nD) : BodyObligation (dat (F := F) V c) (defs₀ (F := F)) Variants.none () Set.univ := fun t => by
  rw [bigSep_W1, bigSep_W1]
  exact sound_body V c t

end Cert.Kernel.LowRank

end
-- ==== Proof.KB.Attn.lean ====
/-
  The third region: one tile of 1024 nodes.  The body reads the tile's query columns (the first 512 columns of the
  projection), the two low-rank projections (8 heads x 256 x 64), the tile of node features and the layer norm's
  scale and shift rows.  Per head h it forms the scores q_h k_h^T / 8, subtracts each row's maximum, exponentiates,
  divides by the row sum and multiplies by v_h; the eight results side by side are normalised row by row (mean,
  mean squared deviation, reciprocal square root with the epsilon), scaled, shifted, and the node features are added
  back.  One whole-tile store.
-/
import proofs.«154112_j74371653697779_2_alg».proof.Proof.Gen.Kernel.Launch
import proofs.«154112_j74371653697779_2_alg».proof.Proof.Gen.Kernel.Skeleton
import proofs.«154112_j74371653697779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2 {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3 {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_4 {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_5 {c : Dev nD} (dat : Dat τ (Elt F) Unit ℕ (UR sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The body's accesses: each a whole block. -/
abbrev rT : Rect S1024x512 := Rect.unit (s := S1024x512) ![0, 0] S1024x512.size inb_S1024x512_S1024x512_0_0
abbrev rP : Rect S8x256x64 := Rect.unit (s := S8x256x64) ![0, 0, 0] S8x256x64.size inb_S8x256x64_S8x256x64_0_0_0
abbrev rR : Rect S1x512 := Rect.unit (s := S1x512) ![0, 0] S1x512.size inb_S1x512_S1x512_0_0

/-- The stored value from the six loaded blocks: the heads' payloads in the order the body computes them. -/
def stored (q : Vec F S1024x512 .bf16) (pk pv : Vec F S8x256x64 .f32) (x : Vec F S1024x512 .f32) (g s : Vec F S1x512 .f32) :
    FVec F S1024x512 .f32 :=
  have v1 := k2_pay2 q
  have v3 := k2_pay3 pk
  have v5 := k2_pay4 pv
  have v26 := k2_pay5 q pk pv
  have v33 := k2_pay6 pv
  have v41 := k2_pay7 q pk
  have v47 := k2_pay8 v33 v41
  have v68 := k2_pay9 v1 v3 v5
  have v89 := k2_pay10 v1 v3 v5
  have v90 := k2_pay11 v1
  have v110 := k2_pay12 v3 v5 v90
  have v131 := k2_pay13 v1 v3 v5
  have v138 := k2_pay14 v5
  have v139 := k2_pay15 v1 v3
  k2_pay1 (k2_pay16 v1 v3 v5 v26 v47 v68 v89 v110 v131 v138 v139) (k2_pay18 v1 v3 v5 v26 v47 v68 v89 v110 v131 v138 v139)
    (k2_pay19 v1 v3 v5 v26 v47 v68 v89 v110 v131 v138 v139) g s x

/-- What the body leaves in the output tile. -/
def tile (q : Vec F S1024x512 .bf16) (pk pv : Vec F S8x256x64 .f32) (x : Vec F S1024x512 .f32) (g s : Vec F S1x512 .f32) : Vec F S1024x512 .f32 :=
  View.canon [⟨rT, stored (View.ld q rT) (View.ld pk rP) (View.ld pv rP) (View.ld x rT) (View.ld g rR) (View.ld s rR)⟩]

theorem tile_cover (p : Vec F S1024x512 .f32) (y : S1024x512.Idx) :
    ∃ pc ∈ ([⟨rT, p⟩] : List (View.Piece (Elt F) S1024x512 .f32)), y ∈ pc.1.set :=
  View.cover_of_tiled [⟨rT, p⟩] S1024x512.size (by rfl) y

set_option maxHeartbeats 4000000 in
/-- The body on whole staging buffers: the inputs are left as read, the output ends at `tile` of them. -/
theorem sound_kernel (c : Dev nD) (E : Set ℕ) (i : grid2.Coords) (arg1 : Memref sig .tc .vmem S1024x512 .bf16) (harg1 : arg1.IsWhole)
    (arg2 : Memref sig .tc .vmem S8x256x64 .f32) (harg2 : arg2.IsWhole) (arg3 : Memref sig .tc .vmem S8x256x64 .f32) (harg3 : arg3.IsWhole)
    (arg4 : Memref sig .tc .vmem S1024x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S1024x512 .f32) (harg7 : arg7.IsWhole)
    (x0 : Vec F S1024x512 .bf16) (x1 x2 : Vec F S8x256x64 .f32) (x3 : Vec F S1024x512 .f32) (x4 x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (tile x0 x1 x2 x3 x4 x5)) -∗ K ⟨⟩))
      ⊢ wp frame (wpE (defs₀ (F := F)) Variants.none c none) E (cc2__attn_ln_kernel i arg1 harg1 arg2 harg2 arg3 harg3 arg4 harg4 arg5 harg5 arg6 harg6 arg7 harg7) K := by
  simp only [cc2__attn_ln_kernel_eq_skeleton]; unfold cc2__attn_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tile_cover _)

/-- The region's proof data on core c. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => tile (blk V c 0 t) (blk V c 1 t) (blk V c 2 t) (blk V c 3 t) (blk V c 4 t) (blk V c 5 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = blk V c 5 t := by dsimp only [dat]
theorem after_out (c : Dev nD) (t : Fin cfg2.N) :
    (dat V c).after 6 t = tile (blk V c 0 t) (blk V c 1 t) (blk V c 2 t) (blk V c 3 t) (blk V c 4 t) (blk V c 5 t) := by dsimp only [dat]

theorem found_0 (c : Dev nD) (t : Fin cfg2.N) (d) : (dat V c).before 0 t d = blk V c 0 t :=
  before_0 V (dat V c) (A_eq V c 0) (after_0 V c) t d
theorem found_1 (c : Dev nD) (t : Fin cfg2.N) (d) : (dat V c).before 1 t d = blk V c 1 t :=
  before_1 V (dat V c) (A_eq V c 1) (after_1 V c) t d
theorem found_2 (c : Dev nD) (t : Fin cfg2.N) (d) : (dat V c).before 2 t d = blk V c 2 t :=
  before_2 V (dat V c) (A_eq V c 2) (after_2 V c) t d
theorem found_3 (c : Dev nD) (t : Fin cfg2.N) (d) : (dat V c).before 3 t d = blk V c 3 t :=
  before_3 V (dat V c) (A_eq V c 3) (after_3 V c) t d
theorem found_4 (c : Dev nD) (t : Fin cfg2.N) (d) : (dat V c).before 4 t d = blk V c 4 t :=
  before_4 V (dat V c) (A_eq V c 4) (after_4 V c) t d
theorem found_5 (c : Dev nD) (t : Fin cfg2.N) (d) : (dat V c).before 5 t d = blk V c 5 t :=
  before_5 V (dat V c) (A_eq V c 5) (after_5 V c) t d

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [found_0, found_1, found_2, found_3, found_4, found_5]
  rw [show (dat V c).Φ t.succ = (dat V c).Φ t.castSucc from rfl,
    show (dat V c).owesAt () t.succ = (dat V c).owesAt () t.castSucc from rfl,
    after_0, after_1, after_2, after_3, after_4, after_5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W2, bigSep_W2]
  exact sound_body V c t

end Cert.Kernel.Attn

end
-- ==== Proof.KB.Edge.lean ====
/-
  The fourth region: one tile of 2048 edges.  The body reads the tile of edge features e, the transposed edge
  weight, the bias row and the layer norm's scale and shift rows, forms m = e w + b, normalises each row of m
  (its mean over the 512 columns, the mean of the squared deviations, the reciprocal square root of that mean plus
  the epsilon), scales, shifts and adds the edge features back, and stores the whole tile once.
-/
import proofs.«154112_j74371653697779_2_alg».proof.Proof.Gen.Kernel.Launch
import proofs.«154112_j74371653697779_2_alg».proof.Proof.Gen.Kernel.Skeleton
import proofs.«154112_j74371653697779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, fetched there or not. -/
theorem before_e {c : Dev nD} (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_w {c : Dev nD} (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_b {c : Dev nD} (dat : Dat τ (Elt F) Unit ℕ (UR sig nD τ) ℕ cfg3 c) (hA : dat.A 2 = V c (Pipeline.arrRef spec3 2))
    (hafter : ∀ t, dat.after 2 t = blk V c 2 t) (t : Fin cfg3.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_g {c : Dev nD} (dat : Dat τ (Elt F) Unit ℕ (UR sig nD τ) ℕ cfg3 c) (hA : dat.A 3 = V c (Pipeline.arrRef spec3 3))
    (hafter : ∀ t, dat.after 3 t = blk V c 3 t) (t : Fin cfg3.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_s {c : Dev nD} (dat : Dat τ (Elt F) Unit ℕ (UR sig nD τ) ℕ cfg3 c) (hA : dat.A 4 = V c (Pipeline.arrRef spec3 4))
    (hafter : ∀ t, dat.after 4 t = blk V c 4 t) (t : Fin cfg3.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The body's accesses: each a whole block. -/
abbrev rE : Rect S2048x512 := Rect.unit (s := S2048x512) ![0, 0] S2048x512.size inb_S2048x512_S2048x512_0_0
abbrev rW : Rect S512x512 := Rect.unit (s := S512x512) ![0, 0] S512x512.size inb_S512x512_S512x512_0_0
abbrev rR : Rect S1x512 := Rect.unit (s := S1x512) ![0, 0] S1x512.size inb_S1x512_S1x512_0_0

/-- What the body leaves in the output tile, from the five input blocks: its one store. -/
def tile (e : Vec F S2048x512 .f32) (w : Vec F S512x512 .f32) (b g s : Vec F S1x512 .f32) : Vec F S2048x512 .f32 :=
  View.canon [⟨rE, k3_pay1 (View.ld e rE) (View.ld w rW) (View.ld b rR) (View.ld g rR) (View.ld s rR)⟩]

theorem tile_cover (p : Vec F S2048x512 .f32) (y : S2048x512.Idx) :
    ∃ pc ∈ ([⟨rE, p⟩] : List (View.Piece (Elt F) S2048x512 .f32)), y ∈ pc.1.set :=
  View.cover_of_tiled [⟨rE, p⟩] S2048x512.size (by rfl) y

set_option maxHeartbeats 1000000 in
/-- The body on whole staging buffers: the inputs are left as read, the output ends at `tile` of them. -/
theorem sound_kernel (c : Dev nD) (E : Set ℕ) (i : grid3.Coords) (arg1 : Memref sig .tc .vmem S2048x512 .f32) (harg1 : arg1.IsWhole)
    (arg2 : Memref sig .tc .vmem S512x512 .f32) (harg2 : arg2.IsWhole) (arg3 : Memref sig .tc .vmem S1x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S2048x512 .f32) (harg6 : arg6.IsWhole)
    (x0 : Vec F S2048x512 .f32) (x1 : Vec F S512x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (tile x0 x1 x2 x3 x4)) -∗ K ⟨⟩))
      ⊢ wp frame (wpE (defs₀ (F := F)) Variants.none c none) E (cc3__edge_ln_kernel i arg1 harg1 arg2 harg2 arg3 harg3 arg4 harg4 arg5 harg5 arg6 harg6) K := by
  simp only [cc3__edge_ln_kernel_eq_skeleton]; unfold cc3__edge_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover _)

/-- The region's proof data on core c. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => tile (blk V c 0 t) (blk V c 1 t) (blk V c 2 t) (blk V c 3 t) (blk V c 4 t)
  Φ _ := Pipeline.ΦA spec3 c
  q _ := fullShare
  owed _ := 0

theorem A_eq (c : Dev nD) (w : Fin cfg3.W) : (dat V c).A w = V c (Pipeline.arrRef spec3 w) := by
  dsimp only [dat]

theorem after_e (c : Dev nD) (t : Fin cfg3.N) : (dat V c).after 0 t = blk V c 0 t := by dsimp only [dat]
theorem after_w (c : Dev nD) (t : Fin cfg3.N) : (dat V c).after 1 t = blk V c 1 t := by dsimp only [dat]
theorem after_b (c : Dev nD) (t : Fin cfg3.N) : (dat V c).after 2 t = blk V c 2 t := by dsimp only [dat]
theorem after_g (c : Dev nD) (t : Fin cfg3.N) : (dat V c).after 3 t = blk V c 3 t := by dsimp only [dat]
theorem after_s (c : Dev nD) (t : Fin cfg3.N) : (dat V c).after 4 t = blk V c 4 t := by dsimp only [dat]
theorem after_out (c : Dev nD) (t : Fin cfg3.N) :
    (dat V c).after 5 t = tile (blk V c 0 t) (blk V c 1 t) (blk V c 2 t) (blk V c 3 t) (blk V c 4 t) := by dsimp only [dat]

theorem found_e (c : Dev nD) (t : Fin cfg3.N) (d) : (dat V c).before 0 t d = blk V c 0 t :=
  before_e V (dat V c) (A_eq V c 0) (after_e V c) t d
theorem found_w (c : Dev nD) (t : Fin cfg3.N) (d) : (dat V c).before 1 t d = blk V c 1 t :=
  before_w V (dat V c) (A_eq V c 1) (after_w V c) t d
theorem found_b (c : Dev nD) (t : Fin cfg3.N) (d) : (dat V c).before 2 t d = blk V c 2 t :=
  before_b V (dat V c) (A_eq V c 2) (after_b V c) t d
theorem found_g (c : Dev nD) (t : Fin cfg3.N) (d) : (dat V c).before 3 t d = blk V c 3 t :=
  before_g V (dat V c) (A_eq V c 3) (after_g V c) t d
theorem found_s (c : Dev nD) (t : Fin cfg3.N) (d) : (dat V c).before 4 t d = blk V c 4 t :=
  before_s V (dat V c) (A_eq V c 4) (after_s V c) t d

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [found_e, found_w, found_b, found_g, found_s]
  rw [show (dat V c).Φ t.succ = (dat V c).Φ t.castSucc from rfl,
    show (dat V c).owesAt () t.succ = (dat V c).owesAt () t.castSucc from rfl,
    after_e, after_w, after_b, after_g, after_s, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W3, bigSep_W3]
  exact sound_body V c t

end Cert.Kernel.Edge

end
-- ==== Proof.KB.Run.lean ====
/-
  The whole program: four regions among three stretches of host operations (the concatenation and transposition of the
  weights before the first region, the reshapes of the layer norm's rows before the third and fourth).  The buffers'
  contents at each boundary are a fold from the launch memory: a host stretch applies its operations, a region
  replaces its output arrays by what its write-backs leave and changes nothing else.  Every argument array is
  written by no stretch and is no region's output, so it ends as launched; the two results end at what the third and
  fourth regions leave.
-/
import proofs.«154112_j74371653697779_2_alg».proof.Proof.KB.Proj
import proofs.«154112_j74371653697779_2_alg».proof.Proof.KB.LowRank
import proofs.«154112_j74371653697779_2_alg».proof.Proof.KB.Attn
import proofs.«154112_j74371653697779_2_alg».proof.Proof.KB.Edge
import proofs.«154112_j74371653697779_2_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: the first region's entry. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- After the projection: its output array at what the write-backs leave. -/
def W2 (c : Dev nD) : Valuation τ sig (Elt F) :=
  Function.update (W1 m ρ c) main_v4 ((Proj.dat (E1 m ρ) c).arrAt 3 cfg0.N)
abbrev E2 : (c : Dev nD) → (b : Ref sig .tc) → Buf (Elt F) ((c : Thread nD τ).loc b) := fun c b => W2 m ρ c b
/-- After the low-rank projections: the two accumulators' arrays. -/
def W3 (c : Dev nD) : Valuation τ sig (Elt F) :=
  Function.update (Function.update (W2 m ρ c) main_v5_0 ((LowRank.dat (E2 m ρ) c).arrAt 4 cfg1.N)) main_v5_1 ((LowRank.dat (E2 m ρ) c).arrAt 5 cfg1.N)
abbrev E3 : (c : Dev nD) → (b : Ref sig .tc) → Buf (Elt F) ((c : Thread nD τ).loc b) := fun c b => W3 m ρ c b
/-- After the second host stretch: the third region's entry. -/
abbrev W4 : Dev nD → Valuation τ sig (Elt F) := fun c => StableHlo.after hostOps2 (W3 m ρ c)
abbrev E4 : (c : Dev nD) → (b : Ref sig .tc) → Buf (Elt F) ((c : Thread nD τ).loc b) := fun c b => W4 m ρ c b
/-- After the attention region: the first result. -/
def W5 (c : Dev nD) : Valuation τ sig (Elt F) :=
  Function.update (W4 m ρ c) main_v8 ((Attn.dat (E4 m ρ) c).arrAt 6 cfg2.N)
abbrev E5 : (c : Dev nD) → (b : Ref sig .tc) → Buf (Elt F) ((c : Thread nD τ).loc b) := fun c b => W5 m ρ c b
/-- After the third host stretch: the fourth region's entry. -/
abbrev W6 : Dev nD → Valuation τ sig (Elt F) := fun c => StableHlo.after hostOps3 (W5 m ρ c)
abbrev E6 : (c : Dev nD) → (b : Ref sig .tc) → Buf (Elt F) ((c : Thread nD τ).loc b) := fun c b => W6 m ρ c b
/-- After the edge region: the second result. -/
def W7 (c : Dev nD) : Valuation τ sig (Elt F) :=
  Function.update (W6 m ρ c) main_v13 ((Edge.dat (E6 m ρ) c).arrAt 5 cfg3.N)
abbrev E7 : (c : Dev nD) → (b : Ref sig .tc) → Buf (Elt F) ((c : Thread nD τ).loc b) := fun c b => W7 m ρ c b

theorem W2_out (c : Dev nD) : W2 m ρ c main_v4 = (Proj.dat (E1 m ρ) c).arrAt 3 cfg0.N := by
  unfold W2; exact Function.update_self ..
theorem W2_of (c : Dev nD) (r : Ref sig .tc) (h : r ≠ main_v4) : W2 m ρ c r = W1 m ρ c r := by
  unfold W2; exact Function.update_of_ne (StableHlo.devRef_ne_of_ne h) ..
theorem W3_k (c : Dev nD) : W3 m ρ c main_v5_0 = (LowRank.dat (E2 m ρ) c).arrAt 4 cfg1.N := by
  unfold W3
  rw [Function.update_of_ne (StableHlo.devRef_ne_of_ne (by decide : (main_v5_0 : Ref sig .tc) ≠ main_v5_1))]
  exact Function.update_self ..
theorem W3_v (c : Dev nD) : W3 m ρ c main_v5_1 = (LowRank.dat (E2 m ρ) c).arrAt 5 cfg1.N := by
  unfold W3; exact Function.update_self ..
theorem W3_of (c : Dev nD) (r : Ref sig .tc) (h0 : r ≠ main_v5_0) (h1 : r ≠ main_v5_1) : W3 m ρ c r = W2 m ρ c r := by
  unfold W3
  rw [Function.update_of_ne (StableHlo.devRef_ne_of_ne h1), Function.update_of_ne (StableHlo.devRef_ne_of_ne h0)]
theorem W5_out (c : Dev nD) : W5 m ρ c main_v8 = (Attn.dat (E4 m ρ) c).arrAt 6 cfg2.N := by
  unfold W5; exact Function.update_self ..
theorem W5_of (c : Dev nD) (r : Ref sig .tc) (h : r ≠ main_v8) : W5 m ρ c r = W4 m ρ c r := by
  unfold W5; exact Function.update_of_ne (StableHlo.devRef_ne_of_ne h) ..
theorem W7_out (c : Dev nD) : W7 m ρ c main_v13 = (Edge.dat (E6 m ρ) c).arrAt 5 cfg3.N := by
  unfold W7; exact Function.update_self ..
theorem W7_of (c : Dev nD) (r : Ref sig .tc) (h : r ≠ main_v13) : W7 m ρ c r = W6 m ρ c r := by
  unfold W7; exact Function.update_of_ne (StableHlo.devRef_ne_of_ne h) ..
theorem W1_of (c : Dev nD) (r : Ref sig .tc) (h : r ∉ hostOps0_W) : W1 m ρ c r = W0 m ρ c r :=
  StableHlo.after_of_writes_sub hostOps0 _ hostOps0_writes h
theorem W4_of (c : Dev nD) (r : Ref sig .tc) (h : r ∉ hostOps2_W) : W4 m ρ c r = W3 m ρ c r :=
  StableHlo.after_of_writes_sub hostOps2 _ hostOps2_writes h
theorem W6_of (c : Dev nD) (r : Ref sig .tc) (h : r ∉ hostOps3_W) : W6 m ρ c r = W5 m ρ c r :=
  StableHlo.after_of_writes_sub hostOps3 _ hostOps3_writes h

/-- A buffer no stretch writes and no region puts out ends as launched. -/
theorem W7_kept (c : Dev nD) (r : Ref sig .tc) (h1 : r ∉ hostOps0_W) (h2 : r ≠ main_v4) (h3 : r ≠ main_v5_0) (h3' : r ≠ main_v5_1)
    (h4 : r ∉ hostOps2_W) (h5 : r ≠ main_v8) (h6 : r ∉ hostOps3_W) (h7 : r ≠ main_v13) :
    W7 m ρ c r = m ((c : Thread nD τ).loc r) :=
  (W7_of m ρ c r h7).trans <| (W6_of m ρ c r h6).trans <| (W5_of m ρ c r h5).trans <| (W4_of m ρ c r h4).trans <|
    (W3_of m ρ c r h3 h3').trans <| (W2_of m ρ c r h2).trans <| (W1_of m ρ c r h1).trans rfl

/-! ## What each region leaves, against the next boundary -/

theorem proj_final (c : Dev nD) (w : Fin cfg0.W) :
    (Proj.dat (E1 m ρ) c).arrAt w cfg0.N = E2 m ρ c (Pipeline.arrRef spec0 w) :=
  match w with
  | ⟨0, _⟩ => (((Proj.dat (E1 m ρ) c).arrAt_in 0 rfl _).trans (Proj.A_eq (E1 m ρ) c 0)).trans (W2_of m ρ c _ (by decide)).symm
  | ⟨1, _⟩ => (((Proj.dat (E1 m ρ) c).arrAt_in 1 rfl _).trans (Proj.A_eq (E1 m ρ) c 1)).trans (W2_of m ρ c _ (by decide)).symm
  | ⟨2, _⟩ => (((Proj.dat (E1 m ρ) c).arrAt_in 2 rfl _).trans (Proj.A_eq (E1 m ρ) c 2)).trans (W2_of m ρ c _ (by decide)).symm
  | ⟨3, _⟩ => (W2_out m ρ c).symm
theorem proj_rest (c : Dev nD) : ∀ b, b ∉ Finset.univ.image (Pipeline.arrRef spec0) → E2 m ρ c b = E1 m ρ c b :=
  fun b hb => W2_of m ρ c b fun e => hb (Finset.mem_image.mpr ⟨3, Finset.mem_univ _, e.symm⟩)
theorem attn_final (c : Dev nD) (w : Fin cfg2.W) :
    (Attn.dat (E4 m ρ) c).arrAt w cfg2.N = E5 m ρ c (Pipeline.arrRef spec2 w) :=
  match w with
  | ⟨0, _⟩ => (((Attn.dat (E4 m ρ) c).arrAt_in 0 rfl _).trans (Attn.A_eq (E4 m ρ) c 0)).trans (W5_of m ρ c _ (by decide)).symm
  | ⟨1, _⟩ => (((Attn.dat (E4 m ρ) c).arrAt_in 1 rfl _).trans (Attn.A_eq (E4 m ρ) c 1)).trans (W5_of m ρ c _ (by decide)).symm
  | ⟨2, _⟩ => (((Attn.dat (E4 m ρ) c).arrAt_in 2 rfl _).trans (Attn.A_eq (E4 m ρ) c 2)).trans (W5_of m ρ c _ (by decide)).symm
  | ⟨3, _⟩ => (((Attn.dat (E4 m ρ) c).arrAt_in 3 rfl _).trans (Attn.A_eq (E4 m ρ) c 3)).trans (W5_of m ρ c _ (by decide)).symm
  | ⟨4, _⟩ => (((Attn.dat (E4 m ρ) c).arrAt_in 4 rfl _).trans (Attn.A_eq (E4 m ρ) c 4)).trans (W5_of m ρ c _ (by decide)).symm
  | ⟨5, _⟩ => (((Attn.dat (E4 m ρ) c).arrAt_in 5 rfl _).trans (Attn.A_eq (E4 m ρ) c 5)).trans (W5_of m ρ c _ (by decide)).symm
  | ⟨6, _⟩ => (W5_out m ρ c).symm
theorem attn_rest (c : Dev nD) : ∀ b, b ∉ Finset.univ.image (Pipeline.arrRef spec2) → E5 m ρ c b = E4 m ρ c b :=
  fun b hb => W5_of m ρ c b fun e => hb (Finset.mem_image.mpr ⟨6, Finset.mem_univ _, e.symm⟩)
theorem edge_final (c : Dev nD) (w : Fin cfg3.W) :
    (Edge.dat (E6 m ρ) c).arrAt w cfg3.N = E7 m ρ c (Pipeline.arrRef spec3 w) :=
  match w with
  | ⟨0, _⟩ => (((Edge.dat (E6 m ρ) c).arrAt_in 0 rfl _).trans (Edge.A_eq (E6 m ρ) c 0)).trans (W7_of m ρ c _ (by decide)).symm
  | ⟨1, _⟩ => (((Edge.dat (E6 m ρ) c).arrAt_in 1 rfl _).trans (Edge.A_eq (E6 m ρ) c 1)).trans (W7_of m ρ c _ (by decide)).symm
  | ⟨2, _⟩ => (((Edge.dat (E6 m ρ) c).arrAt_in 2 rfl _).trans (Edge.A_eq (E6 m ρ) c 2)).trans (W7_of m ρ c _ (by decide)).symm
  | ⟨3, _⟩ => (((Edge.dat (E6 m ρ) c).arrAt_in 3 rfl _).trans (Edge.A_eq (E6 m ρ) c 3)).trans (W7_of m ρ c _ (by decide)).symm
  | ⟨4, _⟩ => (((Edge.dat (E6 m ρ) c).arrAt_in 4 rfl _).trans (Edge.A_eq (E6 m ρ) c 4)).trans (W7_of m ρ c _ (by decide)).symm
  | ⟨5, _⟩ => (W7_out m ρ c).symm
theorem edge_rest (c : Dev nD) : ∀ b, b ∉ Finset.univ.image (Pipeline.arrRef spec3) → E7 m ρ c b = E6 m ρ c b :=
  fun b hb => W7_of m ρ c b fun e => hb (Finset.mem_image.mpr ⟨5, Finset.mem_univ _, e.symm⟩)

/-! ## The proof data family and the thread state -/

abbrev adm : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => Proj.dat (E1 m ρ) c
  | ⟨1, _⟩ => fun c => LowRank.dat (E2 m ρ) c
  | ⟨2, _⟩ => fun c => Attn.dat (E4 m ρ) c
  | ⟨3, _⟩ => fun c => Edge.dat (E6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The second region's arrays: one buffer under two windows -/

theorem low_init (c : Dev nD) (w : Fin cfg1.W) :
    (LowRank.dat (E2 m ρ) c).arrAt w 0 = E2 m ρ c (Pipeline.arrRef spec1 w) := LowRank.A_eq (E2 m ρ) c w
theorem low_final (c : Dev nD) (w : Fin cfg1.W) :
    (LowRank.dat (E2 m ρ) c).arrAt w cfg1.N = E3 m ρ c (Pipeline.arrRef spec1 w) :=
  match w with
  | ⟨0, _⟩ => (((LowRank.dat (E2 m ρ) c).arrAt_in 0 rfl _).trans (LowRank.A_eq (E2 m ρ) c 0)).trans (W3_of m ρ c _ (by decide) (by decide)).symm
  | ⟨1, _⟩ => (((LowRank.dat (E2 m ρ) c).arrAt_in 1 rfl _).trans (LowRank.A_eq (E2 m ρ) c 1)).trans (W3_of m ρ c _ (by decide) (by decide)).symm
  | ⟨2, _⟩ => (((LowRank.dat (E2 m ρ) c).arrAt_in 2 rfl _).trans (LowRank.A_eq (E2 m ρ) c 2)).trans (W3_of m ρ c _ (by decide) (by decide)).symm
  | ⟨3, _⟩ => (((LowRank.dat (E2 m ρ) c).arrAt_in 3 rfl _).trans (LowRank.A_eq (E2 m ρ) c 3)).trans (W3_of m ρ c _ (by decide) (by decide)).symm
  | ⟨4, _⟩ => (W3_k m ρ c).symm
  | ⟨5, _⟩ => (W3_v m ρ c).symm
theorem low_rest (c : Dev nD) : ∀ b, b ∉ Finset.univ.image (Pipeline.arrRef spec1) → E3 m ρ c b = E2 m ρ c b :=
  fun b hb => W3_of m ρ c b (fun e => hb (Finset.mem_image.mpr ⟨4, Finset.mem_univ _, e.symm⟩))
    (fun e => hb (Finset.mem_image.mpr ⟨5, Finset.mem_univ _, e.symm⟩))

set_option backward.isDefEq.respectTransparency.types false in
/-- ENTRY.  The core's unscoped buffers at the region's entry contents are the region's arrays — the fused
    projection's buffer dealt in two halves to the key-column and value-column windows — and the rest. -/
theorem low_split (c : Dev nD) :
    (unscopedBufs c (E2 m ρ c) : sProp 𝕄)
      ⊢ iprop((pdats m ρ 1 c).arrays ((pdats m ρ 1 c).arrAt · 0) ∗ Pipeline.unscopedRest spec1 c (E2 m ρ c)) := by
  rw [Pipeline.unscopedBufs_split₀ (Pipeline.pin (pcfgs (F := F)) adm) 1 winFacts₀1.arr_unscoped c (E2 m ρ c)]
  refine sep_mono ?_ .rfl
  have harrs : (pdats m ρ 1 c).arrays ((pdats m ρ 1 c).arrAt · 0)
      = bigSep Finset.univ fun w : Fin 6 => (((c.tc : Thread nD τ).loc (Pipeline.arrRef spec1 w)) ↦{(pdats m ρ 1 c).share w} E2 m ρ c (Pipeline.arrRef spec1 w) : sProp 𝕄) := by
    unfold Pipeline.Dat.arrays
    exact bigSep_congr fun w _ => by
      beta_reduce
      rw [show ((Pipeline.pin (pcfgs (F := F)) adm 1).win w).arr.view.set = Finset.univ from (arr_whole1 w).set_eq_univ,
        show (pdats m ρ 1 c).arrAt w 0 = E2 m ρ c (Pipeline.arrRef spec1 w) from low_init m ρ c w]; rfl
  have hbufs : (Pipeline.arrBufs (Pipeline.pin (pcfgs (F := F)) adm 1).spec c (E2 m ρ c) : sProp 𝕄)
      = iprop((((c.tc : Thread nD τ).loc main_arg10) ↦{fullShare} E2 m ρ c main_arg10)
        ∗ (((c.tc : Thread nD τ).loc main_arg11) ↦{fullShare} E2 m ρ c main_arg11)
        ∗ (((c.tc : Thread nD τ).loc main_v4) ↦{fullShare} E2 m ρ c main_v4)
        ∗ (((c.tc : Thread nD τ).loc main_v5_0) ↦{fullShare} E2 m ρ c main_v5_0)
        ∗ (((c.tc : Thread nD τ).loc main_v5_1) ↦{fullShare} E2 m ρ c main_v5_1)) := by
    unfold Pipeline.arrBufs
    exact bigSep_eq_bigSepL_of_eq [main_arg10, main_arg11, main_v4, main_v5_0, main_v5_1]
      (show Finset.univ.image (Pipeline.arrRef (Pipeline.pin (pcfgs (F := F)) adm 1).spec) = [main_arg10, main_arg11, main_v4, main_v5_0, main_v5_1].toFinset from
        (by decide : Finset.univ.image (Pipeline.arrRef spec1) = [main_arg10, main_arg11, main_v4, main_v5_0, main_v5_1].toFinset)) (by decide) _
  rw [harrs, hbufs, bigSep_W1]
  iintro ⟨H0, H1, H2, H3, H4⟩
  ihave H2' := (pointsTo_share (PosShare.mem_left_op_right fullShare)).1 $$ H2
  icases H2' with ⟨H2a, H2b⟩
  isplitl [H0]; · iexact H0
  isplitl [H1]; · iexact H1
  isplitl [H2a]; · iexact H2a
  isplitl [H2b]; · iexact H2b
  isplitl [H3]; · iexact H3
  iexact H4

set_option backward.isDefEq.respectTransparency.types false in
/-- EXIT.  The arrays at their final contents and the rest are the unscoped buffers at the next boundary. -/
theorem low_join (c : Dev nD) :
    iprop((pdats m ρ 1 c).arrays ((pdats m ρ 1 c).arrAt · cfg1.N) ∗ Pipeline.unscopedRest spec1 c (E2 m ρ c))
      ⊢ (unscopedBufs c (E3 m ρ c) : sProp 𝕄) := by
  rw [Pipeline.unscopedBufs_split₀ (Pipeline.pin (pcfgs (F := F)) adm) 1 winFacts₀1.arr_unscoped c (E3 m ρ c)]
  refine sep_mono ?_ (Entails.of_eq ?_)
  · have harrs : (pdats m ρ 1 c).arrays ((pdats m ρ 1 c).arrAt · cfg1.N)
        = bigSep Finset.univ fun w : Fin 6 => (((c.tc : Thread nD τ).loc (Pipeline.arrRef spec1 w)) ↦{(pdats m ρ 1 c).share w} E3 m ρ c (Pipeline.arrRef spec1 w) : sProp 𝕄) := by
      unfold Pipeline.Dat.arrays
      exact bigSep_congr fun w _ => by
        beta_reduce
        rw [show ((Pipeline.pin (pcfgs (F := F)) adm 1).win w).arr.view.set = Finset.univ from (arr_whole1 w).set_eq_univ,
          show (pdats m ρ 1 c).arrAt w cfg1.N = E3 m ρ c (Pipeline.arrRef spec1 w) from low_final m ρ c w]; rfl
    have hbufs : (Pipeline.arrBufs (Pipeline.pin (pcfgs (F := F)) adm 1).spec c (E3 m ρ c) : sProp 𝕄)
        = iprop((((c.tc : Thread nD τ).loc main_arg10) ↦{fullShare} E3 m ρ c main_arg10)
          ∗ (((c.tc : Thread nD τ).loc main_arg11) ↦{fullShare} E3 m ρ c main_arg11)
          ∗ (((c.tc : Thread nD τ).loc main_v4) ↦{fullShare} E3 m ρ c main_v4)
          ∗ (((c.tc : Thread nD τ).loc main_v5_0) ↦{fullShare} E3 m ρ c main_v5_0)
          ∗ (((c.tc : Thread nD τ).loc main_v5_1) ↦{fullShare} E3 m ρ c main_v5_1)) := by
      unfold Pipeline.arrBufs
      exact bigSep_eq_bigSepL_of_eq [main_arg10, main_arg11, main_v4, main_v5_0, main_v5_1]
        (show Finset.univ.image (Pipeline.arrRef (Pipeline.pin (pcfgs (F := F)) adm 1).spec) = [main_arg10, main_arg11, main_v4, main_v5_0, main_v5_1].toFinset from
          (by decide : Finset.univ.image (Pipeline.arrRef spec1) = [main_arg10, main_arg11, main_v4, main_v5_0, main_v5_1].toFinset)) (by decide) _
    rw [harrs, hbufs, bigSep_W1]
    iintro ⟨H0, H1, H2a, H2b, H3, H4⟩
    ihave H2 := (pointsTo_share (PosShare.mem_left_op_right fullShare)).2 $$ [H2a H2b]
    · isplitl [H2a]
      · iexact H2a
      iexact H2b
    isplitl [H0]; · iexact H0
    isplitl [H1]; · iexact H1
    isplitl [H2]; · iexact H2
    isplitl [H3]; · iexact H3
    iexact H4
  · unfold Pipeline.unscopedRest
    exact bigSep_congr fun b hb => by rw [low_rest m ρ c b (Finset.mem_sdiff.mp hb).2]

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (proj_final m ρ c) (proj_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (LowRank.body_obligation (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := low_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := low_join m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Attn.body_obligation (E4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (attn_final m ρ c) (attn_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Edge.body_obligation (E6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E6 m ρ c) (E7 m ρ c) ((pdats m ρ 3 c).arrAt · cfg3.N) (edge_final m ρ c) (edge_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
theorem main_run (c : Dev nD) : main (F := F) c = Pipeline.Seg.run (segs m ρ) := (main_chain c).trans (by chain_rfl)

set_option backward.isDefEq.respectTransparency.types false in
/-- THE RUN.  From any memory with zero counters every weakly fair execution of the program terminates, nothing
    faulting, and every final state holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame at any float instance: the sixteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (W7_kept m ρ c main_arg0 (by decide) (by decide) (by decide) (by decide) (by decide) (by decide) (by decide) (by decide)),
    (h c _ (mem_uc main_arg1 (by decide))).trans (W7_kept m ρ c main_arg1 (by decide) (by decide) (by decide) (by decide) (by decide) (by decide) (by decide) (by decide)),
    (h c _ (mem_uc main_arg2 (by decide))).trans (W7_kept m ρ c main_arg2 (by decide) (by decide) (by decide) (by decide) (by decide) (by decide) (by decide) (by decide)),
    (h c _ (mem_uc main_arg3 (by decide))).trans (W7_kept m ρ c main_arg3 (by decide) (by decide) (by decide) (by decide) (by decide) (by decide) (by decide) (by decide)),
    (h c _ (mem_uc main_arg4 (by decide))).trans (W7_kept m ρ c main_arg4 (by decide) (by decide) (by decide) (by decide) (by decide) (by decide) (by decide) (by decide)),
    (h c _ (mem_uc main_arg5 (by decide))).trans (W7_kept m ρ c main_arg5 (by decide) (by decide) (by decide) (by decide) (by decide) (by decide) (by decide) (by decide)),
    (h c _ (mem_uc main_arg6 (by decide))).trans (W7_kept m ρ c main_arg6 (by decide) (by decide) (by decide) (by decide) (by decide) (by decide) (by decide) (by decide)),
    (h c _ (mem_uc main_arg7 (by decide))).trans (W7_kept m ρ c main_arg7 (by decide) (by decide) (by decide) (by decide) (by decide) (by decide) (by decide) (by decide)),
    (h c _ (mem_uc main_arg8 (by decide))).trans (W7_kept m ρ c main_arg8 (by decide) (by decide) (by decide) (by decide) (by decide) (by decide) (by decide) (by decide)),
    (h c _ (mem_uc main_arg9 (by decide))).trans (W7_kept m ρ c main_arg9 (by decide) (by decide) (by decide) (by decide) (by decide) (by decide) (by decide) (by decide)),
    (h c _ (mem_uc main_arg10 (by decide))).trans (W7_kept m ρ c main_arg10 (by decide) (by decide) (by decide) (by decide) (by decide) (by decide) (by decide) (by decide)),
    (h c _ (mem_uc main_arg11 (by decide))).trans (W7_kept m ρ c main_arg11 (by decide) (by decide) (by decide) (by decide) (by decide) (by decide) (by decide) (by decide)),
    (h c _ (mem_uc main_arg12 (by decide))).trans (W7_kept m ρ c main_arg12 (by decide) (by decide) (by decide) (by decide) (by decide) (by decide) (by decide) (by decide)),
    (h c _ (mem_uc main_arg13 (by decide))).trans (W7_kept m ρ c main_arg13 (by decide) (by decide) (by decide) (by decide) (by decide) (by decide) (by decide) (by decide)),
    (h c _ (mem_uc main_arg14 (by decide))).trans (W7_kept m ρ c main_arg14 (by decide) (by decide) (by decide) (by decide) (by decide) (by decide) (by decide) (by decide)),
    (h c _ (mem_uc main_arg15 (by decide))).trans (W7_kept m ρ c main_arg15 (by decide) (by decide) (by decide) (by decide) (by decide) (by decide) (by decide) (by decide))⟩) (run_all m ρ)

end Cert.Kernel.Whole

end
-- ==== Proof.KI.Proj.lean ====
/-
  The first region: one row tile of the fused projection.  At grid point t the body reads the 512 rows
  [512 t, 512 t + 512) of the node features, the whole transposed weight (512 x 1536: the query, key and value
  weights side by side) and the bias row, and stores into the output block
      out[r, j] = sum over k of x[r, k] * w[k, j]  +  b[0, j],
  narrowed to bf16.  The three inputs are left as found; the output block is the single whole-block store.
-/
import proofs.«154112_j74371653697779_2_alg».proof.Proof.Gen.KernelIdeal.Launch
import proofs.«154112_j74371653697779_2_alg».proof.Proof.Gen.KernelIdeal.Skeleton
import proofs.«154112_j74371653697779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of the features is in its staging buffer at every point. -/
theorem before_x {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- The weight, fetched once, is in its staging buffer at every point: its block index never moves. -/
theorem before_w {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- So is the bias row. -/
theorem before_b {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The body's accesses: each a whole block. -/
abbrev rX : Rect S512x512 := Rect.unit (s := S512x512) ![0, 0] S512x512.size inb_S512x512_S512x512_0_0
abbrev rW : Rect S512x1536 := Rect.unit (s := S512x1536) ![0, 0] S512x1536.size inb_S512x1536_S512x1536_0_0
abbrev rB : Rect S1x1536 := Rect.unit (s := S1x1536) ![0, 0] S1x1536.size inb_S1x1536_S1x1536_0_0

/-- What the body leaves in the output block, from the three input blocks: its one store. -/
def tile (x : Vec F S512x512 .f32) (w : Vec F S512x1536 .f32) (b : Vec F S1x1536 .f32) : Vec F S512x1536 .bf16 :=
  View.canon [⟨rW, k0_pay1 (View.ld x rX) (View.ld w rW) (View.ld b rB)⟩]

/-- The one store covers the block. -/
theorem tile_cover (p : Vec F S512x1536 .bf16) (y : S512x1536.Idx) :
    ∃ pc ∈ ([⟨rW, p⟩] : List (View.Piece (Elt F) S512x1536 .bf16)), y ∈ pc.1.set :=
  View.cover_of_tiled [⟨rW, p⟩] S512x1536.size (by rfl) y

set_option maxHeartbeats 1000000 in
/-- The body on whole staging buffers: the inputs are left as read, the output ends at `tile` of them. -/
theorem sound_kernel (c : Dev nD) (E : Set ℕ) (i : grid0.Coords) (arg1 : Memref sig .tc .vmem S512x512 .f32) (harg1 : arg1.IsWhole)
    (arg2 : Memref sig .tc .vmem S512x1536 .f32) (harg2 : arg2.IsWhole) (arg3 : Memref sig .tc .vmem S1x1536 .f32) (harg3 : arg3.IsWhole)
    (arg4 : Memref sig .tc .vmem S512x1536 .bf16) (harg4 : arg4.IsWhole)
    (x0 : Vec F S512x512 .f32) (x1 : Vec F S512x1536 .f32) (x2 : Vec F S1x1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (tile x0 x1 x2)) -∗ K ⟨⟩))
      ⊢ wp frame (wpE (defs₀ (F := F)) Variants.none c none) E (cc0__qkv_proj_kernel i arg1 harg1 arg2 harg2 arg3 harg3 arg4 harg4) K := by
  simp only [cc0__qkv_proj_kernel_eq_skeleton]; unfold cc0__qkv_proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tile_cover _)

/-- The region's proof data on core c: the arrays as found; after the body at point t each input's buffer at its
    block and the output's at `tile` of the three; nothing kept between points; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => tile (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_x (c : Dev nD) (t : Fin cfg0.N) : (dat V c).after 0 t = blk V c 0 t := by dsimp only [dat]
theorem after_w (c : Dev nD) (t : Fin cfg0.N) : (dat V c).after 1 t = blk V c 1 t := by dsimp only [dat]
theorem after_b (c : Dev nD) (t : Fin cfg0.N) : (dat V c).after 2 t = blk V c 2 t := by dsimp only [dat]
theorem after_out (c : Dev nD) (t : Fin cfg0.N) :
    (dat V c).after 3 t = tile (blk V c 0 t) (blk V c 1 t) (blk V c 2 t) := by dsimp only [dat]

theorem found_x (c : Dev nD) (t : Fin cfg0.N) (d) : (dat V c).before 0 t d = blk V c 0 t :=
  before_x V (dat V c) (A_eq V c 0) (after_x V c) t d
theorem found_w (c : Dev nD) (t : Fin cfg0.N) (d) : (dat V c).before 1 t d = blk V c 1 t :=
  before_w V (dat V c) (A_eq V c 1) (after_w V c) t d
theorem found_b (c : Dev nD) (t : Fin cfg0.N) (d) : (dat V c).before 2 t d = blk V c 2 t :=
  before_b V (dat V c) (A_eq V c 2) (after_b V c) t d

/-- What the body is called with at point t, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' buffers hold their blocks, so `sound_kernel` applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [found_x, found_w, found_b]
  rw [show (dat V c).Φ t.succ = (dat V c).Φ t.castSucc from rfl,
    show (dat V c).owesAt () t.succ = (dat V c).owesAt () t.castSucc from rfl,
    after_x, after_w, after_b, after_out]
  iintro ⟨HΦ, Ho, ⟨%d0, H0⟩, ⟨%d1, H1⟩, ⟨%d2, H2⟩, ⟨%d3, H3⟩⟩
  iapply (sound_kernel c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.KI.LowRank.lean ====
/-
  The second region: the two low-rank projections, four heads at a time.  The grid is (head group, node tile); at a
  point the body reads the node tile's 512 columns of the two projection matrices for the group's four heads and the
  tile's 512 rows of the group's key columns and value columns of the fused projection — two windows on ONE array —
  and, per head, adds  E_h[:, tile] k_h[tile, :]  into the head's slab of the first accumulator and
  F_h[:, tile] v_h[tile, :]  into the second.  At the first tile of a group both accumulators are zeroed first; they
  are written back after the group's last tile.  So there are two control cases, and at every point but a group's
  first each accumulator starts from what the point before left.
-/
import proofs.«154112_j74371653697779_2_alg».proof.Proof.Gen.KernelIdeal.Launch
import proofs.«154112_j74371653697779_2_alg».proof.Proof.Gen.KernelIdeal.Skeleton
import proofs.«154112_j74371653697779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.LowRank

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- The body's one branch: taken exactly when the node-tile coordinate is zero. -/
abbrev first (i : grid1.Coords) : Prop := (Scalar.cmpi .ne (Scalar.extui (Scalar.cmpi .eq (BitVec.ofNat 32 (i 1).val) 0#32)) 0#32) = 1#1
/-- Over the grid: at the points divisible by 16. -/
theorem first_iff : ∀ t : Fin cfg1.N, first (grid1.coords t) ↔ t.val % 16 = 0 :=
  (by decide +kernel : ∀ t : Fin grid1.N, first (grid1.coords t) ↔ t.val % 16 = 0)

/-- One staging buffer of each accumulator, through which its contents are stated. -/
abbrev VK : View sig .tc .vmem S4x256x64 .f32 := (Memref.whole cc1_stg4_0 : Memref sig .tc .vmem S4x256x64 .f32).view
abbrev VV : View sig .tc .vmem S4x256x64 .f32 := (Memref.whole cc1_stg5_0 : Memref sig .tc .vmem S4x256x64 .f32).view
/-- Each window's current staging buffer at point t, as the pipeline passes it, and its wholeness. -/
abbrev ms0 (t : Fin cfg1.N) : Memref sig .tc .vmem S4x256x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4x256x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x256 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x256 .bf16 := win1_3.stage (cfg1.slots t 3)
abbrev hs3 (t : Fin cfg1.N) : (ms3 t).IsWhole := hstage1_3 ((cfg1.slots t 3).cast nbuf1_3)
abbrev ms4 (t : Fin cfg1.N) : Memref sig .tc .vmem S4x256x64 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S4x256x64 .f32 := win1_5.stage (cfg1.slots t 5)
abbrev hs5 (t : Fin cfg1.N) : (ms5 t).IsWhole := hstage1_5 ((cfg1.slots t 5).cast nbuf1_5)

set_option maxHeartbeats 4000000 in
/-- The body at a group's FIRST tile, on whole staging buffers: the inputs are left as read; each accumulator ends
    with the listed stores written (the zeroing, then the four slabs), whatever it held. -/
noncomputable def runFirst (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : first i)
    (x0 x1 : Vec F S4x256x512 .f32) (x2 x3 : Vec F S512x256 .bf16) :
    Σ' (LK : List (View.Piece (Elt F) S4x256x64 .f32)), { LV : List (View.Piece (Elt F) S4x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LK)
                ∗ (∃ f, arg7.view.loc (c : Thread nD τ) ↦[arg7.view.set]{fullShare} arg7.view.writes (Elt F) f LV)) -∗ K ⟨⟩))
          ⊢ wp frame (wpE (defs₀ (F := F)) Variants.none c none) E (cc1__lowrank_kernel i arg2 harg2 arg3 harg3 arg4 harg4 arg5 harg5 arg6 harg6 arg7 harg7) K } := by
  refine ⟨?_, ?_, fun E K => ?run⟩
  case run =>
    simp only [cc1__lowrank_kernel_eq_skeleton]; unfold cc1__lowrank_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0
    obtain rfl := harg3.eq_unread hf1
    obtain rfl := harg4.eq_unread hf2
    obtain rfl := harg5.eq_unread hf3
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

set_option maxHeartbeats 4000000 in
/-- The body at any LATER tile of a group: each accumulator, held at given contents, ends with the four slab stores
    written over them. -/
noncomputable def runLater (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : ¬first i)
    (x0 x1 : Vec F S4x256x512 .f32) (x2 x3 : Vec F S512x256 .bf16) (ak av : Vec F S4x256x64 .f32) :
    Σ' (LK : List (View.Piece (Elt F) S4x256x64 .f32)), { LV : List (View.Piece (Elt F) S4x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare ak ∗ owns (c : Thread nD τ) arg7 fullShare av
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f LK)
                ∗ (∃ f, arg7.view.loc (c : Thread nD τ) ↦[arg7.view.set]{fullShare} arg7.view.writes (Elt F) f LV)) -∗ K ⟨⟩))
          ⊢ wp frame (wpE (defs₀ (F := F)) Variants.none c none) E (cc1__lowrank_kernel i arg2 harg2 arg3 harg3 arg4 harg4 arg5 harg5 arg6 harg6 arg7 harg7) K } := by
  refine ⟨?_, ?_, fun E K => ?run⟩
  case run =>
    simp only [cc1__lowrank_kernel_eq_skeleton]; unfold cc1__lowrank_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

/-! ## What each case leaves in the accumulators -/

theorem coverFirstK (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : first i) (x0 x1 : Vec F S4x256x512 .f32) (x2 x3 : Vec F S512x256 .bf16) (y : S4x256x64.Idx) :
    ∃ pc ∈ (runFirst c i arg2 harg2 arg3 harg3 arg4 harg4 arg5 harg5 arg6 harg6 arg7 harg7 hc x0 x1 x2 x3).1, y ∈ pc.1.set :=
  View.cover_of_tiledL (runFirst c i arg2 harg2 arg3 harg3 arg4 harg4 arg5 harg5 arg6 harg6 arg7 harg7 hc x0 x1 x2 x3).1 S4x256x64.size (by sl_kernel_rfl) y
theorem coverFirstV (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : first i) (x0 x1 : Vec F S4x256x512 .f32) (x2 x3 : Vec F S512x256 .bf16) (y : S4x256x64.Idx) :
    ∃ pc ∈ (runFirst c i arg2 harg2 arg3 harg3 arg4 harg4 arg5 harg5 arg6 harg6 arg7 harg7 hc x0 x1 x2 x3).2.1, y ∈ pc.1.set :=
  View.cover_of_tiledL (runFirst c i arg2 harg2 arg3 harg3 arg4 harg4 arg5 harg5 arg6 harg6 arg7 harg7 hc x0 x1 x2 x3).2.1 S4x256x64.size (by sl_kernel_rfl) y
theorem coverLaterK (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : ¬first i) (x0 x1 : Vec F S4x256x512 .f32) (x2 x3 : Vec F S512x256 .bf16) (ak av : Vec F S4x256x64 .f32) (y : S4x256x64.Idx) :
    ∃ pc ∈ (runLater c i arg2 harg2 arg3 harg3 arg4 harg4 arg5 harg5 arg6 harg6 arg7 harg7 hc x0 x1 x2 x3 ak av).1, y ∈ pc.1.set :=
  View.cover_of_tiledL (runLater c i arg2 harg2 arg3 harg3 arg4 harg4 arg5 harg5 arg6 harg6 arg7 harg7 hc x0 x1 x2 x3 ak av).1 S1x256x64.size (by sl_kernel_rfl) y
theorem coverLaterV (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : ¬first i) (x0 x1 : Vec F S4x256x512 .f32) (x2 x3 : Vec F S512x256 .bf16) (ak av : Vec F S4x256x64 .f32) (y : S4x256x64.Idx) :
    ∃ pc ∈ (runLater c i arg2 harg2 arg3 harg3 arg4 harg4 arg5 harg5 arg6 harg6 arg7 harg7 hc x0 x1 x2 x3 ak av).2.1, y ∈ pc.1.set :=
  View.cover_of_tiledL (runLater c i arg2 harg2 arg3 harg3 arg4 harg4 arg5 harg5 arg6 harg6 arg7 harg7 hc x0 x1 x2 x3 ak av).2.1 S1x256x64.size (by sl_kernel_rfl) y

/-- The first accumulator after a group's first tile: the case's stores read back. -/
def firstK (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : first i) (x0 x1 : Vec F S4x256x512 .f32) (x2 x3 : Vec F S512x256 .bf16) : Vec F S4x256x64 .f32 :=
  VK.read (Elt F) (VK.writes (Elt F) VK.junk (runFirst c i arg2 harg2 arg3 harg3 arg4 harg4 arg5 harg5 arg6 harg6 arg7 harg7 hc x0 x1 x2 x3).1)
/-- The second accumulator after a group's first tile. -/
def firstV (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : first i) (x0 x1 : Vec F S4x256x512 .f32) (x2 x3 : Vec F S512x256 .bf16) : Vec F S4x256x64 .f32 :=
  VV.read (Elt F) (VV.writes (Elt F) VV.junk (runFirst c i arg2 harg2 arg3 harg3 arg4 harg4 arg5 harg5 arg6 harg6 arg7 harg7 hc x0 x1 x2 x3).2.1)
/-- The first accumulator after a later tile, from what both held before. -/
def laterK (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : ¬first i) (x0 x1 : Vec F S4x256x512 .f32) (x2 x3 : Vec F S512x256 .bf16) (ak av : Vec F S4x256x64 .f32) : Vec F S4x256x64 .f32 :=
  VK.read (Elt F) (VK.writes (Elt F) VK.junk (runLater c i arg2 harg2 arg3 harg3 arg4 harg4 arg5 harg5 arg6 harg6 arg7 harg7 hc x0 x1 x2 x3 ak av).1)
/-- The second accumulator after a later tile. -/
def laterV (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : ¬first i) (x0 x1 : Vec F S4x256x512 .f32) (x2 x3 : Vec F S512x256 .bf16) (ak av : Vec F S4x256x64 .f32) : Vec F S4x256x64 .f32 :=
  VV.read (Elt F) (VV.writes (Elt F) VV.junk (runLater c i arg2 harg2 arg3 harg3 arg4 harg4 arg5 harg5 arg6 harg6 arg7 harg7 hc x0 x1 x2 x3 ak av).2.1)

/-! ## The accumulation, point by point -/

/-- What the two accumulators' staging buffers hold after the body at position n: a group's first tile starts afresh,
    a later tile continues from what position n - 1 left (the buffers are not written back in between). -/
def acc (c : Dev nD) : (n : ℕ) → n < cfg1.N → Vec F S4x256x64 .f32 × Vec F S4x256x64 .f32
  | 0, hn => (firstK c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((first_iff ⟨0, hn⟩).mpr (Nat.zero_mod _)) (blk V c 0 ⟨0, hn⟩) (blk V c 1 ⟨0, hn⟩) (blk V c 2 ⟨0, hn⟩) (blk V c 3 ⟨0, hn⟩),
              firstV c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((first_iff ⟨0, hn⟩).mpr (Nat.zero_mod _)) (blk V c 0 ⟨0, hn⟩) (blk V c 1 ⟨0, hn⟩) (blk V c 2 ⟨0, hn⟩) (blk V c 3 ⟨0, hn⟩))
  | n + 1, hn =>
    if h0 : (n + 1) % 16 = 0 then
      (firstK c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((first_iff ⟨n + 1, hn⟩).mpr h0) (blk V c 0 ⟨n + 1, hn⟩) (blk V c 1 ⟨n + 1, hn⟩) (blk V c 2 ⟨n + 1, hn⟩) (blk V c 3 ⟨n + 1, hn⟩),
       firstV c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) ((first_iff ⟨n + 1, hn⟩).mpr h0) (blk V c 0 ⟨n + 1, hn⟩) (blk V c 1 ⟨n + 1, hn⟩) (blk V c 2 ⟨n + 1, hn⟩) (blk V c 3 ⟨n + 1, hn⟩))
    else
      (laterK c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => h0 ((first_iff ⟨n + 1, hn⟩).mp h)) (blk V c 0 ⟨n + 1, hn⟩) (blk V c 1 ⟨n + 1, hn⟩) (blk V c 2 ⟨n + 1, hn⟩) (blk V c 3 ⟨n + 1, hn⟩)
          (acc c n (Nat.lt_of_succ_lt hn)).1 (acc c n (Nat.lt_of_succ_lt hn)).2,
       laterV c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (fun h => h0 ((first_iff ⟨n + 1, hn⟩).mp h)) (blk V c 0 ⟨n + 1, hn⟩) (blk V c 1 ⟨n + 1, hn⟩) (blk V c 2 ⟨n + 1, hn⟩) (blk V c 3 ⟨n + 1, hn⟩)
          (acc c n (Nat.lt_of_succ_lt hn)).1 (acc c n (Nat.lt_of_succ_lt hn)).2)

theorem acc_first (c : Dev nD) (t : Fin cfg1.N) (h0 : t.val % 16 = 0) :
    acc V c t.val t.isLt = (firstK c (grid1.coords t) (ms0 t) (hs0 t) (ms1 t) (hs1 t) (ms2 t) (hs2 t) (ms3 t) (hs3 t) (ms4 t) (hs4 t) (ms5 t) (hs5 t) ((first_iff t).mpr h0) (blk V c 0 t) (blk V c 1 t) (blk V c 2 t) (blk V c 3 t),
                            firstV c (grid1.coords t) (ms0 t) (hs0 t) (ms1 t) (hs1 t) (ms2 t) (hs2 t) (ms3 t) (hs3 t) (ms4 t) (hs4 t) (ms5 t) (hs5 t) ((first_iff t).mpr h0) (blk V c 0 t) (blk V c 1 t) (blk V c 2 t) (blk V c 3 t)) := by
  obtain ⟨n, hn⟩ := t
  cases n with
  | zero => exact rfl
  | succ n => exact (dif_pos h0).trans rfl

theorem acc_later (c : Dev nD) (t : Fin cfg1.N) (h0 : ¬t.val % 16 = 0) :
    acc V c t.val t.isLt = (laterK c (grid1.coords t) (ms0 t) (hs0 t) (ms1 t) (hs1 t) (ms2 t) (hs2 t) (ms3 t) (hs3 t) (ms4 t) (hs4 t) (ms5 t) (hs5 t) (fun h => h0 ((first_iff t).mp h)) (blk V c 0 t) (blk V c 1 t) (blk V c 2 t) (blk V c 3 t)
                              (acc V c (t.val - 1) (Nat.lt_of_le_of_lt (Nat.sub_le _ _) t.isLt)).1 (acc V c (t.val - 1) (Nat.lt_of_le_of_lt (Nat.sub_le _ _) t.isLt)).2,
                            laterV c (grid1.coords t) (ms0 t) (hs0 t) (ms1 t) (hs1 t) (ms2 t) (hs2 t) (ms3 t) (hs3 t) (ms4 t) (hs4 t) (ms5 t) (hs5 t) (fun h => h0 ((first_iff t).mp h)) (blk V c 0 t) (blk V c 1 t) (blk V c 2 t) (blk V c 3 t)
                              (acc V c (t.val - 1) (Nat.lt_of_le_of_lt (Nat.sub_le _ _) t.isLt)).1 (acc V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region's proof data -/

/-- The arrays as found; after the body each input's buffer at its block and the accumulators' at `acc`; nothing else
    kept; nothing owed.  The fused projection's buffer is read through two windows at once: each holds one half of it. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => (acc V c t.val t.isLt).1
    | ⟨5, _⟩ => (acc V c t.val t.isLt).2
  Φ _ := Pipeline.ΦA spec1 c
  q w := match w with
    | ⟨2, _⟩ => fullShare.left
    | ⟨3, _⟩ => fullShare.right
    | _ => fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_k (c : Dev nD) (t : Fin cfg1.N) : (dat V c).after 4 t = (acc V c t.val t.isLt).1 := by dsimp only [dat]
theorem after_v (c : Dev nD) (t : Fin cfg1.N) : (dat V c).after 5 t = (acc V c t.val t.isLt).2 := by dsimp only [dat]

theorem found_0 (c : Dev nD) (t : Fin cfg1.N) (d) : (dat V c).before 0 t d = blk V c 0 t :=
  before_0 V (dat V c) (A_eq V c 0) (after_0 V c) t d
theorem found_1 (c : Dev nD) (t : Fin cfg1.N) (d) : (dat V c).before 1 t d = blk V c 1 t :=
  before_1 V (dat V c) (A_eq V c 1) (after_1 V c) t d
theorem found_2 (c : Dev nD) (t : Fin cfg1.N) (d) : (dat V c).before 2 t d = blk V c 2 t :=
  before_2 V (dat V c) (A_eq V c 2) (after_2 V c) t d
theorem found_3 (c : Dev nD) (t : Fin cfg1.N) (d) : (dat V c).before 3 t d = blk V c 3 t :=
  before_3 V (dat V c) (A_eq V c 3) (after_3 V c) t d

/-- At a later tile the first accumulator's buffer holds what the point before left: not the first point, and not
    written back in between. -/
theorem found_k_later (c : Dev nD) (t : Fin cfg1.N) (h0 : ¬t.val % 16 = 0) (d) :
    (dat V c).before 4 t d = (acc V c (t.val - 1) (Nat.lt_of_le_of_lt (Nat.sub_le _ _) t.isLt)).1 := by
  have hN : t.val < 32 := lt_of_lt_of_eq t.isLt (show cfg1.N = 32 from N_1)
  rw [Dat.before_out_kept _ 4 rfl t (by omega) (Bool.eq_false_iff.mpr fun h => by have := (flush1_4 _).mp h; dsimp only at this; omega)
    (fun _ => rfl) (fun _ _ => rfl)]
  dsimp only [dat]
theorem found_v_later (c : Dev nD) (t : Fin cfg1.N) (h0 : ¬t.val % 16 = 0) (d) :
    (dat V c).before 5 t d = (acc V c (t.val - 1) (Nat.lt_of_le_of_lt (Nat.sub_le _ _) t.isLt)).2 := by
  have hN : t.val < 32 := lt_of_lt_of_eq t.isLt (show cfg1.N = 32 from N_1)
  rw [Dat.before_out_kept _ 5 rfl t (by omega) (Bool.eq_false_iff.mpr fun h => by have := (flush1_5 _).mp h; dsimp only at this; omega)
    (fun _ => rfl) (fun _ _ => rfl)]
  dsimp only [dat]

/-! ## The body obligation -/

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t))

set_option maxHeartbeats 1600000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found_0, found_1, found_2, found_3]
  rw [show (dat V c).Φ t.succ = (dat V c).Φ t.castSucc from rfl,
    show (dat V c).owesAt () t.succ = (dat V c).owesAt () t.castSucc from rfl,
    after_0, after_1, after_2, after_3, after_k, after_v]
  have hN : t.val < 32 := lt_of_lt_of_eq t.isLt (show cfg1.N = 32 from N_1)
  by_cases h0 : t.val % 16 = 0
  · rw [acc_first V c t h0]
    dsimp only
    unfold firstK firstV
    iintro ⟨HΦ, Ho, ⟨%d0, H0⟩, ⟨%d1, H1⟩, ⟨%d2, H2⟩, ⟨%d3, H3⟩, ⟨%d4, H4⟩, ⟨%d5, H5⟩⟩
    iapply ((runFirst c (grid1.coords t) _ _ _ _ _ _ _ _ _ _ _ _ ((first_iff t).mpr h0) (blk V c 0 t) (blk V c 1 t) (blk V c 2 t) (blk V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverFirstK c _ _ _ _ _ _ _ _ _ _ _ _ _ _ _ _ _ _)
    unfold owns; iexists _; isplitr
    swap; · iexact H5
    ipureintro; exact View.read_writes_of_cover _ _ _ _ _ (coverFirstV c _ _ _ _ _ _ _ _ _ _ _ _ _ _ _ _ _ _)
  · rw [acc_later V c t h0]
    dsimp only
    simp only [found_k_later V c t h0, found_v_later V c t h0]
    unfold laterK laterV
    iintro ⟨HΦ, Ho, ⟨%d0, H0⟩, ⟨%d1, H1⟩, ⟨%d2, H2⟩, ⟨%d3, H3⟩, ⟨%d4, H4⟩, ⟨%d5, H5⟩⟩
    iapply ((runLater c (grid1.coords t) _ _ _ _ _ _ _ _ _ _ _ _ (fun h => h0 ((first_iff t).mp h)) (blk V c 0 t) (blk V c 1 t) (blk V c 2 t) (blk V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverLaterK c _ _ _ _ _ _ _ _ _ _ _ _ _ _ _ _ _ _ _ _)
    unfold owns; iexists _; isplitr
    swap; · iexact H5
    ipureintro; exact View.read_writes_of_cover _ _ _ _ _ (coverLaterV c _ _ _ _ _ _ _ _ _ _ _ _ _ _ _ _ _ _ _ _)

theorem body_obligation (c : Dev nD) : BodyObligation (dat (F := F) V c) (defs₀ (F := F)) Variants.none () Set.univ := fun t => by
  rw [bigSep_W1, bigSep_W1]
  exact sound_body V c t

end Cert.KernelIdeal.LowRank

end
-- ==== Proof.KI.Attn.lean ====
/-
  The third region: one tile of 1024 nodes.  The body reads the tile's query columns (the first 512 columns of the
  projection), the two low-rank projections (8 heads x 256 x 64), the tile of node features and the layer norm's
  scale and shift rows.  Per head h it forms the scores q_h k_h^T / 8, subtracts each row's maximum, exponentiates,
  divides by the row sum and multiplies by v_h; the eight results side by side are normalised row by row (mean,
  mean squared deviation, reciprocal square root with the epsilon), scaled, shifted, and the node features are added
  back.  One whole-tile store.
-/
import proofs.«154112_j74371653697779_2_alg».proof.Proof.Gen.KernelIdeal.Launch
import proofs.«154112_j74371653697779_2_alg».proof.Proof.Gen.KernelIdeal.Skeleton
import proofs.«154112_j74371653697779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_2 {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_3 {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_4 {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)
theorem before_5 {c : Dev nD} (dat : Dat τ (Elt F) Unit ℕ (UR sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- The body's accesses: each a whole block. -/
abbrev rT : Rect S1024x512 := Rect.unit (s := S1024x512) ![0, 0] S1024x512.size inb_S1024x512_S1024x512_0_0
abbrev rP : Rect S8x256x64 := Rect.unit (s := S8x256x64) ![0, 0, 0] S8x256x64.size inb_S8x256x64_S8x256x64_0_0_0
abbrev rR : Rect S1x512 := Rect.unit (s := S1x512) ![0, 0] S1x512.size inb_S1x512_S1x512_0_0

/-- The stored value from the six loaded blocks: the heads' payloads in the order the body computes them. -/
def stored (q : Vec F S1024x512 .bf16) (pk pv : Vec F S8x256x64 .f32) (x : Vec F S1024x512 .f32) (g s : Vec F S1x512 .f32) :
    FVec F S1024x512 .f32 :=
  have v1 := k2_pay2 q
  have v3 := k2_pay3 pk
  have v5 := k2_pay4 pv
  have v26 := k2_pay5 q pk pv
  have v33 := k2_pay6 pv
  have v41 := k2_pay7 q pk
  have v47 := k2_pay8 v33 v41
  have v68 := k2_pay9 v1 v3 v5
  have v89 := k2_pay10 v1 v3 v5
  have v90 := k2_pay11 v1
  have v110 := k2_pay12 v3 v5 v90
  have v131 := k2_pay13 v1 v3 v5
  have v138 := k2_pay14 v5
  have v139 := k2_pay15 v1 v3
  k2_pay1 (k2_pay16 v1 v3 v5 v26 v47 v68 v89 v110 v131 v138 v139) (k2_pay18 v1 v3 v5 v26 v47 v68 v89 v110 v131 v138 v139)
    (k2_pay19 v1 v3 v5 v26 v47 v68 v89 v110 v131 v138 v139) g s x

/-- What the body leaves in the output tile. -/
def tile (q : Vec F S1024x512 .bf16) (pk pv : Vec F S8x256x64 .f32) (x : Vec F S1024x512 .f32) (g s : Vec F S1x512 .f32) : Vec F S1024x512 .f32 :=
  View.canon [⟨rT, stored (View.ld q rT) (View.ld pk rP) (View.ld pv rP) (View.ld x rT) (View.ld g rR) (View.ld s rR)⟩]

theorem tile_cover (p : Vec F S1024x512 .f32) (y : S1024x512.Idx) :
    ∃ pc ∈ ([⟨rT, p⟩] : List (View.Piece (Elt F) S1024x512 .f32)), y ∈ pc.1.set :=
  View.cover_of_tiled [⟨rT, p⟩] S1024x512.size (by rfl) y

set_option maxHeartbeats 4000000 in
/-- The body on whole staging buffers: the inputs are left as read, the output ends at `tile` of them. -/
theorem sound_kernel (c : Dev nD) (E : Set ℕ) (i : grid2.Coords) (arg1 : Memref sig .tc .vmem S1024x512 .bf16) (harg1 : arg1.IsWhole)
    (arg2 : Memref sig .tc .vmem S8x256x64 .f32) (harg2 : arg2.IsWhole) (arg3 : Memref sig .tc .vmem S8x256x64 .f32) (harg3 : arg3.IsWhole)
    (arg4 : Memref sig .tc .vmem S1024x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S1024x512 .f32) (harg7 : arg7.IsWhole)
    (x0 : Vec F S1024x512 .bf16) (x1 x2 : Vec F S8x256x64 .f32) (x3 : Vec F S1024x512 .f32) (x4 x5 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (tile x0 x1 x2 x3 x4 x5)) -∗ K ⟨⟩))
      ⊢ wp frame (wpE (defs₀ (F := F)) Variants.none c none) E (cc2__attn_ln_kernel i arg1 harg1 arg2 harg2 arg3 harg3 arg4 harg4 arg5 harg5 arg6 harg6 arg7 harg7) K := by
  simp only [cc2__attn_ln_kernel_eq_skeleton]; unfold cc2__attn_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tile_cover _)

/-- The region's proof data on core c. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => tile (blk V c 0 t) (blk V c 1 t) (blk V c 2 t) (blk V c 3 t) (blk V c 4 t) (blk V c 5 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = blk V c 5 t := by dsimp only [dat]
theorem after_out (c : Dev nD) (t : Fin cfg2.N) :
    (dat V c).after 6 t = tile (blk V c 0 t) (blk V c 1 t) (blk V c 2 t) (blk V c 3 t) (blk V c 4 t) (blk V c 5 t) := by dsimp only [dat]

theorem found_0 (c : Dev nD) (t : Fin cfg2.N) (d) : (dat V c).before 0 t d = blk V c 0 t :=
  before_0 V (dat V c) (A_eq V c 0) (after_0 V c) t d
theorem found_1 (c : Dev nD) (t : Fin cfg2.N) (d) : (dat V c).before 1 t d = blk V c 1 t :=
  before_1 V (dat V c) (A_eq V c 1) (after_1 V c) t d
theorem found_2 (c : Dev nD) (t : Fin cfg2.N) (d) : (dat V c).before 2 t d = blk V c 2 t :=
  before_2 V (dat V c) (A_eq V c 2) (after_2 V c) t d
theorem found_3 (c : Dev nD) (t : Fin cfg2.N) (d) : (dat V c).before 3 t d = blk V c 3 t :=
  before_3 V (dat V c) (A_eq V c 3) (after_3 V c) t d
theorem found_4 (c : Dev nD) (t : Fin cfg2.N) (d) : (dat V c).before 4 t d = blk V c 4 t :=
  before_4 V (dat V c) (A_eq V c 4) (after_4 V c) t d
theorem found_5 (c : Dev nD) (t : Fin cfg2.N) (d) : (dat V c).before 5 t d = blk V c 5 t :=
  before_5 V (dat V c) (A_eq V c 5) (after_5 V c) t d

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [found_0, found_1, found_2, found_3, found_4, found_5]
  rw [show (dat V c).Φ t.succ = (dat V c).Φ t.castSucc from rfl,
    show (dat V c).owesAt () t.succ = (dat V c).owesAt () t.castSucc from rfl,
    after_0, after_1, after_2, after_3, after_4, after_5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dat (F := F) V c) (defs₀ (F := F)) Variants.none () Set.univ := fun t => by
  rw [bigSep_W2, bigSep_W2]
  exact sound_body V c t

end Cert.KernelIdeal.Attn

end
-- ==== Proof.KI.Edge.lean ====
/-
  The fourth region: one tile of 2048 edges.  The body reads the tile of edge features e, the transposed edge
  weight, the bias row and the layer norm's scale and shift rows, forms m = e w + b, normalises each row of m
  (its mean over the 512 columns, the mean of the squared deviations, the reciprocal square root of that mean plus
  the epsilon), scales, shifts and adds the edge features back, and stores the whole tile once.
-/
import proofs.«154112_j74371653697779_2_alg».proof.Proof.Gen.KernelIdeal.Launch
import proofs.«154112_j74371653697779_2_alg».proof.Proof.Gen.KernelIdeal.Skeleton
import proofs.«154112_j74371653697779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's staging buffer holds its block at every point, fetched there or not. -/
theorem before_e {c : Dev nD} (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem before_w {c : Dev nD} (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem before_b {c : Dev nD} (dat : Dat τ (Elt F) Unit ℕ (UR sig nD τ) ℕ cfg3 c) (hA : dat.A 2 = V c (Pipeline.arrRef spec3 2))
    (hafter : ∀ t, dat.after 2 t = blk V c 2 t) (t : Fin cfg3.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem before_g {c : Dev nD} (dat : Dat τ (Elt F) Unit ℕ (UR sig nD τ) ℕ cfg3 c) (hA : dat.A 3 = V c (Pipeline.arrRef spec3 3))
    (hafter : ∀ t, dat.after 3 t = blk V c 3 t) (t : Fin cfg3.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem before_s {c : Dev nD} (dat : Dat τ (Elt F) Unit ℕ (UR sig nD τ) ℕ cfg3 c) (hA : dat.A 4 = V c (Pipeline.arrRef spec3 4))
    (hafter : ∀ t, dat.after 4 t = blk V c 4 t) (t : Fin cfg3.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- The body's accesses: each a whole block. -/
abbrev rE : Rect S2048x512 := Rect.unit (s := S2048x512) ![0, 0] S2048x512.size inb_S2048x512_S2048x512_0_0
abbrev rW : Rect S512x512 := Rect.unit (s := S512x512) ![0, 0] S512x512.size inb_S512x512_S512x512_0_0
abbrev rR : Rect S1x512 := Rect.unit (s := S1x512) ![0, 0] S1x512.size inb_S1x512_S1x512_0_0

/-- What the body leaves in the output tile, from the five input blocks: its one store. -/
def tile (e : Vec F S2048x512 .f32) (w : Vec F S512x512 .f32) (b g s : Vec F S1x512 .f32) : Vec F S2048x512 .f32 :=
  View.canon [⟨rE, k3_pay1 (View.ld e rE) (View.ld w rW) (View.ld b rR) (View.ld g rR) (View.ld s rR)⟩]

theorem tile_cover (p : Vec F S2048x512 .f32) (y : S2048x512.Idx) :
    ∃ pc ∈ ([⟨rE, p⟩] : List (View.Piece (Elt F) S2048x512 .f32)), y ∈ pc.1.set :=
  View.cover_of_tiled [⟨rE, p⟩] S2048x512.size (by rfl) y

set_option maxHeartbeats 1000000 in
/-- The body on whole staging buffers: the inputs are left as read, the output ends at `tile` of them. -/
theorem sound_kernel (c : Dev nD) (E : Set ℕ) (i : grid3.Coords) (arg1 : Memref sig .tc .vmem S2048x512 .f32) (harg1 : arg1.IsWhole)
    (arg2 : Memref sig .tc .vmem S512x512 .f32) (harg2 : arg2.IsWhole) (arg3 : Memref sig .tc .vmem S1x512 .f32) (harg3 : arg3.IsWhole)
    (arg4 : Memref sig .tc .vmem S1x512 .f32) (harg4 : arg4.IsWhole) (arg5 : Memref sig .tc .vmem S1x512 .f32) (harg5 : arg5.IsWhole)
    (arg6 : Memref sig .tc .vmem S2048x512 .f32) (harg6 : arg6.IsWhole)
    (x0 : Vec F S2048x512 .f32) (x1 : Vec F S512x512 .f32) (x2 x3 x4 : Vec F S1x512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (tile x0 x1 x2 x3 x4)) -∗ K ⟨⟩))
      ⊢ wp frame (wpE (defs₀ (F := F)) Variants.none c none) E (cc3__edge_ln_kernel i arg1 harg1 arg2 harg2 arg3 harg3 arg4 harg4 arg5 harg5 arg6 harg6) K := by
  simp only [cc3__edge_ln_kernel_eq_skeleton]; unfold cc3__edge_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tile_cover _)

/-- The region's proof data on core c. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => tile (blk V c 0 t) (blk V c 1 t) (blk V c 2 t) (blk V c 3 t) (blk V c 4 t)
  Φ _ := Pipeline.ΦA spec3 c
  q _ := fullShare
  owed _ := 0

theorem A_eq (c : Dev nD) (w : Fin cfg3.W) : (dat V c).A w = V c (Pipeline.arrRef spec3 w) := by
  dsimp only [dat]

theorem after_e (c : Dev nD) (t : Fin cfg3.N) : (dat V c).after 0 t = blk V c 0 t := by dsimp only [dat]
theorem after_w (c : Dev nD) (t : Fin cfg3.N) : (dat V c).after 1 t = blk V c 1 t := by dsimp only [dat]
theorem after_b (c : Dev nD) (t : Fin cfg3.N) : (dat V c).after 2 t = blk V c 2 t := by dsimp only [dat]
theorem after_g (c : Dev nD) (t : Fin cfg3.N) : (dat V c).after 3 t = blk V c 3 t := by dsimp only [dat]
theorem after_s (c : Dev nD) (t : Fin cfg3.N) : (dat V c).after 4 t = blk V c 4 t := by dsimp only [dat]
theorem after_out (c : Dev nD) (t : Fin cfg3.N) :
    (dat V c).after 5 t = tile (blk V c 0 t) (blk V c 1 t) (blk V c 2 t) (blk V c 3 t) (blk V c 4 t) := by dsimp only [dat]

theorem found_e (c : Dev nD) (t : Fin cfg3.N) (d) : (dat V c).before 0 t d = blk V c 0 t :=
  before_e V (dat V c) (A_eq V c 0) (after_e V c) t d
theorem found_w (c : Dev nD) (t : Fin cfg3.N) (d) : (dat V c).before 1 t d = blk V c 1 t :=
  before_w V (dat V c) (A_eq V c 1) (after_w V c) t d
theorem found_b (c : Dev nD) (t : Fin cfg3.N) (d) : (dat V c).before 2 t d = blk V c 2 t :=
  before_b V (dat V c) (A_eq V c 2) (after_b V c) t d
theorem found_g (c : Dev nD) (t : Fin cfg3.N) (d) : (dat V c).before 3 t d = blk V c 3 t :=
  before_g V (dat V c) (A_eq V c 3) (after_g V c) t d
theorem found_s (c : Dev nD) (t : Fin cfg3.N) (d) : (dat V c).before 4 t d = blk V c 4 t :=
  before_s V (dat V c) (A_eq V c 4) (after_s V c) t d

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [found_e, found_w, found_b, found_g, found_s]
  rw [show (dat V c).Φ t.succ = (dat V c).Φ t.castSucc from rfl,
    show (dat V c).owesAt () t.succ = (dat V c).owesAt () t.castSucc from rfl,
    after_e, after_w, after_b, after_g, after_s, after_out]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W3, bigSep_W3]
  exact sound_body V c t

end Cert.KernelIdeal.Edge

end
-- ==== Proof.KI.Run.lean ====
/-
  The whole program: four regions among three stretches of host operations (the concatenation and transposition of the
  weights before the first region, the reshapes of the layer norm's rows before the third and fourth).  The buffers'
  contents at each boundary are a fold from the launch memory: a host stretch applies its operations, a region
  replaces its output arrays by what its write-backs leave and changes nothing else.  Every argument array is
  written by no stretch and is no region's output, so it ends as launched; the two results end at what the third and
  fourth regions leave.
-/
import proofs.«154112_j74371653697779_2_alg».proof.Proof.KI.Proj
import proofs.«154112_j74371653697779_2_alg».proof.Proof.KI.LowRank
import proofs.«154112_j74371653697779_2_alg».proof.Proof.KI.Attn
import proofs.«154112_j74371653697779_2_alg».proof.Proof.KI.Edge
import proofs.«154112_j74371653697779_2_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: the first region's entry. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- After the projection: its output array at what the write-backs leave. -/
def W2 (c : Dev nD) : Valuation τ sig (Elt F) :=
  Function.update (W1 m ρ c) main_v4 ((Proj.dat (E1 m ρ) c).arrAt 3 cfg0.N)
abbrev E2 : (c : Dev nD) → (b : Ref sig .tc) → Buf (Elt F) ((c : Thread nD τ).loc b) := fun c b => W2 m ρ c b
/-- After the low-rank projections: the two accumulators' arrays. -/
def W3 (c : Dev nD) : Valuation τ sig (Elt F) :=
  Function.update (Function.update (W2 m ρ c) main_v5_0 ((LowRank.dat (E2 m ρ) c).arrAt 4 cfg1.N)) main_v5_1 ((LowRank.dat (E2 m ρ) c).arrAt 5 cfg1.N)
abbrev E3 : (c : Dev nD) → (b : Ref sig .tc) → Buf (Elt F) ((c : Thread nD τ).loc b) := fun c b => W3 m ρ c b
/-- After the second host stretch: the third region's entry. -/
abbrev W4 : Dev nD → Valuation τ sig (Elt F) := fun c => StableHlo.after hostOps2 (W3 m ρ c)
abbrev E4 : (c : Dev nD) → (b : Ref sig .tc) → Buf (Elt F) ((c : Thread nD τ).loc b) := fun c b => W4 m ρ c b
/-- After the attention region: the first result. -/
def W5 (c : Dev nD) : Valuation τ sig (Elt F) :=
  Function.update (W4 m ρ c) main_v8 ((Attn.dat (E4 m ρ) c).arrAt 6 cfg2.N)
abbrev E5 : (c : Dev nD) → (b : Ref sig .tc) → Buf (Elt F) ((c : Thread nD τ).loc b) := fun c b => W5 m ρ c b
/-- After the third host stretch: the fourth region's entry. -/
abbrev W6 : Dev nD → Valuation τ sig (Elt F) := fun c => StableHlo.after hostOps3 (W5 m ρ c)
abbrev E6 : (c : Dev nD) → (b : Ref sig .tc) → Buf (Elt F) ((c : Thread nD τ).loc b) := fun c b => W6 m ρ c b
/-- After the edge region: the second result. -/
def W7 (c : Dev nD) : Valuation τ sig (Elt F) :=
  Function.update (W6 m ρ c) main_v13 ((Edge.dat (E6 m ρ) c).arrAt 5 cfg3.N)
abbrev E7 : (c : Dev nD) → (b : Ref sig .tc) → Buf (Elt F) ((c : Thread nD τ).loc b) := fun c b => W7 m ρ c b

theorem W2_out (c : Dev nD) : W2 m ρ c main_v4 = (Proj.dat (E1 m ρ) c).arrAt 3 cfg0.N := by
  unfold W2; exact Function.update_self ..
theorem W2_of (c : Dev nD) (r : Ref sig .tc) (h : r ≠ main_v4) : W2 m ρ c r = W1 m ρ c r := by
  unfold W2; exact Function.update_of_ne (StableHlo.devRef_ne_of_ne h) ..
theorem W3_k (c : Dev nD) : W3 m ρ c main_v5_0 = (LowRank.dat (E2 m ρ) c).arrAt 4 cfg1.N := by
  unfold W3
  rw [Function.update_of_ne (StableHlo.devRef_ne_of_ne (by decide : (main_v5_0 : Ref sig .tc) ≠ main_v5_1))]
  exact Function.update_self ..
theorem W3_v (c : Dev nD) : W3 m ρ c main_v5_1 = (LowRank.dat (E2 m ρ) c).arrAt 5 cfg1.N := by
  unfold W3; exact Function.update_self ..
theorem W3_of (c : Dev nD) (r : Ref sig .tc) (h0 : r ≠ main_v5_0) (h1 : r ≠ main_v5_1) : W3 m ρ c r = W2 m ρ c r := by
  unfold W3
  rw [Function.update_of_ne (StableHlo.devRef_ne_of_ne h1), Function.update_of_ne (StableHlo.devRef_ne_of_ne h0)]
theorem W5_out (c : Dev nD) : W5 m ρ c main_v8 = (Attn.dat (E4 m ρ) c).arrAt 6 cfg2.N := by
  unfold W5; exact Function.update_self ..
theorem W5_of (c : Dev nD) (r : Ref sig .tc) (h : r ≠ main_v8) : W5 m ρ c r = W4 m ρ c r := by
  unfold W5; exact Function.update_of_ne (StableHlo.devRef_ne_of_ne h) ..
theorem W7_out (c : Dev nD) : W7 m ρ c main_v13 = (Edge.dat (E6 m ρ) c).arrAt 5 cfg3.N := by
  unfold W7; exact Function.update_self ..
theorem W7_of (c : Dev nD) (r : Ref sig .tc) (h : r ≠ main_v13) : W7 m ρ c r = W6 m ρ c r := by
  unfold W7; exact Function.update_of_ne (StableHlo.devRef_ne_of_ne h) ..
theorem W1_of (c : Dev nD) (r : Ref sig .tc) (h : r ∉ hostOps0_W) : W1 m ρ c r = W0 m ρ c r :=
  StableHlo.after_of_writes_sub hostOps0 _ hostOps0_writes h
theorem W4_of (c : Dev nD) (r : Ref sig .tc) (h : r ∉ hostOps2_W) : W4 m ρ c r = W3 m ρ c r :=
  StableHlo.after_of_writes_sub hostOps2 _ hostOps2_writes h
theorem W6_of (c : Dev nD) (r : Ref sig .tc) (h : r ∉ hostOps3_W) : W6 m ρ c r = W5 m ρ c r :=
  StableHlo.after_of_writes_sub hostOps3 _ hostOps3_writes h

/-- A buffer no stretch writes and no region puts out ends as launched. -/
theorem W7_kept (c : Dev nD) (r : Ref sig .tc) (h1 : r ∉ hostOps0_W) (h2 : r ≠ main_v4) (h3 : r ≠ main_v5_0) (h3' : r ≠ main_v5_1)
    (h4 : r ∉ hostOps2_W) (h5 : r ≠ main_v8) (h6 : r ∉ hostOps3_W) (h7 : r ≠ main_v13) :
    W7 m ρ c r = m ((c : Thread nD τ).loc r) :=
  (W7_of m ρ c r h7).trans <| (W6_of m ρ c r h6).trans <| (W5_of m ρ c r h5).trans <| (W4_of m ρ c r h4).trans <|
    (W3_of m ρ c r h3 h3').trans <| (W2_of m ρ c r h2).trans <| (W1_of m ρ c r h1).trans rfl

/-! ## What each region leaves, against the next boundary -/

theorem proj_final (c : Dev nD) (w : Fin cfg0.W) :
    (Proj.dat (E1 m ρ) c).arrAt w cfg0.N = E2 m ρ c (Pipeline.arrRef spec0 w) :=
  match w with
  | ⟨0, _⟩ => (((Proj.dat (E1 m ρ) c).arrAt_in 0 rfl _).trans (Proj.A_eq (E1 m ρ) c 0)).trans (W2_of m ρ c _ (by decide)).symm
  | ⟨1, _⟩ => (((Proj.dat (E1 m ρ) c).arrAt_in 1 rfl _).trans (Proj.A_eq (E1 m ρ) c 1)).trans (W2_of m ρ c _ (by decide)).symm
  | ⟨2, _⟩ => (((Proj.dat (E1 m ρ) c).arrAt_in 2 rfl _).trans (Proj.A_eq (E1 m ρ) c 2)).trans (W2_of m ρ c _ (by decide)).symm
  | ⟨3, _⟩ => (W2_out m ρ c).symm
theorem proj_rest (c : Dev nD) : ∀ b, b ∉ Finset.univ.image (Pipeline.arrRef spec0) → E2 m ρ c b = E1 m ρ c b :=
  fun b hb => W2_of m ρ c b fun e => hb (Finset.mem_image.mpr ⟨3, Finset.mem_univ _, e.symm⟩)
theorem attn_final (c : Dev nD) (w : Fin cfg2.W) :
    (Attn.dat (E4 m ρ) c).arrAt w cfg2.N = E5 m ρ c (Pipeline.arrRef spec2 w) :=
  match w with
  | ⟨0, _⟩ => (((Attn.dat (E4 m ρ) c).arrAt_in 0 rfl _).trans (Attn.A_eq (E4 m ρ) c 0)).trans (W5_of m ρ c _ (by decide)).symm
  | ⟨1, _⟩ => (((Attn.dat (E4 m ρ) c).arrAt_in 1 rfl _).trans (Attn.A_eq (E4 m ρ) c 1)).trans (W5_of m ρ c _ (by decide)).symm
  | ⟨2, _⟩ => (((Attn.dat (E4 m ρ) c).arrAt_in 2 rfl _).trans (Attn.A_eq (E4 m ρ) c 2)).trans (W5_of m ρ c _ (by decide)).symm
  | ⟨3, _⟩ => (((Attn.dat (E4 m ρ) c).arrAt_in 3 rfl _).trans (Attn.A_eq (E4 m ρ) c 3)).trans (W5_of m ρ c _ (by decide)).symm
  | ⟨4, _⟩ => (((Attn.dat (E4 m ρ) c).arrAt_in 4 rfl _).trans (Attn.A_eq (E4 m ρ) c 4)).trans (W5_of m ρ c _ (by decide)).symm
  | ⟨5, _⟩ => (((Attn.dat (E4 m ρ) c).arrAt_in 5 rfl _).trans (Attn.A_eq (E4 m ρ) c 5)).trans (W5_of m ρ c _ (by decide)).symm
  | ⟨6, _⟩ => (W5_out m ρ c).symm
theorem attn_rest (c : Dev nD) : ∀ b, b ∉ Finset.univ.image (Pipeline.arrRef spec2) → E5 m ρ c b = E4 m ρ c b :=
  fun b hb => W5_of m ρ c b fun e => hb (Finset.mem_image.mpr ⟨6, Finset.mem_univ _, e.symm⟩)
theorem edge_final (c : Dev nD) (w : Fin cfg3.W) :
    (Edge.dat (E6 m ρ) c).arrAt w cfg3.N = E7 m ρ c (Pipeline.arrRef spec3 w) :=
  match w with
  | ⟨0, _⟩ => (((Edge.dat (E6 m ρ) c).arrAt_in 0 rfl _).trans (Edge.A_eq (E6 m ρ) c 0)).trans (W7_of m ρ c _ (by decide)).symm
  | ⟨1, _⟩ => (((Edge.dat (E6 m ρ) c).arrAt_in 1 rfl _).trans (Edge.A_eq (E6 m ρ) c 1)).trans (W7_of m ρ c _ (by decide)).symm
  | ⟨2, _⟩ => (((Edge.dat (E6 m ρ) c).arrAt_in 2 rfl _).trans (Edge.A_eq (E6 m ρ) c 2)).trans (W7_of m ρ c _ (by decide)).symm
  | ⟨3, _⟩ => (((Edge.dat (E6 m ρ) c).arrAt_in 3 rfl _).trans (Edge.A_eq (E6 m ρ) c 3)).trans (W7_of m ρ c _ (by decide)).symm
  | ⟨4, _⟩ => (((Edge.dat (E6 m ρ) c).arrAt_in 4 rfl _).trans (Edge.A_eq (E6 m ρ) c 4)).trans (W7_of m ρ c _ (by decide)).symm
  | ⟨5, _⟩ => (W7_out m ρ c).symm
theorem edge_rest (c : Dev nD) : ∀ b, b ∉ Finset.univ.image (Pipeline.arrRef spec3) → E7 m ρ c b = E6 m ρ c b :=
  fun b hb => W7_of m ρ c b fun e => hb (Finset.mem_image.mpr ⟨5, Finset.mem_univ _, e.symm⟩)

/-! ## The proof data family and the thread state -/

abbrev adm : (p : Fin 4) → (pcfgs (F := F) p).Adm := fun p => (cfgs p).toPCfg_adm
/-- Every region's proof data, each at its region's entry contents. -/
def pdats : (p : Fin 4) → (c : Dev nD) → Dat τ (Elt F) Unit ℕ (UR sig nD τ) ℕ (Pipeline.pin (pcfgs (F := F)) adm p) c
  | ⟨0, _⟩ => fun c => Proj.dat (E1 m ρ) c
  | ⟨1, _⟩ => fun c => LowRank.dat (E2 m ρ) c
  | ⟨2, _⟩ => fun c => Attn.dat (E4 m ρ) c
  | ⟨3, _⟩ => fun c => Edge.dat (E6 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The second region's arrays: one buffer under two windows -/

theorem low_init (c : Dev nD) (w : Fin cfg1.W) :
    (LowRank.dat (E2 m ρ) c).arrAt w 0 = E2 m ρ c (Pipeline.arrRef spec1 w) := LowRank.A_eq (E2 m ρ) c w
theorem low_final (c : Dev nD) (w : Fin cfg1.W) :
    (LowRank.dat (E2 m ρ) c).arrAt w cfg1.N = E3 m ρ c (Pipeline.arrRef spec1 w) :=
  match w with
  | ⟨0, _⟩ => (((LowRank.dat (E2 m ρ) c).arrAt_in 0 rfl _).trans (LowRank.A_eq (E2 m ρ) c 0)).trans (W3_of m ρ c _ (by decide) (by decide)).symm
  | ⟨1, _⟩ => (((LowRank.dat (E2 m ρ) c).arrAt_in 1 rfl _).trans (LowRank.A_eq (E2 m ρ) c 1)).trans (W3_of m ρ c _ (by decide) (by decide)).symm
  | ⟨2, _⟩ => (((LowRank.dat (E2 m ρ) c).arrAt_in 2 rfl _).trans (LowRank.A_eq (E2 m ρ) c 2)).trans (W3_of m ρ c _ (by decide) (by decide)).symm
  | ⟨3, _⟩ => (((LowRank.dat (E2 m ρ) c).arrAt_in 3 rfl _).trans (LowRank.A_eq (E2 m ρ) c 3)).trans (W3_of m ρ c _ (by decide) (by decide)).symm
  | ⟨4, _⟩ => (W3_k m ρ c).symm
  | ⟨5, _⟩ => (W3_v m ρ c).symm
theorem low_rest (c : Dev nD) : ∀ b, b ∉ Finset.univ.image (Pipeline.arrRef spec1) → E3 m ρ c b = E2 m ρ c b :=
  fun b hb => W3_of m ρ c b (fun e => hb (Finset.mem_image.mpr ⟨4, Finset.mem_univ _, e.symm⟩))
    (fun e => hb (Finset.mem_image.mpr ⟨5, Finset.mem_univ _, e.symm⟩))

set_option backward.isDefEq.respectTransparency.types false in
/-- ENTRY.  The core's unscoped buffers at the region's entry contents are the region's arrays — the fused
    projection's buffer dealt in two halves to the key-column and value-column windows — and the rest. -/
theorem low_split (c : Dev nD) :
    (unscopedBufs c (E2 m ρ c) : sProp 𝕄)
      ⊢ iprop((pdats m ρ 1 c).arrays ((pdats m ρ 1 c).arrAt · 0) ∗ Pipeline.unscopedRest spec1 c (E2 m ρ c)) := by
  rw [Pipeline.unscopedBufs_split₀ (Pipeline.pin (pcfgs (F := F)) adm) 1 winFacts₀1.arr_unscoped c (E2 m ρ c)]
  refine sep_mono ?_ .rfl
  have harrs : (pdats m ρ 1 c).arrays ((pdats m ρ 1 c).arrAt · 0)
      = bigSep Finset.univ fun w : Fin 6 => (((c.tc : Thread nD τ).loc (Pipeline.arrRef spec1 w)) ↦{(pdats m ρ 1 c).share w} E2 m ρ c (Pipeline.arrRef spec1 w) : sProp 𝕄) := by
    unfold Pipeline.Dat.arrays
    exact bigSep_congr fun w _ => by
      beta_reduce
      rw [show ((Pipeline.pin (pcfgs (F := F)) adm 1).win w).arr.view.set = Finset.univ from (arr_whole1 w).set_eq_univ,
        show (pdats m ρ 1 c).arrAt w 0 = E2 m ρ c (Pipeline.arrRef spec1 w) from low_init m ρ c w]; rfl
  have hbufs : (Pipeline.arrBufs (Pipeline.pin (pcfgs (F := F)) adm 1).spec c (E2 m ρ c) : sProp 𝕄)
      = iprop((((c.tc : Thread nD τ).loc main_arg10) ↦{fullShare} E2 m ρ c main_arg10)
        ∗ (((c.tc : Thread nD τ).loc main_arg11) ↦{fullShare} E2 m ρ c main_arg11)
        ∗ (((c.tc : Thread nD τ).loc main_v4) ↦{fullShare} E2 m ρ c main_v4)
        ∗ (((c.tc : Thread nD τ).loc main_v5_0) ↦{fullShare} E2 m ρ c main_v5_0)
        ∗ (((c.tc : Thread nD τ).loc main_v5_1) ↦{fullShare} E2 m ρ c main_v5_1)) := by
    unfold Pipeline.arrBufs
    exact bigSep_eq_bigSepL_of_eq [main_arg10, main_arg11, main_v4, main_v5_0, main_v5_1]
      (show Finset.univ.image (Pipeline.arrRef (Pipeline.pin (pcfgs (F := F)) adm 1).spec) = [main_arg10, main_arg11, main_v4, main_v5_0, main_v5_1].toFinset from
        (by decide : Finset.univ.image (Pipeline.arrRef spec1) = [main_arg10, main_arg11, main_v4, main_v5_0, main_v5_1].toFinset)) (by decide) _
  rw [harrs, hbufs, bigSep_W1]
  iintro ⟨H0, H1, H2, H3, H4⟩
  ihave H2' := (pointsTo_share (PosShare.mem_left_op_right fullShare)).1 $$ H2
  icases H2' with ⟨H2a, H2b⟩
  isplitl [H0]; · iexact H0
  isplitl [H1]; · iexact H1
  isplitl [H2a]; · iexact H2a
  isplitl [H2b]; · iexact H2b
  isplitl [H3]; · iexact H3
  iexact H4

set_option backward.isDefEq.respectTransparency.types false in
/-- EXIT.  The arrays at their final contents and the rest are the unscoped buffers at the next boundary. -/
theorem low_join (c : Dev nD) :
    iprop((pdats m ρ 1 c).arrays ((pdats m ρ 1 c).arrAt · cfg1.N) ∗ Pipeline.unscopedRest spec1 c (E2 m ρ c))
      ⊢ (unscopedBufs c (E3 m ρ c) : sProp 𝕄) := by
  rw [Pipeline.unscopedBufs_split₀ (Pipeline.pin (pcfgs (F := F)) adm) 1 winFacts₀1.arr_unscoped c (E3 m ρ c)]
  refine sep_mono ?_ (Entails.of_eq ?_)
  · have harrs : (pdats m ρ 1 c).arrays ((pdats m ρ 1 c).arrAt · cfg1.N)
        = bigSep Finset.univ fun w : Fin 6 => (((c.tc : Thread nD τ).loc (Pipeline.arrRef spec1 w)) ↦{(pdats m ρ 1 c).share w} E3 m ρ c (Pipeline.arrRef spec1 w) : sProp 𝕄) := by
      unfold Pipeline.Dat.arrays
      exact bigSep_congr fun w _ => by
        beta_reduce
        rw [show ((Pipeline.pin (pcfgs (F := F)) adm 1).win w).arr.view.set = Finset.univ from (arr_whole1 w).set_eq_univ,
          show (pdats m ρ 1 c).arrAt w cfg1.N = E3 m ρ c (Pipeline.arrRef spec1 w) from low_final m ρ c w]; rfl
    have hbufs : (Pipeline.arrBufs (Pipeline.pin (pcfgs (F := F)) adm 1).spec c (E3 m ρ c) : sProp 𝕄)
        = iprop((((c.tc : Thread nD τ).loc main_arg10) ↦{fullShare} E3 m ρ c main_arg10)
          ∗ (((c.tc : Thread nD τ).loc main_arg11) ↦{fullShare} E3 m ρ c main_arg11)
          ∗ (((c.tc : Thread nD τ).loc main_v4) ↦{fullShare} E3 m ρ c main_v4)
          ∗ (((c.tc : Thread nD τ).loc main_v5_0) ↦{fullShare} E3 m ρ c main_v5_0)
          ∗ (((c.tc : Thread nD τ).loc main_v5_1) ↦{fullShare} E3 m ρ c main_v5_1)) := by
      unfold Pipeline.arrBufs
      exact bigSep_eq_bigSepL_of_eq [main_arg10, main_arg11, main_v4, main_v5_0, main_v5_1]
        (show Finset.univ.image (Pipeline.arrRef (Pipeline.pin (pcfgs (F := F)) adm 1).spec) = [main_arg10, main_arg11, main_v4, main_v5_0, main_v5_1].toFinset from
          (by decide : Finset.univ.image (Pipeline.arrRef spec1) = [main_arg10, main_arg11, main_v4, main_v5_0, main_v5_1].toFinset)) (by decide) _
    rw [harrs, hbufs, bigSep_W1]
    iintro ⟨H0, H1, H2a, H2b, H3, H4⟩
    ihave H2 := (pointsTo_share (PosShare.mem_left_op_right fullShare)).2 $$ [H2a H2b]
    · isplitl [H2a]
      · iexact H2a
      iexact H2b
    isplitl [H0]; · iexact H0
    isplitl [H1]; · iexact H1
    isplitl [H2]; · iexact H2
    isplitl [H3]; · iexact H3
    iexact H4
  · unfold Pipeline.unscopedRest
    exact bigSep_congr fun b hb => by rw [low_rest m ρ c b (Finset.mem_sdiff.mp hb).2]

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (proj_final m ρ c) (proj_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (LowRank.body_obligation (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := low_split m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := low_join m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Attn.body_obligation (E4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (attn_final m ρ c) (attn_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Edge.body_obligation (E6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E6 m ρ c) (E7 m ρ c) ((pdats m ρ 3 c).arrAt · cfg3.N) (edge_final m ρ c) (edge_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ) ]
theorem main_run (c : Dev nD) : main (F := F) c = Pipeline.Seg.run (segs m ρ) := (main_chain c).trans (by chain_rfl)

set_option backward.isDefEq.respectTransparency.types false in
/-- THE RUN.  From any memory with zero counters every weakly fair execution of the program terminates, nothing
    faulting, and every final state holds each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The frame at any float instance: the sixteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (W7_kept m ρ c main_arg0 (by decide) (by decide) (by decide) (by decide) (by decide) (by decide) (by decide) (by decide)),
    (h c _ (mem_uc main_arg1 (by decide))).trans (W7_kept m ρ c main_arg1 (by decide) (by decide) (by decide) (by decide) (by decide) (by decide) (by decide) (by decide)),
    (h c _ (mem_uc main_arg2 (by decide))).trans (W7_kept m ρ c main_arg2 (by decide) (by decide) (by decide) (by decide) (by decide) (by decide) (by decide) (by decide)),
    (h c _ (mem_uc main_arg3 (by decide))).trans (W7_kept m ρ c main_arg3 (by decide) (by decide) (by decide) (by decide) (by decide) (by decide) (by decide) (by decide)),
    (h c _ (mem_uc main_arg4 (by decide))).trans (W7_kept m ρ c main_arg4 (by decide) (by decide) (by decide) (by decide) (by decide) (by decide) (by decide) (by decide)),
    (h c _ (mem_uc main_arg5 (by decide))).trans (W7_kept m ρ c main_arg5 (by decide) (by decide) (by decide) (by decide) (by decide) (by decide) (by decide) (by decide)),
    (h c _ (mem_uc main_arg6 (by decide))).trans (W7_kept m ρ c main_arg6 (by decide) (by decide) (by decide) (by decide) (by decide) (by decide) (by decide) (by decide)),
    (h c _ (mem_uc main_arg7 (by decide))).trans (W7_kept m ρ c main_arg7 (by decide) (by decide) (by decide) (by decide) (by decide) (by decide) (by decide) (by decide)),
    (h c _ (mem_uc main_arg8 (by decide))).trans (W7_kept m ρ c main_arg8 (by decide) (by decide) (by decide) (by decide) (by decide) (by decide) (by decide) (by decide)),
    (h c _ (mem_uc main_arg9 (by decide))).trans (W7_kept m ρ c main_arg9 (by decide) (by decide) (by decide) (by decide) (by decide) (by decide) (by decide) (by decide)),
    (h c _ (mem_uc main_arg10 (by decide))).trans (W7_kept m ρ c main_arg10 (by decide) (by decide) (by decide) (by decide) (by decide) (by decide) (by decide) (by decide)),
    (h c _ (mem_uc main_arg11 (by decide))).trans (W7_kept m ρ c main_arg11 (by decide) (by decide) (by decide) (by decide) (by decide) (by decide) (by decide) (by decide)),
    (h c _ (mem_uc main_arg12 (by decide))).trans (W7_kept m ρ c main_arg12 (by decide) (by decide) (by decide) (by decide) (by decide) (by decide) (by decide) (by decide)),
    (h c _ (mem_uc main_arg13 (by decide))).trans (W7_kept m ρ c main_arg13 (by decide) (by decide) (by decide) (by decide) (by decide) (by decide) (by decide) (by decide)),
    (h c _ (mem_uc main_arg14 (by decide))).trans (W7_kept m ρ c main_arg14 (by decide) (by decide) (by decide) (by decide) (by decide) (by decide) (by decide) (by decide)),
    (h c _ (mem_uc main_arg15 (by decide))).trans (W7_kept m ρ c main_arg15 (by decide) (by decide) (by decide) (by decide) (by decide) (by decide) (by decide) (by decide))⟩) (run_all m ρ)

end Cert.KernelIdeal.Whole

end
-- ==== Proof.KI.Results.lean ====
/-
  The program's two results by name: the first is what the attention region's write-backs leave in its output array,
  the second what the edge region's leave; no later item touches either.
-/
import proofs.«154112_j74371653697779_2_alg».proof.Proof.KI.Run

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The first result at the last boundary: the third host stretch and the edge region leave it alone. -/
theorem W7_first (c : Dev nD) : W7 m ρ c main_v8 = (Attn.dat (E4 m ρ) c).arrAt 6 cfg2.N :=
  (W7_of m ρ c main_v8 (by decide)).trans ((W6_of m ρ c main_v8 (by decide)).trans (W5_out m ρ c))

/-- The run with both results named and the arguments as launched. -/
theorem results : θ_run defs (onTc (τ := τ) (main (F := F))) ⟨m, fun _ => 0, ρ⟩ (fun r => ∀ c : Dev nD,
      r.2.mem ((c.tc : Thread nD τ).loc main_v8) = (Attn.dat (E4 m ρ) c).arrAt 6 cfg2.N
      ∧ r.2.mem ((c.tc : Thread nD τ).loc main_v13) = (Edge.dat (E6 m ρ) c).arrAt 5 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_v8 (by decide))).trans (W7_first m ρ c),
    (h c _ (mem_uc main_v13 (by decide))).trans (W7_out m ρ c),
    (h c _ (mem_uc main_arg0 (by decide))).trans (W7_kept m ρ c main_arg0 (by decide) (by decide) (by decide) (by decide) (by decide) (by decide) (by decide) (by decide)),
    (h c _ (mem_uc main_arg1 (by decide))).trans (W7_kept m ρ c main_arg1 (by decide) (by decide) (by decide) (by decide) (by decide) (by decide) (by decide) (by decide)),
    (h c _ (mem_uc main_arg2 (by decide))).trans (W7_kept m ρ c main_arg2 (by decide) (by decide) (by decide) (by decide) (by decide) (by decide) (by decide) (by decide)),
    (h c _ (mem_uc main_arg3 (by decide))).trans (W7_kept m ρ c main_arg3 (by decide) (by decide) (by decide) (by decide) (by decide) (by decide) (by decide) (by decide)),
    (h c _ (mem_uc main_arg4 (by decide))).trans (W7_kept m ρ c main_arg4 (by decide) (by decide) (by decide) (by decide) (by decide) (by decide) (by decide) (by decide)),
    (h c _ (mem_uc main_arg5 (by decide))).trans (W7_kept m ρ c main_arg5 (by decide) (by decide) (by decide) (by decide) (by decide) (by decide) (by decide) (by decide)),
    (h c _ (mem_uc main_arg6 (by decide))).trans (W7_kept m ρ c main_arg6 (by decide) (by decide) (by decide) (by decide) (by decide) (by decide) (by decide) (by decide)),
    (h c _ (mem_uc main_arg7 (by decide))).trans (W7_kept m ρ c main_arg7 (by decide) (by decide) (by decide) (by decide) (by decide) (by decide) (by decide) (by decide)),
    (h c _ (mem_uc main_arg8 (by decide))).trans (W7_kept m ρ c main_arg8 (by decide) (by decide) (by decide) (by decide) (by decide) (by decide) (by decide) (by decide)),
    (h c _ (mem_uc main_arg9 (by decide))).trans (W7_kept m ρ c main_arg9 (by decide) (by decide) (by decide) (by decide) (by decide) (by decide) (by decide) (by decide)),
    (h c _ (mem_uc main_arg10 (by decide))).trans (W7_kept m ρ c main_arg10 (by decide) (by decide) (by decide) (by decide) (by decide) (by decide) (by decide) (by decide)),
    (h c _ (mem_uc main_arg11 (by decide))).trans (W7_kept m ρ c main_arg11 (by decide) (by decide) (by decide) (by decide) (by decide) (by decide) (by decide) (by decide)),
    (h c _ (mem_uc main_arg12 (by decide))).trans (W7_kept m ρ c main_arg12 (by decide) (by decide) (by decide) (by decide) (by decide) (by decide) (by decide) (by decide)),
    (h c _ (mem_uc main_arg13 (by decide))).trans (W7_kept m ρ c main_arg13 (by decide) (by decide) (by decide) (by decide) (by decide) (by decide) (by decide) (by decide)),
    (h c _ (mem_uc main_arg14 (by decide))).trans (W7_kept m ρ c main_arg14 (by decide) (by decide) (by decide) (by decide) (by decide) (by decide) (by decide) (by decide)),
    (h c _ (mem_uc main_arg15 (by decide))).trans (W7_kept m ρ c main_arg15 (by decide) (by decide) (by decide) (by decide) (by decide) (by decide) (by decide) (by decide))⟩) (run_all m ρ)

end Cert.KernelIdeal.Whole

end
-- ==== Proof.Spec.lean ====
/-
  The mathematics of the four regions, index by index over the extended reals, stated once and importing no program.
  Arrays are functions of literal-shape indices; float literals stay the printed words (the same word on both sides
  is never evaluated).

    affine   x w b        [n, j] = sum_k x[n,k] w[k,j] + b[0,j]
    lowrank  ep p off     [h,k,d] = sum_n ep[h,k,n] p[n, off + 64 h + d]
    head     p pk pv      [n; h, d] = sum_k softmax_k(score)[n,h,k] pv[h,k,d],
                          score[n,h,k] = (sum_d p[n, 64 h + d] pk[h,k,d]) * (1/8), the softmax with the row maximum subtracted
    lnK / lnR             the layer norm of a row of 512, with  u * rsqrt(v)  resp.  u / sqrt(v)
    xout, yout            the two results
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Mat (a b : Nat) : Type := (⟨2, ![a, b]⟩ : Shape).Idx → EReal
abbrev Ten (a b c : Nat) : Type := (⟨3, ![a, b, c]⟩ : Shape).Idx → EReal

/-- The printed words: 1/8, minus infinity, the layer norm's epsilon, 512. -/
abbrev eighth : EReal := Ideal.ofBits .f32 0x3E000000#32
abbrev negInf : EReal := Ideal.ofBits .f32 0xFF800000#32
abbrev eps : EReal := Ideal.ofBits .f32 0x3727C5AC#32
abbrev n512 : EReal := Ideal.ofBits .f32 0x44000000#32

/-- A matrix product's entry plus a bias row's. -/
def affine {N K J : Nat} (x : Mat N K) (w : Mat K J) (b : Mat 1 J) (n : Fin N) (j : Fin J) : EReal :=
  (∑ k : Fin K, x (ix2 n k) * w (ix2 k j)) + b (ix2 0 j)

/-- A low-rank projection's entry: head h's 64 columns of the fused projection start at column off + 64 h. -/
def lowrank (ep : Ten 8 256 8192) (p : Mat 8192 1536) (off : Nat) (hoff : off + 512 ≤ 1536) (h : Fin 8) (k : Fin 256) (d : Fin 64) : EReal :=
  ∑ n : Fin 8192, ep (ix3 h k n) * p (ix2 n ⟨off + 64 * h.val + d.val, by omega⟩)

/-- Head h's scaled score of node n against rank k: the query columns are the fused projection's first 512. -/
def score (p : Mat 8192 1536) (pk : Ten 8 256 64) (n : Fin 8192) (h : Fin 8) (k : Fin 256) : EReal :=
  (∑ d : Fin 64, p (ix2 n ⟨64 * h.val + d.val, by omega⟩) * pk (ix3 h k d)) * eighth

/-- A row's maximum, from minus infinity. -/
def rowmax (f : Fin 256 → EReal) : EReal := (Finset.univ : Finset (Fin 256)).fold max negInf f

/-- The exponential of a score less its row's maximum. -/
def expo (p : Mat 8192 1536) (pk : Ten 8 256 64) (n : Fin 8192) (h : Fin 8) (k : Fin 256) : EReal :=
  Ideal.exp (score p pk n h k - rowmax (score p pk n h))

/-- The attention weight. -/
def attn (p : Mat 8192 1536) (pk : Ten 8 256 64) (n : Fin 8192) (h : Fin 8) (k : Fin 256) : EReal :=
  Ideal.div (expo p pk n h k) (∑ k' : Fin 256, expo p pk n h k')

/-- Head h's output for node n, column d. -/
def head (p : Mat 8192 1536) (pk pv : Ten 8 256 64) (n : Fin 8192) (h : Fin 8) (d : Fin 64) : EReal :=
  ∑ k : Fin 256, attn p pk n h k * pv (ix3 h k d)

/-- The eight heads side by side. -/
def heads (p : Mat 8192 1536) (pk pv : Ten 8 256 64) (n : Fin 8192) (j : Fin 512) : EReal :=
  head p pk pv n ⟨j.val / 64, by omega⟩ ⟨j.val % 64, by omega⟩

/-- A row's mean over its 512 entries. -/
def mean (u : Fin 512 → EReal) : EReal := Ideal.div (∑ j : Fin 512, u j) n512

/-- The mean squared deviation. -/
def var (u : Fin 512 → EReal) : EReal := mean fun j => (u j - mean u) * (u j - mean u)

/-- The layer norm as the kernel computes it: times the reciprocal square root. -/
def lnK (u : Fin 512 → EReal) (g b : Mat 1 512) (j : Fin 512) : EReal :=
  (u j - mean u) * Ideal.rsqrt (var u + eps) * g (ix2 0 j) + b (ix2 0 j)

/-- The layer norm as the reference computes it: divided by the square root. -/
def lnR (u : Fin 512 → EReal) (g b : Mat 1 512) (j : Fin 512) : EReal :=
  Ideal.div (u j - mean u) (Ideal.sqrt (var u + eps)) * g (ix2 0 j) + b (ix2 0 j)

/-- The first result as the kernel computes it. -/
def xout (p : Mat 8192 1536) (pk pv : Ten 8 256 64) (x : Mat 8192 512) (g b : Mat 1 512) (n : Fin 8192) (j : Fin 512) : EReal :=
  lnK (heads p pk pv n) g b j + x (ix2 n j)

/-- The second result as the kernel computes it. -/
def yout (e : Mat 131072 512) (w : Mat 512 512) (b g s : Mat 1 512) (n : Fin 131072) (j : Fin 512) : EReal :=
  lnK (affine e w b n) g s j + e (ix2 n j)

end Cert.Spec

end
-- ==== Proof.KI.EdgeValuePay.lean ====
/-
  The edge region's body at one entry of its tile.  Row n of the tile's pre-activation is the row of the edge
  features times the transposed weight plus the bias; the body takes that row's mean over the 512 columns, the mean
  of the squared deviations, and returns the deviation times the reciprocal square root of that mean plus the
  epsilon, scaled, shifted, and added to the edge feature.
-/
import proofs.«154112_j74371653697779_2_alg».proof.Proof.Gen.KernelIdeal.Skeleton
import proofs.«154112_j74371653697779_2_alg».proof.Proof.Spec
import Idealize.ShloMosaic.Lib.ValueLayout
import Idealize.ShloMosaic.PureOps.Ideal.Laws

set_option maxRecDepth 16384

noncomputable section

namespace Cert.KernelIdeal.EdgeValue

open Idealize.ShloMosaic Idealize.ShloMosaic.ValueIdx Cert.KernelIdeal Cert.KernelIdeal.Gen Cert.Spec

/-! ## The operations that are not entry by entry, each at an entry -/

/-- A sum along the columns, at row n. -/
theorem lane_sum (x : FVec Ideal S2048x512 .f32) (n : Fin 2048) :
    multiReduction (F := Ideal) .add [1] S2048 x 0x00000000#32 reduces_S2048x512_S2048 (.inl rfl) rfl (ix1 n)
      = ∑ k : Fin 512, x (ix2 n k) := by
  refine (Ideal.multiReduction_add_single x 0x00000000#32 reduces_S2048x512_S2048 (.inl rfl) rfl (ix1 n)).trans ?_
  exact Finset.sum_congr rfl fun k _ => congrArg x (funext fun a => Fin.ext (by match a with | ⟨0, _⟩ => rfl | ⟨1, _⟩ => rfl))

/-- A vector of 2048 entries as a column: entry (n, 0) is the vector's entry n. -/
theorem keep_col (v : FVec Ideal S2048 .f32) (n : Fin 2048) (z : Fin 1) :
    shapeCast S2048x1 v shapeCasts_S2048_S2048x1 (ix2 n z) = v (ix1 n) :=
  shapeCast_apply v shapeCasts_S2048_S2048x1 _ _ (by
    have hz : z.val = 0 := by omega
    rw [Shape.rowMajor_val_two, Shape.rowMajor_val_one]
    show n.val = n.val * 1 + z.val
    omega)

/-- A column spread over the 512 columns: entry (n, j) is the column's entry (n, 0). -/
theorem col_spread (v : FVec Ideal S2048x1 .f32) (n : Fin 2048) (j : Fin 512) :
    broadcastTo S2048x512 v broadcasts_S2048x1_S2048x512 (ix2 n j) = v (ix2 n (0 : Fin 1)) := by
  refine broadcastTo_apply v broadcasts_S2048x1_S2048x512 (ix2 n j) (ix2 n (0 : Fin 1)) fun ax => ?_
  match ax with
  | ⟨0, _⟩ => show n.val = if (2048 : Nat) = 1 then 0 else n.val; rw [if_neg (by decide)]
  | ⟨1, _⟩ => show 0 = if (1 : Nat) = 1 then 0 else j.val; rw [if_pos rfl]

/-- A row spread over the 2048 rows: entry (n, j) is the row's entry (0, j). -/
theorem row_spread (v : FVec Ideal S1x512 .f32) (n : Fin 2048) (j : Fin 512) :
    broadcastTo S2048x512 v broadcasts_S1x512_S2048x512 (ix2 n j) = v (ix2 (0 : Fin 1) j) :=
  broadcastTo_1b_ab_apply v broadcasts_S1x512_S2048x512 n j

theorem lhs_0 (i : S2048x512.Idx) (q : dot_S2048x512_S512x512_S2048x512_1_0_0_1_n_n.contr.Idx) : (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_1 (i : S2048x512.Idx) (q : dot_S2048x512_S512x512_S2048x512_1_0_0_1_n_n.contr.Idx) : (dot_S2048x512_S512x512_S2048x512_1_0_0_1_n_n.lhsIdx i q 1).val = (q ⟨0, by decide⟩).val :=
  dot_S2048x512_S512x512_S2048x512_1_0_0_1_n_n.lhsIdx_val_of_single rfl i q
theorem rhs_0 (i : S2048x512.Idx) (q : dot_S2048x512_S512x512_S2048x512_1_0_0_1_n_n.contr.Idx) : (dot_S2048x512_S512x512_S2048x512_1_0_0_1_n_n.rhsIdx i q 0).val = (q ⟨0, by decide⟩).val :=
  dot_S2048x512_S512x512_S2048x512_1_0_0_1_n_n.rhsIdx_val_of_single rfl i q
theorem rhs_1 (i : S2048x512.Idx) (q : dot_S2048x512_S512x512_S2048x512_1_0_0_1_n_n.contr.Idx) : (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- The matrix product into a zero accumulator, at entry (n, j): the sum over k of the products. -/
theorem mm_apply {φ₁ φ₂ : FTy} (x : FVec Ideal S2048x512 φ₁) (y : FVec Ideal S512x512 φ₂) (n : Fin 2048) (j : Fin 512) :
    matmul dot_S2048x512_S512x512_S2048x512_1_0_0_1_n_n none x y (constant (F := Ideal) S2048x512 .f32 0x00000000#32) (ix2 n j)
      = ∑ k : Fin 512, x (ix2 n k) * y (ix2 k j) := by
  simp only [matmul]
  rw [Ideal.matmul_constant_zero_apply, ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 n j) ((contrEquiv1 dot_S2048x512_S512x512_S2048x512_1_0_0_1_n_n 512 rfl rfl).symm k) = ix2 n k := funext fun a => Fin.ext (by
    match a with
    | ⟨0, _⟩ => exact lhs_0 _ _
    | ⟨1, _⟩ => exact (lhs_1 _ _).trans hk)
  have er : dot_S2048x512_S512x512_S2048x512_1_0_0_1_n_n.rhsIdx (ix2 n j) ((contrEquiv1 dot_S2048x512_S512x512_S2048x512_1_0_0_1_n_n 512 rfl rfl).symm k) = ix2 k j := funext fun a => Fin.ext (by
    match a with
    | ⟨0, _⟩ => exact (rhs_0 _ _).trans hk
    | ⟨1, _⟩ => exact rhs_1 _ _)
  rw [el, er]

/-! ## The body's stages -/

/-- The pre-activation: the product plus the bias row. -/
def pre (e : Vec Ideal S2048x512 .f32) (w : Vec Ideal S512x512 .f32) (b : Vec Ideal S1x512 .f32) : FVec Ideal S2048x512 .f32 :=
  addf (matmul dot_S2048x512_S512x512_S2048x512_1_0_0_1_n_n none (truncf .bf16 e bitsLt_bf16_f32 : FVec Ideal S2048x512 .bf16)
      (truncf .bf16 (shapeCast S512x512 w shapeCasts_S512x512_S512x512 : FVec Ideal S512x512 .f32) bitsLt_bf16_f32 : FVec Ideal S512x512 .bf16)
      (constant S2048x512 .f32 0x00000000#32))
    (broadcastTo S2048x512 (shapeCast S1x512 b shapeCasts_S1x512_S1x512 : FVec Ideal S1x512 .f32) broadcasts_S1x512_S2048x512)

/-- Each row's mean over its 512 columns, as a column. -/
def mu (x : FVec Ideal S2048x512 .f32) : FVec Ideal S2048x1 .f32 :=
  divf (shapeCast S2048x1 (multiReduction (F := Ideal) .add [1] S2048 x 0x00000000#32 reduces_S2048x512_S2048 (.inl rfl) rfl) shapeCasts_S2048_S2048x1)
    (broadcast S2048x1 (Scalar.ofBits (F := Ideal) .f32 0x44000000#32))

/-- The deviations from the rows' means. -/
def dev (x : FVec Ideal S2048x512 .f32) : FVec Ideal S2048x512 .f32 :=
  subf x (broadcastTo S2048x512 (mu x) broadcasts_S2048x1_S2048x512)

/-- The body's result from the five loaded blocks. -/
def out (e : Vec Ideal S2048x512 .f32) (w : Vec Ideal S512x512 .f32) (b g s : Vec Ideal S1x512 .f32) : FVec Ideal S2048x512 .f32 :=
  addf (addf (mulf (mulf (dev (pre e w b))
        (broadcastTo S2048x512 (rsqrt (addf (mu (mulf (dev (pre e w b)) (dev (pre e w b)))) (broadcast S2048x1 (Scalar.ofBits (F := Ideal) .f32 0x3727C5AC#32)))) broadcasts_S2048x1_S2048x512))
      (broadcastTo S2048x512 (shapeCast S1x512 g shapeCasts_S1x512_S1x512 : FVec Ideal S1x512 .f32) broadcasts_S1x512_S2048x512))
    (broadcastTo S2048x512 (shapeCast S1x512 s shapeCasts_S1x512_S1x512 : FVec Ideal S1x512 .f32) broadcasts_S1x512_S2048x512)) e

/-- The payload is these stages composed. -/
theorem pay_eq_out (e : Vec Ideal S2048x512 .f32) (w : Vec Ideal S512x512 .f32) (b g s : Vec Ideal S1x512 .f32) :
    k3_pay1 (F := Ideal) e w b g s = out e w b g s := rfl

theorem pre_apply (e : Vec Ideal S2048x512 .f32) (w : Vec Ideal S512x512 .f32) (b : Vec Ideal S1x512 .f32) (n : Fin 2048) (j : Fin 512) :
    pre e w b (ix2 n j) = affine e w b n j := by
  unfold pre affine
  rw [addf_apply, mm_apply, row_spread, shapeCast_self, shapeCast_self]
  rfl

theorem mu_apply (x : FVec Ideal S2048x512 .f32) (n : Fin 2048) (z : Fin 1) :
    mu x (ix2 n z) = mean fun k => x (ix2 n k) := by
  unfold mu mean
  rw [divf_apply, keep_col, lane_sum]
  rfl

theorem dev_apply (x : FVec Ideal S2048x512 .f32) (n : Fin 2048) (j : Fin 512) :
    dev x (ix2 n j) = x (ix2 n j) - mean fun k => x (ix2 n k) := by
  unfold dev
  rw [subf_apply, col_spread, mu_apply]

theorem sq_apply (x : FVec Ideal S2048x512 .f32) (n : Fin 2048) (z : Fin 1) :
    mu (mulf (dev x) (dev x)) (ix2 n z) = var fun k => x (ix2 n k) := by
  rw [mu_apply]
  unfold var
  refine congrArg mean (funext fun k => ?_)
  rw [mulf_apply, dev_apply]

/-- THE BODY AT AN ENTRY: the layer norm of the pre-activation's row, plus the edge feature. -/
theorem pay_apply (e : Vec Ideal S2048x512 .f32) (w : Vec Ideal S512x512 .f32) (b g s : Vec Ideal S1x512 .f32) (n : Fin 2048) (j : Fin 512) :
    k3_pay1 (F := Ideal) e w b g s (ix2 n j) = lnK (affine e w b n) g s j + e (ix2 n j) := by
  rw [pay_eq_out]
  unfold out
  rw [addf_apply, addf_apply, mulf_apply, mulf_apply, dev_apply, col_spread, row_spread, row_spread, shapeCast_self, shapeCast_self]
  have hrow : (fun k => pre e w b (ix2 n k)) = affine e w b n := funext fun k => pre_apply e w b n k
  show (pre e w b (ix2 n j) - mean fun k => pre e w b (ix2 n k))
      * Ideal.rsqrt (mu (mulf (dev (pre e w b)) (dev (pre e w b))) (ix2 n (0 : Fin 1)) + Ideal.ofBits .f32 0x3727C5AC#32)
      * g (ix2 (0 : Fin 1) j) + s (ix2 (0 : Fin 1) j) + e (ix2 n j) = _
  rw [sq_apply, hrow, pre_apply]
  rfl

end Cert.KernelIdeal.EdgeValue

end
-- ==== Proof.KI.EdgeValueTile.lean ====
/-
  From the tiles to the whole second result.  Grid point t of the edge region reads rows [2048 t, 2048 t + 2048) of
  the edge features and the whole of the other four arrays, and writes back rows [2048 t, 2048 t + 2048) of the
  result; row r of the result is written by point r / 2048.  So the array the region leaves is, entry by entry, the
  layer norm of the pre-activation's row plus the edge feature, over the arrays as the region finds them.
-/
import proofs.«154112_j74371653697779_2_alg».proof.Proof.KI.Edge
import proofs.«154112_j74371653697779_2_alg».proof.Proof.KI.EdgeValuePay
import Idealize.ShloMosaic.Lib.Pipeline.Value

set_option maxRecDepth 16384

noncomputable section

namespace Cert.KernelIdeal.EdgeValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Spec

variable (V : (c : Dev nD) → (b : Ref sig .tc) → Buf (Elt Ideal) ((c : Thread nD τ).loc b))

theorem zeros : (![0, 0] : Fin 2 → Nat) = fun _ => 0 := funext fun a => by fin_cases a <;> rfl

/-- The second result, entry by entry, over the five arrays as the region finds them. -/
def G (c : Dev nD) : S131072x512.Idx → EReal := fun i =>
  yout (V c main_arg1) (V c main_v9) (V c main_v10) (V c main_v11) (V c main_v12)
    (⟨(i 0).val, idx2_lt0 i⟩ : Fin 131072) (⟨(i 1).val, idx2_lt1 i⟩ : Fin 512)

/-- At entry (n, j). -/
theorem G_apply (c : Dev nD) (n : Fin 131072) (j : Fin 512) :
    G V c (ix2 n j) = yout (V c main_arg1) (V c main_v9) (V c main_v10) (V c main_v11) (V c main_v12) n j := rfl

/-- The windows' block indices at point t: the edge features' and the result's blocks are block row t, the other
    four windows' blocks are their whole arrays. -/
theorem idx_facts : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- The weight's block at every point is the whole array. -/
theorem blk_w (c : Dev nD) (t : Fin cfg3.N) : (Edge.blk V c 1 t : S512x512.Idx → EReal) = V c main_v9 := by
  funext y
  show V c main_v9 (((cfg3.win 1).blk t).view.emb y) = V c main_v9 y
  refine congrArg (V c main_v9) (funext fun a => Fin.ext ?_)
  obtain ⟨-, -, -, -, e0, e1, -⟩ := idx_facts t
  match a with
  | ⟨0, _⟩ => show win3_1.index t (0 : Fin 2) * 512 + 1 * (y 0).val = (y 0).val; omega
  | ⟨1, _⟩ => show win3_1.index t (1 : Fin 2) * 512 + 1 * (y 1).val = (y 1).val; omega
/-- So are the bias row's, the scale row's and the shift row's. -/
theorem blk_b (c : Dev nD) (t : Fin cfg3.N) : (Edge.blk V c 2 t : S1x512.Idx → EReal) = V c main_v10 := by
  funext y
  show V c main_v10 (((cfg3.win 2).blk t).view.emb y) = V c main_v10 y
  refine congrArg (V c main_v10) (funext fun a => Fin.ext ?_)
  obtain ⟨-, -, -, -, -, -, e0, e1, -⟩ := idx_facts t
  match a with
  | ⟨0, _⟩ => show win3_2.index t (0 : Fin 2) * 1 + 1 * (y 0).val = (y 0).val; omega
  | ⟨1, _⟩ => show win3_2.index t (1 : Fin 2) * 512 + 1 * (y 1).val = (y 1).val; omega
theorem blk_g (c : Dev nD) (t : Fin cfg3.N) : (Edge.blk V c 3 t : S1x512.Idx → EReal) = V c main_v11 := by
  funext y
  show V c main_v11 (((cfg3.win 3).blk t).view.emb y) = V c main_v11 y
  refine congrArg (V c main_v11) (funext fun a => Fin.ext ?_)
  obtain ⟨-, -, -, -, -, -, -, -, e0, e1, -⟩ := idx_facts t
  match a with
  | ⟨0, _⟩ => show win3_3.index t (0 : Fin 2) * 1 + 1 * (y 0).val = (y 0).val; omega
  | ⟨1, _⟩ => show win3_3.index t (1 : Fin 2) * 512 + 1 * (y 1).val = (y 1).val; omega
theorem blk_s (c : Dev nD) (t : Fin cfg3.N) : (Edge.blk V c 4 t : S1x512.Idx → EReal) = V c main_v12 := by
  funext y
  show V c main_v12 (((cfg3.win 4).blk t).view.emb y) = V c main_v12 y
  refine congrArg (V c main_v12) (funext fun a => Fin.ext ?_)
  obtain ⟨-, -, -, -, -, -, -, -, -, -, e0, e1⟩ := idx_facts t
  match a with
  | ⟨0, _⟩ => show win3_4.index t (0 : Fin 2) * 1 + 1 * (y 0).val = (y 0).val; omega
  | ⟨1, _⟩ => show win3_4.index t (1 : Fin 2) * 512 + 1 * (y 1).val = (y 1).val; omega

/-- Row n of the tile's layer norm, where the tile's row n is the array's row N. -/
theorem point_eq (e : Vec Ideal S2048x512 .f32) (E : Mat 131072 512) (w : Mat 512 512) (b g s : Mat 1 512)
    (n : Fin 2048) (j J : Fin 512) (N : Fin 131072) (he : ∀ k, e (ix2 n k) = E (ix2 N k)) (hj : j = J) :
    lnK (Cert.Spec.affine (N := 2048) (K := 512) (J := 512) e w b n) g s j + e (ix2 n j) = yout E w b g s N J := by
  subst hj
  unfold yout
  have hrow : Cert.Spec.affine (N := 2048) (K := 512) (J := 512) e w b n = Cert.Spec.affine E w b N :=
    funext fun j' => by unfold Cert.Spec.affine; simp only [he]
  rw [hrow, he]

/-- WHAT POINT t WRITES BACK is block t of the result function. -/
theorem flushed_eq (c : Dev nD) (t : Fin cfg3.N) :
    (Edge.dat V c).flushed 5 t = ((cfg3.win 5).blk t).view.read (Elt Ideal) (G V c) := by
  show (cfg3.win 5).cut (grid3.coords t) ((Edge.dat V c).after 5 t) = _
  rw [Edge.after_out]
  unfold Edge.tile
  rw [View.canon_unit_zero zeros]
  simp only [View.ld_unit_zero (S := S2048x512) zeros, View.ld_unit_zero (S := S512x512) zeros, View.ld_unit_zero (S := S1x512) zeros]
  funext y
  obtain ⟨n, j, rfl⟩ : ∃ (n : Fin 2048) (j : Fin 512), y = ix2 n j := ⟨y 0, y 1, eq_ix2 y⟩
  show k3_pay1 (F := Ideal) (Edge.blk V c 0 t) (Edge.blk V c 1 t) (Edge.blk V c 2 t) (Edge.blk V c 3 t) (Edge.blk V c 4 t) (ix2 n j)
      = G V c (((cfg3.win 5).blk t).view.emb (ix2 n j))
  refine (pay_apply (Edge.blk V c 0 t) (Edge.blk V c 1 t) (Edge.blk V c 2 t) (Edge.blk V c 3 t) (Edge.blk V c 4 t) n j).trans ?_
  obtain ⟨a0, a1, o0, o1, -⟩ := idx_facts t
  rw [blk_w V c t, blk_b V c t, blk_g V c t, blk_s V c t]
  refine point_eq (Edge.blk V c 0 t) (V c main_arg1) (V c main_v9) (V c main_v10) (V c main_v11) (V c main_v12) n j _ _ (fun k => ?_) (Fin.ext ?_)
  · show V c main_arg1 (((cfg3.win 0).blk t).view.emb (ix2 n k)) = V c main_arg1 _
    refine congrArg (V c main_arg1) (funext fun a => Fin.ext ?_)
    match a with
    | ⟨0, _⟩ => show win3_0.index t (0 : Fin 2) * 2048 + 1 * n.val = win3_5.index t (0 : Fin 2) * 2048 + 1 * n.val; omega
    | ⟨1, _⟩ => show win3_0.index t (1 : Fin 2) * 512 + 1 * k.val = k.val; omega
  · show j.val = win3_5.index t (1 : Fin 2) * 512 + 1 * j.val; omega

/-- An index of the result is in point t's block iff each coordinate is in the block's range on its axis. -/
theorem mem_blk (t : Fin cfg3.N) (i : S131072x512.Idx) :
    i ∈ ((cfg3.win 5).blk t).view.set ↔ ∀ a : Fin 2, win3_5.index t a * S2048x512.size a ≤ (i a).val ∧ (i a).val < win3_5.index t a * S2048x512.size a + S2048x512.size a := by
  show i ∈ ((View.whole main_v13).slice (win3_5.rect t)).set ↔ _
  rw [View.set_slice_whole, Rect.mem_set_unit]
  exact Iff.rfl

/-- Row r of the result is in the block of point r / 2048. -/
theorem cover (i : S131072x512.Idx) : ∃ t : Fin cfg3.N, (cfg3.win 5).flush t = true ∧ i ∈ ((cfg3.win 5).blk t).view.set := by
  have hi0 : (i 0).val < 131072 := (i 0).isLt
  have hi1 : (i 1).val < 512 := (i 1).isLt
  have hN : grid3.N = 64 := N_3
  let t : Fin cfg3.N := ⟨(i 0).val / 2048, by show (i 0).val / 2048 < grid3.N; omega⟩
  obtain ⟨-, -, o0, o1, -⟩ := idx_facts t
  have ht : t.val = (i 0).val / 2048 := rfl
  refine ⟨t, flush3_5 t, ?_⟩
  rw [mem_blk]
  intro a
  match a with
  | ⟨0, _⟩ => show win3_5.index t (0 : Fin 2) * 2048 ≤ (i 0).val ∧ (i 0).val < win3_5.index t (0 : Fin 2) * 2048 + 2048; omega
  | ⟨1, _⟩ => show win3_5.index t (1 : Fin 2) * 512 ≤ (i 1).val ∧ (i 1).val < win3_5.index t (1 : Fin 2) * 512 + 512; omega

/-- THE ARRAY the region leaves is the result function. -/
theorem final (c : Dev nD) : (Edge.dat V c).arrAt 5 cfg3.N = G V c :=
  (Edge.dat V c).arrAt_eq_of_cover 5 (G V c) (fun t _ => flushed_eq V c t) (cover)

end Cert.KernelIdeal.EdgeValue

end
-- ==== Proof.KI.EdgeValueOps.lean ====
/-
  The operands the edge region's body sees, as functions of the argument arrays: the edge weight transposed, and a
  vector of 512 entries laid out as one row.
-/
import proofs.«154112_j74371653697779_2_alg».proof.Proof.Spec

noncomputable section

namespace Cert.KernelIdeal.EdgeValue

open Idealize.ShloMosaic Idealize.ShloMosaic.ValueIdx Cert.Spec

/-- A square matrix transposed: entry (k, j) is the operand's entry (j, k). -/
def wT (x : Mat 512 512) : Mat 512 512 :=
  fun i => x (ix2 (⟨(i 1).val, idx2_lt1 i⟩ : Fin 512) (⟨(i 0).val, idx2_lt0 i⟩ : Fin 512))

/-- A vector as a matrix of one row: entry (0, j) is the vector's entry j. -/
def row (x : (⟨1, ![512]⟩ : Shape).Idx → EReal) : Mat 1 512 :=
  fun i => x (ix1 (⟨(i 1).val, idx2_lt1 i⟩ : Fin 512))

theorem wT_apply (x : Mat 512 512) (k j : Fin 512) : wT x (ix2 k j) = x (ix2 j k) := rfl

theorem row_apply (x : (⟨1, ![512]⟩ : Shape).Idx → EReal) (z : Fin 1) (j : Fin 512) : row x (ix2 z j) = x (ix1 j) := rfl

end Cert.KernelIdeal.EdgeValue

end
-- ==== Proof.KI.EdgeValueHost.lean ====
/-
  What the edge region finds in its five input arrays: the edge features as launched, the edge weight transposed,
  and the bias and the layer norm's scale and shift each as one row.  No earlier region or host stretch writes the
  arguments these are made of.
-/
import proofs.«154112_j74371653697779_2_alg».proof.Proof.KI.Results
import proofs.«154112_j74371653697779_2_alg».proof.Proof.KI.EdgeValueOps
import Idealize.ShloMosaic.Lib.ValueLayout

set_option maxRecDepth 16384

noncomputable section

namespace Cert.KernelIdeal.EdgeValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Whole
open Idealize.ShloMosaic.ValueIdx Cert.Spec

variable (m : (ℓ : Loc nD τ sig) → Buf (Elt Ideal) ℓ) (ρ : Dev nD → PrngReg) (c : Dev nD)

/-- A buffer no earlier stretch writes and no earlier region puts out is, before the third host stretch, as launched. -/
theorem W5_kept (r : Ref sig .tc) (h1 : r ∉ hostOps0_W) (h2 : r ≠ main_v4) (h3 : r ≠ main_v5_0) (h3' : r ≠ main_v5_1)
    (h4 : r ∉ hostOps2_W) (h5 : r ≠ main_v8) : W5 m ρ c r = m ((c : Thread nD τ).loc r) :=
  (W5_of m ρ c r h5).trans <| (W4_of m ρ c r h4).trans <| (W3_of m ρ c r h3 h3').trans <| (W2_of m ρ c r h2).trans <|
    (W1_of m ρ c r h1).trans rfl

/-- The third host stretch's four results, each as its operation of the buffer it reads. -/
theorem stretch_w : (W6 m ρ c main_v9 : S512x512.Idx → EReal)
    = transpose S512x512 [1, 0] (W5 m ρ c main_arg8 : S512x512.Idx → EReal) transposes_S512x512_S512x512_1_0 := by
  dsimp only [W6]; after_results
theorem stretch_b : (W6 m ρ c main_v10 : S1x512.Idx → EReal)
    = shapeCast S1x512 (W5 m ρ c main_arg9 : S512.Idx → EReal) shapeCasts_S512_S1x512 := by
  dsimp only [W6]; after_results; rfl
theorem stretch_g : (W6 m ρ c main_v11 : S1x512.Idx → EReal)
    = shapeCast S1x512 (W5 m ρ c main_arg14 : S512.Idx → EReal) shapeCasts_S512_S1x512 := by
  dsimp only [W6]; after_results; rfl
theorem stretch_s : (W6 m ρ c main_v12 : S1x512.Idx → EReal)
    = shapeCast S1x512 (W5 m ρ c main_arg15 : S512.Idx → EReal) shapeCasts_S512_S1x512 := by
  dsimp only [W6]; after_results; rfl

/-- The edge features reach the region as launched. -/
theorem entry_e : (E6 m ρ c main_arg1 : Mat 131072 512) = m ((c : Thread nD τ).loc main_arg1) :=
  (W6_of m ρ c main_arg1 (by decide)).trans
    (W5_kept m ρ c main_arg1 (by decide) (by decide) (by decide) (by decide) (by decide) (by decide))

/-- The weight reaches the region transposed. -/
theorem entry_w : (E6 m ρ c main_v9 : Mat 512 512) = wT (m ((c : Thread nD τ).loc main_arg8)) := by
  funext i
  obtain ⟨k, j, rfl⟩ : ∃ (k j : Fin 512), i = ix2 k j := ⟨i 0, i 1, eq_ix2 i⟩
  rw [wT_apply]
  exact (congrFun (stretch_w m ρ c) (ix2 k j)).trans
    ((transpose_ix2_apply _ transposes_S512x512_S512x512_1_0 k j).trans
      (congrFun (W5_kept m ρ c main_arg8 (by decide) (by decide) (by decide) (by decide) (by decide) (by decide)) (ix2 j k)))

/-- The bias reaches the region as one row. -/
theorem entry_b : (E6 m ρ c main_v10 : Mat 1 512) = row (m ((c : Thread nD τ).loc main_arg9)) := by
  funext i
  obtain ⟨z, j, rfl⟩ : ∃ (z : Fin 1) (j : Fin 512), i = ix2 z j := ⟨i 0, i 1, eq_ix2 i⟩
  rw [row_apply]
  exact (congrFun (stretch_b m ρ c) (ix2 z j)).trans
    ((shapeCast_a_1a_apply _ shapeCasts_S512_S1x512 z j).trans
      (congrFun (W5_kept m ρ c main_arg9 (by decide) (by decide) (by decide) (by decide) (by decide) (by decide)) (ix1 j)))

/-- The layer norm's scale reaches the region as one row. -/
theorem entry_g : (E6 m ρ c main_v11 : Mat 1 512) = row (m ((c : Thread nD τ).loc main_arg14)) := by
  funext i
  obtain ⟨z, j, rfl⟩ : ∃ (z : Fin 1) (j : Fin 512), i = ix2 z j := ⟨i 0, i 1, eq_ix2 i⟩
  rw [row_apply]
  exact (congrFun (stretch_g m ρ c) (ix2 z j)).trans
    ((shapeCast_a_1a_apply _ shapeCasts_S512_S1x512 z j).trans
      (congrFun (W5_kept m ρ c main_arg14 (by decide) (by decide) (by decide) (by decide) (by decide) (by decide)) (ix1 j)))

/-- The layer norm's shift reaches the region as one row. -/
theorem entry_s : (E6 m ρ c main_v12 : Mat 1 512) = row (m ((c : Thread nD τ).loc main_arg15)) := by
  funext i
  obtain ⟨z, j, rfl⟩ : ∃ (z : Fin 1) (j : Fin 512), i = ix2 z j := ⟨i 0, i 1, eq_ix2 i⟩
  rw [row_apply]
  exact (congrFun (stretch_s m ρ c) (ix2 z j)).trans
    ((shapeCast_a_1a_apply _ shapeCasts_S512_S1x512 z j).trans
      (congrFun (W5_kept m ρ c main_arg15 (by decide) (by decide) (by decide) (by decide) (by decide) (by decide)) (ix1 j)))

end Cert.KernelIdeal.EdgeValue

end
-- ==== Proof.KI.EdgeValueRef.lean ====
/-
  The reference's second result at one entry.  Row n of its pre-activation is the row of the edge features times the
  transposed weight plus the bias; the reference normalises it by the row's mean and the square root of the mean
  squared deviation plus the epsilon, scales, shifts, and adds the edge feature.
-/
import proofs.«154112_j74371653697779_2_alg».proof.Proof.Gen.ReferenceIdeal.Read
import proofs.«154112_j74371653697779_2_alg».proof.Proof.Spec
import proofs.«154112_j74371653697779_2_alg».proof.Proof.KI.EdgeValueOps

set_option maxRecDepth 16384

noncomputable section

namespace Cert.KernelIdeal.EdgeValue

open Idealize.ShloMosaic Idealize.ShloMosaic.ValueIdx Cert.Spec
open Cert.ReferenceIdeal Cert.ReferenceIdeal.Read

variable (x1 : (⟨S131072x512, .f32⟩ : BufTy).Contents (Elt Ideal)) (x8 : (⟨S512x512, .f32⟩ : BufTy).Contents (Elt Ideal)) (x9 x14 x15 : (⟨S512, .f32⟩ : BufTy).Contents (Elt Ideal))

/-- The reference's pre-activation at entry (n, j). -/
theorem ref_pre (n : Fin 131072) (j : Fin 512) :
    val_main_v44 (F := Ideal) x1 x8 x9 (ix2 n j) = affine (N := 131072) (K := 512) (J := 512) x1 (wT x8) (row x9) n j := by
  rw [val_main_v44_apply, val_main_v41_apply, val_main_v43_apply, val_main_v42_apply, Ideal.addf_def]
  unfold affine
  rw [row_apply]
  refine congrArg₂ (fun a b : EReal => a + b) (Finset.sum_congr rfl fun k _ => ?_)
    (congrArg x9 (funext fun a => by match a with | ⟨0, _⟩ => rfl))
  rw [val_main_v40_apply, wT_apply]
  exact congrArg₂ (fun a b : EReal => a * b)
    (congrArg x1 (funext fun a => by match a with | ⟨0, _⟩ => rfl | ⟨1, _⟩ => rfl))
    (congrArg x8 (funext fun a => by match a with | ⟨0, _⟩ => rfl | ⟨1, _⟩ => rfl))

/-- The reference's row mean, kept as a column, at row n. -/
theorem ref_mean (n : Fin 131072) (z : Fin 1) :
    val_main_v73 (F := Ideal) x1 x8 x9 (ix2 n z) = mean (affine (N := 131072) (K := 512) (J := 512) x1 (wT x8) (row x9) n) := by
  rw [val_main_v73_apply, val_main_v71_apply, val_main_v70_apply, val_main_v72_apply, val_main_cst_9_apply, val_main_cst_8_apply,
    Ideal.hostDivf_def, Ideal.ofBits_def, Ideal.ofBits_def, Ideal.ofBits_zero_f32, zero_add]
  unfold mean
  refine congrArg (fun a : EReal => Ideal.div a n512) (Finset.sum_congr rfl fun k _ => ?_)
  rw [show idx_main_v70 (idx_main_v71 (ix2 n z)) k = ix2 n k from
    funext fun a => by match a with | ⟨0, _⟩ => rfl | ⟨1, _⟩ => rfl]
  exact ref_pre x1 x8 x9 n k

/-- The reference's mean squared deviation, kept as a column, at row n. -/
theorem ref_var (n : Fin 131072) (z : Fin 1) :
    val_main_v80 (F := Ideal) x1 x8 x9 (ix2 n z) = var (affine (N := 131072) (K := 512) (J := 512) x1 (wT x8) (row x9) n) := by
  rw [val_main_v80_apply, val_main_v78_apply, val_main_v77_apply, val_main_v79_apply, val_main_cst_11_apply, val_main_cst_10_apply,
    Ideal.hostDivf_def, Ideal.ofBits_def, Ideal.ofBits_def, Ideal.ofBits_zero_f32, zero_add]
  refine Eq.trans ?_ (rfl : Ideal.div (∑ k : Fin 512,
      (affine (N := 131072) (K := 512) (J := 512) x1 (wT x8) (row x9) n k - mean (affine (N := 131072) (K := 512) (J := 512) x1 (wT x8) (row x9) n))
        * (affine (N := 131072) (K := 512) (J := 512) x1 (wT x8) (row x9) n k - mean (affine (N := 131072) (K := 512) (J := 512) x1 (wT x8) (row x9) n))) n512
      = var (affine (N := 131072) (K := 512) (J := 512) x1 (wT x8) (row x9) n))
  refine congrArg (fun a : EReal => Ideal.div a n512) (Finset.sum_congr rfl fun k _ => ?_)
  rw [show idx_main_v77 (idx_main_v78 (ix2 n z)) k = ix2 n k from
    funext fun a => by match a with | ⟨0, _⟩ => rfl | ⟨1, _⟩ => rfl]
  rw [val_main_v76_apply, val_main_v75_apply, val_main_v74_apply,
    show idx_main_v74 (ix2 n k) = ix2 n (0 : Fin 1) from funext fun a => by match a with | ⟨0, _⟩ => rfl | ⟨1, _⟩ => rfl,
    ref_mean, ref_pre]
  rfl

/-- THE REFERENCE AT AN ENTRY: the layer norm, in the divided-by-the-square-root spelling, of the pre-activation's
    row, plus the edge feature. -/
theorem ref_apply (n : Fin 131072) (j : Fin 512) :
    val_main_v94 (F := Ideal) x1 x8 x9 x14 x15 (ix2 n j)
      = lnR (affine (N := 131072) (K := 512) (J := 512) x1 (wT x8) (row x9) n) (row x14) (row x15) j + x1 (ix2 n j) := by
  rw [val_main_v94_apply, val_main_v93_apply, val_main_v90_apply, val_main_v87_apply, val_main_v82_apply, val_main_v81_apply,
    val_main_v86_apply,
    show idx_main_v81 (ix2 n j) = ix2 n (0 : Fin 1) from funext fun a => by match a with | ⟨0, _⟩ => rfl | ⟨1, _⟩ => rfl,
    show idx_main_v86 (ix2 n j) = ix2 n (0 : Fin 1) from funext fun a => by match a with | ⟨0, _⟩ => rfl | ⟨1, _⟩ => rfl,
    val_main_v85_apply, val_main_v84_apply, val_main_v83_apply, val_main_cst_12_apply, ref_var, ref_mean, ref_pre,
    val_main_v89_apply, val_main_v88_apply, val_main_v92_apply, val_main_v91_apply,
    show idx_main_v88 (idx_main_v89 (ix2 n j)) = ix1 j from funext fun a => by match a with | ⟨0, _⟩ => rfl,
    show idx_main_v91 (idx_main_v92 (ix2 n j)) = ix1 j from funext fun a => by match a with | ⟨0, _⟩ => rfl]
  rfl

end Cert.KernelIdeal.EdgeValue

end
-- ==== Proof.KI.LnLaw.lean ====
/-
  The layer norm's two spellings agree: over a positive argument, times the reciprocal square root is divided by the
  square root, and a row's mean squared deviation plus the epsilon is always positive.
-/
import proofs.«154112_j74371653697779_2_alg».proof.Proof.Spec

noncomputable section

namespace Cert.Spec

open Idealize.ShloMosaic Idealize.ShloMosaic.ValueIdx

/-- Over a positive argument (infinity included), times the reciprocal square root is divided by the square root. -/
theorem mul_rsqrt_eq_div_sqrt (a v : EReal) (hv : 0 < v) : a * Ideal.rsqrt v = Ideal.div a (Ideal.sqrt v) := by
  induction v using EReal.rec with
  | bot => exact absurd hv (by simp)
  | top => simp [Ideal.div]
  | coe r =>
    have hr : 0 < r := by exact_mod_cast hv
    have hs : 0 < Real.sqrt r := Real.sqrt_pos.mpr hr
    have hs' : ((Real.sqrt r : ℝ) : EReal) ≠ 0 := by exact_mod_cast hs.ne'
    have e1 : Ideal.rsqrt (r : EReal) = (((Real.sqrt r)⁻¹ : ℝ) : EReal) := by
      rw [Ideal.rsqrt_coe, if_neg (not_lt.mpr hr.le), if_neg hr.ne']
    have e2 : Ideal.sqrt (r : EReal) = (Real.sqrt r : EReal) := by
      rw [Ideal.sqrt_coe, if_neg (not_lt.mpr hr.le)]
    rw [e1, e2, Ideal.div, if_neg hs', EReal.coe_inv]

/-- A square is never negative, at the infinities too. -/
theorem mul_self_nonneg_ereal (x : EReal) : 0 ≤ x * x := by
  induction x using EReal.rec with
  | bot => simp
  | top => simp
  | coe r => exact_mod_cast mul_self_nonneg r

/-- The literal 512 is positive. -/
theorem n512_pos : (0 : EReal) < n512 := by
  simp [n512, Ideal.ofBits, Ideal.ieee]
  first
    | positivity
    | (rw [← EReal.coe_mul]; exact EReal.coe_pos.mpr (by positivity))
    | (refine mul_pos ?_ ?_ <;> exact EReal.coe_pos.mpr (by positivity))

/-- The epsilon is positive. -/
theorem eps_pos : (0 : EReal) < eps := by
  simp [eps, Ideal.ofBits, Ideal.ieee]
  first
    | positivity
    | (rw [← EReal.coe_mul]; exact EReal.coe_pos.mpr (by positivity))
    | (refine mul_pos ?_ ?_ <;> exact EReal.coe_pos.mpr (by positivity))

/-- A row's mean squared deviation is never negative: a sum of squares over the positive 512. -/
theorem var_nonneg (u : Fin 512 → EReal) : 0 ≤ var u := by
  unfold var
  generalize mean u = μ
  unfold mean
  rw [Ideal.div, if_neg n512_pos.ne']
  exact EReal.mul_nonneg (Finset.sum_nonneg fun j _ => mul_self_nonneg_ereal _) (EReal.inv_nonneg_of_nonneg n512_pos.le)

/-- The layer norm's argument of the square root is positive. -/
theorem var_add_eps_pos (u : Fin 512 → EReal) : 0 < var u + eps :=
  eps_pos.trans_le (le_add_of_nonneg_left (var_nonneg u))

/-- The two spellings of the layer norm agree on every row. -/
theorem lnK_eq_lnR (u : Fin 512 → EReal) (g b : Mat 1 512) (j : Fin 512) : lnK u g b j = lnR u g b j := by
  unfold lnK lnR
  rw [mul_rsqrt_eq_div_sqrt _ _ (var_add_eps_pos u)]

end Cert.Spec

end
-- ==== Proof.KI.EdgeValue.lean ====
/-
  The second result.  The edge region leaves, at entry (n, j), the layer norm of row n of e W^T + b, in the
  times-the-reciprocal-square-root spelling, plus e[n, j]; the reference computes the same row's layer norm in the
  divided-by-the-square-root spelling, plus e[n, j].  A row's mean squared deviation plus the epsilon is positive, so
  the two spellings agree, and the two arrays are equal wherever the five arguments are.
-/
import proofs.«154112_j74371653697779_2_alg».proof.Proof.KI.EdgeValueTile
import proofs.«154112_j74371653697779_2_alg».proof.Proof.KI.EdgeValueHost
import proofs.«154112_j74371653697779_2_alg».proof.Proof.KI.EdgeValueRef
import proofs.«154112_j74371653697779_2_alg».proof.Proof.KI.LnLaw

set_option maxRecDepth 16384

noncomputable section

namespace Cert.KernelIdeal.EdgeValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Whole
open Idealize.ShloMosaic.ValueIdx Cert.Spec

/-- The two programs' formulas over equal arguments, at an entry. -/
theorem bridge (x1 y1 : Mat 131072 512) (x8 y8 : Mat 512 512) (x9 y9 x14 y14 x15 y15 : (⟨1, ![512]⟩ : Shape).Idx → EReal)
    (h1 : x1 = y1) (h8 : x8 = y8) (h9 : x9 = y9) (h14 : x14 = y14) (h15 : x15 = y15) (n : Fin 131072) (j : Fin 512) :
    lnR (Cert.Spec.affine (N := 131072) (K := 512) (J := 512) x1 (wT x8) (row x9) n) (row x14) (row x15) j + x1 (ix2 n j)
      = yout y1 (wT y8) (row y9) (row y14) (row y15) n j := by
  subst h1 h8 h9 h14 h15
  unfold yout
  rw [lnK_eq_lnR]

/-- THE SECOND RESULT: the reference's array is the array the edge region leaves. -/
theorem edge_value (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.ReferenceIdeal.nD)
    (h1 : m' (c.tc.loc Cert.ReferenceIdeal.main_arg1) = m (c.tc.loc Cert.KernelIdeal.main_arg1))
    (h8 : m' (c.tc.loc Cert.ReferenceIdeal.main_arg8) = m (c.tc.loc Cert.KernelIdeal.main_arg8))
    (h9 : m' (c.tc.loc Cert.ReferenceIdeal.main_arg9) = m (c.tc.loc Cert.KernelIdeal.main_arg9))
    (h14 : m' (c.tc.loc Cert.ReferenceIdeal.main_arg14) = m (c.tc.loc Cert.KernelIdeal.main_arg14))
    (h15 : m' (c.tc.loc Cert.ReferenceIdeal.main_arg15) = m (c.tc.loc Cert.KernelIdeal.main_arg15)) :
    Cert.ReferenceIdeal.Value.res_main_v94 m' c = (Cert.KernelIdeal.Edge.dat (Cert.KernelIdeal.Whole.E6 m ρ) c).arrAt 5 Cert.KernelIdeal.cfg3.N := by
  refine (Cert.ReferenceIdeal.Read.val_main_v94_eq (F := Ideal) m' c).trans (Eq.trans ?_ (final (E6 m ρ) c).symm)
  funext i
  obtain ⟨n, j, rfl⟩ : ∃ (n : Fin 131072) (j : Fin 512), i = ix2 n j := ⟨i 0, i 1, eq_ix2 i⟩
  refine (ref_apply _ _ _ _ _ n j).trans ?_
  rw [G_apply, entry_e m ρ c, entry_w m ρ c, entry_b m ρ c, entry_g m ρ c, entry_s m ρ c]
  exact bridge _ _ _ _ _ _ _ _ _ _ h1 h8 h9 h14 h15 n j

end Cert.KernelIdeal.EdgeValue

end
-- ==== Proof.IdxEq.lean ====
/-
  Two index functions given by cases on the axis agree when they agree on each axis.
-/
import Mathlib.Tactic

namespace Cert

/-- Two index functions built by cases on the axis agree: by cases on the axis. -/
macro "idx_eq" : tactic => `(tactic| (funext a; apply Fin.ext; first
  | (match a with | ⟨0, _⟩ => rfl | ⟨1, _⟩ => rfl | ⟨2, _⟩ => rfl)
  | (match a with | ⟨0, _⟩ => rfl | ⟨1, _⟩ => rfl)
  | (match a with | ⟨0, _⟩ => rfl)))

end Cert
-- ==== Proof.RefFirstB.lean ====
import proofs.«154112_j74371653697779_2_alg».proof.Proof.Gen.ReferenceIdeal.Read
import proofs.«154112_j74371653697779_2_alg».proof.Proof.Spec
import proofs.«154112_j74371653697779_2_alg».proof.Proof.IdxEq

set_option maxRecDepth 16384

noncomputable section

namespace Cert.ReferenceIdeal.First

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.Spec

open Cert

variable (x0 : (⟨S8192x512, .f32⟩ : BufTy).Contents (Elt Ideal)) (x2 x4 x6 : (⟨S512x512, .f32⟩ : BufTy).Contents (Elt Ideal))
  (x3 x5 x7 x12 x13 : (⟨S512, .f32⟩ : BufTy).Contents (Elt Ideal)) (x10 x11 : (⟨S8x256x8192, .f32⟩ : BufTy).Contents (Elt Ideal))

/-! ## The layer norm and the residual, over the merged heads  u j = the reference's entry (n, j) before the norm -/

theorem mean_at (n : Fin 8192) (j : Fin 512) :
    val_main_v49 (F := Ideal) x0 x2 x3 x4 x5 x6 x7 x10 x11 (ix2 n j)
      = Ideal.div (∑ j' : Fin 512, val_main_v39 (F := Ideal) x0 x2 x3 x4 x5 x6 x7 x10 x11 (ix2 n j')) (Ideal.ofBits .f32 0x44000000#32) := by
  have e : idx_main_v46 (idx_main_v49 (ix2 n j)) = ix1 n := by idx_eq
  rw [val_main_v49_apply, val_main_v48_apply, val_main_v46_apply, e, val_main_v45_apply, val_main_v47_apply, val_main_cst_4_apply, val_main_cst_3_apply]
  have i1 : ∀ j' : Fin 512, idx_main_v45 (ix1 n) j' = ix2 n j' := fun j' => by idx_eq
  simp only [i1, Ideal.hostDivf_def, Ideal.ofBits_def, Ideal.ofBits_zero_f32, zero_add]

theorem mean'_at (n : Fin 8192) (j : Fin 512) :
    val_main_v56 (F := Ideal) x0 x2 x3 x4 x5 x6 x7 x10 x11 (ix2 n j)
      = Ideal.div (∑ j' : Fin 512, val_main_v39 (F := Ideal) x0 x2 x3 x4 x5 x6 x7 x10 x11 (ix2 n j')) (Ideal.ofBits .f32 0x44000000#32) := by
  have e : idx_main_v46 (idx_main_v56 (ix2 n j)) = ix1 n := by idx_eq
  rw [val_main_v56_apply, val_main_v48_apply, val_main_v46_apply, e, val_main_v45_apply, val_main_v47_apply, val_main_cst_4_apply, val_main_cst_3_apply]
  have i1 : ∀ j' : Fin 512, idx_main_v45 (ix1 n) j' = ix2 n j' := fun j' => by idx_eq
  simp only [i1, Ideal.hostDivf_def, Ideal.ofBits_def, Ideal.ofBits_zero_f32, zero_add]

theorem sd_at (n : Fin 8192) (j : Fin 512) :
    val_main_v61 (F := Ideal) x0 x2 x3 x4 x5 x6 x7 x10 x11 (ix2 n j)
      = Ideal.sqrt (Ideal.div (∑ j' : Fin 512,
            (val_main_v39 (F := Ideal) x0 x2 x3 x4 x5 x6 x7 x10 x11 (ix2 n j') - val_main_v49 (F := Ideal) x0 x2 x3 x4 x5 x6 x7 x10 x11 (ix2 n j'))
              * (val_main_v39 (F := Ideal) x0 x2 x3 x4 x5 x6 x7 x10 x11 (ix2 n j') - val_main_v49 (F := Ideal) x0 x2 x3 x4 x5 x6 x7 x10 x11 (ix2 n j')))
          (Ideal.ofBits .f32 0x44000000#32) + Ideal.ofBits .f32 0x3727C5AC#32) := by
  have e : idx_main_v53 (idx_main_v61 (ix2 n j)) = ix1 n := by idx_eq
  rw [val_main_v61_apply, val_main_v60_apply, val_main_v59_apply, val_main_v55_apply, val_main_v53_apply, e, val_main_v52_apply,
    val_main_v54_apply, val_main_cst_6_apply, val_main_v58_apply, val_main_cst_7_apply, val_main_cst_5_apply]
  have i1 : ∀ j' : Fin 512, idx_main_v52 (ix1 n) j' = ix2 n j' := fun j' => by idx_eq
  simp only [i1, val_main_v51_apply, val_main_v50_apply, Ideal.hostDivf_def, Ideal.hostUnary_sqrt_def, Ideal.addf_def, Ideal.subf_def, Ideal.mulf_def,
    Ideal.ofBits_def, Ideal.ofBits_zero_f32, zero_add]

/-- The first result's entry (n, j), from the merged heads' row u. -/
theorem result_at (n : Fin 8192) (j : Fin 512) :
    val_main_v69 (F := Ideal) x0 x2 x3 x4 x5 x6 x7 x10 x11 x12 x13 (ix2 n j)
      = Ideal.div (val_main_v39 (F := Ideal) x0 x2 x3 x4 x5 x6 x7 x10 x11 (ix2 n j) - val_main_v56 (F := Ideal) x0 x2 x3 x4 x5 x6 x7 x10 x11 (ix2 n j)) (val_main_v61 (F := Ideal) x0 x2 x3 x4 x5 x6 x7 x10 x11 (ix2 n j))
          * x12 (ix1 j) + x13 (ix1 j) + x0 (ix2 n j) := by
  have e1 : idx_main_v63 (idx_main_v64 (ix2 n j)) = ix1 j := by idx_eq
  have e2 : idx_main_v66 (idx_main_v67 (ix2 n j)) = ix1 j := by idx_eq
  rw [val_main_v69_apply, val_main_v68_apply, val_main_v65_apply, val_main_v62_apply, val_main_v57_apply, val_main_v64_apply, val_main_v63_apply, e1,
    val_main_v67_apply, val_main_v66_apply, e2]
  simp only [Ideal.hostDivf_def, Ideal.addf_def, Ideal.subf_def, Ideal.mulf_def]

/-- The same in the specification's words: the reference's layer norm of the row u, plus the node's features. -/
theorem result_spec (n : Fin 8192) (j : Fin 512) (g b : Mat 1 512)
    (hg : ∀ j : Fin 512, g (ix2 0 j) = x12 (ix1 j)) (hb : ∀ j : Fin 512, b (ix2 0 j) = x13 (ix1 j)) :
    val_main_v69 (F := Ideal) x0 x2 x3 x4 x5 x6 x7 x10 x11 x12 x13 (ix2 n j)
      = lnR (fun j' => val_main_v39 (F := Ideal) x0 x2 x3 x4 x5 x6 x7 x10 x11 (ix2 n j')) g b j + x0 (ix2 n j) := by
  rw [result_at, sd_at, mean'_at]
  simp only [mean_at]
  unfold lnR Cert.Spec.var Cert.Spec.mean
  rw [hg, hb]

end Cert.ReferenceIdeal.First

end
-- ==== Proof.RefFirstA.lean ====
import proofs.«154112_j74371653697779_2_alg».proof.Proof.Gen.ReferenceIdeal.Read
import proofs.«154112_j74371653697779_2_alg».proof.Proof.Spec
import proofs.«154112_j74371653697779_2_alg».proof.Proof.IdxEq

set_option maxRecDepth 16384

noncomputable section

namespace Cert.ReferenceIdeal.First

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.Spec

open Cert

variable (x0 : (⟨S8192x512, .f32⟩ : BufTy).Contents (Elt Ideal)) (x2 x4 x6 : (⟨S512x512, .f32⟩ : BufTy).Contents (Elt Ideal))
  (x3 x5 x7 x12 x13 : (⟨S512, .f32⟩ : BufTy).Contents (Elt Ideal)) (x10 x11 : (⟨S8x256x8192, .f32⟩ : BufTy).Contents (Elt Ideal))

/-! ## The three projections, regrouped by head: entry (h, n, d) is entry (n, 64 h + d) of  x W^T + b -/

theorem q_at (h : Fin 8) (n : Fin 8192) (d : Fin 64) :
    val_main_v6 (F := Ideal) x0 x2 x3 (ix3 h n d)
      = (∑ k : Fin 512, x0 (ix2 n k) * x2 (ix2 ⟨64 * h.val + d.val, by omega⟩ k)) + x3 (ix1 ⟨64 * h.val + d.val, by omega⟩) := by
  have e : idx_main_v5 (idx_main_v6 (ix3 h n d)) = ix2 n ⟨64 * h.val + d.val, by omega⟩ := by
    funext a; apply Fin.ext
    match a with
    | ⟨0, _⟩ => show ((n.val * 8 + h.val) * 64 + d.val) / 512 = n.val; omega
    | ⟨1, _⟩ => show ((n.val * 8 + h.val) * 64 + d.val) % 512 = 64 * h.val + d.val; omega
  rw [val_main_v6_apply, val_main_v5_apply, e, val_main_v4_apply, val_main_v1_apply, val_main_v3_apply, val_main_v2_apply]
  simp only [val_main_v0_apply, Ideal.addf_def]
  have i1 : ∀ (c : Fin 512) (k : Fin 512), lidx_main_v1 (ix2 n c) k = ix2 n k := fun c k => by idx_eq
  have i2 : ∀ (c : Fin 512) (k : Fin 512), idx_main_v0 (ridx_main_v1 (ix2 n c) k) = ix2 c k := fun c k => by idx_eq
  have i3 : ∀ (c : Fin 512), idx_main_v2 (idx_main_v3 (ix2 n c)) = ix1 c := fun c => by idx_eq
  simp only [i1, i2, i3]

theorem k_at (h : Fin 8) (n : Fin 8192) (d : Fin 64) :
    val_main_v13 (F := Ideal) x0 x4 x5 (ix3 h n d)
      = (∑ k : Fin 512, x0 (ix2 n k) * x4 (ix2 ⟨64 * h.val + d.val, by omega⟩ k)) + x5 (ix1 ⟨64 * h.val + d.val, by omega⟩) := by
  have e : idx_main_v12 (idx_main_v13 (ix3 h n d)) = ix2 n ⟨64 * h.val + d.val, by omega⟩ := by
    funext a; apply Fin.ext
    match a with
    | ⟨0, _⟩ => show ((n.val * 8 + h.val) * 64 + d.val) / 512 = n.val; omega
    | ⟨1, _⟩ => show ((n.val * 8 + h.val) * 64 + d.val) % 512 = 64 * h.val + d.val; omega
  rw [val_main_v13_apply, val_main_v12_apply, e, val_main_v11_apply, val_main_v8_apply, val_main_v10_apply, val_main_v9_apply]
  simp only [val_main_v7_apply, Ideal.addf_def]
  have i1 : ∀ (c : Fin 512) (k : Fin 512), lidx_main_v8 (ix2 n c) k = ix2 n k := fun c k => by idx_eq
  have i2 : ∀ (c : Fin 512) (k : Fin 512), idx_main_v7 (ridx_main_v8 (ix2 n c) k) = ix2 c k := fun c k => by idx_eq
  have i3 : ∀ (c : Fin 512), idx_main_v9 (idx_main_v10 (ix2 n c)) = ix1 c := fun c => by idx_eq
  simp only [i1, i2, i3]

theorem v_at (h : Fin 8) (n : Fin 8192) (d : Fin 64) :
    val_main_v20 (F := Ideal) x0 x6 x7 (ix3 h n d)
      = (∑ k : Fin 512, x0 (ix2 n k) * x6 (ix2 ⟨64 * h.val + d.val, by omega⟩ k)) + x7 (ix1 ⟨64 * h.val + d.val, by omega⟩) := by
  have e : idx_main_v19 (idx_main_v20 (ix3 h n d)) = ix2 n ⟨64 * h.val + d.val, by omega⟩ := by
    funext a; apply Fin.ext
    match a with
    | ⟨0, _⟩ => show ((n.val * 8 + h.val) * 64 + d.val) / 512 = n.val; omega
    | ⟨1, _⟩ => show ((n.val * 8 + h.val) * 64 + d.val) % 512 = 64 * h.val + d.val; omega
  rw [val_main_v20_apply, val_main_v19_apply, e, val_main_v18_apply, val_main_v15_apply, val_main_v17_apply, val_main_v16_apply]
  simp only [val_main_v14_apply, Ideal.addf_def]
  have i1 : ∀ (c : Fin 512) (k : Fin 512), lidx_main_v15 (ix2 n c) k = ix2 n k := fun c k => by idx_eq
  have i2 : ∀ (c : Fin 512) (k : Fin 512), idx_main_v14 (ridx_main_v15 (ix2 n c) k) = ix2 c k := fun c k => by idx_eq
  have i3 : ∀ (c : Fin 512), idx_main_v16 (idx_main_v17 (ix2 n c)) = ix1 c := fun c => by idx_eq
  simp only [i1, i2, i3]

/-! ## The low-rank projections: a sum over all nodes -/

theorem pk_at (h : Fin 8) (k : Fin 256) (d : Fin 64) :
    val_main_v21 (F := Ideal) x0 x4 x5 x10 (ix3 h k d) = ∑ n : Fin 8192, x10 (ix3 h k n) * val_main_v13 (F := Ideal) x0 x4 x5 (ix3 h n d) := by
  rw [val_main_v21_apply]
  have i1 : ∀ n : Fin 8192, lidx_main_v21 (ix3 h k d) n = ix3 h k n := fun n => by idx_eq
  have i2 : ∀ n : Fin 8192, ridx_main_v21 (ix3 h k d) n = ix3 h n d := fun n => by idx_eq
  simp only [i1, i2]

theorem pv_at (h : Fin 8) (k : Fin 256) (d : Fin 64) :
    val_main_v22 (F := Ideal) x0 x6 x7 x11 (ix3 h k d) = ∑ n : Fin 8192, x11 (ix3 h k n) * val_main_v20 (F := Ideal) x0 x6 x7 (ix3 h n d) := by
  rw [val_main_v22_apply]
  have i1 : ∀ n : Fin 8192, lidx_main_v22 (ix3 h k d) n = ix3 h k n := fun n => by idx_eq
  have i2 : ∀ n : Fin 8192, ridx_main_v22 (ix3 h k d) n = ix3 h n d := fun n => by idx_eq
  simp only [i1, i2]

/-! ## Scores, softmax, head output -/

theorem score_at (h : Fin 8) (n : Fin 8192) (k : Fin 256) :
    val_main_v25 (F := Ideal) x0 x2 x3 x4 x5 x10 (ix3 h n k)
      = Ideal.div (∑ d : Fin 64, val_main_v6 (F := Ideal) x0 x2 x3 (ix3 h n d) * val_main_v21 (F := Ideal) x0 x4 x5 x10 (ix3 h k d)) (Ideal.ofBits .f32 0x41000000#32) := by
  rw [val_main_v25_apply, val_main_v23_apply, val_main_v24_apply, val_main_cst_apply]
  have i1 : ∀ d : Fin 64, lidx_main_v23 (ix3 h n k) d = ix3 h n d := fun d => by idx_eq
  have i2 : ∀ d : Fin 64, ridx_main_v23 (ix3 h n k) d = ix3 h k d := fun d => by idx_eq
  simp only [i1, i2, Ideal.hostDivf_def, Ideal.ofBits_def]

/-- The row maximum the softmax subtracts: the fold of max from minus infinity over the 256 ranks (the outer maximum
    with minus infinity changes nothing). -/
theorem max_at (h : Fin 8) (n : Fin 8192) (k : Fin 256) :
    val_main_v30 (F := Ideal) x0 x2 x3 x4 x5 x10 (ix3 h n k)
      = max (Ideal.ofBits .f32 0xFF800000#32) ((Finset.univ : Finset (Fin 256)).fold max (Ideal.ofBits .f32 0xFF800000#32)
          (fun k' => val_main_v25 (F := Ideal) x0 x2 x3 x4 x5 x10 (ix3 h n k'))) := by
  have e : idx_main_v29 (idx_main_v30 (ix3 h n k)) = ix2 h n := by idx_eq
  rw [val_main_v30_apply, val_main_v29_apply, e, val_main_v28_apply, val_main_v27_apply, val_main_cst_1_apply]
  unfold val_main_v26
  generalize val_main_v25 (F := Ideal) x0 x2 x3 x4 x5 x10 = y
  have hr := Host.reduce_eq_fold_single (α := EReal) max y (val_main_cst_0 (F := Ideal)) reducesTo_S8x8192x256_S8x8192_d2 (by decide) h_S_ (ix2 h n)
  simp only [Ideal.maximumf_def, Ideal.ofBits_def]
  refine congrArg (max _) (hr.trans ?_)
  refine congrArg₂ (fun a f => (Finset.univ : Finset (Fin 256)).fold max a f) rfl ?_
  funext k'
  exact congrArg y (funext fun a => Fin.ext (by match a with | ⟨0, _⟩ => rfl | ⟨1, _⟩ => rfl | ⟨2, _⟩ => rfl))

theorem expo_at (h : Fin 8) (n : Fin 8192) (k : Fin 256) :
    val_main_v32 (F := Ideal) x0 x2 x3 x4 x5 x10 (ix3 h n k)
      = Ideal.exp (val_main_v25 (F := Ideal) x0 x2 x3 x4 x5 x10 (ix3 h n k) - val_main_v30 (F := Ideal) x0 x2 x3 x4 x5 x10 (ix3 h n k)) := by
  rw [val_main_v32_apply, val_main_v31_apply]
  simp only [Ideal.hostUnary_exp_def, Ideal.subf_def]

theorem den_at (h : Fin 8) (n : Fin 8192) (k : Fin 256) :
    val_main_v35 (F := Ideal) x0 x2 x3 x4 x5 x10 (ix3 h n k) = ∑ k' : Fin 256, val_main_v32 (F := Ideal) x0 x2 x3 x4 x5 x10 (ix3 h n k') := by
  have e : idx_main_v34 (idx_main_v35 (ix3 h n k)) = ix2 h n := by idx_eq
  rw [val_main_v35_apply, val_main_v34_apply, e, val_main_v33_apply, val_main_cst_2_apply]
  have i1 : ∀ k' : Fin 256, idx_main_v33 (ix2 h n) k' = ix3 h n k' := fun k' => by idx_eq
  simp only [i1, Ideal.ofBits_def, Ideal.ofBits_zero_f32, zero_add]

theorem head_at (h : Fin 8) (n : Fin 8192) (d : Fin 64) :
    val_main_v37 (F := Ideal) x0 x2 x3 x4 x5 x6 x7 x10 x11 (ix3 h n d)
      = ∑ k : Fin 256, Ideal.div (val_main_v32 (F := Ideal) x0 x2 x3 x4 x5 x10 (ix3 h n k)) (val_main_v35 (F := Ideal) x0 x2 x3 x4 x5 x10 (ix3 h n k))
          * val_main_v22 (F := Ideal) x0 x6 x7 x11 (ix3 h k d) := by
  rw [val_main_v37_apply]
  have i1 : ∀ k : Fin 256, lidx_main_v37 (ix3 h n d) k = ix3 h n k := fun k => by idx_eq
  have i2 : ∀ k : Fin 256, ridx_main_v37 (ix3 h n d) k = ix3 h k d := fun k => by idx_eq
  simp only [i1, i2, val_main_v36_apply, Ideal.hostDivf_def]

/-- The heads side by side: column j of node n is head j / 64, column j % 64. -/
theorem merged_at (n : Fin 8192) (j : Fin 512) :
    val_main_v39 (F := Ideal) x0 x2 x3 x4 x5 x6 x7 x10 x11 (ix2 n j)
      = val_main_v37 (F := Ideal) x0 x2 x3 x4 x5 x6 x7 x10 x11 (ix3 ⟨j.val / 64, by omega⟩ n ⟨j.val % 64, by omega⟩) := by
  have e : idx_main_v38 (idx_main_v39 (ix2 n j)) = ix3 ⟨j.val / 64, by omega⟩ n ⟨j.val % 64, by omega⟩ := by
    funext a; apply Fin.ext
    match a with
    | ⟨0, _⟩ => show (n.val * 512 + j.val) / 64 % 8 = j.val / 64; omega
    | ⟨1, _⟩ => show (n.val * 512 + j.val) / 512 = n.val; omega
    | ⟨2, _⟩ => show (n.val * 512 + j.val) % 64 = j.val % 64; omega
  rw [val_main_v39_apply, val_main_v38_apply, e]

end Cert.ReferenceIdeal.First

end
-- ==== Proof.Consts.lean ====
/-
  The float words the two programs spell whose values the proof needs: 8, one eighth and minus infinity, and the law that
  lets the kernel multiply by one eighth where the reference divides by eight.
-/
import Idealize.ShloMosaic.PureOps.Ideal
import proofs.«154112_j74371653697779_2_alg».proof.Proof.Spec

noncomputable section

namespace Cert.Consts

open Idealize.ShloMosaic

theorem ofBits_eight : Ideal.ofBits .f32 0x41000000#32 = ((8 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

/-- Dividing by eight is multiplying by one eighth, on every extended real. -/
theorem mul_eighth (a : EReal) : a * Cert.Spec.eighth = Ideal.div a (Ideal.ofBits .f32 0x41000000#32) := by
  show a * Ideal.ofBits .f32 0x3E000000#32 = _
  rw [ofBits_eight, ofBits_eighth, Ideal.div_coe (by norm_num : (8 : ℝ) ≠ 0)]

/-- The maximum with minus infinity changes nothing. -/
theorem max_negInf (a : EReal) : max (Ideal.ofBits .f32 0xFF800000#32) a = a := by
  rw [ofBits_negInf]; exact max_eq_right bot_le

end Cert.Consts

end
-- ==== Proof.RefFirstC.lean ====
import proofs.«154112_j74371653697779_2_alg».proof.Proof.RefFirstA
import proofs.«154112_j74371653697779_2_alg».proof.Proof.Consts

set_option maxRecDepth 16384

noncomputable section

namespace Cert.ReferenceIdeal.First

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx Cert.Spec

variable (x0 : (⟨S8192x512, .f32⟩ : BufTy).Contents (Elt Ideal)) (x2 x4 x6 : (⟨S512x512, .f32⟩ : BufTy).Contents (Elt Ideal))
  (x3 x5 x7 x12 x13 : (⟨S512, .f32⟩ : BufTy).Contents (Elt Ideal)) (x10 x11 : (⟨S8x256x8192, .f32⟩ : BufTy).Contents (Elt Ideal))

/-- If the fused projection's query columns, regrouped by head, are the reference's queries, and the two low-rank arrays
    are the reference's, then the specification's heads side by side are the reference's merged heads: the scores agree
    (a product with one eighth is a quotient by eight), so do the row maxima (the outer maximum with minus infinity is
    idle), the exponentials, the weights, each head's output and the regrouping of the columns. -/
theorem heads_eq (p : Mat 8192 1536) (pk pv : Ten 8 256 64)
    (hq : ∀ (n : Fin 8192) (h : Fin 8) (d : Fin 64), p (ix2 n ⟨64 * h.val + d.val, by omega⟩) = val_main_v6 (F := Ideal) x0 x2 x3 (ix3 h n d))
    (hk : ∀ (h : Fin 8) (k : Fin 256) (d : Fin 64), pk (ix3 h k d) = val_main_v21 (F := Ideal) x0 x4 x5 x10 (ix3 h k d))
    (hv : ∀ (h : Fin 8) (k : Fin 256) (d : Fin 64), pv (ix3 h k d) = val_main_v22 (F := Ideal) x0 x6 x7 x11 (ix3 h k d))
    (n : Fin 8192) (j : Fin 512) :
    heads p pk pv n j = val_main_v39 (F := Ideal) x0 x2 x3 x4 x5 x6 x7 x10 x11 (ix2 n j) := by
  have hs : ∀ (h : Fin 8) (k : Fin 256), score p pk n h k = val_main_v25 (F := Ideal) x0 x2 x3 x4 x5 x10 (ix3 h n k) := fun h k => by
    rw [score_at]; unfold score
    rw [Cert.Consts.mul_eighth]
    simp only [hq, hk]
  have hm : ∀ (h : Fin 8) (k : Fin 256), rowmax (score p pk n h) = val_main_v30 (F := Ideal) x0 x2 x3 x4 x5 x10 (ix3 h n k) := fun h k => by
    rw [max_at, Cert.Consts.max_negInf]; unfold rowmax
    exact congrArg (fun f => (Finset.univ : Finset (Fin 256)).fold max (Ideal.ofBits .f32 0xFF800000#32) f) (funext fun k' => hs h k')
  have he : ∀ (h : Fin 8) (k : Fin 256), expo p pk n h k = val_main_v32 (F := Ideal) x0 x2 x3 x4 x5 x10 (ix3 h n k) := fun h k => by
    rw [expo_at]; unfold expo; rw [hs, hm h k]
  have ha : ∀ (h : Fin 8) (k : Fin 256), attn p pk n h k
      = Ideal.div (val_main_v32 (F := Ideal) x0 x2 x3 x4 x5 x10 (ix3 h n k)) (val_main_v35 (F := Ideal) x0 x2 x3 x4 x5 x10 (ix3 h n k)) := fun h k => by
    rw [den_at]; unfold attn; simp only [he]
  rw [merged_at, head_at]
  unfold heads head
  simp only [ha, hv]

end Cert.ReferenceIdeal.First

end
-- ==== Proof.KI.Entry.lean ====
/-
  What the regions find in the buffers they read, in terms of the launch memory and of the earlier regions' results:
  an argument no host stretch writes and no region puts out is as launched; the fused projection and the two low-rank
  arrays are what the first and second regions left; the layer norm's scale and shift rows are the arguments reshaped.
-/
import proofs.«154112_j74371653697779_2_alg».proof.Proof.KI.Run
import Idealize.ShloMosaic.Lib.Pipeline.Value
import Idealize.ShloMosaic.Lib.ValueIdx
import Idealize.ShloMosaic.Lib.StableHlo.Run

set_option maxRecDepth 16384

noncomputable section

namespace Cert.KernelIdeal.Whole

open Idealize.ShloMosaic Idealize.ShloMosaic.TcCoe Idealize.ShloMosaic.Tactic
open Idealize.SL Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (ρ : Dev nD → PrngReg) (c : Dev nD)

theorem E2_v4 : E2 m ρ c main_v4 = (Proj.dat (E1 m ρ) c).arrAt 3 cfg0.N := W2_out m ρ c
theorem E2_ep : E2 m ρ c main_arg10 = m ((c : Thread nD τ).loc main_arg10) :=
  (W2_of m ρ c main_arg10 (by decide)).trans ((W1_of m ρ c main_arg10 (by decide)).trans rfl)
theorem E2_fp : E2 m ρ c main_arg11 = m ((c : Thread nD τ).loc main_arg11) :=
  (W2_of m ρ c main_arg11 (by decide)).trans ((W1_of m ρ c main_arg11 (by decide)).trans rfl)

theorem W3_kept (r : Ref sig .tc) (h1 : r ∉ hostOps0_W) (h2 : r ≠ main_v4) (h3 : r ≠ main_v5_0) (h3' : r ≠ main_v5_1) :
    W3 m ρ c r = m ((c : Thread nD τ).loc r) :=
  (W3_of m ρ c r h3 h3').trans ((W2_of m ρ c r h2).trans ((W1_of m ρ c r h1).trans rfl))

theorem E4_x : E4 m ρ c main_arg0 = m ((c : Thread nD τ).loc main_arg0) :=
  (W4_of m ρ c main_arg0 (by decide)).trans (W3_kept m ρ c main_arg0 (by decide) (by decide) (by decide) (by decide))
theorem E4_p : E4 m ρ c main_v4 = (Proj.dat (E1 m ρ) c).arrAt 3 cfg0.N :=
  (W4_of m ρ c main_v4 (by decide)).trans ((W3_of m ρ c main_v4 (by decide) (by decide)).trans (W2_out m ρ c))
theorem E4_pk : E4 m ρ c main_v5_0 = (LowRank.dat (E2 m ρ) c).arrAt 4 cfg1.N :=
  (W4_of m ρ c main_v5_0 (by decide)).trans (W3_k m ρ c)
theorem E4_pv : E4 m ρ c main_v5_1 = (LowRank.dat (E2 m ρ) c).arrAt 5 cfg1.N :=
  (W4_of m ρ c main_v5_1 (by decide)).trans (W3_v m ρ c)

/-- The layer norm's scale row as the third region finds it: the argument vector laid out as one row. -/
theorem E4_g (j : Fin 512) : (E4 m ρ c main_v6 : S1x512.Idx → EReal) (ix2 0 j) = (m ((c : Thread nD τ).loc main_arg12) : S512.Idx → EReal) (ix1 j) := by
  have e : (W4 m ρ c main_v6 : S1x512.Idx → EReal) = shapeCast S1x512 (W3 m ρ c main_arg12 : S512.Idx → EReal) shapeCasts_S512_S1x512 := by
    dsimp only [W4, hostOps2]; after_results; rfl
  show (W4 m ρ c main_v6 : S1x512.Idx → EReal) (ix2 0 j) = _
  rw [e, W3_kept m ρ c main_arg12 (by decide) (by decide) (by decide) (by decide)]
  exact shapeCast_apply _ shapeCasts_S512_S1x512 (ix2 0 j) (ix1 j)
    (by rewrite [Shape.rowMajor_val_one, Shape.rowMajor_val_two]; show (j.val) = 0 * 512 + j.val; omega)

/-- The shift row likewise. -/
theorem E4_b (j : Fin 512) : (E4 m ρ c main_v7 : S1x512.Idx → EReal) (ix2 0 j) = (m ((c : Thread nD τ).loc main_arg13) : S512.Idx → EReal) (ix1 j) := by
  have e : (W4 m ρ c main_v7 : S1x512.Idx → EReal) = shapeCast S1x512 (W3 m ρ c main_arg13 : S512.Idx → EReal) shapeCasts_S512_S1x512 := by
    dsimp only [W4, hostOps2]; after_results; rfl
  show (W4 m ρ c main_v7 : S1x512.Idx → EReal) (ix2 0 j) = _
  rw [e, W3_kept m ρ c main_arg13 (by decide) (by decide) (by decide) (by decide)]
  exact shapeCast_apply _ shapeCasts_S512_S1x512 (ix2 0 j) (ix1 j)
    (by rewrite [Shape.rowMajor_val_one, Shape.rowMajor_val_two]; show (j.val) = 0 * 512 + j.val; omega)

end Cert.KernelIdeal.Whole

end
-- ==== Proof.FirstOf.lean ====
/-
  The first result.  The kernel's array is, entry by entry, the kernel-side specification of what the third region found:
  the fused projection, the two low-rank arrays, the node features, the scale and shift rows.  Those are, entry by entry,
  the reference's queries regrouped by head, its two low-rank projections, and the arguments; so the specification's
  merged heads are the reference's, the kernel's layer norm is the reference's (the variance plus epsilon is positive),
  and the residuals are the same argument.
-/
import proofs.«154112_j74371653697779_2_alg».proof.Proof.RefFirstB
import proofs.«154112_j74371653697779_2_alg».proof.Proof.RefFirstC
import proofs.«154112_j74371653697779_2_alg».proof.Proof.KI.Entry

set_option maxRecDepth 16384

noncomputable section

namespace Cert.Proof.First

open Idealize.ShloMosaic Idealize.ShloMosaic.TcCoe Idealize.SL.Sem Idealize.ShloMosaic.ValueIdx
open Cert.Spec Cert.KernelIdeal.Whole Cert.ReferenceIdeal.Read Cert.ReferenceIdeal.First

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

open Cert.KernelIdeal in
/-- The first result, given what the regions' values are. -/
theorem first_of
    (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (h3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (h4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (h5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (h6 : m' ((c : Thread Cert.ReferenceIdeal.nD Cert.ReferenceIdeal.τ).loc Cert.ReferenceIdeal.main_arg6) = m ((c : Thread Cert.KernelIdeal.nD Cert.KernelIdeal.τ).loc Cert.KernelIdeal.main_arg6))
    (h7 : m' ((c : Thread Cert.ReferenceIdeal.nD Cert.ReferenceIdeal.τ).loc Cert.ReferenceIdeal.main_arg7) = m ((c : Thread Cert.KernelIdeal.nD Cert.KernelIdeal.τ).loc Cert.KernelIdeal.main_arg7))
    (h10 : m' ((c : Thread Cert.ReferenceIdeal.nD Cert.ReferenceIdeal.τ).loc Cert.ReferenceIdeal.main_arg10) = m ((c : Thread Cert.KernelIdeal.nD Cert.KernelIdeal.τ).loc Cert.KernelIdeal.main_arg10))
    (h11 : m' ((c : Thread Cert.ReferenceIdeal.nD Cert.ReferenceIdeal.τ).loc Cert.ReferenceIdeal.main_arg11) = m ((c : Thread Cert.KernelIdeal.nD Cert.KernelIdeal.τ).loc Cert.KernelIdeal.main_arg11))
    (h12 : m' ((c : Thread Cert.ReferenceIdeal.nD Cert.ReferenceIdeal.τ).loc Cert.ReferenceIdeal.main_arg12) = m ((c : Thread Cert.KernelIdeal.nD Cert.KernelIdeal.τ).loc Cert.KernelIdeal.main_arg12))
    (h13 : m' ((c : Thread Cert.ReferenceIdeal.nD Cert.ReferenceIdeal.τ).loc Cert.ReferenceIdeal.main_arg13) = m ((c : Thread Cert.KernelIdeal.nD Cert.KernelIdeal.τ).loc Cert.KernelIdeal.main_arg13))
    (H_proj : ∀ (n : Fin 8192) (j : Fin 1536), (Proj.dat (E1 m ρ) c).arrAt 3 cfg0.N (ix2 n j)
        = affine (E1 m ρ c main_arg0) (E1 m ρ c main_v2) (E1 m ρ c main_v3) n j)
    (H_x : E1 m ρ c main_arg0 = m ((c : Thread Cert.KernelIdeal.nD Cert.KernelIdeal.τ).loc Cert.KernelIdeal.main_arg0))
    (H_wq : ∀ (k j : Fin 512), (E1 m ρ c main_v2 : Mat 512 1536) (ix2 k ⟨j.val, by omega⟩) = (m ((c : Thread Cert.KernelIdeal.nD Cert.KernelIdeal.τ).loc Cert.KernelIdeal.main_arg2) : Mat 512 512) (ix2 j k))
    (H_wk : ∀ (k j : Fin 512), (E1 m ρ c main_v2 : Mat 512 1536) (ix2 k ⟨512 + j.val, by omega⟩) = (m ((c : Thread Cert.KernelIdeal.nD Cert.KernelIdeal.τ).loc Cert.KernelIdeal.main_arg4) : Mat 512 512) (ix2 j k))
    (H_wv : ∀ (k j : Fin 512), (E1 m ρ c main_v2 : Mat 512 1536) (ix2 k ⟨1024 + j.val, by omega⟩) = (m ((c : Thread Cert.KernelIdeal.nD Cert.KernelIdeal.τ).loc Cert.KernelIdeal.main_arg6) : Mat 512 512) (ix2 j k))
    (H_bq : ∀ (j : Fin 512), (E1 m ρ c main_v3 : Mat 1 1536) (ix2 0 ⟨j.val, by omega⟩) = (m ((c : Thread Cert.KernelIdeal.nD Cert.KernelIdeal.τ).loc Cert.KernelIdeal.main_arg3) : (⟨1, ![512]⟩ : Shape).Idx → EReal) (ix1 j))
    (H_bk : ∀ (j : Fin 512), (E1 m ρ c main_v3 : Mat 1 1536) (ix2 0 ⟨512 + j.val, by omega⟩) = (m ((c : Thread Cert.KernelIdeal.nD Cert.KernelIdeal.τ).loc Cert.KernelIdeal.main_arg5) : (⟨1, ![512]⟩ : Shape).Idx → EReal) (ix1 j))
    (H_bv : ∀ (j : Fin 512), (E1 m ρ c main_v3 : Mat 1 1536) (ix2 0 ⟨1024 + j.val, by omega⟩) = (m ((c : Thread Cert.KernelIdeal.nD Cert.KernelIdeal.τ).loc Cert.KernelIdeal.main_arg7) : (⟨1, ![512]⟩ : Shape).Idx → EReal) (ix1 j))
    (H_pk : ∀ (h : Fin 8) (k : Fin 256) (d : Fin 64), (LowRank.dat (E2 m ρ) c).arrAt 4 cfg1.N (ix3 h k d)
        = lowrank (E2 m ρ c main_arg10) (E2 m ρ c main_v4) 512 (by norm_num) h k d)
    (H_pv : ∀ (h : Fin 8) (k : Fin 256) (d : Fin 64), (LowRank.dat (E2 m ρ) c).arrAt 5 cfg1.N (ix3 h k d)
        = lowrank (E2 m ρ c main_arg11) (E2 m ρ c main_v4) 1024 (by norm_num) h k d)
    (H_attn : ∀ (n : Fin 8192) (j : Fin 512), (Attn.dat (E4 m ρ) c).arrAt 6 cfg2.N (ix2 n j)
        = xout (E4 m ρ c main_v4) (E4 m ρ c main_v5_0) (E4 m ρ c main_v5_1) (E4 m ρ c main_arg0) (E4 m ρ c main_v6) (E4 m ρ c main_v7) n j)
    (H_ln : ∀ (u : Fin 512 → EReal) (g b : Mat 1 512) (j : Fin 512), lnK u g b j = lnR u g b j) :
    Cert.ReferenceIdeal.Value.res_main_v69 m' c = (Attn.dat (E4 m ρ) c).arrAt 6 cfg2.N := by
  -- the fused projection, column block by column block, is the reference's three projections
  have hcol : ∀ (n : Fin 8192) (h : Fin 8) (d : Fin 64),
      (E2 m ρ c main_v4 : Mat 8192 1536) (ix2 n ⟨64 * h.val + d.val, by omega⟩)
        = val_main_v6 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (ix3 h n d) := fun n h d => by
    rw [E2_v4, H_proj, q_at, h0, h2, h3]; unfold affine; rw [H_x]
    have wq : ∀ k : Fin 512, (E1 m ρ c main_v2 : Mat 512 1536) (ix2 k ⟨64 * h.val + d.val, by omega⟩)
        = (m ((c : Thread Cert.KernelIdeal.nD Cert.KernelIdeal.τ).loc Cert.KernelIdeal.main_arg2) : Mat 512 512) (ix2 ⟨64 * h.val + d.val, by omega⟩ k) := fun k => H_wq k ⟨64 * h.val + d.val, by omega⟩
    have bq := H_bq ⟨64 * h.val + d.val, by omega⟩
    simp only [wq]
    exact congrArg _ bq
  have hkcol : ∀ (n : Fin 8192) (h : Fin 8) (d : Fin 64),
      (E2 m ρ c main_v4 : Mat 8192 1536) (ix2 n ⟨512 + 64 * h.val + d.val, by omega⟩)
        = val_main_v13 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (ix3 h n d) := fun n h d => by
    rw [E2_v4, H_proj, k_at, h0, h4, h5]; unfold affine; rw [H_x]
    have e : (⟨512 + 64 * h.val + d.val, by omega⟩ : Fin 1536) = ⟨512 + (64 * h.val + d.val), by omega⟩ :=
      Fin.ext (by show 512 + 64 * h.val + d.val = 512 + (64 * h.val + d.val); omega)
    rw [e]
    have wk : ∀ k : Fin 512, (E1 m ρ c main_v2 : Mat 512 1536) (ix2 k ⟨512 + (64 * h.val + d.val), by omega⟩)
        = (m ((c : Thread Cert.KernelIdeal.nD Cert.KernelIdeal.τ).loc Cert.KernelIdeal.main_arg4) : Mat 512 512) (ix2 ⟨64 * h.val + d.val, by omega⟩ k) := fun k => H_wk k ⟨64 * h.val + d.val, by omega⟩
    have bk := H_bk ⟨64 * h.val + d.val, by omega⟩
    simp only [wk]
    exact congrArg _ bk
  have hvcol : ∀ (n : Fin 8192) (h : Fin 8) (d : Fin 64),
      (E2 m ρ c main_v4 : Mat 8192 1536) (ix2 n ⟨1024 + 64 * h.val + d.val, by omega⟩)
        = val_main_v20 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (ix3 h n d) := fun n h d => by
    rw [E2_v4, H_proj, v_at, h0, h6, h7]; unfold affine; rw [H_x]
    have e : (⟨1024 + 64 * h.val + d.val, by omega⟩ : Fin 1536) = ⟨1024 + (64 * h.val + d.val), by omega⟩ :=
      Fin.ext (by show 1024 + 64 * h.val + d.val = 1024 + (64 * h.val + d.val); omega)
    rw [e]
    have wk : ∀ k : Fin 512, (E1 m ρ c main_v2 : Mat 512 1536) (ix2 k ⟨1024 + (64 * h.val + d.val), by omega⟩)
        = (m ((c : Thread Cert.KernelIdeal.nD Cert.KernelIdeal.τ).loc Cert.KernelIdeal.main_arg6) : Mat 512 512) (ix2 ⟨64 * h.val + d.val, by omega⟩ k) := fun k => H_wv k ⟨64 * h.val + d.val, by omega⟩
    have bk := H_bv ⟨64 * h.val + d.val, by omega⟩
    simp only [wk]
    exact congrArg _ bk
  have hq' : ∀ (n : Fin 8192) (h : Fin 8) (d : Fin 64),
      (E4 m ρ c main_v4 : Mat 8192 1536) (ix2 n ⟨64 * h.val + d.val, by omega⟩)
        = val_main_v6 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (ix3 h n d) := fun n h d => by
    rw [E4_p, ← E2_v4]; exact hcol n h d
  have hk' : ∀ (h : Fin 8) (k : Fin 256) (d : Fin 64), (E4 m ρ c main_v5_0 : Ten 8 256 64) (ix3 h k d)
      = val_main_v21 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg10)) (ix3 h k d) := fun h k d => by
    rw [E4_pk, H_pk, pk_at, h10]; unfold lowrank; rw [E2_ep]
    simp only [hkcol]
  have hv' : ∀ (h : Fin 8) (k : Fin 256) (d : Fin 64), (E4 m ρ c main_v5_1 : Ten 8 256 64) (ix3 h k d)
      = val_main_v22 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg11)) (ix3 h k d) := fun h k d => by
    rw [E4_pv, H_pv, pv_at, h11]; unfold lowrank; rw [E2_fp]
    simp only [hvcol]
  funext i
  obtain ⟨n, j, rfl⟩ : ∃ (n : Fin 8192) (j : Fin 512), i = ix2 n j := ⟨i 0, i 1, eq_ix2 i⟩
  rw [val_main_v69_eq, H_attn n j]
  unfold xout
  rw [H_ln, result_spec _ _ _ _ _ _ _ _ _ _ _ n j (E4 m ρ c main_v6) (E4 m ρ c main_v7)
    (fun j => (E4_g m ρ c j).trans (by rw [h12])) (fun j => (E4_b m ρ c j).trans (by rw [h13]))]
  have hu : (fun j' => val_main_v39 (F := Ideal) (m' ((c : Thread Cert.ReferenceIdeal.nD Cert.ReferenceIdeal.τ).loc Cert.ReferenceIdeal.main_arg0)) (m' ((c : Thread Cert.ReferenceIdeal.nD Cert.ReferenceIdeal.τ).loc Cert.ReferenceIdeal.main_arg2)) (m' ((c : Thread Cert.ReferenceIdeal.nD Cert.ReferenceIdeal.τ).loc Cert.ReferenceIdeal.main_arg3)) (m' ((c : Thread Cert.ReferenceIdeal.nD Cert.ReferenceIdeal.τ).loc Cert.ReferenceIdeal.main_arg4)) (m' ((c : Thread Cert.ReferenceIdeal.nD Cert.ReferenceIdeal.τ).loc Cert.ReferenceIdeal.main_arg5)) (m' ((c : Thread Cert.ReferenceIdeal.nD Cert.ReferenceIdeal.τ).loc Cert.ReferenceIdeal.main_arg6)) (m' ((c : Thread Cert.ReferenceIdeal.nD Cert.ReferenceIdeal.τ).loc Cert.ReferenceIdeal.main_arg7)) (m' ((c : Thread Cert.ReferenceIdeal.nD Cert.ReferenceIdeal.τ).loc Cert.ReferenceIdeal.main_arg10)) (m' ((c : Thread Cert.ReferenceIdeal.nD Cert.ReferenceIdeal.τ).loc Cert.ReferenceIdeal.main_arg11)) (ix2 n j'))
      = heads (E4 m ρ c main_v4) (E4 m ρ c main_v5_0) (E4 m ρ c main_v5_1) n :=
    funext fun j' => (heads_eq _ _ _ _ _ _ _ _ _ (E4 m ρ c main_v4) (E4 m ρ c main_v5_0) (E4 m ρ c main_v5_1) hq' hk' hv' n j').symm
  rw [hu, E4_x, h0]

end Cert.Proof.First

end
-- ==== Proof.KI.ProjValuePay.lean ====
/-
  The first region's arithmetic at an index.  The body narrows the row tile of the features and the weight to bf16 (the
  identity on the extended reals), multiplies them into a zero accumulator, adds the bias row broadcast over the 512
  rows, and narrows again: at row r, column j of the tile the result is
      sum over k of x[r, k] * w[k, j]  +  b[0, j].
-/
import proofs.«154112_j74371653697779_2_alg».proof.Proof.KI.Proj
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.ProjValue

open Idealize.ShloMosaic Idealize.ShloMosaic.TcCoe Idealize.ShloMosaic.Tactic
open Idealize.ShloMosaic.ValueIdx
open Cert.KernelIdeal Cert.KernelIdeal.Gen

/-- The product's operand indices at output index (r, j) and contraction index k are (r, k) and (k, j). -/
theorem lhs_idx (r : Fin 512) (j : Fin 1536) (k : Fin 512) :
    dot_S512x512_S512x1536_S512x1536_1_0_0_1_n_n.lhsIdx (ix2 r j)
        ((contrEquiv1 dot_S512x512_S512x1536_S512x1536_1_0_0_1_n_n 512 rfl rfl).symm k) = ix2 r k :=
  funext fun a => Fin.ext (by
    have hk := contrEquiv1_symm_val dot_S512x512_S512x1536_S512x1536_1_0_0_1_n_n 512 rfl rfl k
    match a with
    | ⟨0, _⟩ =>
      show (dot_S512x512_S512x1536_S512x1536_1_0_0_1_n_n.lhsIdx (ix2 r j) _ 0).val = r.val
      unfold DotDims.lhsIdx
      rw [dif_neg (show ¬(0 : Fin S512x512.rank) ∈ dot_S512x512_S512x1536_S512x1536_1_0_0_1_n_n.lhsBatch by decide),
        dif_pos (show (0 : Fin S512x512.rank) ∈ dot_S512x512_S512x1536_S512x1536_1_0_0_1_n_n.lhsNonContracting by decide)]
      rfl
    | ⟨1, _⟩ =>
      exact (dot_S512x512_S512x1536_S512x1536_1_0_0_1_n_n.lhsIdx_val_of_single rfl (ix2 r j) _).trans hk)

theorem rhs_idx (r : Fin 512) (j : Fin 1536) (k : Fin 512) :
    dot_S512x512_S512x1536_S512x1536_1_0_0_1_n_n.rhsIdx (ix2 r j)
        ((contrEquiv1 dot_S512x512_S512x1536_S512x1536_1_0_0_1_n_n 512 rfl rfl).symm k) = ix2 k j :=
  funext fun a => Fin.ext (by
    have hk := contrEquiv1_symm_val dot_S512x512_S512x1536_S512x1536_1_0_0_1_n_n 512 rfl rfl k
    match a with
    | ⟨0, _⟩ =>
      exact (dot_S512x512_S512x1536_S512x1536_1_0_0_1_n_n.rhsIdx_val_of_single rfl (ix2 r j) _).trans hk
    | ⟨1, _⟩ =>
      show (dot_S512x512_S512x1536_S512x1536_1_0_0_1_n_n.rhsIdx (ix2 r j) _ 1).val = j.val
      unfold DotDims.rhsIdx
      rw [dif_neg (show ¬(1 : Fin S512x1536.rank) ∈ dot_S512x512_S512x1536_S512x1536_1_0_0_1_n_n.rhsBatch by decide),
        dif_pos (show (1 : Fin S512x1536.rank) ∈ dot_S512x512_S512x1536_S512x1536_1_0_0_1_n_n.rhsNonContracting by decide)]
      rfl)

/-- The product into the zero accumulator, at an index. -/
theorem matmul_at (x : FVec Ideal S512x512 .bf16) (w : FVec Ideal S512x1536 .bf16) (r : Fin 512) (j : Fin 1536) :
    FloatOps.matmul dot_S512x512_S512x1536_S512x1536_1_0_0_1_n_n none x w (constant (F := Ideal) S512x1536 .f32 0x00000000#32) (ix2 r j)
      = ∑ k : Fin 512, x (ix2 r k) * w (ix2 k j) := by
  rw [Ideal.matmul_constant_zero_apply,
    ← Equiv.sum_comp (contrEquiv1 dot_S512x512_S512x1536_S512x1536_1_0_0_1_n_n 512 rfl rfl).symm]
  refine Finset.sum_congr rfl fun k _ => ?_
  rw [lhs_idx, rhs_idx]

/-- The body's stored value at row r, column j of the tile. -/
theorem pay_apply (x : Vec Ideal S512x512 .f32) (w : Vec Ideal S512x1536 .f32) (b : Vec Ideal S1x1536 .f32)
    (r : Fin 512) (j : Fin 1536) :
    k0_pay1 (F := Ideal) x w b (ix2 r j) = (∑ k : Fin 512, x (ix2 r k) * w (ix2 k j)) + b (ix2 0 j) := by
  unfold k0_pay1
  rw [shapeCast_self, shapeCast_self]
  refine (congrArg₂ (· + ·) (matmul_at _ _ r j) (broadcastTo_1b_ab_apply b _ r j)).trans ?_
  rfl

end Cert.KernelIdeal.ProjValue

end
-- ==== Proof.KI.ProjValue.lean ====
/-
  The first region's output array, index by index.  Point t of the grid stores the tile of rows [512 t, 512 t + 512)
  and all 1536 columns; the tile's entry at (r, j) is the product of row 512 t + r of the features with column j of the
  weight, plus the bias row's entry j.  The sixteen tiles cover the array, so after the region
      out[n, j] = sum over k of x[n, k] * w[k, j]  +  b[0, j]      for every n < 8192, j < 1536.
-/
import proofs.«154112_j74371653697779_2_alg».proof.Proof.KI.Run
import proofs.«154112_j74371653697779_2_alg».proof.Proof.KI.ProjValuePay
import proofs.«154112_j74371653697779_2_alg».proof.Proof.Spec

set_option maxRecDepth 16384

noncomputable section

namespace Cert.KernelIdeal.ProjValue

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The whole output array as one function of the three arrays the region reads. -/
def G (X : Spec.Mat 8192 512) (W : Spec.Mat 512 1536) (B : Spec.Mat 1 1536) : S8192x1536.Idx → EReal :=
  fun i => Spec.affine X W B ⟨(i 0).val, idx2_lt0 i⟩ ⟨(i 1).val, idx2_lt1 i⟩

theorem hz : (![0, 0] : Fin 2 → Nat) = fun _ => 0 := funext fun a => by fin_cases a <;> rfl

/-- The block indices, decided over the grid: the features' and the output's row tile moves with the point, the weight
    and the bias stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A tile's entry, when the three loaded blocks are rows [512 q, 512 q + 512) of X, all of W and all of B. -/
theorem tile_at (x : Vec Ideal S512x512 .f32) (w : Vec Ideal S512x1536 .f32) (b : Vec Ideal S1x1536 .f32)
    (X : Spec.Mat 8192 512) (W : Spec.Mat 512 1536) (B : Spec.Mat 1 1536) (q : ℕ) (hq : q < 16)
    (hx : ∀ (r k : Fin 512), x (ix2 r k) = X (ix2 ⟨q * 512 + r.val, by omega⟩ k))
    (hw : ∀ (k : Fin 512) (j : Fin 1536), w (ix2 k j) = W (ix2 k j))
    (hb : ∀ j : Fin 1536, b (ix2 0 j) = B (ix2 0 j))
    (r : Fin 512) (j : Fin 1536) :
    k0_pay1 (F := Ideal) x w b (ix2 r j) = Spec.affine X W B ⟨q * 512 + r.val, by omega⟩ j := by
  rw [pay_apply]
  unfold Spec.affine
  rw [hb]
  exact congrArg (· + B (ix2 0 j)) (Finset.sum_congr rfl fun k _ => by rw [hx, hw])

/-- The same at a tile index given whole. -/
theorem tile_at' (x : Vec Ideal S512x512 .f32) (w : Vec Ideal S512x1536 .f32) (b : Vec Ideal S1x1536 .f32)
    (X : Spec.Mat 8192 512) (W : Spec.Mat 512 1536) (B : Spec.Mat 1 1536) (q : ℕ) (hq : q < 16)
    (hx : ∀ (r k : Fin 512), x (ix2 r k) = X (ix2 ⟨q * 512 + r.val, by omega⟩ k))
    (hw : ∀ (k : Fin 512) (j : Fin 1536), w (ix2 k j) = W (ix2 k j))
    (hb : ∀ j : Fin 1536, b (ix2 0 j) = B (ix2 0 j))
    (y : S512x1536.Idx) :
    k0_pay1 (F := Ideal) x w b y = Spec.affine X W B ⟨q * 512 + (y 0).val, by have := idx2_lt0 y; omega⟩ ⟨(y 1).val, idx2_lt1 y⟩ := by
  obtain ⟨r, j, rfl⟩ : ∃ (r : Fin 512) (j : Fin 1536), y = ix2 r j := ⟨y 0, y 1, eq_ix2 y⟩
  exact tile_at x w b X W B q hq hx hw hb r j

variable (V : (c : Dev nD) → (b : Ref sig .tc) → Buf (Elt Ideal) ((c : Thread nD τ).loc b))

/-- What point t writes back is block t of the whole-array function. -/
theorem flushed_eq (c : Dev nD) (t : Fin cfg0.N) :
    (Proj.dat V c).flushed 3 t = ((cfg0.win 3).blk t).view.read (Elt Ideal) (G (V c main_arg0) (V c main_v2) (V c main_v3)) := by
  show (cfg0.win 3).cut (grid0.coords t) ((Proj.dat V c).after 3 t) = _
  rw [Proj.after_out]
  unfold Proj.tile
  rw [View.canon_unit_zero hz]
  simp only [View.ld_unit_zero (S := S512x512) hz, View.ld_unit_zero (S := S512x1536) hz, View.ld_unit_zero (S := S1x1536) hz]
  obtain ⟨e0, e1, e2, e3, e4, e5, e6, e7⟩ := idx_facts t
  have hN : cfg0.N = 16 := N_0
  have ht : t.val < 16 := hN ▸ t.isLt
  funext y
  refine (tile_at' (Proj.blk V c 0 t) (Proj.blk V c 1 t) (Proj.blk V c 2 t) (V c main_arg0) (V c main_v2) (V c main_v3) t.val ht ?_ ?_ ?_
    ((win0 3).xinj (grid0.coords t) y)).trans ?_
  · intro r k
    show V c main_arg0 (((cfg0.win 0).blk t).view.emb (ix2 r k)) = _
    refine congrArg (V c main_arg0) (funext fun a => Fin.ext ?_)
    match a with
    | ⟨0, _⟩ => show win0_0.index t (0 : Fin 2) * 512 + 1 * r.val = t.val * 512 + r.val; omega
    | ⟨1, _⟩ => show win0_0.index t (1 : Fin 2) * 512 + 1 * k.val = k.val; omega
  · intro k j
    show V c main_v2 (((cfg0.win 1).blk t).view.emb (ix2 k j)) = _
    refine congrArg (V c main_v2) (funext fun a => Fin.ext ?_)
    match a with
    | ⟨0, _⟩ => show win0_1.index t (0 : Fin 2) * 512 + 1 * k.val = k.val; omega
    | ⟨1, _⟩ => show win0_1.index t (1 : Fin 2) * 1536 + 1 * j.val = j.val; omega
  · intro j
    show V c main_v3 (((cfg0.win 2).blk t).view.emb (ix2 0 j)) = _
    refine congrArg (V c main_v3) (funext fun a => Fin.ext ?_)
    match a with
    | ⟨0, _⟩ => show win0_2.index t (0 : Fin 2) * 1 + 1 * 0 = 0; omega
    | ⟨1, _⟩ => show win0_2.index t (1 : Fin 2) * 1536 + 1 * j.val = j.val; omega
  · show _ = G (V c main_arg0) (V c main_v2) (V c main_v3) (((cfg0.win 3).blk t).view.emb y)
    unfold G
    have h0 : ((((cfg0.win 3).blk t).view.emb y) 0).val = t.val * 512 + (y 0).val := by
      show win0_3.index t (0 : Fin 2) * 512 + 1 * (y 0).val = _; omega
    have h1 : ((((cfg0.win 3).blk t).view.emb y) 1).val = (y 1).val := by
      show win0_3.index t (1 : Fin 2) * 1536 + 1 * (y 1).val = _; omega
    exact congrArg₂ (Spec.affine (V c main_arg0) (V c main_v2) (V c main_v3)) (Fin.ext h0.symm) (Fin.ext h1.symm)

/-- An index of the array is in point t's block iff each coordinate is in the block's range on its axis. -/
theorem mem_blk (t : Fin cfg0.N) (i : S8192x1536.Idx) :
    i ∈ ((cfg0.win 3).blk t).view.set ↔ ∀ a : Fin 2, win0_3.index t a * S512x1536.size a ≤ (i a).val
      ∧ (i a).val < win0_3.index t a * S512x1536.size a + S512x1536.size a := by
  show i ∈ ((View.whole main_v4).slice (win0_3.rect t)).set ↔ _
  rw [View.set_slice_whole, Rect.mem_set_unit]
  exact Iff.rfl

/-- Row n lies in the tile of point n / 512: the sixteen tiles cover the array. -/
theorem cover (i : S8192x1536.Idx) :
    ∃ t : Fin cfg0.N, (cfg0.win 3).flush t = true ∧ i ∈ ((cfg0.win 3).blk t).view.set := by
  have hi0 : (i 0).val < 8192 := (i 0).isLt
  have hi1 : (i 1).val < 1536 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1536 ≤ (i 1).val ∧ (i 1).val < win0_3.index t (1 : Fin 2) * 1536 + 1536; omega

/-- The output array after the region. -/
theorem final (c : Dev nD) : (Proj.dat V c).arrAt 3 cfg0.N = G (V c main_arg0) (V c main_v2) (V c main_v3) :=
  (Proj.dat V c).arrAt_eq_of_cover 3 (G (V c main_arg0) (V c main_v2) (V c main_v3)) (fun t _ => flushed_eq V c t) cover

variable (m : (ℓ : Loc nD τ sig) → Buf (Elt Ideal) ℓ) (ρ : Dev nD → PrngReg) (c : Dev nD)

/-- The fused projection at an index: row n of the features against column j of the weight, plus the bias. -/
theorem proj_value (n : Fin 8192) (j : Fin 1536) :
    (Cert.KernelIdeal.Proj.dat (Cert.KernelIdeal.Whole.E1 m ρ) c).arrAt 3 Cert.KernelIdeal.cfg0.N (ix2 n j)
      = Cert.Spec.affine (Whole.E1 m ρ c main_arg0) (Whole.E1 m ρ c main_v2) (Whole.E1 m ρ c main_v3) n j :=
  congrFun (final (Whole.E1 m ρ) c) (ix2 n j)

end Cert.KernelIdeal.ProjValue

end
-- ==== Proof.KI.ProjValueHost.lean ====
/-
  What the first region finds in its weight and bias arrays.  Before the region the host stacks the query, key and value
  weights (each 512 x 512) along the rows, transposes the stack to 512 x 1536, lays the three biases end to end and
  reshapes them to one row of 1536.  So column j of the weight, for j < 512, is row j of the query weight, column
  512 + j is row j of the key weight, column 1024 + j is row j of the value weight; the bias row likewise.  The node
  features are untouched.
-/
import proofs.«154112_j74371653697779_2_alg».proof.Proof.KI.Run
import proofs.«154112_j74371653697779_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.ProjValue

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Whole

section Layout
variable {α : Type}

/-- Three 512-row matrices stacked along the rows: row 512 p + j of the stack is row j of piece p. -/
theorem stack_rows0 (x0 x1 x2 : S512x512.Idx → α) (h : Shape.Concatenates [S512x512, S512x512, S512x512] S1536x512 0)
    (j k : Fin 512) :
    concatenate S1536x512 0 [⟨S512x512, x0⟩, ⟨S512x512, x1⟩, ⟨S512x512, x2⟩] h (ix2 ⟨j.val, by omega⟩ k) = x0 (ix2 j k) :=
  concatenate_apply_piece (t := S1536x512) 0 [⟨S512x512, x0⟩, ⟨S512x512, x1⟩, ⟨S512x512, x2⟩] h _ 0 (by simp) S512x512 x0 rfl rfl 0 rfl (ix2 j k)
    (fun b hb => match b with | ⟨0, _⟩ => absurd rfl hb | ⟨1, _⟩ => rfl) (Nat.zero_add _)

theorem stack_rows1 (x0 x1 x2 : S512x512.Idx → α) (h : Shape.Concatenates [S512x512, S512x512, S512x512] S1536x512 0)
    (j k : Fin 512) :
    concatenate S1536x512 0 [⟨S512x512, x0⟩, ⟨S512x512, x1⟩, ⟨S512x512, x2⟩] h (ix2 ⟨512 + j.val, by omega⟩ k) = x1 (ix2 j k) :=
  concatenate_apply_piece (t := S1536x512) 0 [⟨S512x512, x0⟩, ⟨S512x512, x1⟩, ⟨S512x512, x2⟩] h _ 1 (by simp) S512x512 x1 rfl rfl 512 rfl (ix2 j k)
    (fun b hb => match b with | ⟨0, _⟩ => absurd rfl hb | ⟨1, _⟩ => rfl) rfl

theorem stack_rows2 (x0 x1 x2 : S512x512.Idx → α) (h : Shape.Concatenates [S512x512, S512x512, S512x512] S1536x512 0)
    (j k : Fin 512) :
    concatenate S1536x512 0 [⟨S512x512, x0⟩, ⟨S512x512, x1⟩, ⟨S512x512, x2⟩] h (ix2 ⟨1024 + j.val, by omega⟩ k) = x2 (ix2 j k) :=
  concatenate_apply_piece (t := S1536x512) 0 [⟨S512x512, x0⟩, ⟨S512x512, x1⟩, ⟨S512x512, x2⟩] h _ 2 (by simp) S512x512 x2 rfl rfl 1024 rfl (ix2 j k)
    (fun b hb => match b with | ⟨0, _⟩ => absurd rfl hb | ⟨1, _⟩ => rfl) rfl

/-- Three vectors of 512 laid end to end: entry 512 p + j is entry j of piece p. -/
theorem join0 (b0 b1 b2 : S512.Idx → α) (h : Shape.Concatenates [S512, S512, S512] S1536 0) (j : Fin 512) :
    concatenate S1536 0 [⟨S512, b0⟩, ⟨S512, b1⟩, ⟨S512, b2⟩] h (ix1 ⟨j.val, by omega⟩) = b0 (ix1 j) :=
  concatenate_apply_piece (t := S1536) 0 [⟨S512, b0⟩, ⟨S512, b1⟩, ⟨S512, b2⟩] h _ 0 (by simp) S512 b0 rfl rfl 0 rfl (ix1 j)
    (fun b hb => match b with | ⟨0, _⟩ => absurd rfl hb) (Nat.zero_add _)

theorem join1 (b0 b1 b2 : S512.Idx → α) (h : Shape.Concatenates [S512, S512, S512] S1536 0) (j : Fin 512) :
    concatenate S1536 0 [⟨S512, b0⟩, ⟨S512, b1⟩, ⟨S512, b2⟩] h (ix1 ⟨512 + j.val, by omega⟩) = b1 (ix1 j) :=
  concatenate_apply_piece (t := S1536) 0 [⟨S512, b0⟩, ⟨S512, b1⟩, ⟨S512, b2⟩] h _ 1 (by simp) S512 b1 rfl rfl 512 rfl (ix1 j)
    (fun b hb => match b with | ⟨0, _⟩ => absurd rfl hb) rfl

theorem join2 (b0 b1 b2 : S512.Idx → α) (h : Shape.Concatenates [S512, S512, S512] S1536 0) (j : Fin 512) :
    concatenate S1536 0 [⟨S512, b0⟩, ⟨S512, b1⟩, ⟨S512, b2⟩] h (ix1 ⟨1024 + j.val, by omega⟩) = b2 (ix1 j) :=
  concatenate_apply_piece (t := S1536) 0 [⟨S512, b0⟩, ⟨S512, b1⟩, ⟨S512, b2⟩] h _ 2 (by simp) S512 b2 rfl rfl 1024 rfl (ix1 j)
    (fun b hb => match b with | ⟨0, _⟩ => absurd rfl hb) rfl

end Layout

variable (m : (ℓ : Loc nD τ sig) → Buf (Elt Ideal) ℓ) (ρ : Dev nD → PrngReg) (c : Dev nD)

theorem x_kept : E1 m ρ c main_arg0 = m ((c : Thread nD τ).loc main_arg0) :=
  (W1_of m ρ c main_arg0 (by decide)).trans rfl

theorem v2_eq : (W1 m ρ c main_v2 : S512x1536.Idx → EReal)
    = transpose S512x1536 [1, 0] (concatenate S1536x512 0
        [⟨S512x512, (m ((c : Thread nD τ).loc main_arg2) : S512x512.Idx → EReal)⟩,
         ⟨S512x512, (m ((c : Thread nD τ).loc main_arg4) : S512x512.Idx → EReal)⟩,
         ⟨S512x512, (m ((c : Thread nD τ).loc main_arg6) : S512x512.Idx → EReal)⟩]
        concatenates_S512x512_S512x512_S512x512_S1536x512_d0) transposes_S1536x512_S512x1536_1_0 := by
  dsimp only [W1]
  after_results
  rfl

theorem v3_eq : (W1 m ρ c main_v3 : S1x1536.Idx → EReal)
    = shapeCast S1x1536 (concatenate S1536 0
        [⟨S512, (m ((c : Thread nD τ).loc main_arg3) : S512.Idx → EReal)⟩,
         ⟨S512, (m ((c : Thread nD τ).loc main_arg5) : S512.Idx → EReal)⟩,
         ⟨S512, (m ((c : Thread nD τ).loc main_arg7) : S512.Idx → EReal)⟩]
        concatenates_S512_S512_S512_S1536_d0) shapeCasts_S1536_S1x1536 := by
  dsimp only [W1]
  after_results
  rfl

/-- The weight the first region reads is the three projections' weights transposed and set side by side:
    column j is the query weight's row j, column 512 + j the key weight's, column 1024 + j the value weight's. -/
theorem wq_value (k j : Fin 512) :
    E1 m ρ c main_v2 (ix2 k ⟨j.val, by omega⟩) = m ((c : Thread nD τ).loc main_arg2) (ix2 j k) :=
  (congrFun (v2_eq m ρ c) _).trans ((transpose_ix2_apply _ _ k _).trans (stack_rows0 _ _ _ _ j k))

theorem wk_value (k j : Fin 512) :
    E1 m ρ c main_v2 (ix2 k ⟨512 + j.val, by omega⟩) = m ((c : Thread nD τ).loc main_arg4) (ix2 j k) :=
  (congrFun (v2_eq m ρ c) _).trans ((transpose_ix2_apply _ _ k _).trans (stack_rows1 _ _ _ _ j k))

theorem wv_value (k j : Fin 512) :
    E1 m ρ c main_v2 (ix2 k ⟨1024 + j.val, by omega⟩) = m ((c : Thread nD τ).loc main_arg6) (ix2 j k) :=
  (congrFun (v2_eq m ρ c) _).trans ((transpose_ix2_apply _ _ k _).trans (stack_rows2 _ _ _ _ j k))

/-- The bias row is the three biases end to end. -/
theorem bq_value (j : Fin 512) :
    E1 m ρ c main_v3 (ix2 0 ⟨j.val, by omega⟩) = m ((c : Thread nD τ).loc main_arg3) (ix1 j) :=
  (congrFun (v3_eq m ρ c) _).trans ((shapeCast_a_1a_apply _ _ 0 _).trans (join0 _ _ _ _ j))

theorem bk_value (j : Fin 512) :
    E1 m ρ c main_v3 (ix2 0 ⟨512 + j.val, by omega⟩) = m ((c : Thread nD τ).loc main_arg5) (ix1 j) :=
  (congrFun (v3_eq m ρ c) _).trans ((shapeCast_a_1a_apply _ _ 0 _).trans (join1 _ _ _ _ j))

theorem bv_value (j : Fin 512) :
    E1 m ρ c main_v3 (ix2 0 ⟨1024 + j.val, by omega⟩) = m ((c : Thread nD τ).loc main_arg7) (ix1 j) :=
  (congrFun (v3_eq m ρ c) _).trans ((shapeCast_a_1a_apply _ _ 0 _).trans (join2 _ _ _ _ j))

end Cert.KernelIdeal.ProjValue

end
-- ==== Proof.KI.LowRankValueBlocks.lean ====
/-
  The blocks of the second region.  Point t = 16 g + s (head group g, node tile s) reads heads [4 g, 4 g + 4) and nodes
  [512 s, 512 s + 512) of the two projection matrices, rows [512 s, 512 s + 512) and columns [512 + 256 g, 512 + 256 g + 256)
  of the fused projection for the keys, columns [1024 + 256 g, ...) for the values, and accumulates into heads
  [4 g, 4 g + 4) of each output, written back at the group's last tile.
-/
import proofs.«154112_j74371653697779_2_alg».proof.Proof.KI.LowRank
import proofs.«154112_j74371653697779_2_alg».proof.Proof.Spec
import Idealize.ShloMosaic.Lib.ValueIdx
import Idealize.ShloMosaic.Lib.Pipeline.Value

set_option maxRecDepth 16384

noncomputable section

namespace Cert.KernelIdeal.LowRankValue

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

-- the buffer contents when the region is entered
variable (V : (c : Dev nD) → (b : Ref sig .tc) → Buf (Elt Ideal) ((c : Thread nD τ).loc b))

/-- The printed index maps over the grid. -/
theorem idx_facts : ∀ t : Fin cfg1.N,
    win1_0.index t (0 : Fin 3) = t.val / 16 ∧ win1_0.index t (1 : Fin 3) = 0 ∧ win1_0.index t (2 : Fin 3) = t.val % 16
    ∧ win1_1.index t (0 : Fin 3) = t.val / 16 ∧ win1_1.index t (1 : Fin 3) = 0 ∧ win1_1.index t (2 : Fin 3) = t.val % 16
    ∧ win1_2.index t (0 : Fin 2) = t.val % 16 ∧ win1_2.index t (1 : Fin 2) = 2 + t.val / 16
    ∧ win1_3.index t (0 : Fin 2) = t.val % 16 ∧ win1_3.index t (1 : Fin 2) = 4 + t.val / 16
    ∧ win1_4.index t (0 : Fin 3) = t.val / 16 ∧ win1_4.index t (1 : Fin 3) = 0 ∧ win1_4.index t (2 : Fin 3) = 0
    ∧ win1_5.index t (0 : Fin 3) = t.val / 16 ∧ win1_5.index t (1 : Fin 3) = 0 ∧ win1_5.index t (2 : Fin 3) = 0 :=
  (by decide +kernel : ∀ t : Fin grid1.N, _)

theorem lt32 (t : Fin cfg1.N) : t.val < 32 := lt_of_lt_of_eq t.isLt (show cfg1.N = 32 from N_1)

/-- The first projection matrix's block at point t. -/
theorem blk0_apply (c : Dev nD) (t : Fin cfg1.N) (lh : Fin 4) (k : Fin 256) (r : Fin 512) :
    LowRank.blk V c 0 t (ix3 lh k r)
      = V c main_arg10 (ix3 (⟨4 * (t.val / 16) + lh.val, by have := lt32 t; omega⟩ : Fin 8) k
          (⟨512 * (t.val % 16) + r.val, by omega⟩ : Fin 8192)) := by
  obtain ⟨a00, a01, a02, -⟩ := idx_facts t
  show V c main_arg10 (((cfg1.win 0).blk t).view.emb (ix3 lh k r)) = _
  refine congrArg (V c main_arg10) (funext fun a => Fin.ext ?_)
  match a with
  | ⟨0, _⟩ => show win1_0.index t (0 : Fin 3) * 4 + 1 * lh.val = 4 * (t.val / 16) + lh.val; omega
  | ⟨1, _⟩ => show win1_0.index t (1 : Fin 3) * 256 + 1 * k.val = k.val; omega
  | ⟨2, _⟩ => show win1_0.index t (2 : Fin 3) * 512 + 1 * r.val = 512 * (t.val % 16) + r.val; omega

/-- The second projection matrix's block at point t. -/
theorem blk1_apply (c : Dev nD) (t : Fin cfg1.N) (lh : Fin 4) (k : Fin 256) (r : Fin 512) :
    LowRank.blk V c 1 t (ix3 lh k r)
      = V c main_arg11 (ix3 (⟨4 * (t.val / 16) + lh.val, by have := lt32 t; omega⟩ : Fin 8) k
          (⟨512 * (t.val % 16) + r.val, by omega⟩ : Fin 8192)) := by
  obtain ⟨-, -, -, a10, a11, a12, -⟩ := idx_facts t
  show V c main_arg11 (((cfg1.win 1).blk t).view.emb (ix3 lh k r)) = _
  refine congrArg (V c main_arg11) (funext fun a => Fin.ext ?_)
  match a with
  | ⟨0, _⟩ => show win1_1.index t (0 : Fin 3) * 4 + 1 * lh.val = 4 * (t.val / 16) + lh.val; omega
  | ⟨1, _⟩ => show win1_1.index t (1 : Fin 3) * 256 + 1 * k.val = k.val; omega
  | ⟨2, _⟩ => show win1_1.index t (2 : Fin 3) * 512 + 1 * r.val = 512 * (t.val % 16) + r.val; omega

/-- The key columns' block at point t: column 64 lh + d of the block is column 512 + 64 (4 g + lh) + d of the array. -/
theorem blk2_apply (c : Dev nD) (t : Fin cfg1.N) (r : Fin 512) (lh : Fin 4) (d : Fin 64) :
    LowRank.blk V c 2 t (ix2 r (⟨64 * lh.val + d.val, by omega⟩ : Fin 256))
      = V c main_v4 (ix2 (⟨512 * (t.val % 16) + r.val, by omega⟩ : Fin 8192)
          (⟨512 + 64 * (4 * (t.val / 16) + lh.val) + d.val, by have := lt32 t; omega⟩ : Fin 1536)) := by
  obtain ⟨-, -, -, -, -, -, a20, a21, -⟩ := idx_facts t
  have := lt32 t
  show V c main_v4 (((cfg1.win 2).blk t).view.emb (ix2 r (⟨64 * lh.val + d.val, by omega⟩ : Fin 256))) = _
  refine congrArg (V c main_v4) (funext fun a => Fin.ext ?_)
  match a with
  | ⟨0, _⟩ => show win1_2.index t (0 : Fin 2) * 512 + 1 * r.val = 512 * (t.val % 16) + r.val; omega
  | ⟨1, _⟩ => show win1_2.index t (1 : Fin 2) * 256 + 1 * (64 * lh.val + d.val) = 512 + 64 * (4 * (t.val / 16) + lh.val) + d.val; omega

/-- The value columns' block at point t. -/
theorem blk3_apply (c : Dev nD) (t : Fin cfg1.N) (r : Fin 512) (lh : Fin 4) (d : Fin 64) :
    LowRank.blk V c 3 t (ix2 r (⟨64 * lh.val + d.val, by omega⟩ : Fin 256))
      = V c main_v4 (ix2 (⟨512 * (t.val % 16) + r.val, by omega⟩ : Fin 8192)
          (⟨1024 + 64 * (4 * (t.val / 16) + lh.val) + d.val, by have := lt32 t; omega⟩ : Fin 1536)) := by
  obtain ⟨-, -, -, -, -, -, -, -, a30, a31, -⟩ := idx_facts t
  have := lt32 t
  show V c main_v4 (((cfg1.win 3).blk t).view.emb (ix2 r (⟨64 * lh.val + d.val, by omega⟩ : Fin 256))) = _
  refine congrArg (V c main_v4) (funext fun a => Fin.ext ?_)
  match a with
  | ⟨0, _⟩ => show win1_3.index t (0 : Fin 2) * 512 + 1 * r.val = 512 * (t.val % 16) + r.val; omega
  | ⟨1, _⟩ => show win1_3.index t (1 : Fin 2) * 256 + 1 * (64 * lh.val + d.val) = 1024 + 64 * (4 * (t.val / 16) + lh.val) + d.val; omega

end Cert.KernelIdeal.LowRankValue

end
-- ==== Proof.SumTiles.lean ====
/-
  A sum over the 8192 nodes is the sum over the 16 node tiles of the sums over a tile's 512 nodes; and the partial sums
  over the first tiles grow by one tile at a time.
-/
import Mathlib

namespace Cert.Spec

theorem sum_tiles {M : Type*} [AddCommMonoid M] (f : Fin 8192 → M) :
    ∑ n : Fin 8192, f n = ∑ t : Fin 16, ∑ r : Fin 512, f ⟨512 * t.val + r.val, by omega⟩ := by
  have h := (Equiv.sum_comp (finProdFinEquiv (m := 16) (n := 512)) (fun x : Fin (16 * 512) => f x)).symm
  rw [show (∑ n : Fin 8192, f n) = ∑ x : Fin (16 * 512), f x from rfl, h, Fintype.sum_prod_type]
  refine Finset.sum_congr rfl fun t _ => Finset.sum_congr rfl fun r _ => congrArg f (Fin.ext ?_)
  show r.val + 512 * t.val = 512 * t.val + r.val
  omega

/-- The sum over the tiles below a bound, one more tile at a time. -/
theorem sum_range_succ_tiles {M : Type*} [AddCommMonoid M] (g : ℕ → M) (k : ℕ) :
    ∑ t ∈ Finset.range (k + 1), g t = (∑ t ∈ Finset.range k, g t) + g k := Finset.sum_range_succ g k

/-- All sixteen tiles. -/
theorem sum_fin16_eq_range {M : Type*} [AddCommMonoid M] (g : ℕ → M) :
    ∑ t : Fin 16, g t.val = ∑ t ∈ Finset.range 16, g t := Fin.sum_univ_eq_sum_range g 16

end Cert.Spec
-- ==== Proof.KI.LowRankValueSum.lean ====
/-
  The low-rank projection's sum over the 8192 nodes, tile by tile.  The summand of entry (h, k, d) at node n is
  ep[h,k,n] p[n, off + 64 h + d]; tile s holds the nodes [512 s, 512 s + 512); the whole sum is the sum of the sixteen
  tiles' sums, which the accumulation builds one tile at a time.
-/
import proofs.«154112_j74371653697779_2_alg».proof.Proof.Spec
import proofs.«154112_j74371653697779_2_alg».proof.Proof.SumTiles

set_option maxRecDepth 16384

noncomputable section

namespace Cert.KernelIdeal.LowRankValue

open Idealize.ShloMosaic Idealize.ShloMosaic.ValueIdx

/-- The part of a sum over the nodes that lies in node tile s (zero past the sixteenth tile). -/
def tileSum (f : Fin 8192 → EReal) (s : ℕ) : EReal :=
  if hs : s < 16 then ∑ r : Fin 512, f ⟨512 * s + r.val, by omega⟩ else 0

theorem tileSum_of_lt (f : Fin 8192 → EReal) (s : ℕ) (hs : s < 16) :
    tileSum f s = ∑ r : Fin 512, f ⟨512 * s + r.val, by omega⟩ := dif_pos hs

/-- A sum over the nodes is the sum of its sixteen tiles. -/
theorem sum_eq_tiles (f : Fin 8192 → EReal) : ∑ n : Fin 8192, f n = ∑ s ∈ Finset.range 16, tileSum f s := by
  rw [Cert.Spec.sum_tiles, ← Cert.Spec.sum_fin16_eq_range (tileSum f)]
  refine Finset.sum_congr rfl fun t _ => ?_
  rw [tileSum_of_lt f t.val t.isLt]

/-- The specification's summand for entry (h, k, d). -/
def term (ep : Cert.Spec.Ten 8 256 8192) (p : Cert.Spec.Mat 8192 1536) (off : Nat) (hoff : off + 512 ≤ 1536)
    (h : Fin 8) (k : Fin 256) (d : Fin 64) : Fin 8192 → EReal :=
  fun n => ep (ix3 h k n) * p (ix2 n ⟨off + 64 * h.val + d.val, by omega⟩)

/-- The specification's entry as the sum of the sixteen tiles. -/
theorem lowrank_eq (ep : Cert.Spec.Ten 8 256 8192) (p : Cert.Spec.Mat 8192 1536) (off : Nat) (hoff : off + 512 ≤ 1536)
    (h : Fin 8) (k : Fin 256) (d : Fin 64) :
    Cert.Spec.lowrank ep p off hoff h k d = ∑ s ∈ Finset.range 16, tileSum (term ep p off hoff h k d) s :=
  sum_eq_tiles (term ep p off hoff h k d)

end Cert.KernelIdeal.LowRankValue

end
-- ==== Proof.KI.LowRankValueAcc.lean ====
/-
  The accumulation of the second region.  Within head group g the body at the group's first tile leaves, in each
  accumulator, the tile's own partial sum, and at every later tile adds the tile's partial sum to what the tile before
  left.  So after tile s the accumulators hold the sum of tiles 0 .. s, and after the sixteenth the whole sum over the
  8192 nodes.  What one body leaves, at an index, is taken as given here (the four step statements).
-/
import proofs.«154112_j74371653697779_2_alg».proof.Proof.KI.LowRankValueBlocks
import proofs.«154112_j74371653697779_2_alg».proof.Proof.KI.LowRankValueSum

set_option maxRecDepth 16384

noncomputable section

namespace Cert.KernelIdeal.LowRankValue

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

/-- A group's first tile leaves in the first accumulator the tile's partial sums. -/
def StepFirstK : Prop :=
  ∀ (c : Dev nD) (i : grid1.Coords) (arg2 : Memref sig .tc .vmem S4x256x512 .f32) (harg2 : arg2.IsWhole)
    (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole)
    (hc : LowRank.first i) (x0 x1 : Vec Ideal S4x256x512 .f32) (x2 x3 : Vec Ideal S512x256 .bf16)
    (lh : Fin 4) (k : Fin 256) (d : Fin 64),
    LowRank.firstK c i arg2 harg2 arg3 harg3 arg4 harg4 arg5 harg5 arg6 harg6 arg7 harg7 hc x0 x1 x2 x3 (ix3 lh k d)
      = ∑ r : Fin 512, x0 (ix3 lh k r) * x2 (ix2 r (⟨64 * lh.val + d.val, by omega⟩ : Fin 256))

/-- A group's first tile leaves in the second accumulator the tile's partial sums. -/
def StepFirstV : Prop :=
  ∀ (c : Dev nD) (i : grid1.Coords) (arg2 : Memref sig .tc .vmem S4x256x512 .f32) (harg2 : arg2.IsWhole)
    (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole)
    (hc : LowRank.first i) (x0 x1 : Vec Ideal S4x256x512 .f32) (x2 x3 : Vec Ideal S512x256 .bf16)
    (lh : Fin 4) (k : Fin 256) (d : Fin 64),
    LowRank.firstV c i arg2 harg2 arg3 harg3 arg4 harg4 arg5 harg5 arg6 harg6 arg7 harg7 hc x0 x1 x2 x3 (ix3 lh k d)
      = ∑ r : Fin 512, x1 (ix3 lh k r) * x3 (ix2 r (⟨64 * lh.val + d.val, by omega⟩ : Fin 256))

/-- A later tile adds its partial sums to the first accumulator. -/
def StepLaterK : Prop :=
  ∀ (c : Dev nD) (i : grid1.Coords) (arg2 : Memref sig .tc .vmem S4x256x512 .f32) (harg2 : arg2.IsWhole)
    (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole)
    (hc : ¬LowRank.first i) (x0 x1 : Vec Ideal S4x256x512 .f32) (x2 x3 : Vec Ideal S512x256 .bf16) (ak av : Vec Ideal S4x256x64 .f32)
    (lh : Fin 4) (k : Fin 256) (d : Fin 64),
    LowRank.laterK c i arg2 harg2 arg3 harg3 arg4 harg4 arg5 harg5 arg6 harg6 arg7 harg7 hc x0 x1 x2 x3 ak av (ix3 lh k d)
      = ak (ix3 lh k d) + ∑ r : Fin 512, x0 (ix3 lh k r) * x2 (ix2 r (⟨64 * lh.val + d.val, by omega⟩ : Fin 256))

/-- A later tile adds its partial sums to the second accumulator. -/
def StepLaterV : Prop :=
  ∀ (c : Dev nD) (i : grid1.Coords) (arg2 : Memref sig .tc .vmem S4x256x512 .f32) (harg2 : arg2.IsWhole)
    (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole)
    (hc : ¬LowRank.first i) (x0 x1 : Vec Ideal S4x256x512 .f32) (x2 x3 : Vec Ideal S512x256 .bf16) (ak av : Vec Ideal S4x256x64 .f32)
    (lh : Fin 4) (k : Fin 256) (d : Fin 64),
    LowRank.laterV c i arg2 harg2 arg3 harg3 arg4 harg4 arg5 harg5 arg6 harg6 arg7 harg7 hc x0 x1 x2 x3 ak av (ix3 lh k d)
      = av (ix3 lh k d) + ∑ r : Fin 512, x1 (ix3 lh k r) * x3 (ix2 r (⟨64 * lh.val + d.val, by omega⟩ : Fin 256))

-- the buffer contents when the region is entered
variable (V : (c : Dev nD) → (b : Ref sig .tc) → Buf (Elt Ideal) ((c : Thread nD τ).loc b))

/-- Tile t mod 16 of the first projection's sum, from the blocks at point t. -/
theorem tileK (c : Dev nD) (t : Fin cfg1.N) (g : ℕ) (hg : t.val / 16 = g) (h2 : g < 2) (lh : Fin 4) (k : Fin 256) (d : Fin 64)
    (xa : Vec Ideal S4x256x512 .f32) (xb : Vec Ideal S512x256 .bf16) (ha : xa = LowRank.blk V c 0 t) (hb : xb = LowRank.blk V c 2 t) :
    ∑ r : Fin 512, xa (ix3 lh k r) * xb (ix2 r (⟨64 * lh.val + d.val, by omega⟩ : Fin 256))
      = tileSum (term (V c main_arg10) (V c main_v4) 512 (by norm_num) ⟨4 * g + lh.val, by omega⟩ k d) (t.val % 16) := by
  subst hg ha hb
  rw [tileSum_of_lt _ _ (Nat.mod_lt _ (by decide))]
  refine Finset.sum_congr rfl fun r _ => ?_
  rw [blk0_apply, blk2_apply]
  rfl

/-- Tile t mod 16 of the second projection's sum, from the blocks at point t. -/
theorem tileV (c : Dev nD) (t : Fin cfg1.N) (g : ℕ) (hg : t.val / 16 = g) (h2 : g < 2) (lh : Fin 4) (k : Fin 256) (d : Fin 64)
    (xa : Vec Ideal S4x256x512 .f32) (xb : Vec Ideal S512x256 .bf16) (ha : xa = LowRank.blk V c 1 t) (hb : xb = LowRank.blk V c 3 t) :
    ∑ r : Fin 512, xa (ix3 lh k r) * xb (ix2 r (⟨64 * lh.val + d.val, by omega⟩ : Fin 256))
      = tileSum (term (V c main_arg11) (V c main_v4) 1024 (by norm_num) ⟨4 * g + lh.val, by omega⟩ k d) (t.val % 16) := by
  subst hg ha hb
  rw [tileSum_of_lt _ _ (Nat.mod_lt _ (by decide))]
  refine Finset.sum_congr rfl fun r _ => ?_
  rw [blk1_apply, blk3_apply]
  rfl

/-- The accK accumulator after the body at point t = 16 g + n: the first n + 1 tiles' sums. -/
theorem accK_inv (hF : StepFirstK) (hL : StepLaterK) (c : Dev nD) :
    ∀ (n : ℕ) (t : Fin cfg1.N), t.val % 16 = n → ∀ (g : ℕ) (hg : t.val / 16 = g) (h2 : g < 2) (lh : Fin 4) (k : Fin 256) (d : Fin 64),
      (LowRank.acc V c t.val t.isLt).1 (ix3 lh k d)
        = ∑ s ∈ Finset.range (n + 1), tileSum (term (V c main_arg10) (V c main_v4) 512 (by norm_num) ⟨4 * g + lh.val, by omega⟩ k d) s := by
  intro n
  induction n with
  | zero =>
    intro t h0 g hg h2 lh k d
    rw [LowRank.acc_first V c t h0]
    dsimp only
    have hT := tileK V c t g hg h2 lh k d (LowRank.blk V c 0 t) (LowRank.blk V c 2 t) rfl rfl
    rw [h0] at hT
    rw [Finset.sum_range_one]
    exact (hF c (grid1.coords t) (LowRank.ms0 t) (LowRank.hs0 t) (LowRank.ms1 t) (LowRank.hs1 t) (LowRank.ms2 t) (LowRank.hs2 t) (LowRank.ms3 t) (LowRank.hs3 t) (LowRank.ms4 t) (LowRank.hs4 t) (LowRank.ms5 t) (LowRank.hs5 t) ((LowRank.first_iff t).mpr h0) (LowRank.blk V c 0 t) (LowRank.blk V c 1 t) (LowRank.blk V c 2 t) (LowRank.blk V c 3 t) lh k d).trans hT
  | succ n ih =>
    intro t hn g hg h2 lh k d
    have h0 : ¬t.val % 16 = 0 := by omega
    have hlt := lt32 t
    rw [LowRank.acc_later V c t h0]
    dsimp only
    rw [Finset.sum_range_succ]
    refine (hL c (grid1.coords t) (LowRank.ms0 t) (LowRank.hs0 t) (LowRank.ms1 t) (LowRank.hs1 t) (LowRank.ms2 t) (LowRank.hs2 t) (LowRank.ms3 t) (LowRank.hs3 t) (LowRank.ms4 t) (LowRank.hs4 t) (LowRank.ms5 t) (LowRank.hs5 t) (fun h => h0 ((LowRank.first_iff t).mp h)) (LowRank.blk V c 0 t) (LowRank.blk V c 1 t) (LowRank.blk V c 2 t) (LowRank.blk V c 3 t)
      (LowRank.acc V c (t.val - 1) (Nat.lt_of_le_of_lt (Nat.sub_le _ _) t.isLt)).1 (LowRank.acc V c (t.val - 1) (Nat.lt_of_le_of_lt (Nat.sub_le _ _) t.isLt)).2 lh k d).trans ?_
    have ih' : (LowRank.acc V c (t.val - 1) (Nat.lt_of_le_of_lt (Nat.sub_le _ _) t.isLt)).1 (ix3 lh k d)
        = ∑ s ∈ Finset.range (n + 1), tileSum (term (V c main_arg10) (V c main_v4) 512 (by norm_num) ⟨4 * g + lh.val, by omega⟩ k d) s :=
      ih ⟨t.val - 1, (Nat.lt_of_le_of_lt (Nat.sub_le _ _) t.isLt)⟩ (by show (t.val - 1) % 16 = n; omega) g (by show (t.val - 1) / 16 = g; omega) h2 lh k d
    have hT := tileK V c t g hg h2 lh k d (LowRank.blk V c 0 t) (LowRank.blk V c 2 t) rfl rfl
    rw [hn] at hT
    exact congrArg₂ (· + ·) ih' hT

/-- The accV accumulator after the body at point t = 16 g + n: the first n + 1 tiles' sums. -/
theorem accV_inv (hF : StepFirstV) (hL : StepLaterV) (c : Dev nD) :
    ∀ (n : ℕ) (t : Fin cfg1.N), t.val % 16 = n → ∀ (g : ℕ) (hg : t.val / 16 = g) (h2 : g < 2) (lh : Fin 4) (k : Fin 256) (d : Fin 64),
      (LowRank.acc V c t.val t.isLt).2 (ix3 lh k d)
        = ∑ s ∈ Finset.range (n + 1), tileSum (term (V c main_arg11) (V c main_v4) 1024 (by norm_num) ⟨4 * g + lh.val, by omega⟩ k d) s := by
  intro n
  induction n with
  | zero =>
    intro t h0 g hg h2 lh k d
    rw [LowRank.acc_first V c t h0]
    dsimp only
    have hT := tileV V c t g hg h2 lh k d (LowRank.blk V c 1 t) (LowRank.blk V c 3 t) rfl rfl
    rw [h0] at hT
    rw [Finset.sum_range_one]
    exact (hF c (grid1.coords t) (LowRank.ms0 t) (LowRank.hs0 t) (LowRank.ms1 t) (LowRank.hs1 t) (LowRank.ms2 t) (LowRank.hs2 t) (LowRank.ms3 t) (LowRank.hs3 t) (LowRank.ms4 t) (LowRank.hs4 t) (LowRank.ms5 t) (LowRank.hs5 t) ((LowRank.first_iff t).mpr h0) (LowRank.blk V c 0 t) (LowRank.blk V c 1 t) (LowRank.blk V c 2 t) (LowRank.blk V c 3 t) lh k d).trans hT
  | succ n ih =>
    intro t hn g hg h2 lh k d
    have h0 : ¬t.val % 16 = 0 := by omega
    have hlt := lt32 t
    rw [LowRank.acc_later V c t h0]
    dsimp only
    rw [Finset.sum_range_succ]
    refine (hL c (grid1.coords t) (LowRank.ms0 t) (LowRank.hs0 t) (LowRank.ms1 t) (LowRank.hs1 t) (LowRank.ms2 t) (LowRank.hs2 t) (LowRank.ms3 t) (LowRank.hs3 t) (LowRank.ms4 t) (LowRank.hs4 t) (LowRank.ms5 t) (LowRank.hs5 t) (fun h => h0 ((LowRank.first_iff t).mp h)) (LowRank.blk V c 0 t) (LowRank.blk V c 1 t) (LowRank.blk V c 2 t) (LowRank.blk V c 3 t)
      (LowRank.acc V c (t.val - 1) (Nat.lt_of_le_of_lt (Nat.sub_le _ _) t.isLt)).1 (LowRank.acc V c (t.val - 1) (Nat.lt_of_le_of_lt (Nat.sub_le _ _) t.isLt)).2 lh k d).trans ?_
    have ih' : (LowRank.acc V c (t.val - 1) (Nat.lt_of_le_of_lt (Nat.sub_le _ _) t.isLt)).2 (ix3 lh k d)
        = ∑ s ∈ Finset.range (n + 1), tileSum (term (V c main_arg11) (V c main_v4) 1024 (by norm_num) ⟨4 * g + lh.val, by omega⟩ k d) s :=
      ih ⟨t.val - 1, (Nat.lt_of_le_of_lt (Nat.sub_le _ _) t.isLt)⟩ (by show (t.val - 1) % 16 = n; omega) g (by show (t.val - 1) / 16 = g; omega) h2 lh k d
    have hT := tileV V c t g hg h2 lh k d (LowRank.blk V c 1 t) (LowRank.blk V c 3 t) rfl rfl
    rw [hn] at hT
    exact congrArg₂ (· + ·) ih' hT

end Cert.KernelIdeal.LowRankValue

end
-- ==== Proof.KI.LowRankValue.lean ====
/-
  The second region's two outputs, index by index.  The accumulator of head group g is written back once, after the
  group's sixteenth tile, into heads [4 g, 4 g + 4) of the output; by then it holds the whole sum over the 8192 nodes, the
  specification's low-rank projection.  The two groups' blocks cover the eight heads.
-/
import proofs.«154112_j74371653697779_2_alg».proof.Proof.KI.Results
import proofs.«154112_j74371653697779_2_alg».proof.Proof.KI.LowRankValueAcc

set_option maxRecDepth 16384

noncomputable section

namespace Cert.KernelIdeal.LowRankValue

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

open Cert.KernelIdeal.Whole

-- the buffer contents when the region is entered
variable (V : (c : Dev nD) → (b : Ref sig .tc) → Buf (Elt Ideal) ((c : Thread nD τ).loc b))

/-- The first low-rank projection as one function of the arrays the region finds. -/
abbrev GK (c : Dev nD) : S8x256x64.Idx → Elt Ideal .f32 := fun i =>
  Cert.Spec.lowrank (V c main_arg10) (V c main_v4) 512 (by norm_num) (i 0) (i 1) (i 2)

/-- WHAT A GROUP'S LAST POINT WRITES BACK is its block of `GK`: the sixteen tiles' sums are the whole sum. -/
theorem flushedK_eq (hF : StepFirstK) (hL : StepLaterK) (c : Dev nD) (t : Fin cfg1.N) (hf : (cfg1.win 4).flush t = true) :
    (LowRank.dat V c).flushed 4 t = ((cfg1.win 4).blk t).view.read (Elt Ideal) (GK V c) := by
  have h15 : t.val % 16 = 15 := (flush1_4 t).mp hf
  have hlt := lt32 t
  obtain ⟨-, -, -, -, -, -, -, -, -, -, a40, a41, a42, -⟩ := idx_facts t
  show (cfg1.win 4).cut (grid1.coords t) ((LowRank.dat V c).after 4 t) = _
  rw [LowRank.after_k]
  funext y
  obtain ⟨lh, k, d, rfl⟩ : ∃ (lh : Fin 4) (k : Fin 256) (d : Fin 64), y = ix3 lh k d := ⟨y 0, y 1, y 2, eq_ix3 y⟩
  have hemb : ((cfg1.win 4).blk t).view.emb (ix3 lh k d) = ix3 (⟨4 * (t.val / 16) + lh.val, by omega⟩ : Fin 8) k d :=
    funext fun a => Fin.ext (by
      match a with
      | ⟨0, _⟩ => show win1_4.index t (0 : Fin 3) * 4 + 1 * lh.val = 4 * (t.val / 16) + lh.val; omega
      | ⟨1, _⟩ => show win1_4.index t (1 : Fin 3) * 256 + 1 * k.val = k.val; omega
      | ⟨2, _⟩ => show win1_4.index t (2 : Fin 3) * 64 + 1 * d.val = d.val; omega)
  show (LowRank.acc V c t.val t.isLt).1 (ix3 lh k d) = GK V c (((cfg1.win 4).blk t).view.emb (ix3 lh k d))
  rw [hemb, accK_inv V hF hL c 15 t h15 (t.val / 16) rfl (by omega) lh k d]
  exact (lowrank_eq (V c main_arg10) (V c main_v4) 512 (by norm_num) ⟨4 * (t.val / 16) + lh.val, by omega⟩ k d).symm

/-- An index of the array is in point t's block iff each coordinate is in the block's range on its axis. -/
theorem mem_blk4 (t : Fin cfg1.N) (i : S8x256x64.Idx) :
    i ∈ ((cfg1.win 4).blk t).view.set ↔ ∀ a : Fin 3, win1_4.index t a * S4x256x64.size a ≤ (i a).val
      ∧ (i a).val < win1_4.index t a * S4x256x64.size a + S4x256x64.size a := by
  show i ∈ ((View.whole main_v5_0).slice (win1_4.rect t)).set ↔ _
  rw [View.set_slice_whole, Rect.mem_set_unit]
  exact Iff.rfl

/-- Head h of the array is in the block written back at the last point of group h / 4. -/
theorem cover4 (i : S8x256x64.Idx) : ∃ t : Fin cfg1.N, (cfg1.win 4).flush t = true ∧ i ∈ ((cfg1.win 4).blk t).view.set := by
  have hi0 : (i 0).val < 8 := (i 0).isLt
  have hi1 : (i 1).val < 256 := (i 1).isLt
  have hi2 : (i 2).val < 64 := (i 2).isLt
  have hN : grid1.N = 32 := N_1
  have hlt : 16 * ((i 0).val / 4) + 15 < grid1.N := by omega
  obtain ⟨-, -, -, -, -, -, -, -, -, -, a40, a41, a42, -⟩ := idx_facts ⟨16 * ((i 0).val / 4) + 15, hlt⟩
  refine ⟨⟨16 * ((i 0).val / 4) + 15, hlt⟩, (flush1_4 _).mpr (by show (16 * ((i 0).val / 4) + 15) % 16 = 15; omega), ?_⟩
  rw [mem_blk4]
  intro a
  match a with
  | ⟨0, _⟩ =>
    show win1_4.index ⟨16 * ((i 0).val / 4) + 15, hlt⟩ (0 : Fin 3) * 4 ≤ (i 0).val
      ∧ (i 0).val < win1_4.index ⟨16 * ((i 0).val / 4) + 15, hlt⟩ (0 : Fin 3) * 4 + 4
    have e : win1_4.index ⟨16 * ((i 0).val / 4) + 15, hlt⟩ (0 : Fin 3) = (16 * ((i 0).val / 4) + 15) / 16 := a40
    omega
  | ⟨1, _⟩ =>
    show win1_4.index ⟨16 * ((i 0).val / 4) + 15, hlt⟩ (1 : Fin 3) * 256 ≤ (i 1).val
      ∧ (i 1).val < win1_4.index ⟨16 * ((i 0).val / 4) + 15, hlt⟩ (1 : Fin 3) * 256 + 256
    omega
  | ⟨2, _⟩ =>
    show win1_4.index ⟨16 * ((i 0).val / 4) + 15, hlt⟩ (2 : Fin 3) * 64 ≤ (i 2).val
      ∧ (i 2).val < win1_4.index ⟨16 * ((i 0).val / 4) + 15, hlt⟩ (2 : Fin 3) * 64 + 64
    omega

/-- THE ARRAY after the region's write-backs. -/
theorem finalK (hF : StepFirstK) (hL : StepLaterK) (c : Dev nD) : (LowRank.dat V c).arrAt 4 cfg1.N = GK V c :=
  (LowRank.dat V c).arrAt_eq_of_cover 4 (GK V c) (fun t hf => flushedK_eq V hF hL c t hf) cover4

/-- The second low-rank projection as one function of the arrays the region finds. -/
abbrev GV (c : Dev nD) : S8x256x64.Idx → Elt Ideal .f32 := fun i =>
  Cert.Spec.lowrank (V c main_arg11) (V c main_v4) 1024 (by norm_num) (i 0) (i 1) (i 2)

/-- WHAT A GROUP'S LAST POINT WRITES BACK is its block of `GV`: the sixteen tiles' sums are the whole sum. -/
theorem flushedV_eq (hF : StepFirstV) (hL : StepLaterV) (c : Dev nD) (t : Fin cfg1.N) (hf : (cfg1.win 5).flush t = true) :
    (LowRank.dat V c).flushed 5 t = ((cfg1.win 5).blk t).view.read (Elt Ideal) (GV V c) := by
  have h15 : t.val % 16 = 15 := (flush1_5 t).mp hf
  have hlt := lt32 t
  obtain ⟨-, -, -, -, -, -, -, -, -, -, -, -, -, a50, a51, a52⟩ := idx_facts t
  show (cfg1.win 5).cut (grid1.coords t) ((LowRank.dat V c).after 5 t) = _
  rw [LowRank.after_v]
  funext y
  obtain ⟨lh, k, d, rfl⟩ : ∃ (lh : Fin 4) (k : Fin 256) (d : Fin 64), y = ix3 lh k d := ⟨y 0, y 1, y 2, eq_ix3 y⟩
  have hemb : ((cfg1.win 5).blk t).view.emb (ix3 lh k d) = ix3 (⟨4 * (t.val / 16) + lh.val, by omega⟩ : Fin 8) k d :=
    funext fun a => Fin.ext (by
      match a with
      | ⟨0, _⟩ => show win1_5.index t (0 : Fin 3) * 4 + 1 * lh.val = 4 * (t.val / 16) + lh.val; omega
      | ⟨1, _⟩ => show win1_5.index t (1 : Fin 3) * 256 + 1 * k.val = k.val; omega
      | ⟨2, _⟩ => show win1_5.index t (2 : Fin 3) * 64 + 1 * d.val = d.val; omega)
  show (LowRank.acc V c t.val t.isLt).2 (ix3 lh k d) = GV V c (((cfg1.win 5).blk t).view.emb (ix3 lh k d))
  rw [hemb, accV_inv V hF hL c 15 t h15 (t.val / 16) rfl (by omega) lh k d]
  exact (lowrank_eq (V c main_arg11) (V c main_v4) 1024 (by norm_num) ⟨4 * (t.val / 16) + lh.val, by omega⟩ k d).symm

/-- An index of the array is in point t's block iff each coordinate is in the block's range on its axis. -/
theorem mem_blk5 (t : Fin cfg1.N) (i : S8x256x64.Idx) :
    i ∈ ((cfg1.win 5).blk t).view.set ↔ ∀ a : Fin 3, win1_5.index t a * S4x256x64.size a ≤ (i a).val
      ∧ (i a).val < win1_5.index t a * S4x256x64.size a + S4x256x64.size a := by
  show i ∈ ((View.whole main_v5_1).slice (win1_5.rect t)).set ↔ _
  rw [View.set_slice_whole, Rect.mem_set_unit]
  exact Iff.rfl

/-- Head h of the array is in the block written back at the last point of group h / 4. -/
theorem cover5 (i : S8x256x64.Idx) : ∃ t : Fin cfg1.N, (cfg1.win 5).flush t = true ∧ i ∈ ((cfg1.win 5).blk t).view.set := by
  have hi0 : (i 0).val < 8 := (i 0).isLt
  have hi1 : (i 1).val < 256 := (i 1).isLt
  have hi2 : (i 2).val < 64 := (i 2).isLt
  have hN : grid1.N = 32 := N_1
  have hlt : 16 * ((i 0).val / 4) + 15 < grid1.N := by omega
  obtain ⟨-, -, -, -, -, -, -, -, -, -, -, -, -, a50, a51, a52⟩ := idx_facts ⟨16 * ((i 0).val / 4) + 15, hlt⟩
  refine ⟨⟨16 * ((i 0).val / 4) + 15, hlt⟩, (flush1_5 _).mpr (by show (16 * ((i 0).val / 4) + 15) % 16 = 15; omega), ?_⟩
  rw [mem_blk5]
  intro a
  match a with
  | ⟨0, _⟩ =>
    show win1_5.index ⟨16 * ((i 0).val / 4) + 15, hlt⟩ (0 : Fin 3) * 4 ≤ (i 0).val
      ∧ (i 0).val < win1_5.index ⟨16 * ((i 0).val / 4) + 15, hlt⟩ (0 : Fin 3) * 4 + 4
    have e : win1_5.index ⟨16 * ((i 0).val / 4) + 15, hlt⟩ (0 : Fin 3) = (16 * ((i 0).val / 4) + 15) / 16 := a50
    omega
  | ⟨1, _⟩ =>
    show win1_5.index ⟨16 * ((i 0).val / 4) + 15, hlt⟩ (1 : Fin 3) * 256 ≤ (i 1).val
      ∧ (i 1).val < win1_5.index ⟨16 * ((i 0).val / 4) + 15, hlt⟩ (1 : Fin 3) * 256 + 256
    omega
  | ⟨2, _⟩ =>
    show win1_5.index ⟨16 * ((i 0).val / 4) + 15, hlt⟩ (2 : Fin 3) * 64 ≤ (i 2).val
      ∧ (i 2).val < win1_5.index ⟨16 * ((i 0).val / 4) + 15, hlt⟩ (2 : Fin 3) * 64 + 64
    omega

/-- THE ARRAY after the region's write-backs. -/
theorem finalV (hF : StepFirstV) (hL : StepLaterV) (c : Dev nD) : (LowRank.dat V c).arrAt 5 cfg1.N = GV V c :=
  (LowRank.dat V c).arrAt_eq_of_cover 5 (GV V c) (fun t hf => flushedV_eq V hF hL c t hf) cover5

variable (m : (ℓ : Loc nD τ sig) → Buf (Elt Ideal) ℓ) (ρ : Dev nD → PrngReg) (c : Dev nD)

/-- The first low-rank projection, from the two step statements of its accumulator. -/
theorem pk_value_of (hF : StepFirstK) (hL : StepLaterK) (h : Fin 8) (k : Fin 256) (d : Fin 64) :
    (LowRank.dat (E2 m ρ) c).arrAt 4 cfg1.N (ix3 h k d)
      = Cert.Spec.lowrank (E2 m ρ c main_arg10) (E2 m ρ c main_v4) 512 (by norm_num) h k d :=
  congrFun (finalK (E2 m ρ) hF hL c) (ix3 h k d)

/-- The second low-rank projection, from the two step statements of its accumulator. -/
theorem pv_value_of (hF : StepFirstV) (hL : StepLaterV) (h : Fin 8) (k : Fin 256) (d : Fin 64) :
    (LowRank.dat (E2 m ρ) c).arrAt 5 cfg1.N (ix3 h k d)
      = Cert.Spec.lowrank (E2 m ρ c main_arg11) (E2 m ρ c main_v4) 1024 (by norm_num) h k d :=
  congrFun (finalV (E2 m ρ) hF hL c) (ix3 h k d)

end Cert.KernelIdeal.LowRankValue

end
-- ==== Proof.KI.LowRankValuePay.lean ====
/-
  The second region's arithmetic at an index.  Every slab store of either accumulator has the same form: the slab as it
  stands (256 x 64), plus the product of a 256 x 512 matrix (one head's projection matrix restricted to the node tile)
  with a 512 x 64 matrix (64 consecutive columns of the tile's rows of the fused projection), both narrowed to bf16 —
  the identity on the extended reals.  At (k, d):
      slab[k, d] + sum over n of e[k, n] * p[n, o + d],
  where o = 0, 64, 128, 192 is the head's column offset inside its group of four.
-/
import proofs.«154112_j74371653697779_2_alg».proof.Proof.KI.LowRank
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.LowRankValue

open Idealize.ShloMosaic Idealize.ShloMosaic.TcCoe Idealize.ShloMosaic.Tactic
open Idealize.ShloMosaic.ValueIdx
open Cert.KernelIdeal Cert.KernelIdeal.Gen

/-- The product's operand indices at output index (k, d) and contraction index n are (k, n) and (n, d). -/
theorem lhs_idx (k : Fin 256) (d : Fin 64) (n : Fin 512) :
    dot_S256x512_S512x64_S256x64_1_0_0_1_n_n.lhsIdx (ix2 k d) ((contrEquiv1 dot_S256x512_S512x64_S256x64_1_0_0_1_n_n 512 rfl rfl).symm n) = ix2 k n :=
  funext fun a => Fin.ext (by
    have hn := contrEquiv1_symm_val dot_S256x512_S512x64_S256x64_1_0_0_1_n_n 512 rfl rfl n
    match a with
    | ⟨0, _⟩ =>
      show (dot_S256x512_S512x64_S256x64_1_0_0_1_n_n.lhsIdx (ix2 k d) _ 0).val = k.val
      unfold DotDims.lhsIdx
      rw [dif_neg (show ¬(0 : Fin S256x512.rank) ∈ dot_S256x512_S512x64_S256x64_1_0_0_1_n_n.lhsBatch by decide),
        dif_pos (show (0 : Fin S256x512.rank) ∈ dot_S256x512_S512x64_S256x64_1_0_0_1_n_n.lhsNonContracting by decide)]
      rfl
    | ⟨1, _⟩ => exact (dot_S256x512_S512x64_S256x64_1_0_0_1_n_n.lhsIdx_val_of_single rfl (ix2 k d) _).trans hn)

theorem rhs_idx (k : Fin 256) (d : Fin 64) (n : Fin 512) :
    dot_S256x512_S512x64_S256x64_1_0_0_1_n_n.rhsIdx (ix2 k d) ((contrEquiv1 dot_S256x512_S512x64_S256x64_1_0_0_1_n_n 512 rfl rfl).symm n) = ix2 n d :=
  funext fun a => Fin.ext (by
    have hn := contrEquiv1_symm_val dot_S256x512_S512x64_S256x64_1_0_0_1_n_n 512 rfl rfl n
    match a with
    | ⟨0, _⟩ => exact (dot_S256x512_S512x64_S256x64_1_0_0_1_n_n.rhsIdx_val_of_single rfl (ix2 k d) _).trans hn
    | ⟨1, _⟩ =>
      show (dot_S256x512_S512x64_S256x64_1_0_0_1_n_n.rhsIdx (ix2 k d) _ 1).val = d.val
      unfold DotDims.rhsIdx
      rw [dif_neg (show ¬(1 : Fin S512x64.rank) ∈ dot_S256x512_S512x64_S256x64_1_0_0_1_n_n.rhsBatch by decide),
        dif_pos (show (1 : Fin S512x64.rank) ∈ dot_S256x512_S512x64_S256x64_1_0_0_1_n_n.rhsNonContracting by decide)]
      rfl)

/-- The product into the zero accumulator, at an index. -/
theorem matmul_at (A : FVec Ideal S256x512 .bf16) (B : FVec Ideal S512x64 .bf16) (k : Fin 256) (d : Fin 64) :
    FloatOps.matmul dot_S256x512_S512x64_S256x64_1_0_0_1_n_n none A B (constant (F := Ideal) S256x64 .f32 0x00000000#32) (ix2 k d)
      = ∑ n : Fin 512, A (ix2 k n) * B (ix2 n d) := by
  rw [Ideal.matmul_constant_zero_apply, ← Equiv.sum_comp (contrEquiv1 dot_S256x512_S512x64_S256x64_1_0_0_1_n_n 512 rfl rfl).symm]
  refine Finset.sum_congr rfl fun n _ => ?_
  rw [lhs_idx, rhs_idx]

/-- The common form: the slab as it stands plus the product, the two factors given as matrices. -/
theorem core_at (A : FVec Ideal S256x512 .bf16) (B : FVec Ideal S512x64 .bf16) (prev : Vec Ideal S1x256x64 .f32)
    (k : Fin 256) (d : Fin 64) :
    k1_pay14 (F := Ideal) A B prev (ix3 0 k d) = prev (ix3 0 k d) + ∑ n : Fin 512, A (ix2 k n) * B (ix2 n d) := by
  unfold k1_pay14
  refine (shapeCast_ab_1ab_apply _ _ 0 k d).trans ?_
  exact congrArg₂ (· + ·) (shapeCast_1ab_ab_apply prev _ k d) (matmul_at A B k d)

/-- A head's projection matrix on the tile, as the matrix the product takes. -/
theorem lhs_at (v : Vec Ideal S1x256x512 .f32) (k : Fin 256) (n : Fin 512) :
    (truncf .bf16 (shapeCast S256x512 v shapeCasts_S1x256x512_S256x512) bitsLt_bf16_f32 : FVec Ideal S256x512 .bf16) (ix2 k n)
      = v (ix3 0 k n) :=
  shapeCast_1ab_ab_apply v _ k n

/-- The tile's rows of the fused projection pass a same-shape cast unchanged. -/
theorem k1_pay4_at (x : Vec Ideal S512x256 .bf16) (i : S512x256.Idx) : k1_pay4 (F := Ideal) x i = x i :=
  congrFun (shapeCast_self x _) i
theorem k1_pay5_at (x : Vec Ideal S512x256 .bf16) (i : S512x256.Idx) : k1_pay5 (F := Ideal) x i = x i :=
  congrFun (shapeCast_self x _) i

theorem core15_at (A : FVec Ideal S256x512 .bf16) (B : FVec Ideal S512x64 .bf16) (prev : Vec Ideal S1x256x64 .f32)
    (k : Fin 256) (d : Fin 64) :
    k1_pay15 (F := Ideal) A B prev (ix3 0 k d) = prev (ix3 0 k d) + ∑ n : Fin 512, A (ix2 k n) * B (ix2 n d) := by
  unfold k1_pay15
  refine (shapeCast_ab_1ab_apply _ _ 0 k d).trans ?_
  exact congrArg₂ (· + ·) (shapeCast_1ab_ab_apply prev _ k d) (matmul_at A B k d)

theorem core1_at (A : FVec Ideal S256x512 .bf16) (B : FVec Ideal S512x64 .bf16) (prev : Vec Ideal S1x256x64 .f32)
    (k : Fin 256) (d : Fin 64) :
    k1_pay1 (F := Ideal) A B prev (ix3 0 k d) = prev (ix3 0 k d) + ∑ n : Fin 512, A (ix2 k n) * B (ix2 n d) := by
  unfold k1_pay1
  refine (shapeCast_ab_1ab_apply _ _ 0 k d).trans ?_
  exact congrArg₂ (· + ·) (shapeCast_1ab_ab_apply prev _ k d) (matmul_at A B k d)

/-! The four slab stores of the first accumulator (key columns), head by head, and of the second (value columns). -/

theorem slabK0 (x : Vec Ideal S512x256 .bf16) (e : Vec Ideal S1x256x512 .f32) (prev : Vec Ideal S1x256x64 .f32)
    (k : Fin 256) (d : Fin 64) :
    k1_pay6 (F := Ideal) x e prev (ix3 0 k d)
      = prev (ix3 0 k d) + ∑ n : Fin 512, e (ix3 0 k n) * x (ix2 n ⟨0 + d.val, by omega⟩) := by
  unfold k1_pay6
  refine (shapeCast_ab_1ab_apply _ _ 0 k d).trans ?_
  refine congrArg₂ (· + ·) (shapeCast_1ab_ab_apply prev _ k d) ((matmul_at _ _ k d).trans (Finset.sum_congr rfl fun n _ => ?_))
  exact congrArg₂ (· * ·) (lhs_at e k n) ((slice2_axis1_eq 0 (k1_pay4 x) slices_S512x256_o0_0_S512x64 n d).trans (k1_pay4_at x _))

theorem slabK1 (x : Vec Ideal S512x256 .bf16) (e : Vec Ideal S1x256x512 .f32) (prev : Vec Ideal S1x256x64 .f32)
    (k : Fin 256) (d : Fin 64) :
    k1_pay8 (F := Ideal) (k1_pay4 x) e prev (ix3 0 k d)
      = prev (ix3 0 k d) + ∑ n : Fin 512, e (ix3 0 k n) * x (ix2 n ⟨64 + d.val, by omega⟩) := by
  unfold k1_pay8
  refine (shapeCast_ab_1ab_apply _ _ 0 k d).trans ?_
  refine congrArg₂ (· + ·) (shapeCast_1ab_ab_apply prev _ k d) ((matmul_at _ _ k d).trans (Finset.sum_congr rfl fun n _ => ?_))
  exact congrArg₂ (· * ·) (lhs_at e k n) ((slice2_axis1_eq 64 (k1_pay4 x) slices_S512x256_o0_64_S512x64 n d).trans (k1_pay4_at x _))

theorem slabK2 (x : Vec Ideal S512x256 .bf16) (e : Vec Ideal S1x256x512 .f32) (prev : Vec Ideal S1x256x64 .f32)
    (k : Fin 256) (d : Fin 64) :
    k1_pay14 (F := Ideal) (k1_pay10 e) (k1_pay12 (k1_pay4 x)) prev (ix3 0 k d)
      = prev (ix3 0 k d) + ∑ n : Fin 512, e (ix3 0 k n) * x (ix2 n ⟨128 + d.val, by omega⟩) :=
  (core_at _ _ prev k d).trans (congrArg (prev (ix3 0 k d) + ·) (Finset.sum_congr rfl fun n _ =>
    congrArg₂ (· * ·) (lhs_at e k n) ((slice2_axis1_eq 128 (k1_pay4 x) slices_S512x256_o0_128_S512x64 n d).trans (k1_pay4_at x _))))

theorem slabK3 (x : Vec Ideal S512x256 .bf16) (e : Vec Ideal S1x256x512 .f32) (prev : Vec Ideal S1x256x64 .f32)
    (k : Fin 256) (d : Fin 64) :
    k1_pay18 (F := Ideal) (k1_pay4 x) e prev (ix3 0 k d)
      = prev (ix3 0 k d) + ∑ n : Fin 512, e (ix3 0 k n) * x (ix2 n ⟨192 + d.val, by omega⟩) := by
  unfold k1_pay18
  refine (shapeCast_ab_1ab_apply _ _ 0 k d).trans ?_
  refine congrArg₂ (· + ·) (shapeCast_1ab_ab_apply prev _ k d) ((matmul_at _ _ k d).trans (Finset.sum_congr rfl fun n _ => ?_))
  exact congrArg₂ (· * ·) (lhs_at e k n) ((slice2_axis1_eq 192 (k1_pay4 x) slices_S512x256_o0_192_S512x64 n d).trans (k1_pay4_at x _))

theorem slabV0 (x : Vec Ideal S512x256 .bf16) (e : Vec Ideal S1x256x512 .f32) (prev : Vec Ideal S1x256x64 .f32)
    (k : Fin 256) (d : Fin 64) :
    k1_pay7 (F := Ideal) x e prev (ix3 0 k d)
      = prev (ix3 0 k d) + ∑ n : Fin 512, e (ix3 0 k n) * x (ix2 n ⟨0 + d.val, by omega⟩) := by
  unfold k1_pay7
  refine (shapeCast_ab_1ab_apply _ _ 0 k d).trans ?_
  refine congrArg₂ (· + ·) (shapeCast_1ab_ab_apply prev _ k d) ((matmul_at _ _ k d).trans (Finset.sum_congr rfl fun n _ => ?_))
  exact congrArg₂ (· * ·) (lhs_at e k n) ((slice2_axis1_eq 0 (k1_pay5 x) slices_S512x256_o0_0_S512x64 n d).trans (k1_pay5_at x _))

theorem slabV1 (x : Vec Ideal S512x256 .bf16) (e : Vec Ideal S1x256x512 .f32) (prev : Vec Ideal S1x256x64 .f32)
    (k : Fin 256) (d : Fin 64) :
    k1_pay9 (F := Ideal) (k1_pay5 x) e prev (ix3 0 k d)
      = prev (ix3 0 k d) + ∑ n : Fin 512, e (ix3 0 k n) * x (ix2 n ⟨64 + d.val, by omega⟩) := by
  unfold k1_pay9
  refine (shapeCast_ab_1ab_apply _ _ 0 k d).trans ?_
  refine congrArg₂ (· + ·) (shapeCast_1ab_ab_apply prev _ k d) ((matmul_at _ _ k d).trans (Finset.sum_congr rfl fun n _ => ?_))
  exact congrArg₂ (· * ·) (lhs_at e k n) ((slice2_axis1_eq 64 (k1_pay5 x) slices_S512x256_o0_64_S512x64 n d).trans (k1_pay5_at x _))

theorem slabV2 (x : Vec Ideal S512x256 .bf16) (e : Vec Ideal S1x256x512 .f32) (prev : Vec Ideal S1x256x64 .f32)
    (k : Fin 256) (d : Fin 64) :
    k1_pay15 (F := Ideal) (k1_pay11 e) (k1_pay13 (k1_pay5 x)) prev (ix3 0 k d)
      = prev (ix3 0 k d) + ∑ n : Fin 512, e (ix3 0 k n) * x (ix2 n ⟨128 + d.val, by omega⟩) :=
  (core15_at _ _ prev k d).trans (congrArg (prev (ix3 0 k d) + ·) (Finset.sum_congr rfl fun n _ =>
    congrArg₂ (· * ·) (lhs_at e k n) ((slice2_axis1_eq 128 (k1_pay5 x) slices_S512x256_o0_128_S512x64 n d).trans (k1_pay5_at x _))))

theorem slabV3 (x : Vec Ideal S512x256 .bf16) (e : Vec Ideal S1x256x512 .f32) (prev : Vec Ideal S1x256x64 .f32)
    (k : Fin 256) (d : Fin 64) :
    k1_pay1 (F := Ideal) (k1_pay16 e) (k1_pay17 (k1_pay5 x)) prev (ix3 0 k d)
      = prev (ix3 0 k d) + ∑ n : Fin 512, e (ix3 0 k n) * x (ix2 n ⟨192 + d.val, by omega⟩) :=
  (core1_at _ _ prev k d).trans (congrArg (prev (ix3 0 k d) + ·) (Finset.sum_congr rfl fun n _ =>
    congrArg₂ (· * ·) (lhs_at e k n) ((slice2_axis1_eq 192 (k1_pay5 x) slices_S512x256_o0_192_S512x64 n d).trans (k1_pay5_at x _))))

end Cert.KernelIdeal.LowRankValue

end
-- ==== Proof.KI.LowRankValueStep.lean ====
/-
  What one grid point does to the two accumulators, index by index.  Each accumulator is four slabs of 256 x 64, one per
  head of the group; the body adds to slab lh the product of head lh's projection matrix on the node tile (256 x 512)
  with the 64 columns [64 lh, 64 lh + 64) of the tile's 512 rows of the key (resp. value) columns.  At a group's first
  tile both accumulators are zeroed first, so the slab holds the product alone; at a later tile it holds what it held
  plus the product.
-/
import proofs.«154112_j74371653697779_2_alg».proof.Proof.KI.LowRankValuePay
import Idealize.ShloMosaic.Lib.Pipeline.CanonAppend

set_option maxRecDepth 16384

noncomputable section

namespace Cert.KernelIdeal.LowRankValue

open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

theorem slab_hz2 : (![0, 0] : Fin 2 → Nat) = fun _ => 0 := funext fun a => by fin_cases a <;> rfl
theorem slab_hz3 : (![0, 0, 0] : Fin 3 → Nat) = fun _ => 0 := funext fun a => by fin_cases a <;> rfl

/-- An accumulator after one step from contents a: each entry plus its head's product on the tile. -/
def step (a : Vec Ideal S4x256x64 .f32) (e : Vec Ideal S4x256x512 .f32) (x : Vec Ideal S512x256 .bf16) : Vec Ideal S4x256x64 .f32 :=
  fun y => a y + ∑ n : Fin 512, e (ix3 (y 0) (y 1) n) * x (ix2 n ⟨64 * (y 0).val + (y 2).val, by
    have h0 : (y 0).val < 4 := (y 0).isLt
    have h2 : (y 2).val < 64 := (y 2).isLt
    omega⟩)

theorem step_at (a : Vec Ideal S4x256x64 .f32) (e : Vec Ideal S4x256x512 .f32) (x : Vec Ideal S512x256 .bf16)
    (lh : Fin 4) (k : Fin 256) (d : Fin 64) :
    step a e x (ix3 lh k d) = a (ix3 lh k d) + ∑ n : Fin 512, e (ix3 lh k n) * x (ix2 n ⟨64 * lh.val + d.val, by omega⟩) := rfl

/-- Where slab lh's entry (k, d) sits in the accumulator, and row (k, n) of head lh's matrix in the loaded block. -/
theorem emb_slab (lh : ℕ) (hl : lh < 4) (inb) (k : Fin 256) (d : Fin 64) :
    (Rect.unit (s := S4x256x64) ![lh, 0, 0] S1x256x64.size inb).emb (ix3 0 k d) = ix3 ⟨lh, hl⟩ k d :=
  funext fun a => Fin.ext (by
    match a with
    | ⟨0, _⟩ => show lh + 1 * 0 = lh; omega
    | ⟨1, _⟩ => show 0 + 1 * k.val = k.val; omega
    | ⟨2, _⟩ => show 0 + 1 * d.val = d.val; omega)

theorem emb_slab512 (lh : ℕ) (hl : lh < 4) (inb) (k : Fin 256) (n : Fin 512) :
    (Rect.unit (s := S4x256x512) ![lh, 0, 0] S1x256x512.size inb).emb (ix3 0 k n) = ix3 ⟨lh, hl⟩ k n :=
  funext fun a => Fin.ext (by
    match a with
    | ⟨0, _⟩ => show lh + 1 * 0 = lh; omega
    | ⟨1, _⟩ => show 0 + 1 * k.val = k.val; omega
    | ⟨2, _⟩ => show 0 + 1 * n.val = n.val; omega)

/-- One slab store is the step's function on its slab, given what its payload reads as the slab's previous contents. -/
theorem piece_ok (a : Vec Ideal S4x256x64 .f32) (e : Vec Ideal S4x256x512 .f32) (x : Vec Ideal S512x256 .bf16) (lh : ℕ) (hl : lh < 4)
    (inb) (inb') (prev : Vec Ideal S1x256x64 .f32) (P : Vec Ideal S1x256x64 .f32) (o : ℕ) (ho : o = 64 * lh)
    (hprev : ∀ (k : Fin 256) (d : Fin 64), prev (ix3 0 k d) = a (ix3 ⟨lh, hl⟩ k d))
    (hP : ∀ (k : Fin 256) (d : Fin 64), P (ix3 0 k d) = prev (ix3 0 k d)
      + ∑ n : Fin 512, View.ld e (Rect.unit (s := S4x256x512) ![lh, 0, 0] S1x256x512.size inb') (ix3 0 k n)
          * x (ix2 n ⟨o + d.val, by omega⟩))
    (xx : S1x256x64.Idx) :
    P xx = step a e x ((Rect.unit (s := S4x256x64) ![lh, 0, 0] S1x256x64.size inb).emb xx) := by
  subst ho
  obtain ⟨u, k, d, rfl⟩ : ∃ (u : Fin 1) (k : Fin 256) (d : Fin 64), xx = ix3 u k d := ⟨xx 0, xx 1, xx 2, eq_ix3 xx⟩
  obtain rfl : u = 0 := Subsingleton.elim _ _
  rw [emb_slab lh hl inb k d, step_at, hP, hprev]
  refine congrArg (a (ix3 ⟨lh, hl⟩ k d) + ·) (Finset.sum_congr rfl fun n _ => ?_)
  exact congrArg (· * _) (congrArg e (emb_slab512 lh hl inb' k n))

/-- The four slab stores cover the accumulator, whatever they store. -/
theorem slab_cover4 (w3 w2 w1 w0 : Vec Ideal S1x256x64 .f32) (i3 i2 i1 i0) (y : S4x256x64.Idx) :
    ∃ p ∈ ([⟨Rect.unit (s := S4x256x64) ![3, 0, 0] S1x256x64.size i3, w3⟩, ⟨Rect.unit (s := S4x256x64) ![2, 0, 0] S1x256x64.size i2, w2⟩,
      ⟨Rect.unit (s := S4x256x64) ![1, 0, 0] S1x256x64.size i1, w1⟩, ⟨Rect.unit (s := S4x256x64) ![0, 0, 0] S1x256x64.size i0, w0⟩] :
        List (View.Piece (Elt Ideal) S4x256x64 .f32)), y ∈ p.1.set :=
  View.cover_of_tiledL (s := S4x256x64) _ S1x256x64.size (by sl_kernel_rfl) y

/-- Four stores that are each a block of one function G, over any fifth made before them: G wherever the four cover. -/
theorem canon_four_one (G : Vec Ideal S4x256x64 .f32) (p3 p2 p1 p0 z : View.Piece (Elt Ideal) S4x256x64 .f32)
    (h3 : ∀ x : p3.1.shape.Idx, p3.2 x = G (p3.1.emb x)) (h2 : ∀ x : p2.1.shape.Idx, p2.2 x = G (p2.1.emb x))
    (h1 : ∀ x : p1.1.shape.Idx, p1.2 x = G (p1.1.emb x)) (h0 : ∀ x : p0.1.shape.Idx, p0.2 x = G (p0.1.emb x))
    (y : S4x256x64.Idx) (hy : ∃ p ∈ [p3, p2, p1, p0], y ∈ p.1.set) :
    View.canon [p3, p2, p1, p0, z] y = G y :=
  View.canon_append_of_pieces (Val := Elt Ideal) (e := .f32) G [z] [p3, p2, p1, p0] (fun p hp => by
    simp only [List.mem_cons, List.not_mem_nil, or_false] at hp
    rcases hp with rfl | rfl | rfl | rfl <;> assumption) y hy

theorem canon_four (G : Vec Ideal S4x256x64 .f32) (p3 p2 p1 p0 : View.Piece (Elt Ideal) S4x256x64 .f32)
    (h3 : ∀ x : p3.1.shape.Idx, p3.2 x = G (p3.1.emb x)) (h2 : ∀ x : p2.1.shape.Idx, p2.2 x = G (p2.1.emb x))
    (h1 : ∀ x : p1.1.shape.Idx, p1.2 x = G (p1.1.emb x)) (h0 : ∀ x : p0.1.shape.Idx, p0.2 x = G (p0.1.emb x))
    (y : S4x256x64.Idx) (hy : ∃ p ∈ [p3, p2, p1, p0], y ∈ p.1.set) :
    View.canon [p3, p2, p1, p0] y = G y :=
  View.canon_apply_of_pieces (Val := Elt Ideal) (e := .f32) G [p3, p2, p1, p0] (fun p hp => by
    simp only [List.mem_cons, List.not_mem_nil, or_false] at hp
    rcases hp with rfl | rfl | rfl | rfl <;> assumption) y hy

/-- Two different slabs of an accumulator do not meet. -/
theorem slab_dis (a b : ℕ) (hab : a < b) (inb) (inb') :
    Disjoint (Rect.unit (s := S4x256x64) ![a, 0, 0] S1x256x64.size inb).set
      (Rect.unit (s := S4x256x64) ![b, 0, 0] S1x256x64.size inb').toLoadRect.set :=
  Rect.unit_disjoint 0 (Or.inl (by show a + 1 ≤ b; omega))

/-- The first accumulator's zeroing store read back through any box is zero everywhere. -/
theorem readCov_zeroK (v : View sig .tc .vmem S4x256x64 .f32) (B : LoadRect S4x256x64) (j : B.shape.Idx) :
    v.readCov [(⟨Rect.unit (s := S4x256x64) ![0, 0, 0] S4x256x64.size inb_S4x256x64_S4x256x64_0_0_0, k1_pay2 (F := Ideal)⟩ :
      View.Piece (Elt Ideal) S4x256x64 .f32)] B j = 0 := by
  rw [View.readCov_eq_canon', View.canon_unit_zero slab_hz3]
  exact Ideal.ofBits_zero_f32

/-- A slab not yet stored to reads zero after the zeroing store, whatever the earlier slabs' stores hold. -/
theorem zero1K (v : View sig .tc .vmem S4x256x64 .f32) (w0 : Vec Ideal S1x256x64 .f32) (i1 i0) (j) :
    v.readCov [(⟨Rect.unit (s := S4x256x64) ![0, 0, 0] S1x256x64.size i0, w0⟩ : View.Piece (Elt Ideal) S4x256x64 .f32),
      ⟨Rect.unit (s := S4x256x64) ![0, 0, 0] S4x256x64.size inb_S4x256x64_S4x256x64_0_0_0, k1_pay2 (F := Ideal)⟩]
      (Rect.unit (s := S4x256x64) ![1, 0, 0] S1x256x64.size i1).toLoadRect j = 0 := by
  rw [View.readCov_cons_of_disjoint v (⟨Rect.unit (s := S4x256x64) ![0, 0, 0] S1x256x64.size i0, w0⟩ : View.Piece (Elt Ideal) S4x256x64 .f32) _ _ (slab_dis 0 1 (by omega) i0 i1)]
  exact readCov_zeroK _ _ _

theorem zero2K (v : View sig .tc .vmem S4x256x64 .f32) (w1 w0 : Vec Ideal S1x256x64 .f32) (i2 i1 i0) (j) :
    v.readCov [(⟨Rect.unit (s := S4x256x64) ![1, 0, 0] S1x256x64.size i1, w1⟩ : View.Piece (Elt Ideal) S4x256x64 .f32),
      ⟨Rect.unit (s := S4x256x64) ![0, 0, 0] S1x256x64.size i0, w0⟩,
      ⟨Rect.unit (s := S4x256x64) ![0, 0, 0] S4x256x64.size inb_S4x256x64_S4x256x64_0_0_0, k1_pay2 (F := Ideal)⟩]
      (Rect.unit (s := S4x256x64) ![2, 0, 0] S1x256x64.size i2).toLoadRect j = 0 := by
  rw [View.readCov_cons_of_disjoint v (⟨Rect.unit (s := S4x256x64) ![1, 0, 0] S1x256x64.size i1, w1⟩ : View.Piece (Elt Ideal) S4x256x64 .f32) _ _ (slab_dis 1 2 (by omega) i1 i2),
    View.readCov_cons_of_disjoint v (⟨Rect.unit (s := S4x256x64) ![0, 0, 0] S1x256x64.size i0, w0⟩ : View.Piece (Elt Ideal) S4x256x64 .f32) _ _ (slab_dis 0 2 (by omega) i0 i2)]
  exact readCov_zeroK _ _ _

theorem zero3K (v : View sig .tc .vmem S4x256x64 .f32) (w2 w1 w0 : Vec Ideal S1x256x64 .f32) (i3 i2 i1 i0) (j) :
    v.readCov [(⟨Rect.unit (s := S4x256x64) ![2, 0, 0] S1x256x64.size i2, w2⟩ : View.Piece (Elt Ideal) S4x256x64 .f32),
      ⟨Rect.unit (s := S4x256x64) ![1, 0, 0] S1x256x64.size i1, w1⟩,
      ⟨Rect.unit (s := S4x256x64) ![0, 0, 0] S1x256x64.size i0, w0⟩,
      ⟨Rect.unit (s := S4x256x64) ![0, 0, 0] S4x256x64.size inb_S4x256x64_S4x256x64_0_0_0, k1_pay2 (F := Ideal)⟩]
      (Rect.unit (s := S4x256x64) ![3, 0, 0] S1x256x64.size i3).toLoadRect j = 0 := by
  rw [View.readCov_cons_of_disjoint v (⟨Rect.unit (s := S4x256x64) ![2, 0, 0] S1x256x64.size i2, w2⟩ : View.Piece (Elt Ideal) S4x256x64 .f32) _ _ (slab_dis 2 3 (by omega) i2 i3),
    View.readCov_cons_of_disjoint v (⟨Rect.unit (s := S4x256x64) ![1, 0, 0] S1x256x64.size i1, w1⟩ : View.Piece (Elt Ideal) S4x256x64 .f32) _ _ (slab_dis 1 3 (by omega) i1 i3),
    View.readCov_cons_of_disjoint v (⟨Rect.unit (s := S4x256x64) ![0, 0, 0] S1x256x64.size i0, w0⟩ : View.Piece (Elt Ideal) S4x256x64 .f32) _ _ (slab_dis 0 3 (by omega) i0 i3)]
  exact readCov_zeroK _ _ _

/-- The second accumulator's zeroing store read back through any box is zero everywhere. -/
theorem readCov_zeroV (v : View sig .tc .vmem S4x256x64 .f32) (B : LoadRect S4x256x64) (j : B.shape.Idx) :
    v.readCov [(⟨Rect.unit (s := S4x256x64) ![0, 0, 0] S4x256x64.size inb_S4x256x64_S4x256x64_0_0_0, k1_pay3 (F := Ideal)⟩ :
      View.Piece (Elt Ideal) S4x256x64 .f32)] B j = 0 := by
  rw [View.readCov_eq_canon', View.canon_unit_zero slab_hz3]
  exact Ideal.ofBits_zero_f32

/-- A slab not yet stored to reads zero after the zeroing store, whatever the earlier slabs' stores hold. -/
theorem zero1V (v : View sig .tc .vmem S4x256x64 .f32) (w0 : Vec Ideal S1x256x64 .f32) (i1 i0) (j) :
    v.readCov [(⟨Rect.unit (s := S4x256x64) ![0, 0, 0] S1x256x64.size i0, w0⟩ : View.Piece (Elt Ideal) S4x256x64 .f32),
      ⟨Rect.unit (s := S4x256x64) ![0, 0, 0] S4x256x64.size inb_S4x256x64_S4x256x64_0_0_0, k1_pay3 (F := Ideal)⟩]
      (Rect.unit (s := S4x256x64) ![1, 0, 0] S1x256x64.size i1).toLoadRect j = 0 := by
  rw [View.readCov_cons_of_disjoint v (⟨Rect.unit (s := S4x256x64) ![0, 0, 0] S1x256x64.size i0, w0⟩ : View.Piece (Elt Ideal) S4x256x64 .f32) _ _ (slab_dis 0 1 (by omega) i0 i1)]
  exact readCov_zeroV _ _ _

theorem zero2V (v : View sig .tc .vmem S4x256x64 .f32) (w1 w0 : Vec Ideal S1x256x64 .f32) (i2 i1 i0) (j) :
    v.readCov [(⟨Rect.unit (s := S4x256x64) ![1, 0, 0] S1x256x64.size i1, w1⟩ : View.Piece (Elt Ideal) S4x256x64 .f32),
      ⟨Rect.unit (s := S4x256x64) ![0, 0, 0] S1x256x64.size i0, w0⟩,
      ⟨Rect.unit (s := S4x256x64) ![0, 0, 0] S4x256x64.size inb_S4x256x64_S4x256x64_0_0_0, k1_pay3 (F := Ideal)⟩]
      (Rect.unit (s := S4x256x64) ![2, 0, 0] S1x256x64.size i2).toLoadRect j = 0 := by
  rw [View.readCov_cons_of_disjoint v (⟨Rect.unit (s := S4x256x64) ![1, 0, 0] S1x256x64.size i1, w1⟩ : View.Piece (Elt Ideal) S4x256x64 .f32) _ _ (slab_dis 1 2 (by omega) i1 i2),
    View.readCov_cons_of_disjoint v (⟨Rect.unit (s := S4x256x64) ![0, 0, 0] S1x256x64.size i0, w0⟩ : View.Piece (Elt Ideal) S4x256x64 .f32) _ _ (slab_dis 0 2 (by omega) i0 i2)]
  exact readCov_zeroV _ _ _

theorem zero3V (v : View sig .tc .vmem S4x256x64 .f32) (w2 w1 w0 : Vec Ideal S1x256x64 .f32) (i3 i2 i1 i0) (j) :
    v.readCov [(⟨Rect.unit (s := S4x256x64) ![2, 0, 0] S1x256x64.size i2, w2⟩ : View.Piece (Elt Ideal) S4x256x64 .f32),
      ⟨Rect.unit (s := S4x256x64) ![1, 0, 0] S1x256x64.size i1, w1⟩,
      ⟨Rect.unit (s := S4x256x64) ![0, 0, 0] S1x256x64.size i0, w0⟩,
      ⟨Rect.unit (s := S4x256x64) ![0, 0, 0] S4x256x64.size inb_S4x256x64_S4x256x64_0_0_0, k1_pay3 (F := Ideal)⟩]
      (Rect.unit (s := S4x256x64) ![3, 0, 0] S1x256x64.size i3).toLoadRect j = 0 := by
  rw [View.readCov_cons_of_disjoint v (⟨Rect.unit (s := S4x256x64) ![2, 0, 0] S1x256x64.size i2, w2⟩ : View.Piece (Elt Ideal) S4x256x64 .f32) _ _ (slab_dis 2 3 (by omega) i2 i3),
    View.readCov_cons_of_disjoint v (⟨Rect.unit (s := S4x256x64) ![1, 0, 0] S1x256x64.size i1, w1⟩ : View.Piece (Elt Ideal) S4x256x64 .f32) _ _ (slab_dis 1 3 (by omega) i1 i3),
    View.readCov_cons_of_disjoint v (⟨Rect.unit (s := S4x256x64) ![0, 0, 0] S1x256x64.size i0, w0⟩ : View.Piece (Elt Ideal) S4x256x64 .f32) _ _ (slab_dis 0 3 (by omega) i0 i3)]
  exact readCov_zeroV _ _ _
/-- The first accumulator after a later tile: the step from what it held. -/
theorem laterK_eq (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : ¬LowRank.first i)
    (x0 x1 : Vec Ideal S4x256x512 .f32) (x2 x3 : Vec Ideal S512x256 .bf16) (ak av : Vec Ideal S4x256x64 .f32) :
    LowRank.laterK (F := Ideal) c i arg2 harg2 arg3 harg3 arg4 harg4 arg5 harg5 arg6 harg6 arg7 harg7 hc x0 x1 x2 x3 ak av = step ak x0 x2 := by
  unfold LowRank.laterK
  rw [View.read_writes_eq_canon _ _ _ (LowRank.coverLaterK c i arg2 harg2 arg3 harg3 arg4 harg4 arg5 harg5 arg6 harg6 arg7 harg7 hc x0 x1 x2 x3 ak av)]
  unfold LowRank.runLater
  dsimp only
  sl_unfold_run_names
  simp only [View.readAt_eq_ld, harg2.read_unread, harg4.read_unread, harg6.read_unread, View.ld_unit_zero (S := S512x256) slab_hz2]
  funext y
  refine canon_four (step ak x0 x2) _ _ _ _ ?_ ?_ ?_ ?_ y (slab_cover4 _ _ _ _ _ _ _ _ y)
  · refine piece_ok ak x0 x2 3 (by omega) inb_S4x256x64_S1x256x64_3_0_0 inb_S4x256x512_S1x256x512_3_0_0 _ _ 192 rfl ?_ (fun k d => slabK3 x2 _ _ k d)
    exact fun k d => congrArg ak (emb_slab 3 (by omega) inb_S4x256x64_S1x256x64_3_0_0 k d)
  · refine piece_ok ak x0 x2 2 (by omega) inb_S4x256x64_S1x256x64_2_0_0 inb_S4x256x512_S1x256x512_2_0_0 _ _ 128 rfl ?_ (fun k d => slabK2 x2 _ _ k d)
    exact fun k d => congrArg ak (emb_slab 2 (by omega) inb_S4x256x64_S1x256x64_2_0_0 k d)
  · refine piece_ok ak x0 x2 1 (by omega) inb_S4x256x64_S1x256x64_1_0_0 inb_S4x256x512_S1x256x512_1_0_0 _ _ 64 rfl ?_ (fun k d => slabK1 x2 _ _ k d)
    exact fun k d => congrArg ak (emb_slab 1 (by omega) inb_S4x256x64_S1x256x64_1_0_0 k d)
  · refine piece_ok ak x0 x2 0 (by omega) inb_S4x256x64_S1x256x64_0_0_0 inb_S4x256x512_S1x256x512_0_0_0 _ _ 0 rfl ?_ (fun k d => slabK0 x2 _ _ k d)
    exact fun k d => congrArg ak (emb_slab 0 (by omega) inb_S4x256x64_S1x256x64_0_0_0 k d)

/-- The second accumulator after a later tile: the step from what it held. -/
theorem laterV_eq (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : ¬LowRank.first i)
    (x0 x1 : Vec Ideal S4x256x512 .f32) (x2 x3 : Vec Ideal S512x256 .bf16) (ak av : Vec Ideal S4x256x64 .f32) :
    LowRank.laterV (F := Ideal) c i arg2 harg2 arg3 harg3 arg4 harg4 arg5 harg5 arg6 harg6 arg7 harg7 hc x0 x1 x2 x3 ak av = step av x1 x3 := by
  unfold LowRank.laterV
  rw [View.read_writes_eq_canon _ _ _ (LowRank.coverLaterV c i arg2 harg2 arg3 harg3 arg4 harg4 arg5 harg5 arg6 harg6 arg7 harg7 hc x0 x1 x2 x3 ak av)]
  unfold LowRank.runLater
  dsimp only
  sl_unfold_run_names
  simp only [View.readAt_eq_ld, harg3.read_unread, harg5.read_unread, harg7.read_unread, View.ld_unit_zero (S := S512x256) slab_hz2]
  funext y
  refine canon_four (step av x1 x3) _ _ _ _ ?_ ?_ ?_ ?_ y (slab_cover4 _ _ _ _ _ _ _ _ y)
  · refine piece_ok av x1 x3 3 (by omega) inb_S4x256x64_S1x256x64_3_0_0 inb_S4x256x512_S1x256x512_3_0_0 _ _ 192 rfl ?_ (fun k d => slabV3 x3 _ _ k d)
    exact fun k d => congrArg av (emb_slab 3 (by omega) inb_S4x256x64_S1x256x64_3_0_0 k d)
  · refine piece_ok av x1 x3 2 (by omega) inb_S4x256x64_S1x256x64_2_0_0 inb_S4x256x512_S1x256x512_2_0_0 _ _ 128 rfl ?_ (fun k d => slabV2 x3 _ _ k d)
    exact fun k d => congrArg av (emb_slab 2 (by omega) inb_S4x256x64_S1x256x64_2_0_0 k d)
  · refine piece_ok av x1 x3 1 (by omega) inb_S4x256x64_S1x256x64_1_0_0 inb_S4x256x512_S1x256x512_1_0_0 _ _ 64 rfl ?_ (fun k d => slabV1 x3 _ _ k d)
    exact fun k d => congrArg av (emb_slab 1 (by omega) inb_S4x256x64_S1x256x64_1_0_0 k d)
  · refine piece_ok av x1 x3 0 (by omega) inb_S4x256x64_S1x256x64_0_0_0 inb_S4x256x512_S1x256x512_0_0_0 _ _ 0 rfl ?_ (fun k d => slabV0 x3 _ _ k d)
    exact fun k d => congrArg av (emb_slab 0 (by omega) inb_S4x256x64_S1x256x64_0_0_0 k d)

set_option maxHeartbeats 1600000 in
/-- The first accumulator after a group's first tile: the step from zero. -/
theorem firstK_eq (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : LowRank.first i)
    (x0 x1 : Vec Ideal S4x256x512 .f32) (x2 x3 : Vec Ideal S512x256 .bf16) :
    LowRank.firstK (F := Ideal) c i arg2 harg2 arg3 harg3 arg4 harg4 arg5 harg5 arg6 harg6 arg7 harg7 hc x0 x1 x2 x3 = step (fun _ => 0) x0 x2 := by
  unfold LowRank.firstK
  rw [View.read_writes_eq_canon _ _ _ (LowRank.coverFirstK c i arg2 harg2 arg3 harg3 arg4 harg4 arg5 harg5 arg6 harg6 arg7 harg7 hc x0 x1 x2 x3)]
  unfold LowRank.runFirst
  dsimp only
  sl_unfold_run_names
  simp only [View.readAt_eq_ld, harg2.read_unread, harg4.read_unread, View.ld_unit_zero (S := S512x256) slab_hz2]
  funext y
  refine canon_four_one (step (fun _ => 0) x0 x2) _ _ _ _ _ ?_ ?_ ?_ ?_ y (slab_cover4 _ _ _ _ _ _ _ _ y)
  · refine piece_ok (fun _ => 0) x0 x2 3 (by omega) inb_S4x256x64_S1x256x64_3_0_0 inb_S4x256x512_S1x256x512_3_0_0 _ _ 192 rfl ?_ (fun k d => slabK3 x2 _ _ k d)
    exact fun k d => zero3K _ _ _ _ _ _ _ _ _
  · refine piece_ok (fun _ => 0) x0 x2 2 (by omega) inb_S4x256x64_S1x256x64_2_0_0 inb_S4x256x512_S1x256x512_2_0_0 _ _ 128 rfl ?_ (fun k d => slabK2 x2 _ _ k d)
    exact fun k d => zero2K _ _ _ _ _ _ _
  · refine piece_ok (fun _ => 0) x0 x2 1 (by omega) inb_S4x256x64_S1x256x64_1_0_0 inb_S4x256x512_S1x256x512_1_0_0 _ _ 64 rfl ?_ (fun k d => slabK1 x2 _ _ k d)
    exact fun k d => zero1K _ _ _ _ _
  · refine piece_ok (fun _ => 0) x0 x2 0 (by omega) inb_S4x256x64_S1x256x64_0_0_0 inb_S4x256x512_S1x256x512_0_0_0 _ _ 0 rfl ?_ (fun k d => slabK0 x2 _ _ k d)
    exact fun k d => readCov_zeroK _ _ _

set_option maxHeartbeats 1600000 in
/-- The second accumulator after a group's first tile: the step from zero. -/
theorem firstV_eq (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole) (hc : LowRank.first i)
    (x0 x1 : Vec Ideal S4x256x512 .f32) (x2 x3 : Vec Ideal S512x256 .bf16) :
    LowRank.firstV (F := Ideal) c i arg2 harg2 arg3 harg3 arg4 harg4 arg5 harg5 arg6 harg6 arg7 harg7 hc x0 x1 x2 x3 = step (fun _ => 0) x1 x3 := by
  unfold LowRank.firstV
  rw [View.read_writes_eq_canon _ _ _ (LowRank.coverFirstV c i arg2 harg2 arg3 harg3 arg4 harg4 arg5 harg5 arg6 harg6 arg7 harg7 hc x0 x1 x2 x3)]
  unfold LowRank.runFirst
  dsimp only
  sl_unfold_run_names
  simp only [View.readAt_eq_ld, harg3.read_unread, harg5.read_unread, View.ld_unit_zero (S := S512x256) slab_hz2]
  funext y
  refine canon_four_one (step (fun _ => 0) x1 x3) _ _ _ _ _ ?_ ?_ ?_ ?_ y (slab_cover4 _ _ _ _ _ _ _ _ y)
  · refine piece_ok (fun _ => 0) x1 x3 3 (by omega) inb_S4x256x64_S1x256x64_3_0_0 inb_S4x256x512_S1x256x512_3_0_0 _ _ 192 rfl ?_ (fun k d => slabV3 x3 _ _ k d)
    exact fun k d => zero3V _ _ _ _ _ _ _ _ _
  · refine piece_ok (fun _ => 0) x1 x3 2 (by omega) inb_S4x256x64_S1x256x64_2_0_0 inb_S4x256x512_S1x256x512_2_0_0 _ _ 128 rfl ?_ (fun k d => slabV2 x3 _ _ k d)
    exact fun k d => zero2V _ _ _ _ _ _ _
  · refine piece_ok (fun _ => 0) x1 x3 1 (by omega) inb_S4x256x64_S1x256x64_1_0_0 inb_S4x256x512_S1x256x512_1_0_0 _ _ 64 rfl ?_ (fun k d => slabV1 x3 _ _ k d)
    exact fun k d => zero1V _ _ _ _ _
  · refine piece_ok (fun _ => 0) x1 x3 0 (by omega) inb_S4x256x64_S1x256x64_0_0_0 inb_S4x256x512_S1x256x512_0_0_0 _ _ 0 rfl ?_ (fun k d => slabV0 x3 _ _ k d)
    exact fun k d => readCov_zeroV _ _ _

/-! ## The four statements, at an index -/

theorem firstK_at (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole)
    (hc : LowRank.first i) (x0 x1 : Vec Ideal S4x256x512 .f32) (x2 x3 : Vec Ideal S512x256 .bf16) (lh : Fin 4) (k : Fin 256) (d : Fin 64) :
    LowRank.firstK c i arg2 harg2 arg3 harg3 arg4 harg4 arg5 harg5 arg6 harg6 arg7 harg7 hc x0 x1 x2 x3 (ix3 lh k d)
      = ∑ r : Fin 512, x0 (ix3 lh k r) * x2 (ix2 r (⟨64 * lh.val + d.val, by omega⟩ : Fin 256)) :=
  (congrFun (firstK_eq c i arg2 harg2 arg3 harg3 arg4 harg4 arg5 harg5 arg6 harg6 arg7 harg7 hc x0 x1 x2 x3) (ix3 lh k d)).trans ((step_at (fun _ => 0) x0 x2 lh k d).trans (zero_add _))

theorem firstV_at (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole)
    (hc : LowRank.first i) (x0 x1 : Vec Ideal S4x256x512 .f32) (x2 x3 : Vec Ideal S512x256 .bf16) (lh : Fin 4) (k : Fin 256) (d : Fin 64) :
    LowRank.firstV c i arg2 harg2 arg3 harg3 arg4 harg4 arg5 harg5 arg6 harg6 arg7 harg7 hc x0 x1 x2 x3 (ix3 lh k d)
      = ∑ r : Fin 512, x1 (ix3 lh k r) * x3 (ix2 r (⟨64 * lh.val + d.val, by omega⟩ : Fin 256)) :=
  (congrFun (firstV_eq c i arg2 harg2 arg3 harg3 arg4 harg4 arg5 harg5 arg6 harg6 arg7 harg7 hc x0 x1 x2 x3) (ix3 lh k d)).trans ((step_at (fun _ => 0) x1 x3 lh k d).trans (zero_add _))

theorem laterK_at (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole)
    (hc : ¬LowRank.first i) (x0 x1 : Vec Ideal S4x256x512 .f32) (x2 x3 : Vec Ideal S512x256 .bf16) (ak av : Vec Ideal S4x256x64 .f32)
    (lh : Fin 4) (k : Fin 256) (d : Fin 64) :
    LowRank.laterK c i arg2 harg2 arg3 harg3 arg4 harg4 arg5 harg5 arg6 harg6 arg7 harg7 hc x0 x1 x2 x3 ak av (ix3 lh k d)
      = ak (ix3 lh k d) + ∑ r : Fin 512, x0 (ix3 lh k r) * x2 (ix2 r (⟨64 * lh.val + d.val, by omega⟩ : Fin 256)) :=
  (congrFun (laterK_eq c i arg2 harg2 arg3 harg3 arg4 harg4 arg5 harg5 arg6 harg6 arg7 harg7 hc x0 x1 x2 x3 ak av) (ix3 lh k d)).trans (step_at ak x0 x2 lh k d)

theorem laterV_at (c : Dev nD) (i : grid1.Coords) (arg2 : Memref sig .tc .vmem S4x256x512 .f32) (harg2 : arg2.IsWhole) (arg3 : Memref sig .tc .vmem S4x256x512 .f32) (harg3 : arg3.IsWhole)
    (arg4 : Memref sig .tc .vmem S512x256 .bf16) (harg4 : arg4.IsWhole) (arg5 : Memref sig .tc .vmem S512x256 .bf16) (harg5 : arg5.IsWhole)
    (arg6 : Memref sig .tc .vmem S4x256x64 .f32) (harg6 : arg6.IsWhole) (arg7 : Memref sig .tc .vmem S4x256x64 .f32) (harg7 : arg7.IsWhole)
    (hc : ¬LowRank.first i) (x0 x1 : Vec Ideal S4x256x512 .f32) (x2 x3 : Vec Ideal S512x256 .bf16) (ak av : Vec Ideal S4x256x64 .f32)
    (lh : Fin 4) (k : Fin 256) (d : Fin 64) :
    LowRank.laterV c i arg2 harg2 arg3 harg3 arg4 harg4 arg5 harg5 arg6 harg6 arg7 harg7 hc x0 x1 x2 x3 ak av (ix3 lh k d)
      = av (ix3 lh k d) + ∑ r : Fin 512, x1 (ix3 lh k r) * x3 (ix2 r (⟨64 * lh.val + d.val, by omega⟩ : Fin 256)) :=
  (congrFun (laterV_eq c i arg2 harg2 arg3 harg3 arg4 harg4 arg5 harg5 arg6 harg6 arg7 harg7 hc x0 x1 x2 x3 ak av) (ix3 lh k d)).trans (step_at av x1 x3 lh k d)

end Cert.KernelIdeal.LowRankValue

end
-- ==== Proof.KI.LowRankValueFinal.lean ====
/-
  The two low-rank arrays: the accumulation over the node tiles, with each tile's step read off the body's stores.
-/
import proofs.«154112_j74371653697779_2_alg».proof.Proof.KI.LowRankValue
import proofs.«154112_j74371653697779_2_alg».proof.Proof.KI.LowRankValueStep

set_option maxRecDepth 16384

noncomputable section

namespace Cert.KernelIdeal.LowRankValue

open Idealize.ShloMosaic Idealize.ShloMosaic.TcCoe Idealize.SL.Sem Idealize.ShloMosaic.ValueIdx
open Cert.KernelIdeal Cert.KernelIdeal.Gen Cert.KernelIdeal.Whole

variable (m : (ℓ : Loc nD τ sig) → Buf (Elt Ideal) ℓ) (ρ : Dev nD → PrngReg) (c : Dev nD)

theorem pk_value (h : Fin 8) (k : Fin 256) (d : Fin 64) :
    (LowRank.dat (E2 m ρ) c).arrAt 4 cfg1.N (ix3 h k d)
      = Cert.Spec.lowrank (E2 m ρ c main_arg10) (E2 m ρ c main_v4) 512 (by norm_num) h k d :=
  pk_value_of m ρ c firstK_at laterK_at h k d

theorem pv_value (h : Fin 8) (k : Fin 256) (d : Fin 64) :
    (LowRank.dat (E2 m ρ) c).arrAt 5 cfg1.N (ix3 h k d)
      = Cert.Spec.lowrank (E2 m ρ c main_arg11) (E2 m ρ c main_v4) 1024 (by norm_num) h k d :=
  pv_value_of m ρ c firstV_at laterV_at h k d

end Cert.KernelIdeal.LowRankValue

end
-- ==== Proof.KI.AttnValueScore.lean ====
/-
  The score product of one head: a 1024 x 64 slab of queries against a 256 x 64 slab of keys, contracting the 64
  columns of both into a zero accumulator.  Read at (r, k) it is the sum over d of q[r, d] k[k, d].
-/
import proofs.«154112_j74371653697779_2_alg».proof.Proof.KI.Attn
import proofs.«154112_j74371653697779_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.AttnValue

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

/-- Queries times keys transposed, into zeros. -/
def sc (qs : FVec Ideal S1024x64 .bf16) (ks : FVec Ideal S256x64 .bf16) : FVec Ideal S1024x256 .f32 :=
  matmul dot_S1024x64_S256x64_S1024x256_1_1_0_0_n_n none qs ks (constant S1024x256 .f32 0x00000000#32)

theorem sc_lhs0 (i : S1024x256.Idx) (q : dot_S1024x64_S256x64_S1024x256_1_1_0_0_n_n.contr.Idx) :
    (dot_S1024x64_S256x64_S1024x256_1_1_0_0_n_n.lhsIdx i q 0).val = (i 0).val := by
  unfold DotDims.lhsIdx
  rw [dif_neg (show ¬(0 : Fin S1024x64.rank) ∈ dot_S1024x64_S256x64_S1024x256_1_1_0_0_n_n.lhsBatch by decide),
    dif_pos (show (0 : Fin S1024x64.rank) ∈ dot_S1024x64_S256x64_S1024x256_1_1_0_0_n_n.lhsNonContracting by decide)]
  rfl
theorem sc_lhs1 (i : S1024x256.Idx) (q : dot_S1024x64_S256x64_S1024x256_1_1_0_0_n_n.contr.Idx) :
    (dot_S1024x64_S256x64_S1024x256_1_1_0_0_n_n.lhsIdx i q 1).val = (q ⟨0, by decide⟩).val :=
  dot_S1024x64_S256x64_S1024x256_1_1_0_0_n_n.lhsIdx_val_of_single rfl i q
theorem sc_rhs0 (i : S1024x256.Idx) (q : dot_S1024x64_S256x64_S1024x256_1_1_0_0_n_n.contr.Idx) :
    (dot_S1024x64_S256x64_S1024x256_1_1_0_0_n_n.rhsIdx i q 0).val = (i 1).val := by
  unfold DotDims.rhsIdx
  rw [dif_neg (show ¬(0 : Fin S256x64.rank) ∈ dot_S1024x64_S256x64_S1024x256_1_1_0_0_n_n.rhsBatch by decide),
    dif_pos (show (0 : Fin S256x64.rank) ∈ dot_S1024x64_S256x64_S1024x256_1_1_0_0_n_n.rhsNonContracting by decide)]
  rfl
theorem sc_rhs1 (i : S1024x256.Idx) (q : dot_S1024x64_S256x64_S1024x256_1_1_0_0_n_n.contr.Idx) :
    (dot_S1024x64_S256x64_S1024x256_1_1_0_0_n_n.rhsIdx i q 1).val = (q ⟨0, by decide⟩).val :=
  dot_S1024x64_S256x64_S1024x256_1_1_0_0_n_n.rhsIdx_val_of_single rfl i q

/-- The score at (r, k): the 64-term inner product of query row r and key row k. -/
theorem sc_apply (qs : FVec Ideal S1024x64 .bf16) (ks : FVec Ideal S256x64 .bf16) (r : Fin 1024) (k : Fin 256) :
    sc qs ks (ix2 r k) = ∑ d : Fin 64, qs (ix2 r d) * ks (ix2 k d) := by
  unfold sc
  simp only [matmul]
  rw [Ideal.matmul_constant_zero_apply,
    ← Equiv.sum_comp (ValueIdx.contrEquiv1 dot_S1024x64_S256x64_S1024x256_1_1_0_0_n_n 64 rfl rfl).symm]
  refine Finset.sum_congr rfl fun d _ => ?_
  have hk := ValueIdx.contrEquiv1_symm_val dot_S1024x64_S256x64_S1024x256_1_1_0_0_n_n 64 rfl rfl d
  have el : dot_S1024x64_S256x64_S1024x256_1_1_0_0_n_n.lhsIdx (ix2 r k)
      ((ValueIdx.contrEquiv1 dot_S1024x64_S256x64_S1024x256_1_1_0_0_n_n 64 rfl rfl).symm d) = ix2 r d :=
    funext fun a => Fin.ext (by
      match a with
      | ⟨0, _⟩ => exact sc_lhs0 _ _
      | ⟨1, _⟩ => exact (sc_lhs1 _ _).trans hk)
  have er : dot_S1024x64_S256x64_S1024x256_1_1_0_0_n_n.rhsIdx (ix2 r k)
      ((ValueIdx.contrEquiv1 dot_S1024x64_S256x64_S1024x256_1_1_0_0_n_n 64 rfl rfl).symm d) = ix2 k d :=
    funext fun a => Fin.ext (by
      match a with
      | ⟨0, _⟩ => exact sc_rhs0 _ _
      | ⟨1, _⟩ => exact (sc_rhs1 _ _).trans hk)
  rw [el, er]

end Cert.KernelIdeal.AttnValue

end
-- ==== Proof.KI.AttnValueSoft.lean ====
/-
  The softmax of one head's scores and its product with the values.  From a 1024 x 256 array of scores s:
    ex s [r, k] = exp (s[r,k] / 8 - max_k' s[r,k'] / 8)          (the maximum taken from minus infinity)
    nm e v [r, d] = sum_k (e[r,k] / sum_k' e[r,k']) v[k, d]
  A row's maximum and a row's sum are each computed as a length-1024 vector, viewed as a column and spread back
  over the 256 lanes; the two column forms of the cast and of the broadcast are proved here.
-/
import proofs.«154112_j74371653697779_2_alg».proof.Proof.KI.Attn
import proofs.«154112_j74371653697779_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.AttnValue

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row's maximum from minus infinity, spread back over the row's 256 lanes. -/
theorem rowmax_spread (v : FVec Ideal S1024x256 .f32) (r : Fin 1024) (k : Fin 256) :
    broadcastTo S1024x256 (shapeCast S1024x1
        (multiReduction .maximumf [1] S1024 v 0xFF800000#32 reduces_S1024x256_S1024 (.inl rfl) rfl) shapeCasts_S1024_S1024x1)
      broadcasts_S1024x1_S1024x256 (ix2 r k)
      = Cert.Spec.rowmax fun k' => v (ix2 r k') := by
  refine (broadcastTo_a1_ab_apply _ _ r k).trans ?_
  refine (shapeCast_a_a1_apply _ _ r 0).trans ?_
  refine (Ideal.multiReduction_maximumf_single v _ reduces_S1024x256_S1024 (.inl rfl) rfl (ix1 r)).trans ?_
  unfold Cert.Spec.rowmax
  refine congrArg (fun f => Finset.fold max _ f Finset.univ) (funext fun k' => congrArg v (funext fun a => Fin.ext ?_))
  match a with
  | ⟨0, _⟩ => rfl
  | ⟨1, _⟩ => rfl

/-- A row's sum, spread back over the row's 256 lanes. -/
theorem rowsum_spread (v : FVec Ideal S1024x256 .f32) (r : Fin 1024) (k : Fin 256) :
    broadcastTo S1024x256 (shapeCast S1024x1
        (multiReduction .add [1] S1024 v 0x00000000#32 reduces_S1024x256_S1024 (.inl rfl) rfl) shapeCasts_S1024_S1024x1)
      broadcasts_S1024x1_S1024x256 (ix2 r k)
      = ∑ k' : Fin 256, v (ix2 r k') := by
  refine (broadcastTo_a1_ab_apply _ _ r k).trans ?_
  refine (shapeCast_a_a1_apply _ _ r 0).trans ?_
  refine (Ideal.multiReduction_add_single v _ reduces_S1024x256_S1024 (.inl rfl) rfl (ix1 r)).trans ?_
  refine Finset.sum_congr rfl fun k' _ => congrArg v (funext fun a => Fin.ext ?_)
  match a with
  | ⟨0, _⟩ => rfl
  | ⟨1, _⟩ => rfl

/-- The scores divided by eight, less their row's maximum, exponentiated. -/
def ex (s : FVec Ideal S1024x256 .f32) : FVec Ideal S1024x256 .f32 :=
  have c8 : Ideal .f32 := Scalar.ofBits .f32 0x3E000000#32
  have v14 : FVec Ideal S1024x256 .f32 := broadcast S1024x256 c8
  have v15 : FVec Ideal S1024x256 .f32 := mulf s v14
  have v16 : FVec Ideal S1024 .f32 := multiReduction .maximumf [1] S1024 v15 0xFF800000#32 reduces_S1024x256_S1024 (.inl rfl) rfl
  have v17 : FVec Ideal S1024x1 .f32 := shapeCast S1024x1 v16 shapeCasts_S1024_S1024x1
  have v18 : FVec Ideal S1024x256 .f32 := broadcastTo S1024x256 v17 broadcasts_S1024x1_S1024x256
  have v19 : FVec Ideal S1024x256 .f32 := subf v15 v18
  exp v19

theorem ex_apply (s : FVec Ideal S1024x256 .f32) (r : Fin 1024) (k : Fin 256) :
    ex s (ix2 r k) = Ideal.exp (s (ix2 r k) * Cert.Spec.eighth - Cert.Spec.rowmax fun k' => s (ix2 r k') * Cert.Spec.eighth) := by
  unfold ex
  show Ideal.exp (s (ix2 r k) * Cert.Spec.eighth - _) = _
  rw [rowmax_spread]
  rfl

/-- The weights e / (row sum of e), times the values. -/
def nm (e : FVec Ideal S1024x256 .f32) (vs : FVec Ideal S256x64 .bf16) : FVec Ideal S1024x64 .f32 :=
  have v21 : FVec Ideal S1024 .f32 := multiReduction .add [1] S1024 e 0x00000000#32 reduces_S1024x256_S1024 (.inl rfl) rfl
  have v22 : FVec Ideal S1024x1 .f32 := shapeCast S1024x1 v21 shapeCasts_S1024_S1024x1
  have v23 : FVec Ideal S1024x256 .f32 := broadcastTo S1024x256 v22 broadcasts_S1024x1_S1024x256
  have v24 : FVec Ideal S1024x256 .f32 := divf e v23
  have v25 : FVec Ideal S1024x256 .bf16 := truncf .bf16 v24 bitsLt_bf16_f32
  matmul dot_S1024x256_S256x64_S1024x64_1_0_0_1_n_n none v25 vs (constant S1024x64 .f32 0x00000000#32)

theorem nm_lhs0 (i : S1024x64.Idx) (q : dot_S1024x256_S256x64_S1024x64_1_0_0_1_n_n.contr.Idx) :
    (dot_S1024x256_S256x64_S1024x64_1_0_0_1_n_n.lhsIdx i q 0).val = (i 0).val := by
  unfold DotDims.lhsIdx
  rw [dif_neg (show ¬(0 : Fin S1024x256.rank) ∈ dot_S1024x256_S256x64_S1024x64_1_0_0_1_n_n.lhsBatch by decide),
    dif_pos (show (0 : Fin S1024x256.rank) ∈ dot_S1024x256_S256x64_S1024x64_1_0_0_1_n_n.lhsNonContracting by decide)]
  rfl
theorem nm_lhs1 (i : S1024x64.Idx) (q : dot_S1024x256_S256x64_S1024x64_1_0_0_1_n_n.contr.Idx) :
    (dot_S1024x256_S256x64_S1024x64_1_0_0_1_n_n.lhsIdx i q 1).val = (q ⟨0, by decide⟩).val :=
  dot_S1024x256_S256x64_S1024x64_1_0_0_1_n_n.lhsIdx_val_of_single rfl i q
theorem nm_rhs0 (i : S1024x64.Idx) (q : dot_S1024x256_S256x64_S1024x64_1_0_0_1_n_n.contr.Idx) :
    (dot_S1024x256_S256x64_S1024x64_1_0_0_1_n_n.rhsIdx i q 0).val = (q ⟨0, by decide⟩).val :=
  dot_S1024x256_S256x64_S1024x64_1_0_0_1_n_n.rhsIdx_val_of_single rfl i q
theorem nm_rhs1 (i : S1024x64.Idx) (q : dot_S1024x256_S256x64_S1024x64_1_0_0_1_n_n.contr.Idx) :
    (dot_S1024x256_S256x64_S1024x64_1_0_0_1_n_n.rhsIdx i q 1).val = (i 1).val := by
  unfold DotDims.rhsIdx
  rw [dif_neg (show ¬(1 : Fin S256x64.rank) ∈ dot_S1024x256_S256x64_S1024x64_1_0_0_1_n_n.rhsBatch by decide),
    dif_pos (show (1 : Fin S256x64.rank) ∈ dot_S1024x256_S256x64_S1024x64_1_0_0_1_n_n.rhsNonContracting by decide)]
  rfl

/-- The head's output at (r, d): the weighted sum over the 256 ranks of value column d. -/
theorem nm_apply (e : FVec Ideal S1024x256 .f32) (vs : FVec Ideal S256x64 .bf16) (r : Fin 1024) (d : Fin 64) :
    nm e vs (ix2 r d) = ∑ k : Fin 256, Ideal.div (e (ix2 r k)) (∑ k' : Fin 256, e (ix2 r k')) * vs (ix2 k d) := by
  unfold nm
  simp only [matmul]
  rw [Ideal.matmul_constant_zero_apply,
    ← Equiv.sum_comp (ValueIdx.contrEquiv1 dot_S1024x256_S256x64_S1024x64_1_0_0_1_n_n 256 rfl rfl).symm]
  refine Finset.sum_congr rfl fun k _ => ?_
  have hk := ValueIdx.contrEquiv1_symm_val dot_S1024x256_S256x64_S1024x64_1_0_0_1_n_n 256 rfl rfl k
  have el : dot_S1024x256_S256x64_S1024x64_1_0_0_1_n_n.lhsIdx (ix2 r d)
      ((ValueIdx.contrEquiv1 dot_S1024x256_S256x64_S1024x64_1_0_0_1_n_n 256 rfl rfl).symm k) = ix2 r k :=
    funext fun a => Fin.ext (by
      match a with
      | ⟨0, _⟩ => exact nm_lhs0 _ _
      | ⟨1, _⟩ => exact (nm_lhs1 _ _).trans hk)
  have er : dot_S1024x256_S256x64_S1024x64_1_0_0_1_n_n.rhsIdx (ix2 r d)
      ((ValueIdx.contrEquiv1 dot_S1024x256_S256x64_S1024x64_1_0_0_1_n_n 256 rfl rfl).symm k) = ix2 k d :=
    funext fun a => Fin.ext (by
      match a with
      | ⟨0, _⟩ => exact (nm_rhs0 _ _).trans hk
      | ⟨1, _⟩ => exact nm_rhs1 _ _)
  rw [el, er]
  refine congrArg (· * vs (ix2 k d)) ?_
  show Ideal.div (e (ix2 r k)) _ = _
  rw [rowsum_spread]

end Cert.KernelIdeal.AttnValue

end
-- ==== Proof.KI.AttnValueHead.lean ====
/-
  One head of the attention, read at an index.  Head h takes columns [64 h, 64 h + 64) of the tile's queries and slab h
  of the two low-rank projections (a 1 x 256 x 64 slice viewed as 256 x 64); its output at (r, d) is
    sum_k softmax_k (q_h[r,:] . pk[h,k,:] / 8) pv[h,k,d].
  Where row r of the tile's queries is row n of the fused projection this is the specification's head at (n, h, d).
  The statement is over the column offset and the head number, so that the same proof serves the eight heads.
-/
import proofs.«154112_j74371653697779_2_alg».proof.Proof.KI.AttnValueScore
import proofs.«154112_j74371653697779_2_alg».proof.Proof.KI.AttnValueSoft

set_option maxRecDepth 16384

noncomputable section

namespace Cert.KernelIdeal.AttnValue

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

/-- Slab h of a projection as a 256 x 64 matrix. -/
abbrev slab (h : Nat) (p : FVec Ideal S8x256x64 .f32) (hs : S8x256x64.Slices ![h, 0, 0] S1x256x64) : FVec Ideal S256x64 .bf16 :=
  truncf .bf16 (shapeCast S256x64 (extractStridedSlice S1x256x64 ![h, 0, 0] p hs) shapeCasts_S1x256x64_S256x64) bitsLt_bf16_f32

theorem slab_apply (h : Nat) (hh : h < 8) (p : FVec Ideal S8x256x64 .f32) (hs : S8x256x64.Slices ![h, 0, 0] S1x256x64)
    (k : Fin 256) (d : Fin 64) : slab h p hs (ix2 k d) = p (ix3 (⟨h, hh⟩ : Fin 8) k d) := by
  show shapeCast S256x64 (extractStridedSlice S1x256x64 ![h, 0, 0] p hs) shapeCasts_S1x256x64_S256x64 (ix2 k d) = _
  refine (shapeCast_1ab_ab_apply _ _ k d).trans ?_
  refine extractStridedSlice_apply _ _ _ _ _ fun ax => ?_
  match ax with
  | ⟨0, _⟩ => exact (Nat.add_zero _).symm
  | ⟨1, _⟩ => exact (Nat.zero_add _).symm
  | ⟨2, _⟩ => exact (Nat.zero_add _).symm

/-- The 64 query columns from column o on. -/
theorem cols_apply (o : Nat) (ho : o + 64 ≤ 512) (q : FVec Ideal S1024x512 .bf16) (hs : S1024x512.Slices ![0, o] S1024x64)
    (r : Fin 1024) (d : Fin 64) :
    extractStridedSlice S1024x64 ![0, o] q hs (ix2 r d) = q (ix2 r (⟨o + d.val, by omega⟩ : Fin 512)) :=
  slice2_axis1_apply o q hs r d ⟨o + d.val, by omega⟩ rfl

/-- Head h of a tile whose row r is row n of the fused projection. -/
theorem head_apply (p : Cert.Spec.Mat 8192 1536) (n : Fin 8192) (o h : Nat) (ho : o = 64 * h) (hh : h < 8)
    (q : FVec Ideal S1024x512 .bf16) (pk pv : FVec Ideal S8x256x64 .f32)
    (hsq : S1024x512.Slices ![0, o] S1024x64) (hsp : S8x256x64.Slices ![h, 0, 0] S1x256x64) (r : Fin 1024)
    (hq : ∀ c : Fin 512, q (ix2 r c) = p (ix2 n (⟨c.val, by omega⟩ : Fin 1536))) (d : Fin 64) :
    nm (ex (sc (extractStridedSlice S1024x64 ![0, o] q hsq) (slab h pk hsp))) (slab h pv hsp) (ix2 r d)
      = Cert.Spec.head p pk pv n ⟨h, hh⟩ d := by
  subst ho
  rw [nm_apply]
  unfold Cert.Spec.head Cert.Spec.attn Cert.Spec.expo Cert.Spec.score
  have hsc : ∀ k : Fin 256, sc (extractStridedSlice S1024x64 ![0, 64 * h] q hsq) (slab h pk hsp) (ix2 r k)
      = ∑ d' : Fin 64, p (ix2 n (⟨64 * h + d'.val, by omega⟩ : Fin 1536)) * pk (ix3 (⟨h, hh⟩ : Fin 8) k d') := fun k => by
    rw [sc_apply]
    refine Finset.sum_congr rfl fun d' _ => ?_
    rw [cols_apply (64 * h) (by omega), slab_apply h hh, hq]
  have hex : ∀ k : Fin 256, ex (sc (extractStridedSlice S1024x64 ![0, 64 * h] q hsq) (slab h pk hsp)) (ix2 r k)
      = Ideal.exp ((∑ d' : Fin 64, p (ix2 n (⟨64 * h + d'.val, by omega⟩ : Fin 1536)) * pk (ix3 (⟨h, hh⟩ : Fin 8) k d')) * Cert.Spec.eighth
          - Cert.Spec.rowmax fun k' => (∑ d' : Fin 64, p (ix2 n (⟨64 * h + d'.val, by omega⟩ : Fin 1536)) * pk (ix3 (⟨h, hh⟩ : Fin 8) k' d')) * Cert.Spec.eighth) := fun k => by
    rw [ex_apply, hsc]
    simp only [hsc]
  refine Finset.sum_congr rfl fun k _ => ?_
  rw [slab_apply h hh, hex]
  simp only [hex]

end Cert.KernelIdeal.AttnValue

end
-- ==== Proof.KI.AttnValueNorm.lean ====
/-
  The layer norm of a 1024 x 512 array c, row by row, and the residual.  A row's mean is its 512-lane sum over 512;
  its variance is the mean of the squared deviations; the stored value at (r, j) is
    (c[r,j] - mean_r) * rsqrt (var_r + eps) * g[0,j] + s[0,j] + x[r,j],
  the specification's lnK of row r of c, plus x.
-/
import proofs.«154112_j74371653697779_2_alg».proof.Proof.KI.AttnValueSoft

set_option maxRecDepth 16384

noncomputable section

namespace Cert.KernelIdeal.AttnValue

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

/-- A row's 512-lane sum, as a column. -/
theorem colsum512 (c : FVec Ideal S1024x512 .f32) (r : Fin 1024) (u : Fin 1) :
    shapeCast S1024x1 (multiReduction .add [1] S1024 c 0x00000000#32 reduces_S1024x512_S1024 (.inl rfl) rfl)
      shapeCasts_S1024_S1024x1 (ix2 r u) = ∑ j : Fin 512, c (ix2 r j) := by
  refine (shapeCast_a_a1_apply _ _ r u).trans ?_
  refine (Ideal.multiReduction_add_single c _ reduces_S1024x512_S1024 (.inl rfl) rfl (ix1 r)).trans ?_
  refine Finset.sum_congr rfl fun j _ => congrArg c (funext fun a => Fin.ext ?_)
  match a with
  | ⟨0, _⟩ => rfl
  | ⟨1, _⟩ => rfl

/-- The rows' means, as a column. -/
def mu (c : FVec Ideal S1024x512 .f32) : FVec Ideal S1024x1 .f32 :=
  have v175 : FVec Ideal S1024 .f32 := multiReduction .add [1] S1024 c 0x00000000#32 reduces_S1024x512_S1024 (.inl rfl) rfl
  have v176 : FVec Ideal S1024x1 .f32 := shapeCast S1024x1 v175 shapeCasts_S1024_S1024x1
  have cst_47 : Ideal .f32 := Scalar.ofBits .f32 0x44000000#32
  have v177 : FVec Ideal S1024x1 .f32 := broadcast S1024x1 cst_47
  divf v176 v177

theorem mu_apply (c : FVec Ideal S1024x512 .f32) (r : Fin 1024) (u : Fin 1) :
    mu c (ix2 r u) = Cert.Spec.mean fun j => c (ix2 r j) := by
  unfold mu Cert.Spec.mean
  show Ideal.div (shapeCast S1024x1 _ shapeCasts_S1024_S1024x1 (ix2 r u)) Cert.Spec.n512 = _
  rw [colsum512]

/-- A row's mean spread over its 512 lanes. -/
theorem mu_spread (c : FVec Ideal S1024x512 .f32) (r : Fin 1024) (j : Fin 512) :
    broadcastTo S1024x512 (mu c) broadcasts_S1024x1_S1024x512 (ix2 r j) = Cert.Spec.mean fun j' => c (ix2 r j') :=
  (broadcastTo_a1_ab_apply _ _ r j).trans (mu_apply c r 0)

/-- The rows' mean squared deviations, as a column. -/
def vr (c : FVec Ideal S1024x512 .f32) : FVec Ideal S1024x1 .f32 :=
  have v179 : FVec Ideal S1024x512 .f32 := broadcastTo S1024x512 (mu c) broadcasts_S1024x1_S1024x512
  have v180 : FVec Ideal S1024x512 .f32 := subf c v179
  have v181 : FVec Ideal S1024x512 .f32 := mulf v180 v180
  have v182 : FVec Ideal S1024 .f32 := multiReduction .add [1] S1024 v181 0x00000000#32 reduces_S1024x512_S1024 (.inl rfl) rfl
  have v183 : FVec Ideal S1024x1 .f32 := shapeCast S1024x1 v182 shapeCasts_S1024_S1024x1
  have cst_49 : Ideal .f32 := Scalar.ofBits .f32 0x44000000#32
  have v184 : FVec Ideal S1024x1 .f32 := broadcast S1024x1 cst_49
  divf v183 v184

theorem vr_apply (c : FVec Ideal S1024x512 .f32) (r : Fin 1024) (u : Fin 1) :
    vr c (ix2 r u) = Cert.Spec.var fun j => c (ix2 r j) := by
  unfold vr Cert.Spec.var
  show Ideal.div (shapeCast S1024x1 _ shapeCasts_S1024_S1024x1 (ix2 r u)) Cert.Spec.n512 = _
  rw [colsum512]
  simp only [mulf_apply, subf_apply, mu_spread]
  rfl

/-- The normalised, scaled, shifted row plus the residual, at (r, j). -/
theorem ln_apply (c : FVec Ideal S1024x512 .f32) (g s : Vec Ideal S1x512 .f32) (x : Vec Ideal S1024x512 .f32)
    (r : Fin 1024) (j : Fin 512) :
    k2_pay1 c (vr c) (broadcastTo S1024x512 (mu c) broadcasts_S1024x1_S1024x512) g s x (ix2 r j)
      = Cert.Spec.lnK (fun j' => c (ix2 r j')) g s j + x (ix2 r j) := by
  unfold k2_pay1 Cert.Spec.lnK
  show (c (ix2 r j) - broadcastTo S1024x512 (mu c) broadcasts_S1024x1_S1024x512 (ix2 r j))
      * broadcastTo S1024x512 (rsqrt (addf (vr c) (broadcast S1024x1 (Scalar.ofBits .f32 0x3727C5AC#32)))) broadcasts_S1024x1_S1024x512 (ix2 r j)
      * broadcastTo S1024x512 (shapeCast S1x512 g shapeCasts_S1x512_S1x512) broadcasts_S1x512_S1024x512 (ix2 r j)
      + broadcastTo S1024x512 (shapeCast S1x512 s shapeCasts_S1x512_S1x512) broadcasts_S1x512_S1024x512 (ix2 r j)
      + x (ix2 r j) = _
  rw [mu_spread, broadcastTo_a1_ab_apply, broadcastTo_1b_ab_apply, broadcastTo_1b_ab_apply, shapeCast_self, shapeCast_self]
  show _ * Ideal.rsqrt (vr c (ix2 r 0) + Cert.Spec.eps) * _ + _ + _ = _
  rw [vr_apply]

end Cert.KernelIdeal.AttnValue

end
-- ==== Proof.KI.AttnValueStored.lean ====
/-
  The value the body stores for one tile, at an index.  The eight heads' outputs lie side by side, head h in columns
  [64 h, 64 h + 64): column j of the concatenation is column j mod 64 of head j / 64.  The layer norm and the residual
  follow.  Where row r of the tile's queries is row n of the fused projection, the stored value at (r, j) is the
  specification's layer norm of the heads' row n, at j, plus the tile's node feature at (r, j).
-/
import proofs.«154112_j74371653697779_2_alg».proof.Proof.KI.AttnValueHead
import proofs.«154112_j74371653697779_2_alg».proof.Proof.KI.AttnValueNorm

set_option maxRecDepth 16384

noncomputable section

namespace Cert.KernelIdeal.AttnValue

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

/-- Head h of the tile: its 64 query columns from column o, slab h of the two projections. -/
abbrev hd (o h : Nat) (q1 : FVec Ideal S1024x512 .bf16) (k3 v5 : FVec Ideal S8x256x64 .f32)
    (hsq : S1024x512.Slices ![0, o] S1024x64) (hsp : S8x256x64.Slices ![h, 0, 0] S1x256x64) : FVec Ideal S1024x64 .f32 :=
  nm (ex (sc (extractStridedSlice S1024x64 ![0, o] q1 hsq) (slab h k3 hsp))) (slab h v5 hsp)

/-- Eight 1024 x 64 arrays as a family over the head number. -/
abbrev eight (v0 v1 v2 v3 v4 v5 v6 v7 : FVec Ideal S1024x64 .f32) : Fin 8 → FVec Ideal S1024x64 .f32 :=
  ![v0, v1, v2, v3, v4, v5, v6, v7]

/-- Eight 1024 x 64 arrays side by side, read at (r, j) with j = 64 h + d: array h at (r, d). -/
theorem side_by_side (v0 v1 v2 v3 v4 v5 v6 v7 : FVec Ideal S1024x64 .f32) (r : Fin 1024) (j : Fin 512) (h : Fin 8) (d : Fin 64)
    (hh : j.val / 64 = h.val) (hd : d.val = j.val % 64) :
    concatenate S1024x512 1 [⟨S1024x64, v0⟩, ⟨S1024x64, v1⟩, ⟨S1024x64, v2⟩, ⟨S1024x64, v3⟩, ⟨S1024x64, v4⟩, ⟨S1024x64, v5⟩,
        ⟨S1024x64, v6⟩, ⟨S1024x64, v7⟩] concatenates_S1024x64_S1024x64_S1024x64_S1024x64_S1024x64_S1024x64_S1024x64_S1024x64_S1024x512_d1 (ix2 r j)
      = eight v0 v1 v2 v3 v4 v5 v6 v7 h (ix2 r d) := by
  show concatenate S1024x512 1 (List.ofFn fun n : Fin 8 =>
      (⟨S1024x64, eight v0 v1 v2 v3 v4 v5 v6 v7 n⟩ : (s : Shape) × (s.Idx → Ideal .f32))) _ (ix2 r j) = _
  exact concatenate_ofFn_apply (t := S1024x512) (s₁ := S1024x64) (1 : Fin 2) (eight v0 v1 v2 v3 v4 v5 v6 v7) _ rfl 64 rfl (ix2 r j) h hh (ix2 r d) hd (fun b hb => by
      match b with
      | ⟨0, _⟩ => rfl
      | ⟨1, _⟩ => exact absurd rfl hb)

/-- The eight heads of the tile side by side. -/
def CC (q : Vec Ideal S1024x512 .bf16) (pk pv : Vec Ideal S8x256x64 .f32) : FVec Ideal S1024x512 .f32 :=
  concatenate S1024x512 1 [⟨S1024x64, hd 0 0 (k2_pay2 q) (k2_pay3 pk) (k2_pay4 pv) slices_S1024x512_o0_0_S1024x64 slices_S8x256x64_o0_0_0_S1x256x64⟩,
    ⟨S1024x64, hd 64 1 (k2_pay2 q) (k2_pay3 pk) (k2_pay4 pv) slices_S1024x512_o0_64_S1024x64 slices_S8x256x64_o1_0_0_S1x256x64⟩,
    ⟨S1024x64, hd 128 2 (k2_pay2 q) (k2_pay3 pk) (k2_pay4 pv) slices_S1024x512_o0_128_S1024x64 slices_S8x256x64_o2_0_0_S1x256x64⟩,
    ⟨S1024x64, hd 192 3 (k2_pay2 q) (k2_pay3 pk) (k2_pay4 pv) slices_S1024x512_o0_192_S1024x64 slices_S8x256x64_o3_0_0_S1x256x64⟩,
    ⟨S1024x64, hd 256 4 (k2_pay2 q) (k2_pay3 pk) (k2_pay4 pv) slices_S1024x512_o0_256_S1024x64 slices_S8x256x64_o4_0_0_S1x256x64⟩,
    ⟨S1024x64, hd 320 5 (k2_pay2 q) (k2_pay3 pk) (k2_pay4 pv) slices_S1024x512_o0_320_S1024x64 slices_S8x256x64_o5_0_0_S1x256x64⟩,
    ⟨S1024x64, hd 384 6 (k2_pay2 q) (k2_pay3 pk) (k2_pay4 pv) slices_S1024x512_o0_384_S1024x64 slices_S8x256x64_o6_0_0_S1x256x64⟩,
    ⟨S1024x64, hd 448 7 (k2_pay2 q) (k2_pay3 pk) (k2_pay4 pv) slices_S1024x512_o0_448_S1024x64 slices_S8x256x64_o7_0_0_S1x256x64⟩] concatenates_S1024x64_S1024x64_S1024x64_S1024x64_S1024x64_S1024x64_S1024x64_S1024x64_S1024x512_d1

/-- The stored value is the layer norm, with the residual, of the heads side by side. -/
theorem stored_eq (q : Vec Ideal S1024x512 .bf16) (pk pv : Vec Ideal S8x256x64 .f32) (x : Vec Ideal S1024x512 .f32)
    (g s : Vec Ideal S1x512 .f32) :
    Attn.stored q pk pv x g s
      = k2_pay1 (CC q pk pv) (vr (CC q pk pv)) (broadcastTo S1024x512 (mu (CC q pk pv)) broadcasts_S1024x1_S1024x512) g s x := rfl

/-- Row r of the heads side by side is the specification's heads at row n. -/
theorem CC_apply (p : Cert.Spec.Mat 8192 1536) (n : Fin 8192) (q : Vec Ideal S1024x512 .bf16) (pk pv : Vec Ideal S8x256x64 .f32)
    (r : Fin 1024) (hq : ∀ c : Fin 512, q (ix2 r c) = p (ix2 n (⟨c.val, by omega⟩ : Fin 1536))) (j : Fin 512) :
    CC q pk pv (ix2 r j) = Cert.Spec.heads p pk pv n j := by
  have e2 : k2_pay2 q = q := shapeCast_self q _
  have e3 : k2_pay3 pk = pk := shapeCast_self pk _
  have e4 : k2_pay4 pv = pv := shapeCast_self pv _
  unfold CC Cert.Spec.heads
  rw [e2, e3, e4]
  have hlt : j.val / 64 < 8 := by have := j.isLt; omega
  refine (side_by_side _ _ _ _ _ _ _ _ r j ⟨j.val / 64, hlt⟩ ⟨j.val % 64, Nat.mod_lt _ (by decide)⟩ rfl rfl).trans ?_
  have key : ∀ (h : Fin 8) (d : Fin 64),
      eight (hd 0 0 q pk pv slices_S1024x512_o0_0_S1024x64 slices_S8x256x64_o0_0_0_S1x256x64)
        (hd 64 1 q pk pv slices_S1024x512_o0_64_S1024x64 slices_S8x256x64_o1_0_0_S1x256x64)
        (hd 128 2 q pk pv slices_S1024x512_o0_128_S1024x64 slices_S8x256x64_o2_0_0_S1x256x64)
        (hd 192 3 q pk pv slices_S1024x512_o0_192_S1024x64 slices_S8x256x64_o3_0_0_S1x256x64)
        (hd 256 4 q pk pv slices_S1024x512_o0_256_S1024x64 slices_S8x256x64_o4_0_0_S1x256x64)
        (hd 320 5 q pk pv slices_S1024x512_o0_320_S1024x64 slices_S8x256x64_o5_0_0_S1x256x64)
        (hd 384 6 q pk pv slices_S1024x512_o0_384_S1024x64 slices_S8x256x64_o6_0_0_S1x256x64)
        (hd 448 7 q pk pv slices_S1024x512_o0_448_S1024x64 slices_S8x256x64_o7_0_0_S1x256x64) h (ix2 r d)
        = Cert.Spec.head p pk pv n h d := by
    intro h d
    match h with
    | ⟨0, _⟩ => exact head_apply p n 0 0 rfl (by decide) q pk pv _ _ r hq d
    | ⟨1, _⟩ => exact head_apply p n 64 1 rfl (by decide) q pk pv _ _ r hq d
    | ⟨2, _⟩ => exact head_apply p n 128 2 rfl (by decide) q pk pv _ _ r hq d
    | ⟨3, _⟩ => exact head_apply p n 192 3 rfl (by decide) q pk pv _ _ r hq d
    | ⟨4, _⟩ => exact head_apply p n 256 4 rfl (by decide) q pk pv _ _ r hq d
    | ⟨5, _⟩ => exact head_apply p n 320 5 rfl (by decide) q pk pv _ _ r hq d
    | ⟨6, _⟩ => exact head_apply p n 384 6 rfl (by decide) q pk pv _ _ r hq d
    | ⟨7, _⟩ => exact head_apply p n 448 7 rfl (by decide) q pk pv _ _ r hq d
  exact key _ _

/-- The tile's stored value at (r, j). -/
theorem stored_apply (p : Cert.Spec.Mat 8192 1536) (n : Fin 8192) (q : Vec Ideal S1024x512 .bf16) (pk pv : Vec Ideal S8x256x64 .f32)
    (x : Vec Ideal S1024x512 .f32) (g s : Vec Ideal S1x512 .f32) (r : Fin 1024)
    (hq : ∀ c : Fin 512, q (ix2 r c) = p (ix2 n (⟨c.val, by omega⟩ : Fin 1536))) (j : Fin 512) :
    Attn.stored q pk pv x g s (ix2 r j) = Cert.Spec.lnK (Cert.Spec.heads p pk pv n) g s j + x (ix2 r j) := by
  rw [stored_eq, ln_apply]
  have hrow : (fun j' => CC q pk pv (ix2 r j')) = Cert.Spec.heads p pk pv n :=
    funext fun j' => CC_apply p n q pk pv r hq j'
  rw [hrow]

end Cert.KernelIdeal.AttnValue

end
-- ==== Proof.KI.AttnValue.lean ====
/-
  From the tiles to the array.  Point t of the third region reads rows [1024 t, 1024 t + 1024) of the fused projection's
  first 512 columns and of the node features, the whole of the two low-rank projections and of the scale and shift rows,
  and writes rows [1024 t, 1024 t + 1024) of the output.  So what it writes back is block t of ONE function of the arrays
  as the region finds them, the specification's first result; the eight blocks cover the 8192 rows, and the array ends
  holding that function.
-/
import proofs.«154112_j74371653697779_2_alg».proof.Proof.KI.Results
import proofs.«154112_j74371653697779_2_alg».proof.Proof.KI.AttnValueStored

set_option maxRecDepth 16384

noncomputable section

namespace Cert.KernelIdeal.AttnValue

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

open Cert.KernelIdeal.Whole

theorem hz2 : (![0, 0] : Fin 2 → Nat) = fun _ => 0 := funext fun a => by fin_cases a <;> rfl
theorem hz3 : (![0, 0, 0] : Fin 3 → Nat) = fun _ => 0 := funext fun a => by fin_cases a <;> rfl

-- the buffer contents when the region is entered
variable (V : (c : Dev nD) → (b : Ref sig .tc) → Buf (Elt Ideal) ((c : Thread nD τ).loc b))

/-- The first result as one function of the arrays the region finds. -/
abbrev G (c : Dev nD) : S8192x512.Idx → Elt Ideal .f32 := fun i =>
  Cert.Spec.xout (V c main_v4) (V c main_v5_0) (V c main_v5_1) (V c main_arg0) (V c main_v6) (V c main_v7) (i 0) (i 1)

/-- The printed index maps over the grid: the row-tiled windows sit at block row t, the whole-array windows at zero. -/
theorem idx_facts : ∀ t : Fin cfg2.N, win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = 0 ∧ win2_2.index t (2 : Fin 3) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- WHAT POINT t WRITES BACK is block t of `G`. -/
theorem flushed_eq (c : Dev nD) (t : Fin cfg2.N) :
    (Attn.dat V c).flushed 6 t = ((cfg2.win 6).blk t).view.read (Elt Ideal) (G V c) := by
  show (cfg2.win 6).cut (grid2.coords t) ((Attn.dat V c).after 6 t) = _
  rw [Attn.after_out]
  unfold Attn.tile
  rw [View.canon_unit_zero hz2]
  simp only [View.ld_unit_zero (S := S1024x512) hz2, View.ld_unit_zero (S := S8x256x64) hz3, View.ld_unit_zero (S := S1x512) hz2]
  obtain ⟨a00, a01, a10, a11, a12, a20, a21, a22, a30, a31, a40, a41, a50, a51, a60, a61⟩ := idx_facts t
  have ht : t.val < 8 := by have := t.isLt; have hN : grid2.N = 8 := N_2; exact hN ▸ this
  funext y
  obtain ⟨r, j, rfl⟩ : ∃ (r : Fin 1024) (j : Fin 512), y = ix2 r j := ⟨y 0, y 1, eq_ix2 y⟩
  have hn : 1024 * t.val + r.val < 8192 := by have := r.isLt; omega
  -- the tile's query row r is row 1024 t + r of the fused projection
  have hq : ∀ cc : Fin 512, Attn.blk V c 0 t (ix2 r cc) = V c main_v4 (ix2 (⟨1024 * t.val + r.val, hn⟩ : Fin 8192) (⟨cc.val, by omega⟩ : Fin 1536)) := fun cc => by
    show V c main_v4 (((cfg2.win 0).blk t).view.emb (ix2 r cc)) = _
    refine congrArg (V c main_v4) (funext fun a => Fin.ext ?_)
    match a with
    | ⟨0, _⟩ => show win2_0.index t (0 : Fin 2) * 1024 + 1 * r.val = 1024 * t.val + r.val; omega
    | ⟨1, _⟩ => show win2_0.index t (1 : Fin 2) * 512 + 1 * cc.val = cc.val; omega
  have hx : Attn.blk V c 3 t (ix2 r j) = V c main_arg0 (ix2 (⟨1024 * t.val + r.val, hn⟩ : Fin 8192) j) := by
    show V c main_arg0 (((cfg2.win 3).blk t).view.emb (ix2 r j)) = _
    refine congrArg (V c main_arg0) (funext fun a => Fin.ext ?_)
    match a with
    | ⟨0, _⟩ => show win2_3.index t (0 : Fin 2) * 1024 + 1 * r.val = 1024 * t.val + r.val; omega
    | ⟨1, _⟩ => show win2_3.index t (1 : Fin 2) * 512 + 1 * j.val = j.val; omega
  have hpk : Attn.blk V c 1 t = V c main_v5_0 := funext fun z => by
    show V c main_v5_0 (((cfg2.win 1).blk t).view.emb z) = _
    refine congrArg (V c main_v5_0) (funext fun a => Fin.ext ?_)
    match a with
    | ⟨0, _⟩ => show win2_1.index t (0 : Fin 3) * 8 + 1 * (z 0).val = (z 0).val; omega
    | ⟨1, _⟩ => show win2_1.index t (1 : Fin 3) * 256 + 1 * (z 1).val = (z 1).val; omega
    | ⟨2, _⟩ => show win2_1.index t (2 : Fin 3) * 64 + 1 * (z 2).val = (z 2).val; omega
  have hpv : Attn.blk V c 2 t = V c main_v5_1 := funext fun z => by
    show V c main_v5_1 (((cfg2.win 2).blk t).view.emb z) = _
    refine congrArg (V c main_v5_1) (funext fun a => Fin.ext ?_)
    match a with
    | ⟨0, _⟩ => show win2_2.index t (0 : Fin 3) * 8 + 1 * (z 0).val = (z 0).val; omega
    | ⟨1, _⟩ => show win2_2.index t (1 : Fin 3) * 256 + 1 * (z 1).val = (z 1).val; omega
    | ⟨2, _⟩ => show win2_2.index t (2 : Fin 3) * 64 + 1 * (z 2).val = (z 2).val; omega
  have hg : Attn.blk V c 4 t = V c main_v6 := funext fun z => by
    show V c main_v6 (((cfg2.win 4).blk t).view.emb z) = _
    refine congrArg (V c main_v6) (funext fun a => Fin.ext ?_)
    match a with
    | ⟨0, _⟩ => show win2_4.index t (0 : Fin 2) * 1 + 1 * (z 0).val = (z 0).val; omega
    | ⟨1, _⟩ => show win2_4.index t (1 : Fin 2) * 512 + 1 * (z 1).val = (z 1).val; omega
  have hs : Attn.blk V c 5 t = V c main_v7 := funext fun z => by
    show V c main_v7 (((cfg2.win 5).blk t).view.emb z) = _
    refine congrArg (V c main_v7) (funext fun a => Fin.ext ?_)
    match a with
    | ⟨0, _⟩ => show win2_5.index t (0 : Fin 2) * 1 + 1 * (z 0).val = (z 0).val; omega
    | ⟨1, _⟩ => show win2_5.index t (1 : Fin 2) * 512 + 1 * (z 1).val = (z 1).val; omega
  -- the output's element (r, j) of block t sits at (1024 t + r, j)
  have hemb : ((cfg2.win 6).blk t).view.emb (ix2 r j) = ix2 (⟨1024 * t.val + r.val, hn⟩ : Fin 8192) j := funext fun a => Fin.ext (by
    match a with
    | ⟨0, _⟩ => show win2_6.index t (0 : Fin 2) * 1024 + 1 * r.val = 1024 * t.val + r.val; omega
    | ⟨1, _⟩ => show win2_6.index t (1 : Fin 2) * 512 + 1 * j.val = j.val; omega)
  show Attn.stored (Attn.blk V c 0 t) (Attn.blk V c 1 t) (Attn.blk V c 2 t) (Attn.blk V c 3 t) (Attn.blk V c 4 t) (Attn.blk V c 5 t) (ix2 r j)
    = G V c (((cfg2.win 6).blk t).view.emb (ix2 r j))
  rw [hemb]
  refine (stored_apply (V c main_v4) ⟨1024 * t.val + r.val, hn⟩ (Attn.blk V c 0 t) (Attn.blk V c 1 t) (Attn.blk V c 2 t)
    (Attn.blk V c 3 t) (Attn.blk V c 4 t) (Attn.blk V c 5 t) r hq j).trans ?_
  rw [hx, hpk, hpv, hg, hs]
  rfl

/-- An index of the array is in point t's block iff each coordinate is in the block's range on its axis. -/
theorem mem_blk (t : Fin cfg2.N) (i : S8192x512.Idx) :
    i ∈ ((cfg2.win 6).blk t).view.set ↔ ∀ a : Fin 2, win2_6.index t a * S1024x512.size a ≤ (i a).val
      ∧ (i a).val < win2_6.index t a * S1024x512.size a + S1024x512.size a := by
  show i ∈ ((View.whole main_v8).slice (win2_6.rect t)).set ↔ _
  rw [View.set_slice_whole, Rect.mem_set_unit]
  exact Iff.rfl

/-- Row n of the array is in the block of point n / 1024. -/
theorem cover (i : S8192x512.Idx) : ∃ t : Fin cfg2.N, (cfg2.win 6).flush t = true ∧ i ∈ ((cfg2.win 6).blk t).view.set := by
  have hi0 : (i 0).val < 8192 := (i 0).isLt
  have hi1 : (i 1).val < 512 := (i 1).isLt
  have hN : grid2.N = 8 := N_2
  have hlt : (i 0).val / 1024 < grid2.N := by omega
  obtain ⟨-, -, -, -, -, -, -, -, -, -, -, -, -, -, a60, a61⟩ := idx_facts ⟨(i 0).val / 1024, hlt⟩
  refine ⟨⟨(i 0).val / 1024, hlt⟩, flush2_6 _, ?_⟩
  rw [mem_blk]
  intro a
  match a with
  | ⟨0, _⟩ =>
    show win2_6.index ⟨(i 0).val / 1024, hlt⟩ (0 : Fin 2) * 1024 ≤ (i 0).val
      ∧ (i 0).val < win2_6.index ⟨(i 0).val / 1024, hlt⟩ (0 : Fin 2) * 1024 + 1024
    have e : win2_6.index ⟨(i 0).val / 1024, hlt⟩ (0 : Fin 2) = (i 0).val / 1024 := a60
    omega
  | ⟨1, _⟩ =>
    show win2_6.index ⟨(i 0).val / 1024, hlt⟩ (1 : Fin 2) * 512 ≤ (i 1).val
      ∧ (i 1).val < win2_6.index ⟨(i 0).val / 1024, hlt⟩ (1 : Fin 2) * 512 + 512
    omega

/-- THE ARRAY after the region's write-backs. -/
theorem final (c : Dev nD) : (Attn.dat V c).arrAt 6 cfg2.N = G V c :=
  (Attn.dat V c).arrAt_eq_of_cover 6 (G V c) (fun t _ => flushed_eq V c t) cover

variable (m : (ℓ : Loc nD τ sig) → Buf (Elt Ideal) ℓ) (ρ : Dev nD → PrngReg) (c : Dev nD)

/-- The third region's output, index by index: the specification's first result of the arrays the region finds. -/
theorem attn_value (n : Fin 8192) (j : Fin 512) :
    (Cert.KernelIdeal.Attn.dat (Cert.KernelIdeal.Whole.E4 m ρ) c).arrAt 6 Cert.KernelIdeal.cfg2.N (ix2 n j)
      = Cert.Spec.xout (E4 m ρ c main_v4) (E4 m ρ c main_v5_0) (E4 m ρ c main_v5_1) (E4 m ρ c main_arg0) (E4 m ρ c main_v6) (E4 m ρ c main_v7) n j :=
  congrFun (final (E4 m ρ) c) (ix2 n j)

end Cert.KernelIdeal.AttnValue

end
-- ==== Proof.FirstValue.lean ====
/-
  The first result: the regions' values, the host reads and the layer norm's law put into the assembly.
-/
import proofs.«154112_j74371653697779_2_alg».proof.Proof.FirstOf
import proofs.«154112_j74371653697779_2_alg».proof.Proof.KI.ProjValue
import proofs.«154112_j74371653697779_2_alg».proof.Proof.KI.ProjValueHost
import proofs.«154112_j74371653697779_2_alg».proof.Proof.KI.LowRankValueFinal
import proofs.«154112_j74371653697779_2_alg».proof.Proof.KI.AttnValue
import proofs.«154112_j74371653697779_2_alg».proof.Proof.KI.LnLaw

set_option maxRecDepth 16384

noncomputable section

namespace Cert.Proof.First

open Idealize.ShloMosaic Idealize.ShloMosaic.TcCoe Idealize.SL.Sem

theorem first_value (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (h3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (h4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (h5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (h6 : m' ((c : Thread Cert.ReferenceIdeal.nD Cert.ReferenceIdeal.τ).loc Cert.ReferenceIdeal.main_arg6) = m ((c : Thread Cert.KernelIdeal.nD Cert.KernelIdeal.τ).loc Cert.KernelIdeal.main_arg6))
    (h7 : m' ((c : Thread Cert.ReferenceIdeal.nD Cert.ReferenceIdeal.τ).loc Cert.ReferenceIdeal.main_arg7) = m ((c : Thread Cert.KernelIdeal.nD Cert.KernelIdeal.τ).loc Cert.KernelIdeal.main_arg7))
    (h10 : m' ((c : Thread Cert.ReferenceIdeal.nD Cert.ReferenceIdeal.τ).loc Cert.ReferenceIdeal.main_arg10) = m ((c : Thread Cert.KernelIdeal.nD Cert.KernelIdeal.τ).loc Cert.KernelIdeal.main_arg10))
    (h11 : m' ((c : Thread Cert.ReferenceIdeal.nD Cert.ReferenceIdeal.τ).loc Cert.ReferenceIdeal.main_arg11) = m ((c : Thread Cert.KernelIdeal.nD Cert.KernelIdeal.τ).loc Cert.KernelIdeal.main_arg11))
    (h12 : m' ((c : Thread Cert.ReferenceIdeal.nD Cert.ReferenceIdeal.τ).loc Cert.ReferenceIdeal.main_arg12) = m ((c : Thread Cert.KernelIdeal.nD Cert.KernelIdeal.τ).loc Cert.KernelIdeal.main_arg12))
    (h13 : m' ((c : Thread Cert.ReferenceIdeal.nD Cert.ReferenceIdeal.τ).loc Cert.ReferenceIdeal.main_arg13) = m ((c : Thread Cert.KernelIdeal.nD Cert.KernelIdeal.τ).loc Cert.KernelIdeal.main_arg13)) :
    Cert.ReferenceIdeal.Value.res_main_v69 m' c = (Cert.KernelIdeal.Attn.dat (Cert.KernelIdeal.Whole.E4 m ρ) c).arrAt 6 Cert.KernelIdeal.cfg2.N :=
  first_of m ρ m' c h0 h2 h3 h4 h5 h6 h7 h10 h11 h12 h13
    (Cert.KernelIdeal.ProjValue.proj_value m ρ c) (Cert.KernelIdeal.ProjValue.x_kept m ρ c)
    (Cert.KernelIdeal.ProjValue.wq_value m ρ c) (Cert.KernelIdeal.ProjValue.wk_value m ρ c) (Cert.KernelIdeal.ProjValue.wv_value m ρ c)
    (Cert.KernelIdeal.ProjValue.bq_value m ρ c) (Cert.KernelIdeal.ProjValue.bk_value m ρ c) (Cert.KernelIdeal.ProjValue.bv_value m ρ c)
    (Cert.KernelIdeal.LowRankValue.pk_value m ρ c) (Cert.KernelIdeal.LowRankValue.pv_value m ρ c)
    (Cert.KernelIdeal.AttnValue.attn_value m ρ c) Cert.Spec.lnK_eq_lnR

end Cert.Proof.First

end
-- ==== Proof.lean ====
/-
  The claim: the kernel program (a fused query/key/value projection, a low-rank projection of keys and values
  accumulated over node tiles, per-head softmax attention with a layer norm and a residual, and an edge linear map
  with a layer norm and a residual) against its plain reference, over the extended reals.

  The frames.  Both kernel programs are four pipelined regions among three stretches of host operations.  Each region's
  body is run symbolically once per control case on whole staging buffers (Proof/KI, Proof/KB: the projection, the edge
  map and the attention heads have one case; the low-rank accumulation has two, the first tile of a head group, which
  zeroes the accumulators, and every later tile, which adds onto what the previous tile left).  The regions are chained
  over the buffers' contents at each boundary; the second region reads ONE array through two windows, so its buffer
  enters that region split into two half shares and leaves it joined again.  No stretch writes an argument and no
  region puts one out, so every argument ends as launched.  The reference is a straight line of host operations; its
  frame is its run with the results dropped.  The ideal pass rewrote nothing, so the ledger is empty.

  The values.  Proof/Spec.lean states each region's mathematics index by index.  Each region's final array is its
  specification of what the region found (the body's stored value read at an index; block t of the array is what point
  t wrote; the blocks cover the array); the low-rank accumulators after a head group's last tile hold the sum over all
  sixteen tiles, which is the sum over all nodes.  The reference's two results are read operation by operation.  The
  two sides then differ in three places only: the kernel multiplies scores by one eighth where the reference divides
  by eight; the kernel multiplies by the reciprocal square root of the variance plus epsilon where the reference divides
  by the square root (equal because that quantity is positive: a mean of squares plus a positive literal); and the
  kernel sums the low-rank projections tile by tile.  No step needs the inputs to be finite.
-/
import proofs.«154112_j74371653697779_2_alg».proof.Defs
import proofs.«154112_j74371653697779_2_alg».proof.Proof.Gen.Kernel
import proofs.«154112_j74371653697779_2_alg».proof.Proof.Gen.KernelIdeal
import proofs.«154112_j74371653697779_2_alg».proof.Proof.Gen.ReferenceIdeal
import proofs.«154112_j74371653697779_2_alg».proof.Proof.Gen.Pre_finite_inputs
import proofs.«154112_j74371653697779_2_alg».proof.Proof.RefFrame
import proofs.«154112_j74371653697779_2_alg».proof.Proof.KB.Run
import proofs.«154112_j74371653697779_2_alg».proof.Proof.KI.Run
import proofs.«154112_j74371653697779_2_alg».proof.Proof.KI.Results
import proofs.«154112_j74371653697779_2_alg».proof.Proof.KI.EdgeValue
import proofs.«154112_j74371653697779_2_alg».proof.Proof.FirstValue
import Idealize.ShloMosaic.Adequacy
import Idealize.ShloMosaic.Init

noncomputable section

namespace Cert.Proof

open Idealize.ShloMosaic Idealize.SL.Sem

/-- The word-level program runs to the end, faults nowhere and leaves its arguments as launched. -/
theorem frame_k : Cert.frame_Kernel := fun m ρ _ => Cert.Kernel.Whole.frame (F := Bits) m ρ

/-- So does its idealization: the same text read over the extended reals. -/
theorem frame_ki : Cert.frame_KernelIdeal := fun m ρ _ => Cert.KernelIdeal.Whole.frame (F := Ideal) m ρ

/-- The ideal pass rewrote no operation. -/
theorem preserves : Cert.preserves_Kernel_KernelIdeal := trivial

/-- Both programs run, and end with equal results: the kernel's first result is what the third region's write-backs
    leave in its output array and its second what the fourth's leave; each equals, entry by entry, the reference run's
    composed term for that result. -/
theorem algebraic : Cert.algebraic_KernelIdeal_ReferenceIdeal := by
  intro m ρ m' ρ' _ hagree
  refine ⟨_, _, Cert.KernelIdeal.Whole.results (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact Cert.Proof.First.first_value m ρ m' c (hagree c).1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1
  · exact Cert.KernelIdeal.EdgeValue.edge_value m ρ m' c (hagree c).2.1 (hagree c).2.2.2.2.2.2.2.2.1 (hagree c).2.2.2.2.2.2.2.2.2.1 (hagree c).2.2.2.2.2.2.2.2.2.2.2.2.2.2.1 (hagree c).2.2.2.2.2.2.2.2.2.2.2.2.2.2.2

theorem claim : Cert.Claim := ⟨Cert.Kernel.Gen.facts, Cert.KernelIdeal.Gen.facts, Cert.ReferenceIdeal.Gen.facts, Cert.Pre_finite_inputs.Gen.facts,
  frame_k, frame_ki, Cert.Proof.RefSide.frame_ri, preserves, algebraic⟩

end Cert.Proof

end
